-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x256 : Shape := ⟨2, ![256, 256]⟩
abbrev S256 : Shape := ⟨1, ![256]⟩
abbrev S64x32 : Shape := ⟨2, ![64, 32]⟩
abbrev S64 : Shape := ⟨1, ![64]⟩
abbrev S32x32 : Shape := ⟨2, ![32, 32]⟩
abbrev S8x1x1 : Shape := ⟨3, ![8, 1, 1]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x32 : S_.BroadcastsInDim S32x32 (![] : Fin 0 → Fin S32x32.rank)
  reducesTo_S32x32_S_d0_1 : S32x32.ReducesTo [0, 1] S_
  bcast_S_S8x1x1 : S_.BroadcastsInDim S8x1x1 (![] : Fin 0 → Fin S8x1x1.rank)
  reducesTo_S8x1x1_S_d0_1_2 : S8x1x1.ReducesTo [0, 1, 2] S_

variable [Facts]

def fn_part3 {F : FTy → Type} [FloatOps F] (main_arg11 : FVec F S256 .f32) (main_arg12 : FVec F S8x1x1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S8x1x1 .f32 := Host.absf main_arg12
  let main_cst_22 : FVec F S_ .f32 := constant S_ .f32 0x7F800000#32
  let main_v60 : FVec F S8x1x1 .f32 := broadcastInDim S8x1x1 ![] bcast_S_S8x1x1 main_cst_22
  let main_v61 : IVec S8x1x1 1 := cmpf .olt main_v59 main_v60
  let main_c_23 : IVec S_ 1 := constantI S_ 1 1#1
  let main_v62 : IVec S_ 1 := (fun x v => Host.reduce IntOp.andi x v reducesTo_S8x1x1_S_d0_1_2 h_S_) main_v61 main_c_23
  let main_v63 : IVec S_ 1 := andi main_v58 main_v62
  main_v63

def fn_part2 {F : FTy → Type} [FloatOps F] (main_arg7 : FVec F S32x32 .f32) (main_arg8 : FVec F S32x32 .f32) (main_arg9 : FVec F S32x32 .f32) (main_arg10 : FVec F S256x256 .f32) (main_arg11 : FVec F S256 .f32) (main_arg12 : FVec F S8x1x1 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_v48 main_v49 main_v50

def fn_part1 {F : FTy → Type} [FloatOps F] (main_arg4 : FVec F S256 .f32) (main_arg5 : FVec F S64x32 .f32) (main_arg6 : FVec F S64 .f32) (main_arg7 : FVec F S32x32 .f32) (main_arg8 : FVec F S32x32 .f32) (main_arg9 : FVec F S32x32 .f32) (main_arg10 : FVec F S256x256 .f32) (main_arg11 : FVec F S256 .f32) (main_arg12 : FVec F S8x1x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S200000x256 .f32) (main_arg1 : FVec F S256x256 .f32) (main_arg2 : FVec F S256 .f32) (main_arg3 : FVec F S256x256 .f32) (main_arg4 : FVec F S256 .f32) (main_arg5 : FVec F S64x32 .f32) (main_arg6 : FVec F S64 .f32) (main_arg7 : FVec F S32x32 .f32) (main_arg8 : FVec F S32x32 .f32) (main_arg9 : FVec F S32x32 .f32) (main_arg10 : FVec F S256x256 .f32) (main_arg11 : FVec F S256 .f32) (main_arg12 : FVec F S8x1x1 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S200000x256 : Shape := ⟨2, ![200000, 256]⟩
abbrev S256x256 : Shape := ⟨2, ![256, 256]⟩
abbrev S256 : Shape := ⟨1, ![256]⟩
abbrev S64x32 : Shape := ⟨2, ![64, 32]⟩
abbrev S64 : Shape := ⟨1, ![64]⟩
abbrev S32x32 : Shape := ⟨2, ![32, 32]⟩
abbrev S8x1x1 : Shape := ⟨3, ![8, 1, 1]⟩
abbrev S_ : Shape := ⟨0, ![]⟩
abbrev S1x64x32 : Shape := ⟨3, ![1, 64, 32]⟩
abbrev S8x64x32 : Shape := ⟨3, ![8, 64, 32]⟩
abbrev S8x1 : Shape := ⟨2, ![8, 1]⟩
abbrev S1x64 : Shape := ⟨2, ![1, 64]⟩
abbrev S8x64 : Shape := ⟨2, ![8, 64]⟩
abbrev S8x32x64 : Shape := ⟨3, ![8, 32, 64]⟩
abbrev S2000x256 : Shape := ⟨2, ![2000, 256]⟩
abbrev S1x256 : Shape := ⟨2, ![1, 256]⟩
abbrev S2000x32 : Shape := ⟨2, ![2000, 32]⟩
abbrev S1x32x64 : Shape := ⟨3, ![1, 32, 64]⟩
abbrev S32x64 : Shape := ⟨2, ![32, 64]⟩
abbrev S2000x64 : Shape := ⟨2, ![2000, 64]⟩
abbrev S2000 : Shape := ⟨1, ![2000]⟩
abbrev S2000x1 : Shape := ⟨2, ![2000, 1]⟩
abbrev S64x1 : Shape := ⟨2, ![64, 1]⟩
abbrev S64x64 : Shape := ⟨2, ![64, 64]⟩

abbrev nBuf : Space → Nat
  | .hbm => 49
  | .vmem => 25
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S64x32, .f32⟩
  | .hbm, ⟨6, _⟩ => ⟨S64, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S256x256, .f32⟩
  | .hbm, ⟨11, _⟩ => ⟨S256, .f32⟩
  | .hbm, ⟨12, _⟩ => ⟨S8x1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x1x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S1x64x32, .f32⟩
  | .hbm, ⟨25, _⟩ => ⟨S8x64x32, .f32⟩
  | .hbm, ⟨26, _⟩ => ⟨S8x64x32, .f32⟩
  | .hbm, ⟨27, _⟩ => ⟨S8x64x32, .f32⟩
  | .hbm, ⟨28, _⟩ => ⟨S8x1, .f32⟩
  | .hbm, ⟨29, _⟩ => ⟨S1x64, .f32⟩
  | .hbm, ⟨30, _⟩ => ⟨S8x64, .f32⟩
  | .hbm, ⟨31, _⟩ => ⟨S8x64, .f32⟩
  | .hbm, ⟨32, _⟩ => ⟨S8x64, .f32⟩
  | .hbm, ⟨33, _⟩ => ⟨S8x32x64, .f32⟩
  | .hbm, ⟨34, _⟩ => ⟨S8x32x64, .bf16⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S256x256, .f32⟩
  | .hbm, ⟨40, _⟩ => ⟨S256x256, .bf16⟩
  | .hbm, ⟨41, _⟩ => ⟨S32x32, .f32⟩
  | .hbm, ⟨42, _⟩ => ⟨S32x32, .bf16⟩
  | .hbm, ⟨43, _⟩ => ⟨S32x32, .f32⟩
  | .hbm, ⟨44, _⟩ => ⟨S32x32, .bf16⟩
  | .hbm, ⟨45, _⟩ => ⟨S32x32, .f32⟩
  | .hbm, ⟨46, _⟩ => ⟨S32x32, .bf16⟩
  | .hbm, ⟨47, _⟩ => ⟨S8x64x32, .f32⟩
  | .hbm, ⟨48, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S8x32x64, .bf16⟩
  | .local _ .vmem, ⟨7, _⟩ => ⟨S8x64, .f32⟩
  | .local _ .vmem, ⟨8, _⟩ => ⟨S32x32, .bf16⟩
  | .local _ .vmem, ⟨9, _⟩ => ⟨S32x32, .bf16⟩
  | .local _ .vmem, ⟨10, _⟩ => ⟨S32x32, .bf16⟩
  | .local _ .vmem, ⟨11, _⟩ => ⟨S8x64x32, .f32⟩
  | .local _ .vmem, ⟨12, _⟩ => ⟨S8x64x32, .f32⟩
  | .local _ .vmem, ⟨13, _⟩ => ⟨S8x64, .f32⟩
  | .local _ .vmem, ⟨14, _⟩ => ⟨S2000x256, .f32⟩
  | .local _ .vmem, ⟨15, _⟩ => ⟨S2000x256, .f32⟩
  | .local _ .vmem, ⟨16, _⟩ => ⟨S256x256, .bf16⟩
  | .local _ .vmem, ⟨17, _⟩ => ⟨S256, .f32⟩
  | .local _ .vmem, ⟨18, _⟩ => ⟨S8x32x64, .bf16⟩
  | .local _ .vmem, ⟨19, _⟩ => ⟨S8x64, .f32⟩
  | .local _ .vmem, ⟨20, _⟩ => ⟨S8x64x32, .f32⟩
  | .local _ .vmem, ⟨21, _⟩ => ⟨S256x256, .bf16⟩
  | .local _ .vmem, ⟨22, _⟩ => ⟨S256, .f32⟩
  | .local _ .vmem, ⟨23, _⟩ => ⟨S2000x256, .f32⟩
  | .local _ .vmem, ⟨24, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v0 : Ref sig .tc := ⟨.hbm, 20, rfl⟩
abbrev main_cst_1 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v323 : BitVec 1 := Scalar.cmpi .eq arg0 c99_i32
  let v324 : BitVec 32 := Scalar.extui v323
  let c0_i32_170 : BitVec 32 := 0#32
  let v325 : BitVec 1 := Scalar.cmpi .ne v324 c0_i32_170
  v325

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x32x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S8x1x1 : S_.BroadcastsInDim S8x1x1 (![] : Fin 0 → Fin S8x1x1.rank)
  bcast_S64x32_S1x64x32_1_2 : S64x32.BroadcastsInDim S1x64x32 (![1, 2] : Fin 2 → Fin S1x64x32.rank)
  bcast_S8x1x1_S8x64x32_0_1_2 : S8x1x1.BroadcastsInDim S8x64x32 (![0, 1, 2] : Fin 3 → Fin S8x64x32.rank)
  bcast_S1x64x32_S8x64x32_0_1_2 : S1x64x32.BroadcastsInDim S8x64x32 (![0, 1, 2] : Fin 3 → Fin S8x64x32.rank)
  shapeCasts_S8x1x1_S8x1 : S8x1x1.ShapeCasts S8x1
  bcast_S64_S1x64_1 : S64.BroadcastsInDim S1x64 (![1] : Fin 1 → Fin S1x64.rank)
  bcast_S8x1_S8x64_0_1 : S8x1.BroadcastsInDim S8x64 (![0, 1] : Fin 2 → Fin S8x64.rank)
  bcast_S1x64_S8x64_0_1 : S1x64.BroadcastsInDim S8x64 (![0, 1] : Fin 2 → Fin S8x64.rank)
  transposes_S8x64x32_S8x32x64_0_2_1 : S8x64x32.Transposes [0, 2, 1] S8x32x64
  bitsLt_bf16_f32 : FTy.bits .bf16 < FTy.bits .f32
  transposes_S256x256_S256x256_1_0 : S256x256.Transposes [1, 0] S256x256
  transposes_S32x32_S32x32_1_0 : S32x32.Transposes [1, 0] S32x32
  inb_S8x64x32_S8x64x32_0_0_0 : ∀ a, (![0, 0, 0] : Fin 3 → Nat) a + S8x64x32.size a ≤ S8x64x32.size a
  h_S8x64x32 : 0 < S8x64x32.numel
  shapeCasts_S8x64x32_S8x64x32 : S8x64x32.ShapeCasts S8x64x32
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  slices_S2000x256_o0_0_S2000x32 : S2000x256.Slices ![0, 0] S2000x32
  inb_S8x32x64_S1x32x64_0_0_0 : ∀ a, (![0, 0, 0] : Fin 3 → Nat) a + S1x32x64.size a ≤ S8x32x64.size a
  h_S1x32x64 : 0 < S1x32x64.numel
  shapeCasts_S1x32x64_S32x64 : S1x32x64.ShapeCasts S32x64
  inb_S8x64_S1x64_0_0 : ∀ a, (![0, 0] : Fin 2 → Nat) a + S1x64.size a ≤ S8x64.size a
  h_S1x64 : 0 < S1x64.numel
  shapeCasts_S1x64_S64 : S1x64.ShapeCasts S64
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S8x64x32_S1x64x32_0_0_0 : ∀ a, (![0, 0, 0] : Fin 3 → Nat) a + S1x64x32.size a ≤ S8x64x32.size a
  h_S1x64x32 : 0 < S1x64x32.numel
  shapeCasts_S1x64x32_S64x32 : S1x64x32.ShapeCasts S64x32
  shapeCasts_S64x32_S1x64x32 : S64x32.ShapeCasts S1x64x32
  reduces_S2000x64_S64 : S2000x64.Reduces [0] S64
  slices_S2000x256_o0_32_S2000x32 : S2000x256.Slices ![0, 32] S2000x32
  inb_S8x32x64_S1x32x64_1_0_0 : ∀ a, (![1, 0, 0] : Fin 3 → Nat) a + S1x32x64.size a ≤ S8x32x64.size a
  inb_S8x64_S1x64_1_0 : ∀ a, (![1, 0] : Fin 2 → Nat) a + S1x64.size a ≤ S8x64.size a
  inb_S8x64x32_S1x64x32_1_0_0 : ∀ a, (![1, 0, 0] : Fin 3 → Nat) a + S1x64x32.size a ≤ S8x64x32.size a
  slices_S2000x256_o0_64_S2000x32 : S2000x256.Slices ![0, 64] S2000x32
  inb_S8x32x64_S1x32x64_2_0_0 : ∀ a, (![2, 0, 0] : Fin 3 → Nat) a + S1x32x64.size a ≤ S8x32x64.size a
  inb_S8x64_S1x64_2_0 : ∀ a, (![2, 0] : Fin 2 → Nat) a + S1x64.size a ≤ S8x64.size a
  inb_S8x64x32_S1x64x32_2_0_0 : ∀ a, (![2, 0, 0] : Fin 3 → Nat) a + S1x64x32.size a ≤ S8x64x32.size a
  slices_S2000x256_o0_96_S2000x32 : S2000x256.Slices ![0, 96] S2000x32
  inb_S8x32x64_S1x32x64_3_0_0 : ∀ a, (![3, 0, 0] : Fin 3 → Nat) a + S1x32x64.size a ≤ S8x32x64.size a
  inb_S8x64_S1x64_3_0 : ∀ a, (![3, 0] : Fin 2 → Nat) a + S1x64.size a ≤ S8x64.size a
  inb_S8x64x32_S1x64x32_3_0_0 : ∀ a, (![3, 0, 0] : Fin 3 → Nat) a + S1x64x32.size a ≤ S8x64x32.size a
  slices_S2000x256_o0_128_S2000x32 : S2000x256.Slices ![0, 128] S2000x32
  inb_S8x32x64_S1x32x64_4_0_0 : ∀ a, (![4, 0, 0] : Fin 3 → Nat) a + S1x32x64.size a ≤ S8x32x64.size a
  inb_S8x64_S1x64_4_0 : ∀ a, (![4, 0] : Fin 2 → Nat) a + S1x64.size a ≤ S8x64.size a
  inb_S8x64x32_S1x64x32_4_0_0 : ∀ a, (![4, 0, 0] : Fin 3 → Nat) a + S1x64x32.size a ≤ S8x64x32.size a
  slices_S2000x256_o0_160_S2000x32 : S2000x256.Slices ![0, 160] S2000x32
  inb_S8x32x64_S1x32x64_5_0_0 : ∀ a, (![5, 0, 0] : Fin 3 → Nat) a + S1x32x64.size a ≤ S8x32x64.size a
  inb_S8x64_S1x64_5_0 : ∀ a, (![5, 0] : Fin 2 → Nat) a + S1x64.size a ≤ S8x64.size a
  inb_S8x64x32_S1x64x32_5_0_0 : ∀ a, (![5, 0, 0] : Fin 3 → Nat) a + S1x64x32.size a ≤ S8x64x32.size a
  slices_S2000x256_o0_192_S2000x32 : S2000x256.Slices ![0, 192] S2000x32
  inb_S8x32x64_S1x32x64_6_0_0 : ∀ a, (![6, 0, 0] : Fin 3 → Nat) a + S1x32x64.size a ≤ S8x32x64.size a
  inb_S8x64_S1x64_6_0 : ∀ a, (![6, 0] : Fin 2 → Nat) a + S1x64.size a ≤ S8x64.size a
  inb_S8x64x32_S1x64x32_6_0_0 : ∀ a, (![6, 0, 0] : Fin 3 → Nat) a + S1x64x32.size a ≤ S8x64x32.size a
  slices_S2000x256_o0_224_S2000x32 : S2000x256.Slices ![0, 224] S2000x32
  inb_S8x32x64_S1x32x64_7_0_0 : ∀ a, (![7, 0, 0] : Fin 3 → Nat) a + S1x32x64.size a ≤ S8x32x64.size a
  inb_S8x64_S1x64_7_0 : ∀ a, (![7, 0] : Fin 2 → Nat) a + S1x64.size a ≤ S8x64.size a
  inb_S8x64x32_S1x64x32_7_0_0 : ∀ a, (![7, 0, 0] : Fin 3 → Nat) a + S1x64x32.size a ≤ S8x64x32.size a
  shapeCasts_S64_S64x1 : S64.ShapeCasts S64x1
  broadcasts_S64x1_S64x32 : S64x1.Broadcasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  transposes_S64x32_p1_0_S32x64 : S64x32.Transposes [1, 0] S32x64
  reduces_S64x64_S64 : S64x64.Reduces [1] S64
  broadcasts_S64x1_S64x64 : S64x1.Broadcasts S64x64
  concatenates_S2000x32_S2000x32_S2000x32_S2000x32_S2000x32_S2000x32_S2000x32_S2000x32_S2000x256_d1 : Shape.Concatenates [S2000x32, S2000x32, S2000x32, S2000x32, S2000x32, S2000x32, S2000x32, S2000x32] S2000x256 1
  dot_S2000x256_S256x256_S2000x256_1_0_0_1_n_n_wf : DotDims.WF S2000x256 S256x256 S2000x256 [1] [0] [0] [1] [] []
  dot_S2000x32_S32x64_S2000x64_1_0_0_1_n_n_wf : DotDims.WF S2000x32 S32x64 S2000x64 [1] [0] [0] [1] [] []
  dot_S2000x64_S2000x32_S64x32_0_0_1_1_n_n_wf : DotDims.WF S2000x64 S2000x32 S64x32 [0] [0] [1] [1] [] []
  dot_S64x32_S32x32_S64x32_1_0_0_1_n_n_wf : DotDims.WF S64x32 S32x32 S64x32 [1] [0] [0] [1] [] []
  dot_S64x32_S32x64_S64x64_1_0_0_1_n_n_wf : DotDims.WF S64x32 S32x64 S64x64 [1] [0] [0] [1] [] []
  dot_S64x64_S64x32_S64x32_1_0_0_1_n_n_wf : DotDims.WF S64x64 S64x32 S64x32 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32x64.size a ≤ S8x32x64.size a
  hwx0_5 : ∀ i : grid0.Coords, EltTy.bits .bf16 = 32 ∨ (Rect.block (s := S8x32x64) S8x32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x64.size a ≤ S8x64.size a
  hwx0_6 : ∀ i : grid0.Coords, EltTy.bits .f32 = 32 ∨ (Rect.block (s := S8x64) S8x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .bf16 = 32 ∨ (Rect.block (s := S32x32) S32x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .bf16 = 32 ∨ (Rect.block (s := S32x32) S32x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x64x32.size a ≤ S8x64x32.size a
  hwx0_10 : ∀ i : grid0.Coords, EltTy.bits .f32 = 32 ∨ (Rect.block (s := S8x64x32) S8x64x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x32x64.size a ≤ S8x32x64.size a
  hwx1_3 : ∀ i : grid1.Coords, EltTy.bits .bf16 = 32 ∨ (Rect.block (s := S8x32x64) S8x32x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x64.size a ≤ S8x64.size a
  hwx1_4 : ∀ i : grid1.Coords, EltTy.bits .f32 = 32 ∨ (Rect.block (s := S8x64) S8x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x64x32.size a ≤ S8x64x32.size a
  hwx1_5 : ∀ i : grid1.Coords, EltTy.bits .f32 = 32 ∨ (Rect.block (s := S8x64x32) S8x64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S200000x256.size a
  hwx1_8 : ∀ i : grid1.Coords, EltTy.bits .f32 = 32 ∨ (Rect.block (s := S200000x256) S2000x256.size (cc1_transform_8 i) (hinb1_8 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S2000x32_S64x32_0_0_1_1_n_n : DotDims S2000x64 S2000x32 S64x32 where
  lhsContracting := [0]
  rhsContracting := [0]
  lhsNonContracting := [1]
  rhsNonContracting := [1]
  lhsBatch := []
  rhsBatch := []
  wf := dot_S2000x64_S2000x32_S64x32_0_0_1_1_n_n_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S8x32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S8x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S8x64x32.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8x32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S8x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S8x64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x256 : Shape := ⟨2, ![200000, 256]⟩
abbrev S256x256 : Shape := ⟨2, ![256, 256]⟩
abbrev S256 : Shape := ⟨1, ![256]⟩
abbrev S64x32 : Shape := ⟨2, ![64, 32]⟩
abbrev S64 : Shape := ⟨1, ![64]⟩
abbrev S32x32 : Shape := ⟨2, ![32, 32]⟩
abbrev S8x1x1 : Shape := ⟨3, ![8, 1, 1]⟩
abbrev S1x256 : Shape := ⟨2, ![1, 256]⟩
abbrev S200000x8x32 : Shape := ⟨3, ![200000, 8, 32]⟩
abbrev S8x200000x32 : Shape := ⟨3, ![8, 200000, 32]⟩
abbrev S_ : Shape := ⟨0, ![]⟩
abbrev S8x200000x64 : Shape := ⟨3, ![8, 200000, 64]⟩
abbrev S1x1x64 : Shape := ⟨3, ![1, 1, 64]⟩
abbrev S8x200000 : Shape := ⟨2, ![8, 200000]⟩
abbrev S8x200000x1 : Shape := ⟨3, ![8, 200000, 1]⟩
abbrev S8x64 : Shape := ⟨2, ![8, 64]⟩
abbrev S8x64x32 : Shape := ⟨3, ![8, 64, 32]⟩
abbrev S8x64x1 : Shape := ⟨3, ![8, 64, 1]⟩
abbrev S8x64x64 : Shape := ⟨3, ![8, 64, 64]⟩

abbrev nBuf : Space → Nat
  | .hbm => 94
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S64x32, .f32⟩
  | .hbm, ⟨6, _⟩ => ⟨S64, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S256x256, .f32⟩
  | .hbm, ⟨11, _⟩ => ⟨S256, .f32⟩
  | .hbm, ⟨12, _⟩ => ⟨S8x1x1, .f32⟩
  | .hbm, ⟨13, _⟩ => ⟨S256x256, .f32⟩
  | .hbm, ⟨14, _⟩ => ⟨S200000x256, .f32⟩
  | .hbm, ⟨15, _⟩ => ⟨S1x256, .f32⟩
  | .hbm, ⟨16, _⟩ => ⟨S200000x256, .f32⟩
  | .hbm, ⟨17, _⟩ => ⟨S200000x256, .f32⟩
  | .hbm, ⟨18, _⟩ => ⟨S200000x8x32, .f32⟩
  | .hbm, ⟨19, _⟩ => ⟨S8x200000x32, .f32⟩
  | .hbm, ⟨20, _⟩ => ⟨S256x256, .f32⟩
  | .hbm, ⟨21, _⟩ => ⟨S200000x256, .f32⟩
  | .hbm, ⟨22, _⟩ => ⟨S1x256, .f32⟩
  | .hbm, ⟨23, _⟩ => ⟨S200000x256, .f32⟩
  | .hbm, ⟨24, _⟩ => ⟨S200000x256, .f32⟩
  | .hbm, ⟨25, _⟩ => ⟨S200000x8x32, .f32⟩
  | .hbm, ⟨26, _⟩ => ⟨S8x200000x32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x1x1, .f32⟩
  | .hbm, ⟨31, _⟩ => ⟨S8x1x1, .f32⟩
  | .hbm, ⟨32, _⟩ => ⟨S_, .f32⟩
  | .hbm, ⟨33, _⟩ => ⟨S8x1x1, .f32⟩
  | .hbm, ⟨34, _⟩ => ⟨S8x1x1, .f32⟩
  | .hbm, ⟨35, _⟩ => ⟨S8x200000x64, .f32⟩
  | .hbm, ⟨36, _⟩ => ⟨S1x1x64, .f32⟩
  | .hbm, ⟨37, _⟩ => ⟨S8x200000x64, .f32⟩
  | .hbm, ⟨38, _⟩ => ⟨S8x200000x64, .f32⟩
  | .hbm, ⟨39, _⟩ => ⟨S8x200000x64, .f32⟩
  | .hbm, ⟨40, _⟩ => ⟨S8x200000x64, .f32⟩
  | .hbm, ⟨41, _⟩ => ⟨S_, .f32⟩
  | .hbm, ⟨42, _⟩ => ⟨S8x200000, .f32⟩
  | .hbm, ⟨43, _⟩ => ⟨S_, .f32⟩
  | .hbm, ⟨44, _⟩ => ⟨S8x200000, .f32⟩
  | .hbm, ⟨45, _⟩ => ⟨S8x200000, .f32⟩
  | .hbm, ⟨46, _⟩ => ⟨S8x200000x1, .f32⟩
  | .hbm, ⟨47, _⟩ => ⟨S8x200000x64, .f32⟩
  | .hbm, ⟨48, _⟩ => ⟨S8x200000x64, .f32⟩
  | .hbm, ⟨49, _⟩ => ⟨S8x200000x64, .f32⟩
  | .hbm, ⟨50, _⟩ => ⟨S_, .f32⟩
  | .hbm, ⟨51, _⟩ => ⟨S8x200000, .f32⟩
  | .hbm, ⟨52, _⟩ => ⟨S8x200000x1, .f32⟩
  | .hbm, ⟨53, _⟩ => ⟨S8x200000x64, .f32⟩
  | .hbm, ⟨54, _⟩ => ⟨S8x200000x64, .f32⟩
  | .hbm, ⟨55, _⟩ => ⟨S_, .f32⟩
  | .hbm, ⟨56, _⟩ => ⟨S8x64, .f32⟩
  | .hbm, ⟨57, _⟩ => ⟨S8x64x32, .f32⟩
  | .hbm, ⟨58, _⟩ => ⟨S8x64x1, .f32⟩
  | .hbm, ⟨59, _⟩ => ⟨S_, .f32⟩
  | .hbm, ⟨60, _⟩ => ⟨S8x64x1, .f32⟩
  | .hbm, ⟨61, _⟩ => ⟨S8x64x1, .f32⟩
  | .hbm, ⟨62, _⟩ => ⟨S8x64x32, .f32⟩
  | .hbm, ⟨63, _⟩ => ⟨S8x64x32, .f32⟩
  | .hbm, ⟨64, _⟩ => ⟨S8x64x32, .f32⟩
  | .hbm, ⟨65, _⟩ => ⟨S8x64x32, .f32⟩
  | .hbm, ⟨66, _⟩ => ⟨S8x64x32, .f32⟩
  | .hbm, ⟨67, _⟩ => ⟨S8x64x64, .f32⟩
  | .hbm, ⟨68, _⟩ => ⟨S_, .f32⟩
  | .hbm, ⟨69, _⟩ => ⟨S8x64x64, .f32⟩
  | .hbm, ⟨70, _⟩ => ⟨S8x64x64, .f32⟩
  | .hbm, ⟨71, _⟩ => ⟨S_, .f32⟩
  | .hbm, ⟨72, _⟩ => ⟨S8x64, .f32⟩
  | .hbm, ⟨73, _⟩ => ⟨S_, .f32⟩
  | .hbm, ⟨74, _⟩ => ⟨S8x64, .f32⟩
  | .hbm, ⟨75, _⟩ => ⟨S8x64, .f32⟩
  | .hbm, ⟨76, _⟩ => ⟨S8x64x1, .f32⟩
  | .hbm, ⟨77, _⟩ => ⟨S8x64x64, .f32⟩
  | .hbm, ⟨78, _⟩ => ⟨S8x64x64, .f32⟩
  | .hbm, ⟨79, _⟩ => ⟨S8x64x64, .f32⟩
  | .hbm, ⟨80, _⟩ => ⟨S_, .f32⟩
  | .hbm, ⟨81, _⟩ => ⟨S8x64, .f32⟩
  | .hbm, ⟨82, _⟩ => ⟨S8x64x1, .f32⟩
  | .hbm, ⟨83, _⟩ => ⟨S8x64x64, .f32⟩
  | .hbm, ⟨84, _⟩ => ⟨S8x64x64, .f32⟩
  | .hbm, ⟨85, _⟩ => ⟨S8x64x32, .f32⟩
  | .hbm, ⟨86, _⟩ => ⟨S8x200000x32, .f32⟩
  | .hbm, ⟨87, _⟩ => ⟨S200000x8x32, .f32⟩
  | .hbm, ⟨88, _⟩ => ⟨S200000x256, .f32⟩
  | .hbm, ⟨89, _⟩ => ⟨S256x256, .f32⟩
  | .hbm, ⟨90, _⟩ => ⟨S200000x256, .f32⟩
  | .hbm, ⟨91, _⟩ => ⟨S1x256, .f32⟩
  | .hbm, ⟨92, _⟩ => ⟨S200000x256, .f32⟩
  | .hbm, ⟨93, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  shapeCasts_S200000x256_S200000x8x32 : S200000x256.ShapeCasts S200000x8x32
  transposes_S200000x8x32_S8x200000x32_1_0_2 : S200000x8x32.Transposes [1, 0, 2] S8x200000x32
  bcast_S_S8x1x1 : S_.BroadcastsInDim S8x1x1 (![] : Fin 0 → Fin S8x1x1.rank)
  bcast_S64_S1x1x64_2 : S64.BroadcastsInDim S1x1x64 (![2] : Fin 1 → Fin S1x1x64.rank)
  bcast_S1x1x64_S8x200000x64_0_1_2 : S1x1x64.BroadcastsInDim S8x200000x64 (![0, 1, 2] : Fin 3 → Fin S8x200000x64.rank)
  bcast_S8x1x1_S8x200000x64_0_1_2 : S8x1x1.BroadcastsInDim S8x200000x64 (![0, 1, 2] : Fin 3 → Fin S8x200000x64.rank)
  reducesTo_S8x200000x64_S8x200000_d2 : S8x200000x64.ReducesTo [2] S8x200000
  h_S_ : 0 < S_.numel
  bcast_S_S8x200000 : S_.BroadcastsInDim S8x200000 (![] : Fin 0 → Fin S8x200000.rank)
  bcast_S8x200000_S8x200000x1_0_1 : S8x200000.BroadcastsInDim S8x200000x1 (![0, 1] : Fin 2 → Fin S8x200000x1.rank)
  bcast_S8x200000x1_S8x200000x64_0_1_2 : S8x200000x1.BroadcastsInDim S8x200000x64 (![0, 1, 2] : Fin 3 → Fin S8x200000x64.rank)
  reducesTo_S8x200000x64_S8x64_d1 : S8x200000x64.ReducesTo [1] S8x64
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S8x64x1_S8x64x32_0_1_2 : S8x64x1.BroadcastsInDim S8x64x32 (![0, 1, 2] : Fin 3 → Fin S8x64x32.rank)
  bcast_S_S8x64x64 : S_.BroadcastsInDim S8x64x64 (![] : Fin 0 → Fin S8x64x64.rank)
  reducesTo_S8x64x64_S8x64_d2 : S8x64x64.ReducesTo [2] S8x64
  bcast_S_S8x64 : S_.BroadcastsInDim S8x64 (![] : Fin 0 → Fin S8x64.rank)
  bcast_S8x64x1_S8x64x64_0_1_2 : S8x64x1.BroadcastsInDim S8x64x64 (![0, 1, 2] : Fin 3 → Fin S8x64x64.rank)
  transposes_S8x200000x32_S200000x8x32_1_0_2 : S8x200000x32.Transposes [1, 0, 2] S200000x8x32
  shapeCasts_S200000x8x32_S200000x256 : S200000x8x32.ShapeCasts S200000x256
  dot_S200000x256_S256x256_S200000x256_1_0_0_1_n_n_wf : DotDims.WF S200000x256 S256x256 S200000x256 [1] [0] [0] [1] [] []
  dot_S8x200000x32_S64x32_S8x200000x64_2_1_01_0_n_n_wf : DotDims.WF S8x200000x32 S64x32 S8x200000x64 [2] [1] [0, 1] [0] [] []
  dot_S8x200000x64_S8x200000x32_S8x64x32_1_1_2_2_0_0_wf : DotDims.WF S8x200000x64 S8x200000x32 S8x64x32 [1] [1] [2] [2] [0] [0]
  dot_S8x64x32_S32x32_S8x64x32_2_1_01_0_n_n_wf : DotDims.WF S8x64x32 S32x32 S8x64x32 [2] [1] [0, 1] [0] [] []
  dot_S8x64x32_S8x64x32_S8x64x64_2_2_1_1_0_0_wf : DotDims.WF S8x64x32 S8x64x32 S8x64x64 [2] [2] [1] [1] [0] [0]
  dot_S8x64x64_S8x64x32_S8x64x32_2_1_1_2_0_0_wf : DotDims.WF S8x64x64 S8x64x32 S8x64x32 [2] [1] [1] [2] [0] [0]
  dot_S8x200000x64_S8x64x32_S8x200000x32_2_1_1_2_0_0_wf : DotDims.WF S8x200000x64 S8x64x32 S8x200000x32 [2] [1] [1] [2] [0] [0]

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S8x200000x32_S64x32_S8x200000x64_2_1_01_0_n_n : DotDims S8x200000x32 S64x32 S8x200000x64 where
  lhsContracting := [2]
  rhsContracting := [1]
  lhsNonContracting := [0, 1]
  rhsNonContracting := [0]
  lhsBatch := []
  rhsBatch := []
  wf := dot_S8x200000x32_S64x32_S8x200000x64_2_1_01_0_n_n_wf
def dot_S8x200000x64_S8x200000x32_S8x64x32_1_1_2_2_0_0 : DotDims S8x200000x64 S8x200000x32 S8x64x32 where
  lhsContracting := [1]
  rhsContracting := [1]
  lhsNonContracting := [2]
  rhsNonContracting := [2]
  lhsBatch := [0]
  rhsBatch := [0]
  wf := dot_S8x200000x64_S8x200000x32_S8x64x32_1_1_2_2_0_0_wf
def dot_S8x64x32_S32x32_S8x64x32_2_1_01_0_n_n : DotDims S8x64x32 S32x32 S8x64x32 where
  lhsContracting := [2]
  rhsContracting := [1]
  lhsNonContracting := [0, 1]
  rhsNonContracting := [0]
  lhsBatch := []
  rhsBatch := []
  wf := dot_S8x64x32_S32x32_S8x64x32_2_1_01_0_n_n_wf
def dot_S8x64x32_S8x64x32_S8x64x64_2_2_1_1_0_0 : DotDims S8x64x32 S8x64x32 S8x64x64 where
  lhsContracting := [2]
  rhsContracting := [2]
  lhsNonContracting := [1]
  rhsNonContracting := [1]
  lhsBatch := [0]
  rhsBatch := [0]
  wf := dot_S8x64x32_S8x64x32_S8x64x64_2_2_1_1_0_0_wf
def dot_S8x64x64_S8x64x32_S8x64x32_2_1_1_2_0_0 : DotDims S8x64x64 S8x64x32 S8x64x32 where
  lhsContracting := [2]
  rhsContracting := [1]
  lhsNonContracting := [1]
  rhsNonContracting := [2]
  lhsBatch := [0]
  rhsBatch := [0]
  wf := dot_S8x64x64_S8x64x32_S8x64x32_2_1_1_2_0_0_wf
def dot_S8x200000x64_S8x64x32_S8x200000x32_2_1_1_2_0_0 : DotDims S8x200000x64 S8x64x32 S8x200000x32 where
  lhsContracting := [2]
  rhsContracting := [1]
  lhsNonContracting := [1]
  rhsNonContracting := [2]
  lhsBatch := [0]
  rhsBatch := [0]
  wf := dot_S8x200000x64_S8x64x32_S8x200000x32_2_1_1_2_0_0_wf

class Facts : Prop extends Facts₀ where

variable [Facts]
-- ==== Proof.KBRun0A.lean ====
/-
  The first kernel's body (one grid point of the pooling pass: two 2000x256x256 products, then per head a slice
  projection, a row softmax, and the accumulation of the pooled tokens and of the softmax column sums in two scratch
  buffers carried from point to point), run once on symbolic whole buffers in the case of the grid's first point(s).
  What the stores leave in the scratch buffers (and in the output window's buffer at the last point) is found by the
  run as lists of pieces over the contents it was handed.
-/
import proofs.«133947_j41910290874676_1_alg».proof.Proof.Gen.Kernel.Launch
import proofs.«133947_j41910290874676_1_alg».proof.Proof.Gen.Kernel.Skeleton
import proofs.«133947_j41910290874676_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (the accumulators are zeroed at the grid's first point), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 100 = 0 :=
  (by decide +kernel : ∀ t : Fin grid0.N, cond0_0 (grid0.coords t) ↔ t.val % 100 = 0)
/-- The condition of the body's second branch (the slice attention runs at the grid's last point). -/
abbrev cond0_1 (i : grid0.Coords) : Prop := k0_cond2 i = 1#1
/-- It holds at the last point only. -/
theorem hcond0_1 : ∀ t : Fin cfg0.N, cond0_1 (grid0.coords t) ↔ t.val % 100 = 99 :=
  (by decide +kernel : ∀ t : Fin grid0.N, cond0_1 (grid0.coords t) ↔ t.val % 100 = 99)

set_option maxHeartbeats 8000000 in
/-- The first kernel's body at the grid's FIRST point (the accumulators zeroed, no attention epilogue). -/
noncomputable def kernelRun0_A (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i)
    (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) :
    Σ' (LS0 : List (View.Piece (Elt F) S8x64x32 .f32)), { LS1 : List (View.Piece (Elt F) S8x64 .f32) //
      ∀ (xi : Vec F S8x64x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fi, %hfi, HO⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfi
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HS0]; · iexists _; iexact HS0
    iexists _; iexact HS1

end Cert.Kernel.Hand

end
-- ==== Proof.KBRun0B.lean ====
/-
  The first kernel's body (one grid point of the pooling pass: two 2000x256x256 products, then per head a slice
  projection, a row softmax, and the accumulation of the pooled tokens and of the softmax column sums in two scratch
  buffers carried from point to point), run once on symbolic whole buffers in the case of the grid's middle point(s).
  What the stores leave in the scratch buffers (and in the output window's buffer at the last point) is found by the
  run as lists of pieces over the contents it was handed.
-/
import proofs.«133947_j41910290874676_1_alg».proof.Proof.KBRun0A
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first kernel's body at a MIDDLE grid point (neither first nor last): the accumulators, found at what the
    point before left, are added to; the output window's buffer is handed back untouched. -/
noncomputable def kernelRun0_B (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i)
    (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) :
    Σ' (LS0 : List (View.Piece (Elt F) S8x64x32 .f32)), { LS1 : List (View.Piece (Elt F) S8x64 .f32) //
      ∀ (xi : Vec F S8x64x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fi, %hfi, HO⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfi; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HS0]; · iexists _; iexact HS0
    iexists _; iexact HS1

end Cert.Kernel.Hand

end
-- ==== Proof.KBRun0C.lean ====
/-
  The first kernel's body (one grid point of the pooling pass: two 2000x256x256 products, then per head a slice
  projection, a row softmax, and the accumulation of the pooled tokens and of the softmax column sums in two scratch
  buffers carried from point to point), run once on symbolic whole buffers in the case of the grid's last point(s).
  What the stores leave in the scratch buffers (and in the output window's buffer at the last point) is found by the
  run as lists of pieces over the contents it was handed.
-/
import proofs.«133947_j41910290874676_1_alg».proof.Proof.KBRun0B
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first kernel's body at the grid's LAST point: the accumulators are added to once more, then the slice
    attention runs over them and its result is stored, head by head, into the output window's buffer. -/
noncomputable def kernelRun0_C (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i)
    (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) :
    Σ' (L11 : List (View.Piece (Elt F) S8x64x32 .f32)) (LS0 : List (View.Piece (Elt F) S8x64x32 .f32)), { LS1 : List (View.Piece (Elt F) S8x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%do1, %fo1, -, HO⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]; · iexists _; iexact HO
    isplitl [HS0]; · iexists _; iexact HS0
    iexists _; iexact HS1

end Cert.Kernel.Hand

end
-- ==== Proof.KBRegion0.lean ====
/-
  Region 0 (the pooling pass) as pipeline proof data, at any contents `V` of the TensorCore's buffers when the region
  is entered. The grid's 100 points fall in three cases: the first (the two accumulators are zeroed, then added to), the
  middle ones (added to), the last (added to, then the slice attention over them is stored into the output window).
  What the accumulators hold after each point is defined by recursion on the point from the pieces each case's run
  found; the region's invariant carries them from point to point; the output window is idle except at the last point.
-/
import proofs.«133947_j41910290874676_1_alg».proof.Proof.KBRun0C
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- Away from the last point the output window is idle and is not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- At the last point it is live. -/
theorem liveAt0_10 : ∀ t : Fin cfg0.N, cond0_1 (grid0.coords t) → cfg0.idle 10 (grid0.coords t) = false := by decide +kernel

/-! ## The memrefs -/
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x32x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x32 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x32 .f32 := win0_10.stage (cfg0.slots t 10)
abbrev hs0_10 (t : Fin cfg0.N) : (ms0_10 t).IsWhole := hstage0_10 ((cfg0.slots t 10).cast nbuf0_10)
/-- The two scratch operands: whole scoped buffers of the kernel's own (the pooled tokens; the softmax column sums). -/
abbrev scM0_0 : Memref sig .tc .vmem S8x64x32 .f32 := Memref.whole cc0_scratch0
abbrev scM0_1 : Memref sig .tc .vmem S8x64 .f32 := Memref.whole cc0_scratch1
abbrev VS0_0 : View sig .tc .vmem S8x64x32 .f32 := scM0_0.view
abbrev VS0_1 : View sig .tc .vmem S8x64 .f32 := scM0_1.view
/-- One staging buffer of the output window, through which its contents are stated. -/
abbrev VO0_10 : View sig .tc .vmem S8x64x32 .f32 := (Memref.whole cc0_stg10_0 : Memref sig .tc .vmem S8x64x32 .f32).view

/-- The scoped buffers that are neither a staging buffer of this region nor one of its scratch operands (the other
    region's staging buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

/-! ## What each case leaves -/

/-- Case A's pieces for the pooled-token scratch cover it. -/
theorem scover0_A_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (y : S8x64x32.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1 S8x64x32.size (by sl_kernel_rfl) y
/-- What case A leaves in the pooled-token scratch: its pieces read back over junk. -/
def sout0_A_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) : Vec F S8x64x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)
/-- Case A's pieces for the column-sum scratch cover it. -/
theorem scover0_A_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (y : S8x64.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S8x64.size (by sl_kernel_rfl) y
/-- What case A leaves in the column-sum scratch: its pieces read back over junk. -/
def sout0_A_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) : Vec F S8x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B's pieces for the pooled-token scratch cover it. -/
theorem scover0_B_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64x32.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1 S1x64x32.size (by sl_kernel_rfl) y
/-- What case B leaves in the pooled-token scratch: its pieces read back over junk. -/
def sout0_B_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1)
/-- Case B's pieces for the column-sum scratch cover it. -/
theorem scover0_B_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1 S1x64.size (by sl_kernel_rfl) y
/-- What case B leaves in the column-sum scratch: its pieces read back over junk. -/
def sout0_B_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1)

/-- Case C's pieces for the pooled-token scratch cover it. -/
theorem scover0_C_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64x32.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1 S1x64x32.size (by sl_kernel_rfl) y
/-- What case C leaves in the pooled-token scratch: its pieces read back over junk. -/
def sout0_C_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1)
/-- Case C's pieces for the column-sum scratch cover it. -/
theorem scover0_C_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1 S1x64.size (by sl_kernel_rfl) y
/-- What case C leaves in the column-sum scratch: its pieces read back over junk. -/
def sout0_C_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1)

/-- Case C's pieces for the output window (eight stores, one per head) cover its block. -/
theorem cover0_C_10 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64x32.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1 S1x64x32.size (by sl_kernel_rfl) y
/-- What case C leaves in the output window's staging buffer. -/
def out0_C_10 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64x32 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1)

/-! ## What the buffers hold after each point -/

theorem not_cond0_0_succ (n : ℕ) (hn : n + 1 < cfg0.N) : ¬cond0_0 (grid0.coords ⟨n + 1, hn⟩) := fun h => by
  have h' := (hcond0_0 ⟨n + 1, hn⟩).mp h
  have hN : n + 1 < 100 := lt_of_lt_of_eq hn N_0
  simp only at h'; omega

/-- THE ACCUMULATION: the output window's staging buffer (junk until the last point), the pooled-token scratch and the
    column-sum scratch after the body at position `n`. -/
def outsAt0 (c : Dev nD) : (n : ℕ) → n < cfg0.N → Vec F S8x64x32 .f32 × Vec F S8x64x32 .f32 × Vec F S8x64 .f32
  | 0, hn => (VO0_10.read (Elt F) VO0_10.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ (0 % 100 = 99); decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ (0 % 100 = 99); decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h1 : (n + 1) % 100 = 99 then
      (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2)
    else
      (VO0_10.read (Elt F) VO0_10.junk,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2)

/-- `outsAt0` at the first point. -/
theorem outsAt0_A (c : Dev nD) (t : Fin cfg0.N) (hz : t.val = 0) (hc0 : cond0_0 (grid0.coords t)) (hc1 : ¬cond0_1 (grid0.coords t)) :
    (outsAt0 V c t.val t.isLt).2 = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => rfl
  | succ n => exact absurd hz (Nat.succ_ne_zero n)

/-- `outsAt0` at a middle point: case B's contents, over what the point before left. -/
theorem outsAt0_B (c : Dev nD) (t : Fin cfg0.N) (hz : t.val ≠ 0) (h1 : ¬t.val % 100 = 99) (hc0 : ¬cond0_0 (grid0.coords t)) (hc1 : ¬cond0_1 (grid0.coords t)) :
    (outsAt0 V c t.val t.isLt).2 = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl hz
  | succ n => exact congrArg Prod.snd ((dif_neg h1).trans rfl)

/-- `outsAt0` at the last point: case C's contents, over what the point before left. -/
theorem outsAt0_C (c : Dev nD) (t : Fin cfg0.N) (hz : t.val ≠ 0) (h1 : t.val % 100 = 99) (hc0 : ¬cond0_0 (grid0.coords t)) (hc1 : cond0_1 (grid0.coords t)) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl hz
  | succ n => exact (dif_pos h1).trans rfl

/-- The region invariant before position `n`: before the first point the class's (every scratch at anything);
    afterwards the two accumulators at what the point before left in them, the other scoped buffers at anything, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Rest0 c) ∗ (∃ r, prngReg c r)) := by
  cases n with
  | zero => exact absurd rfl hz
  | succ n => rfl

/-! ## The pipeline's proof data -/

/-- The proof data of pipeline 0 on core `c`: the arrays as the region finds them; after the body each input's buffer
    at its block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' memrefs hold their blocks; the closed forms of the two conditions say which case
    the point is in; the invariant hands the body the accumulators at what the point before left (at anything at the
    first point) and takes them back at this point's contents; the output window's buffer is handed back untouched
    except at the last point, where it ends at the eight stores' pieces. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases hz : t.val = 0
  · -- the first point
    have hc0 : cond0_0 (grid0.coords t) := (hcond0_0 t).mpr (by rw [hz])
    have hc1 : ¬cond0_1 (grid0.coords t) := fun h => by have := (hcond0_1 t).mp h; omega
    rw [Dat.leavesExact_idle (dat0 V c) 10 t (idleAt0_10 t hc1) (noFlush0_10 t hc1)]
    rw [outsAt0_A V c t hz hc0 hc1]
    unfold sout0_A_0 sout0_A_1; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ )
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val % 100 = 99
    · -- the last point
      have hc0 : ¬cond0_0 (grid0.coords t) := fun h => by have := (hcond0_0 t).mp h; omega
      have hc1 : cond0_1 (grid0.coords t) := (hcond0_1 t).mpr h1
      rw [show (dat0 V c).leavesExact 10 t = owns (c : Thread nD τ) (ms0_10 t) fullShare ((dat0 V c).after 10 t) from by
        unfold Dat.leavesExact; rw [liveAt0_10 t hc1], after0_10]
      rw [outsAt0_C V c t hz h1 hc0 hc1]
      unfold out0_C_10 sout0_C_0 sout0_C_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ _ _ _ )
    · -- a middle point
      have hc0 : ¬cond0_0 (grid0.coords t) := fun h => by have := (hcond0_0 t).mp h; omega
      have hc1 : ¬cond0_1 (grid0.coords t) := fun h => h1 ((hcond0_1 t).mp h)
      rw [Dat.leavesExact_idle (dat0 V c) 10 t (idleAt0_10 t hc1) (noFlush0_10 t hc1)]
      rw [outsAt0_B V c t hz h1 hc0 hc1]
      unfold sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Region0

end Cert.Kernel.Hand

end
-- ==== Proof.KBRun1.lean ====
/-
  The second kernel's body (one grid point of the un-pooling pass) run once on symbolic whole staging buffers:
  thirty-odd loads of the eight input blocks, one load of the output block, one store of the whole output block.
  What the store leaves is found by the run as a list of pieces over the input blocks' contents.
-/
import proofs.«133947_j41910290874676_1_alg».proof.Proof.Gen.Kernel.Launch
import proofs.«133947_j41910290874676_1_alg».proof.Proof.Gen.Kernel.Skeleton
import proofs.«133947_j41910290874676_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body on whole staging memrefs: from the eight inputs' buffers at their contents and the
    output's at anything it runs to the continuation with the inputs as they were and the output's buffer with the
    pieces of its one store written; the pieces are the witness the run finds. -/
noncomputable def kernelRun1 (c : Dev nD) (i : grid1.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S8x32x64 .bf16) (harg4 : arg4.IsWhole) (arg5 : Memref sig .tc .vmem S8x64 .f32) (harg5 : arg5.IsWhole) (arg6 : Memref sig .tc .vmem S8x64x32 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S2000x256 .f32) (harg9 : arg9.IsWhole)
    (x0 : Vec F S2000x256 .f32) (x1 : Vec F S256x256 .bf16) (x2 : Vec F S256 .f32) (x3 : Vec F S8x32x64 .bf16) (x4 : Vec F S8x64 .f32) (x5 : Vec F S8x64x32 .f32) (x6 : Vec F S256x256 .bf16) (x7 : Vec F S256 .f32) :
    { L8 : List (View.Piece (Elt F) S2000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1__kernel_b i arg1 harg1 arg2 harg2 arg3 harg3 arg4 harg4 arg5 harg5 arg6 harg6 arg7 harg7 arg8 harg8 arg9 harg9) K } := by
  refine ⟨?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.Kernel.Hand

end
-- ==== Proof.KBRegion1.lean ====
/-
  Region 1 (the un-pooling pass) as pipeline proof data, at any contents `V` of the TensorCore's buffers when the
  region is entered: each input window's staging buffer holds its block of the array at every grid point (fetched there
  or not: the parameter windows' block index never moves), the output window's buffer after the body holds what the
  body's one store wrote, and the body obligation at a generic point follows from the run of the body.
-/
import proofs.«133947_j41910290874676_1_alg».proof.Proof.KBRun1
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x32x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x64x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2000x256 .f32 := win1_8.stage (cfg1.slots t 8)
abbrev hs1_8 (t : Fin cfg1.N) : (ms1_8 t).IsWhole := hstage1_8 ((cfg1.slots t 8).cast nbuf1_8)

/-- One staging buffer of the output window, through which its contents are stated. -/
abbrev VO1_8 : View sig .tc .vmem S2000x256 .f32 := (Memref.whole cc1_stg8_0 : Memref sig .tc .vmem S2000x256 .f32).view

/-- What the body leaves in the output window's staging buffer at point `t`: the pieces of its store read back. -/
def out1_8 (c : Dev nD) (t : Fin cfg1.N) : Vec F S2000x256 .f32 :=
  VO1_8.read (Elt F) (VO1_8.writes (Elt F) VO1_8.junk (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)).1)

/-- The store's one piece is the whole block, so the pieces cover it. -/
theorem cover1_8 (c : Dev nD) (i : grid1.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S8x32x64 .bf16) (harg4 : arg4.IsWhole) (arg5 : Memref sig .tc .vmem S8x64 .f32) (harg5 : arg5.IsWhole) (arg6 : Memref sig .tc .vmem S8x64x32 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S2000x256 .f32) (harg9 : arg9.IsWhole) (x0 : Vec F S2000x256 .f32) (x1 : Vec F S256x256 .bf16) (x2 : Vec F S256 .f32) (x3 : Vec F S8x32x64 .bf16) (x4 : Vec F S8x64 .f32) (x5 : Vec F S8x64x32 .f32) (x6 : Vec F S256x256 .bf16) (x7 : Vec F S256 .f32) (y : S2000x256.Idx) :
    ∃ pc ∈ (kernelRun1 c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun1 c i arg1 harg1 arg2 harg2 arg3 harg3 arg4 harg4 arg5 harg5 arg6 harg6 arg7 harg7 arg8 harg8 arg9 harg9 x0 x1 x2 x3 x4 x5 x6 x7).1 S2000x256.size (by sl_kernel_rfl) y

/-- The proof data of pipeline 1 on core `c`: the arrays as the region finds them; after the body each input's buffer
    at its block and the output's at what the store wrote; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in
/-- The body at any point: the inputs' memrefs hold their blocks, so the run applies; the invariant and the core's
    `owes` pass through unread; the output's buffer ends at the store's pieces read back (they cover it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_8 c _ _ _ _ _ _ _ _ _ _ _ _ _ _ _ _ _ _ _ _ _ _ _ _ _ _ _ )

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KBFrame.lean ====
/-
  The whole program's run: @main is three stretches of host operations (the clipped inverse temperature, the per-head
  scaled slice weights and biases, the transposed weight matrices), then the pooling region, then the un-pooling
  region. The contents of every unscoped buffer at each boundary are a fold from the launch memory; each region is
  entered from the buffers the segment before left and leaves its arrays at what its write-backs give. The run
  terminates with every unscoped buffer at the last fold's contents, from which both the frame (the thirteen argument
  arrays end as launched) and the result array's contents are read.
-/
import proofs.«133947_j41910290874676_1_alg».proof.Proof.KBRegion0
import proofs.«133947_j41910290874676_1_alg».proof.Proof.KBRegion1
import proofs.«133947_j41910290874676_1_alg».proof.Proof.Gen.Kernel.Regions
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 0 is entered (after the three host stretches), read at the TensorCore's references. -/
abbrev V3r : (c : Dev nD) → (b : Ref sig .tc) → Buf (Elt F) ((c : Thread nD τ).loc b) := fun c b => V3 m c b
/-- At region 0's exit: its arrays at what the pipeline leaves, every other buffer as entered. -/
def hW4 (c : Dev nD) : Valuation τ sig (Elt F) :=
  Pipeline.withArrays spec0 c (V3 m c) fun w => (dat0 (V3r m) c).arrAt w cfg0.N
theorem W4_arr (c : Dev nD) (w : Fin cfg0.W) :
    hW4 m c (Proc.devRef .tc (Pipeline.arrRef spec0 w)) = (dat0 (V3r m) c).arrAt w cfg0.N := by
  unfold hW4; exact Pipeline.withArrays_arr spec0 launch0.win.arr_inj c _ _ w
theorem W4_of_ne (c : Dev nD) (b : Ref sig .tc) (hb : ∀ w, Pipeline.arrRef spec0 w ≠ b) :
    hW4 m c (Proc.devRef .tc b) = V3 m c (Proc.devRef .tc b) := by
  unfold hW4; exact Pipeline.withArrays_of_ne spec0 c _ _ b hb
abbrev V4r : (c : Dev nD) → (b : Ref sig .tc) → Buf (Elt F) ((c : Thread nD τ).loc b) := fun c b => hW4 m c b
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- At region 1's exit. -/
def hW5 (c : Dev nD) : Valuation τ sig (Elt F) :=
  Pipeline.withArrays spec1 c (hW4 m c) fun w => (dat1 (V4r m) c).arrAt w cfg1.N
theorem W5_arr (c : Dev nD) (w : Fin cfg1.W) :
    hW5 m c (Proc.devRef .tc (Pipeline.arrRef spec1 w)) = (dat1 (V4r m) c).arrAt w cfg1.N := by
  unfold hW5; exact Pipeline.withArrays_arr spec1 launch1.win.arr_inj c _ _ w
theorem W5_of_ne (c : Dev nD) (b : Ref sig .tc) (hb : ∀ w, Pipeline.arrRef spec1 w ≠ b) :
    hW5 m c (Proc.devRef .tc b) = hW4 m c (Proc.devRef .tc b) := by
  unfold hW5; exact Pipeline.withArrays_of_ne spec1 c _ _ b hb
abbrev V5r : (c : Dev nD) → (b : Ref sig .tc) → Buf (Elt F) ((c : Thread nD τ).loc b) := fun c b => hW5 m c b
theorem hF1 (c : Dev nD) (w : Fin cfg1.W) : (dat1 (V4r m) c).arrAt w cfg1.N = V5r m c (Pipeline.arrRef spec1 w) :=
  (W5_arr m c w).symm
theorem hrest1 (c : Dev nD) : ∀ b, b ∉ Finset.univ.image (Pipeline.arrRef spec1) → V5r m c b = V4r m c b :=
  fun b hb => W5_of_ne m c b fun w e => hb (Finset.mem_image.mpr ⟨w, Finset.mem_univ _, e⟩)

/-- Every pipeline's proof data, each at its region's entry contents. -/
def hpdats : (p : Fin 2) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V4r m) c

/-! ### The arguments end as launched -/
theorem W5_main_arg0 (c : Dev nD) : hW5 m c (Proc.devRef .tc main_arg0) = m ((c : Thread nD τ).loc main_arg0) :=
  ((W5_arr m c 0).trans (((hpdats m 1 c).arrAt_in 0 rfl _).trans (A_eq1 (V4r m) c 0))).trans <| ((W4_arr m c 0).trans (((hpdats m 0 c).arrAt_in 0 rfl _).trans (A_eq0 (V3r m) c 0))).trans <|
    (V3_of m c main_arg0 (by decide)).trans <| (V2_of m c main_arg0 (by decide)).trans <| (V1_of m c main_arg0 (by decide)).trans rfl
theorem W5_main_arg1 (c : Dev nD) : hW5 m c (Proc.devRef .tc main_arg1) = m ((c : Thread nD τ).loc main_arg1) :=
  (W5_of_ne m c main_arg1 (by decide)).trans <| (W4_of_ne m c main_arg1 (by decide)).trans <|
    (V3_of m c main_arg1 (by decide)).trans <| (V2_of m c main_arg1 (by decide)).trans <| (V1_of m c main_arg1 (by decide)).trans rfl
theorem W5_main_arg2 (c : Dev nD) : hW5 m c (Proc.devRef .tc main_arg2) = m ((c : Thread nD τ).loc main_arg2) :=
  ((W5_arr m c 2).trans (((hpdats m 1 c).arrAt_in 2 rfl _).trans (A_eq1 (V4r m) c 2))).trans <| ((W4_arr m c 2).trans (((hpdats m 0 c).arrAt_in 2 rfl _).trans (A_eq0 (V3r m) c 2))).trans <|
    (V3_of m c main_arg2 (by decide)).trans <| (V2_of m c main_arg2 (by decide)).trans <| (V1_of m c main_arg2 (by decide)).trans rfl
theorem W5_main_arg3 (c : Dev nD) : hW5 m c (Proc.devRef .tc main_arg3) = m ((c : Thread nD τ).loc main_arg3) :=
  (W5_of_ne m c main_arg3 (by decide)).trans <| (W4_of_ne m c main_arg3 (by decide)).trans <|
    (V3_of m c main_arg3 (by decide)).trans <| (V2_of m c main_arg3 (by decide)).trans <| (V1_of m c main_arg3 (by decide)).trans rfl
theorem W5_main_arg4 (c : Dev nD) : hW5 m c (Proc.devRef .tc main_arg4) = m ((c : Thread nD τ).loc main_arg4) :=
  (W5_of_ne m c main_arg4 (by decide)).trans <| ((W4_arr m c 4).trans (((hpdats m 0 c).arrAt_in 4 rfl _).trans (A_eq0 (V3r m) c 4))).trans <|
    (V3_of m c main_arg4 (by decide)).trans <| (V2_of m c main_arg4 (by decide)).trans <| (V1_of m c main_arg4 (by decide)).trans rfl
theorem W5_main_arg5 (c : Dev nD) : hW5 m c (Proc.devRef .tc main_arg5) = m ((c : Thread nD τ).loc main_arg5) :=
  (W5_of_ne m c main_arg5 (by decide)).trans <| (W4_of_ne m c main_arg5 (by decide)).trans <|
    (V3_of m c main_arg5 (by decide)).trans <| (V2_of m c main_arg5 (by decide)).trans <| (V1_of m c main_arg5 (by decide)).trans rfl
theorem W5_main_arg6 (c : Dev nD) : hW5 m c (Proc.devRef .tc main_arg6) = m ((c : Thread nD τ).loc main_arg6) :=
  (W5_of_ne m c main_arg6 (by decide)).trans <| (W4_of_ne m c main_arg6 (by decide)).trans <|
    (V3_of m c main_arg6 (by decide)).trans <| (V2_of m c main_arg6 (by decide)).trans <| (V1_of m c main_arg6 (by decide)).trans rfl
theorem W5_main_arg7 (c : Dev nD) : hW5 m c (Proc.devRef .tc main_arg7) = m ((c : Thread nD τ).loc main_arg7) :=
  (W5_of_ne m c main_arg7 (by decide)).trans <| (W4_of_ne m c main_arg7 (by decide)).trans <|
    (V3_of m c main_arg7 (by decide)).trans <| (V2_of m c main_arg7 (by decide)).trans <| (V1_of m c main_arg7 (by decide)).trans rfl
theorem W5_main_arg8 (c : Dev nD) : hW5 m c (Proc.devRef .tc main_arg8) = m ((c : Thread nD τ).loc main_arg8) :=
  (W5_of_ne m c main_arg8 (by decide)).trans <| (W4_of_ne m c main_arg8 (by decide)).trans <|
    (V3_of m c main_arg8 (by decide)).trans <| (V2_of m c main_arg8 (by decide)).trans <| (V1_of m c main_arg8 (by decide)).trans rfl
theorem W5_main_arg9 (c : Dev nD) : hW5 m c (Proc.devRef .tc main_arg9) = m ((c : Thread nD τ).loc main_arg9) :=
  (W5_of_ne m c main_arg9 (by decide)).trans <| (W4_of_ne m c main_arg9 (by decide)).trans <|
    (V3_of m c main_arg9 (by decide)).trans <| (V2_of m c main_arg9 (by decide)).trans <| (V1_of m c main_arg9 (by decide)).trans rfl
theorem W5_main_arg10 (c : Dev nD) : hW5 m c (Proc.devRef .tc main_arg10) = m ((c : Thread nD τ).loc main_arg10) :=
  (W5_of_ne m c main_arg10 (by decide)).trans <| (W4_of_ne m c main_arg10 (by decide)).trans <|
    (V3_of m c main_arg10 (by decide)).trans <| (V2_of m c main_arg10 (by decide)).trans <| (V1_of m c main_arg10 (by decide)).trans rfl
theorem W5_main_arg11 (c : Dev nD) : hW5 m c (Proc.devRef .tc main_arg11) = m ((c : Thread nD τ).loc main_arg11) :=
  ((W5_arr m c 7).trans (((hpdats m 1 c).arrAt_in 7 rfl _).trans (A_eq1 (V4r m) c 7))).trans <| (W4_of_ne m c main_arg11 (by decide)).trans <|
    (V3_of m c main_arg11 (by decide)).trans <| (V2_of m c main_arg11 (by decide)).trans <| (V1_of m c main_arg11 (by decide)).trans rfl
theorem W5_main_arg12 (c : Dev nD) : hW5 m c (Proc.devRef .tc main_arg12) = m ((c : Thread nD τ).loc main_arg12) :=
  (W5_of_ne m c main_arg12 (by decide)).trans <| (W4_of_ne m c main_arg12 (by decide)).trans <|
    (V3_of m c main_arg12 (by decide)).trans <| (V2_of m c main_arg12 (by decide)).trans <| (V1_of m c main_arg12 (by decide)).trans rfl

abbrev 𝒱₀' : Variants := Variants.none
abbrev L' : GSem nD τ sig → Finset Unit := fun _ => ∅
abbrev lv' : GSem nD τ sig → Unit → ℕ := fun _ _ => 0
/-- What rides beside the buffers through every segment: the generator register at some state and the core owing nothing. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTn (c : Dev nD) : sProp 𝕄 := iprop(StableHlo.held (c : Thread nD τ) (Pipeline.ucRefs τ sig) (hW5 m c) ∗ ∃ r, prngReg c r)

/-! ## The regions as segments -/

set_option backward.isDefEq.respectTransparency.types false in
/-- Region 0 over the thread state: entered from every unscoped buffer at the contents the segment before left,
    left with this region's arrays at what the pipeline's write-backs leave and every other buffer as entered; the
    generator register goes into the region's invariant and comes back; nothing owed; no semaphore of the kernel's own. -/
def hreg0 : Pipeline.RegionSeg (pcfgs (F := F)) adm (hpdats m) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L' lv' 0 fun _ _ => rfl
  pre c := iprop(StableHlo.held (c : Thread nD τ) (Pipeline.ucRefs τ sig) (V3 m c) ∗ hR c)
  post c := iprop(StableHlo.held (c : Thread nD τ) (Pipeline.ucRefs τ sig) (hW4 m c) ∗ hR c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3r m) c)
    unfold Pipeline.ΦA
    iintro ⟨Hp, -, Hr⟩
    isplitl [Hr]; · iexact Hr
    iexact Hp
  hout c := by
    rw [Pipeline.ownSems0_none]
    refine BIBase.Entails.trans (hout0 (V3r m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (V3r m c) (V4r m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents the segment before left,
    left with this region's arrays at what the pipeline's write-backs leave and every other buffer as entered; the
    generator register goes into the region's invariant and comes back; nothing owed; no semaphore of the kernel's own. -/
def hreg1 : Pipeline.RegionSeg (pcfgs (F := F)) adm (hpdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (V4r m) c).loose
  hwaits := Pipeline.hwaits_of_owed_zero _ _ _ _ L' lv' 1 fun _ _ => rfl
  pre c := iprop(StableHlo.held (c : Thread nD τ) (Pipeline.ucRefs τ sig) (hW4 m c) ∗ hR c)
  post c := iprop(hTn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4r m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (V4r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (V4r m c) (V5r m c) ((hpdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five segments in order. -/
abbrev hsegs : List (Pipeline.Seg (pcfgs (F := F)) adm (hpdats m) () defs₀ 𝒱₀' L' lv') :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (hreg0 m),
    .region (hreg1 m) ]

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = hW5 m c b) :=
  Pipeline.θ_run_regions_kit (pcfgs (F := F)) adm (hpdats m) () cellOf_inj emb₁ defs₀ 𝒱₀' L' lv' m ρ main (hsegs m)
    (fun c Q => by
      rewrite [main_chain c, Pipeline.Seg.run_eq_chain,
        show (hsegs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ hR c)) (Tₙ := hTn m)
    (hch := ⟨fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = hW5 m c b)
    (hfin := fun c s' => by
      iintro ⟨⟨Hh, -⟩, HSI⟩
      unfold StableHlo.held
      imodintro
      iapply (pointsTo_read_all (Pipeline.ucRefs τ sig) (fun b => (((c : Thread nD τ)).1, b)) (hW5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c),
    (h c _ (mem_uc main_arg12 (by decide))).trans (W5_main_arg12 m c)⟩) (run_all m ρ)

end Cert.Kernel.Hand

end
-- ==== Proof.KIRun0A.lean ====
/-
  The first kernel's body (one grid point of the pooling pass: two 2000x256x256 products, then per head a slice
  projection, a row softmax, and the accumulation of the pooled tokens and of the softmax column sums in two scratch
  buffers carried from point to point), run once on symbolic whole buffers in the case of the grid's first point(s).
  What the stores leave in the scratch buffers (and in the output window's buffer at the last point) is found by the
  run as lists of pieces over the contents it was handed.
-/
import proofs.«133947_j41910290874676_1_alg».proof.Proof.Gen.KernelIdeal.Launch
import proofs.«133947_j41910290874676_1_alg».proof.Proof.Gen.KernelIdeal.Skeleton
import proofs.«133947_j41910290874676_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (the accumulators are zeroed at the grid's first point), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 100 = 0 :=
  (by decide +kernel : ∀ t : Fin grid0.N, cond0_0 (grid0.coords t) ↔ t.val % 100 = 0)
/-- The condition of the body's second branch (the slice attention runs at the grid's last point). -/
abbrev cond0_1 (i : grid0.Coords) : Prop := k0_cond2 i = 1#1
/-- It holds at the last point only. -/
theorem hcond0_1 : ∀ t : Fin cfg0.N, cond0_1 (grid0.coords t) ↔ t.val % 100 = 99 :=
  (by decide +kernel : ∀ t : Fin grid0.N, cond0_1 (grid0.coords t) ↔ t.val % 100 = 99)

set_option maxHeartbeats 8000000 in
/-- The first kernel's body at the grid's FIRST point (the accumulators zeroed, no attention epilogue). -/
noncomputable def kernelRun0_A (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i)
    (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) :
    Σ' (LS0 : List (View.Piece (Elt F) S8x64x32 .f32)), { LS1 : List (View.Piece (Elt F) S8x64 .f32) //
      ∀ (xi : Vec F S8x64x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fi, %hfi, HO⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfi
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HS0]; · iexists _; iexact HS0
    iexists _; iexact HS1

end Cert.KernelIdeal.Hand

end
-- ==== Proof.KIRun0B.lean ====
/-
  The first kernel's body (one grid point of the pooling pass: two 2000x256x256 products, then per head a slice
  projection, a row softmax, and the accumulation of the pooled tokens and of the softmax column sums in two scratch
  buffers carried from point to point), run once on symbolic whole buffers in the case of the grid's middle point(s).
  What the stores leave in the scratch buffers (and in the output window's buffer at the last point) is found by the
  run as lists of pieces over the contents it was handed.
-/
import proofs.«133947_j41910290874676_1_alg».proof.Proof.KIRun0A
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first kernel's body at a MIDDLE grid point (neither first nor last): the accumulators, found at what the
    point before left, are added to; the output window's buffer is handed back untouched. -/
noncomputable def kernelRun0_B (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i)
    (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) :
    Σ' (LS0 : List (View.Piece (Elt F) S8x64x32 .f32)), { LS1 : List (View.Piece (Elt F) S8x64 .f32) //
      ∀ (xi : Vec F S8x64x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fi, %hfi, HO⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfi; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HS0]; · iexists _; iexact HS0
    iexists _; iexact HS1

end Cert.KernelIdeal.Hand

end
-- ==== Proof.KIRun0C.lean ====
/-
  The first kernel's body (one grid point of the pooling pass: two 2000x256x256 products, then per head a slice
  projection, a row softmax, and the accumulation of the pooled tokens and of the softmax column sums in two scratch
  buffers carried from point to point), run once on symbolic whole buffers in the case of the grid's last point(s).
  What the stores leave in the scratch buffers (and in the output window's buffer at the last point) is found by the
  run as lists of pieces over the contents it was handed.
-/
import proofs.«133947_j41910290874676_1_alg».proof.Proof.KIRun0B
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first kernel's body at the grid's LAST point: the accumulators are added to once more, then the slice
    attention runs over them and its result is stored, head by head, into the output window's buffer. -/
noncomputable def kernelRun0_C (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i)
    (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) :
    Σ' (L11 : List (View.Piece (Elt F) S8x64x32 .f32)) (LS0 : List (View.Piece (Elt F) S8x64x32 .f32)), { LS1 : List (View.Piece (Elt F) S8x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%do1, %fo1, -, HO⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]; · iexists _; iexact HO
    isplitl [HS0]; · iexists _; iexact HS0
    iexists _; iexact HS1

end Cert.KernelIdeal.Hand

end
-- ==== Proof.KIRegion0.lean ====
/-
  Region 0 (the pooling pass) as pipeline proof data, at any contents `V` of the TensorCore's buffers when the region
  is entered. The grid's 100 points fall in three cases: the first (the two accumulators are zeroed, then added to), the
  middle ones (added to), the last (added to, then the slice attention over them is stored into the output window).
  What the accumulators hold after each point is defined by recursion on the point from the pieces each case's run
  found; the region's invariant carries them from point to point; the output window is idle except at the last point.
-/
import proofs.«133947_j41910290874676_1_alg».proof.Proof.KIRun0C
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- Away from the last point the output window is idle and is not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- At the last point it is live. -/
theorem liveAt0_10 : ∀ t : Fin cfg0.N, cond0_1 (grid0.coords t) → cfg0.idle 10 (grid0.coords t) = false := by decide +kernel

/-! ## The memrefs -/
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x32x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x32 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x32 .f32 := win0_10.stage (cfg0.slots t 10)
abbrev hs0_10 (t : Fin cfg0.N) : (ms0_10 t).IsWhole := hstage0_10 ((cfg0.slots t 10).cast nbuf0_10)
/-- The two scratch operands: whole scoped buffers of the kernel's own (the pooled tokens; the softmax column sums). -/
abbrev scM0_0 : Memref sig .tc .vmem S8x64x32 .f32 := Memref.whole cc0_scratch0
abbrev scM0_1 : Memref sig .tc .vmem S8x64 .f32 := Memref.whole cc0_scratch1
abbrev VS0_0 : View sig .tc .vmem S8x64x32 .f32 := scM0_0.view
abbrev VS0_1 : View sig .tc .vmem S8x64 .f32 := scM0_1.view
/-- One staging buffer of the output window, through which its contents are stated. -/
abbrev VO0_10 : View sig .tc .vmem S8x64x32 .f32 := (Memref.whole cc0_stg10_0 : Memref sig .tc .vmem S8x64x32 .f32).view

/-- The scoped buffers that are neither a staging buffer of this region nor one of its scratch operands (the other
    region's staging buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

/-! ## What each case leaves -/

/-- Case A's pieces for the pooled-token scratch cover it. -/
theorem scover0_A_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (y : S8x64x32.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1 S8x64x32.size (by sl_kernel_rfl) y
/-- What case A leaves in the pooled-token scratch: its pieces read back over junk. -/
def sout0_A_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) : Vec F S8x64x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)
/-- Case A's pieces for the column-sum scratch cover it. -/
theorem scover0_A_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (y : S8x64.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S8x64.size (by sl_kernel_rfl) y
/-- What case A leaves in the column-sum scratch: its pieces read back over junk. -/
def sout0_A_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) : Vec F S8x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B's pieces for the pooled-token scratch cover it. -/
theorem scover0_B_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64x32.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1 S1x64x32.size (by sl_kernel_rfl) y
/-- What case B leaves in the pooled-token scratch: its pieces read back over junk. -/
def sout0_B_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1)
/-- Case B's pieces for the column-sum scratch cover it. -/
theorem scover0_B_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1 S1x64.size (by sl_kernel_rfl) y
/-- What case B leaves in the column-sum scratch: its pieces read back over junk. -/
def sout0_B_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1)

/-- Case C's pieces for the pooled-token scratch cover it. -/
theorem scover0_C_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64x32.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1 S1x64x32.size (by sl_kernel_rfl) y
/-- What case C leaves in the pooled-token scratch: its pieces read back over junk. -/
def sout0_C_0 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1)
/-- Case C's pieces for the column-sum scratch cover it. -/
theorem scover0_C_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1 S1x64.size (by sl_kernel_rfl) y
/-- What case C leaves in the column-sum scratch: its pieces read back over junk. -/
def sout0_C_1 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1)

/-- Case C's pieces for the output window (eight stores, one per head) cover its block. -/
theorem cover0_C_10 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) (y : S8x64x32.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1 S1x64x32.size (by sl_kernel_rfl) y
/-- What case C leaves in the output window's staging buffer. -/
def out0_C_10 (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec F S2000x256 .f32) (x1 : Vec F S256x256 .bf16) (x2 : Vec F S256 .f32) (x3 : Vec F S256x256 .bf16) (x4 : Vec F S256 .f32) (x5 : Vec F S8x32x64 .bf16) (x6 : Vec F S8x64 .f32) (x7 : Vec F S32x32 .bf16) (x8 : Vec F S32x32 .bf16) (x9 : Vec F S32x32 .bf16) (xs0 : Vec F S8x64x32 .f32) (xs1 : Vec F S8x64 .f32) : Vec F S8x64x32 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1)

/-! ## What the buffers hold after each point -/

theorem not_cond0_0_succ (n : ℕ) (hn : n + 1 < cfg0.N) : ¬cond0_0 (grid0.coords ⟨n + 1, hn⟩) := fun h => by
  have h' := (hcond0_0 ⟨n + 1, hn⟩).mp h
  have hN : n + 1 < 100 := lt_of_lt_of_eq hn N_0
  simp only at h'; omega

/-- THE ACCUMULATION: the output window's staging buffer (junk until the last point), the pooled-token scratch and the
    column-sum scratch after the body at position `n`. -/
def outsAt0 (c : Dev nD) : (n : ℕ) → n < cfg0.N → Vec F S8x64x32 .f32 × Vec F S8x64x32 .f32 × Vec F S8x64 .f32
  | 0, hn => (VO0_10.read (Elt F) VO0_10.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ (0 % 100 = 99); decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ (0 % 100 = 99); decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h1 : (n + 1) % 100 = 99 then
      (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2)
    else
      (VO0_10.read (Elt F) VO0_10.junk,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (not_cond0_0_succ n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2)

/-- `outsAt0` at the first point. -/
theorem outsAt0_A (c : Dev nD) (t : Fin cfg0.N) (hz : t.val = 0) (hc0 : cond0_0 (grid0.coords t)) (hc1 : ¬cond0_1 (grid0.coords t)) :
    (outsAt0 V c t.val t.isLt).2 = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => rfl
  | succ n => exact absurd hz (Nat.succ_ne_zero n)

/-- `outsAt0` at a middle point: case B's contents, over what the point before left. -/
theorem outsAt0_B (c : Dev nD) (t : Fin cfg0.N) (hz : t.val ≠ 0) (h1 : ¬t.val % 100 = 99) (hc0 : ¬cond0_0 (grid0.coords t)) (hc1 : ¬cond0_1 (grid0.coords t)) :
    (outsAt0 V c t.val t.isLt).2 = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl hz
  | succ n => exact congrArg Prod.snd ((dif_neg h1).trans rfl)

/-- `outsAt0` at the last point: case C's contents, over what the point before left. -/
theorem outsAt0_C (c : Dev nD) (t : Fin cfg0.N) (hz : t.val ≠ 0) (h1 : t.val % 100 = 99) (hc0 : ¬cond0_0 (grid0.coords t)) (hc1 : cond0_1 (grid0.coords t)) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl hz
  | succ n => exact (dif_pos h1).trans rfl

/-- The region invariant before position `n`: before the first point the class's (every scratch at anything);
    afterwards the two accumulators at what the point before left in them, the other scoped buffers at anything, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Rest0 c) ∗ (∃ r, prngReg c r)) := by
  cases n with
  | zero => exact absurd rfl hz
  | succ n => rfl

/-! ## The pipeline's proof data -/

/-- The proof data of pipeline 0 on core `c`: the arrays as the region finds them; after the body each input's buffer
    at its block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' memrefs hold their blocks; the closed forms of the two conditions say which case
    the point is in; the invariant hands the body the accumulators at what the point before left (at anything at the
    first point) and takes them back at this point's contents; the output window's buffer is handed back untouched
    except at the last point, where it ends at the eight stores' pieces. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases hz : t.val = 0
  · -- the first point
    have hc0 : cond0_0 (grid0.coords t) := (hcond0_0 t).mpr (by rw [hz])
    have hc1 : ¬cond0_1 (grid0.coords t) := fun h => by have := (hcond0_1 t).mp h; omega
    rw [Dat.leavesExact_idle (dat0 V c) 10 t (idleAt0_10 t hc1) (noFlush0_10 t hc1)]
    rw [outsAt0_A V c t hz hc0 hc1]
    unfold sout0_A_0 sout0_A_1; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ )
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val % 100 = 99
    · -- the last point
      have hc0 : ¬cond0_0 (grid0.coords t) := fun h => by have := (hcond0_0 t).mp h; omega
      have hc1 : cond0_1 (grid0.coords t) := (hcond0_1 t).mpr h1
      rw [show (dat0 V c).leavesExact 10 t = owns (c : Thread nD τ) (ms0_10 t) fullShare ((dat0 V c).after 10 t) from by
        unfold Dat.leavesExact; rw [liveAt0_10 t hc1], after0_10]
      rw [outsAt0_C V c t hz h1 hc0 hc1]
      unfold out0_C_10 sout0_C_0 sout0_C_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ _ _ _ )
    · -- a middle point
      have hc0 : ¬cond0_0 (grid0.coords t) := fun h => by have := (hcond0_0 t).mp h; omega
      have hc1 : ¬cond0_1 (grid0.coords t) := fun h => h1 ((hcond0_1 t).mp h)
      rw [Dat.leavesExact_idle (dat0 V c) 10 t (idleAt0_10 t hc1) (noFlush0_10 t hc1)]
      rw [outsAt0_B V c t hz h1 hc0 hc1]
      unfold sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Region0

end Cert.KernelIdeal.Hand

end
-- ==== Proof.KIRun1.lean ====
/-
  The second kernel's body (one grid point of the un-pooling pass) run once on symbolic whole staging buffers:
  thirty-odd loads of the eight input blocks, one load of the output block, one store of the whole output block.
  What the store leaves is found by the run as a list of pieces over the input blocks' contents.
-/
import proofs.«133947_j41910290874676_1_alg».proof.Proof.Gen.KernelIdeal.Launch
import proofs.«133947_j41910290874676_1_alg».proof.Proof.Gen.KernelIdeal.Skeleton
import proofs.«133947_j41910290874676_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body on whole staging memrefs: from the eight inputs' buffers at their contents and the
    output's at anything it runs to the continuation with the inputs as they were and the output's buffer with the
    pieces of its one store written; the pieces are the witness the run finds. -/
noncomputable def kernelRun1 (c : Dev nD) (i : grid1.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S8x32x64 .bf16) (harg4 : arg4.IsWhole) (arg5 : Memref sig .tc .vmem S8x64 .f32) (harg5 : arg5.IsWhole) (arg6 : Memref sig .tc .vmem S8x64x32 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S2000x256 .f32) (harg9 : arg9.IsWhole)
    (x0 : Vec F S2000x256 .f32) (x1 : Vec F S256x256 .bf16) (x2 : Vec F S256 .f32) (x3 : Vec F S8x32x64 .bf16) (x4 : Vec F S8x64 .f32) (x5 : Vec F S8x64x32 .f32) (x6 : Vec F S256x256 .bf16) (x7 : Vec F S256 .f32) :
    { L8 : List (View.Piece (Elt F) S2000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1__kernel_b i arg1 harg1 arg2 harg2 arg3 harg3 arg4 harg4 arg5 harg5 arg6 harg6 arg7 harg7 arg8 harg8 arg9 harg9) K } := by
  refine ⟨?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.KernelIdeal.Hand

end
-- ==== Proof.KIRegion1.lean ====
/-
  Region 1 (the un-pooling pass) as pipeline proof data, at any contents `V` of the TensorCore's buffers when the
  region is entered: each input window's staging buffer holds its block of the array at every grid point (fetched there
  or not: the parameter windows' block index never moves), the output window's buffer after the body holds what the
  body's one store wrote, and the body obligation at a generic point follows from the run of the body.
-/
import proofs.«133947_j41910290874676_1_alg».proof.Proof.KIRun1
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x32x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x64x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2000x256 .f32 := win1_8.stage (cfg1.slots t 8)
abbrev hs1_8 (t : Fin cfg1.N) : (ms1_8 t).IsWhole := hstage1_8 ((cfg1.slots t 8).cast nbuf1_8)

/-- One staging buffer of the output window, through which its contents are stated. -/
abbrev VO1_8 : View sig .tc .vmem S2000x256 .f32 := (Memref.whole cc1_stg8_0 : Memref sig .tc .vmem S2000x256 .f32).view

/-- What the body leaves in the output window's staging buffer at point `t`: the pieces of its store read back. -/
def out1_8 (c : Dev nD) (t : Fin cfg1.N) : Vec F S2000x256 .f32 :=
  VO1_8.read (Elt F) (VO1_8.writes (Elt F) VO1_8.junk (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)).1)

/-- The store's one piece is the whole block, so the pieces cover it. -/
theorem cover1_8 (c : Dev nD) (i : grid1.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S8x32x64 .bf16) (harg4 : arg4.IsWhole) (arg5 : Memref sig .tc .vmem S8x64 .f32) (harg5 : arg5.IsWhole) (arg6 : Memref sig .tc .vmem S8x64x32 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S2000x256 .f32) (harg9 : arg9.IsWhole) (x0 : Vec F S2000x256 .f32) (x1 : Vec F S256x256 .bf16) (x2 : Vec F S256 .f32) (x3 : Vec F S8x32x64 .bf16) (x4 : Vec F S8x64 .f32) (x5 : Vec F S8x64x32 .f32) (x6 : Vec F S256x256 .bf16) (x7 : Vec F S256 .f32) (y : S2000x256.Idx) :
    ∃ pc ∈ (kernelRun1 c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun1 c i arg1 harg1 arg2 harg2 arg3 harg3 arg4 harg4 arg5 harg5 arg6 harg6 arg7 harg7 arg8 harg8 arg9 harg9 x0 x1 x2 x3 x4 x5 x6 x7).1 S2000x256.size (by sl_kernel_rfl) y

/-- The proof data of pipeline 1 on core `c`: the arrays as the region finds them; after the body each input's buffer
    at its block and the output's at what the store wrote; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in
/-- The body at any point: the inputs' memrefs hold their blocks, so the run applies; the invariant and the core's
    `owes` pass through unread; the output's buffer ends at the store's pieces read back (they cover it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_8 c _ _ _ _ _ _ _ _ _ _ _ _ _ _ _ _ _ _ _ _ _ _ _ _ _ _ _ )

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIFrame.lean ====
/-
  The whole program's run: @main is three stretches of host operations (the clipped inverse temperature, the per-head
  scaled slice weights and biases, the transposed weight matrices), then the pooling region, then the un-pooling
  region. The contents of every unscoped buffer at each boundary are a fold from the launch memory; each region is
  entered from the buffers the segment before left and leaves its arrays at what its write-backs give. The run
  terminates with every unscoped buffer at the last fold's contents, from which both the frame (the thirteen argument
  arrays end as launched) and the result array's contents are read.
-/
import proofs.«133947_j41910290874676_1_alg».proof.Proof.KIRegion0
import proofs.«133947_j41910290874676_1_alg».proof.Proof.KIRegion1
import proofs.«133947_j41910290874676_1_alg».proof.Proof.Gen.KernelIdeal.Regions
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 0 is entered (after the three host stretches), read at the TensorCore's references. -/
abbrev V3r : (c : Dev nD) → (b : Ref sig .tc) → Buf (Elt F) ((c : Thread nD τ).loc b) := fun c b => V3 m c b
/-- At region 0's exit: its arrays at what the pipeline leaves, every other buffer as entered. -/
def hW4 (c : Dev nD) : Valuation τ sig (Elt F) :=
  Pipeline.withArrays spec0 c (V3 m c) fun w => (dat0 (V3r m) c).arrAt w cfg0.N
theorem W4_arr (c : Dev nD) (w : Fin cfg0.W) :
    hW4 m c (Proc.devRef .tc (Pipeline.arrRef spec0 w)) = (dat0 (V3r m) c).arrAt w cfg0.N := by
  unfold hW4; exact Pipeline.withArrays_arr spec0 launch0.win.arr_inj c _ _ w
theorem W4_of_ne (c : Dev nD) (b : Ref sig .tc) (hb : ∀ w, Pipeline.arrRef spec0 w ≠ b) :
    hW4 m c (Proc.devRef .tc b) = V3 m c (Proc.devRef .tc b) := by
  unfold hW4; exact Pipeline.withArrays_of_ne spec0 c _ _ b hb
abbrev V4r : (c : Dev nD) → (b : Ref sig .tc) → Buf (Elt F) ((c : Thread nD τ).loc b) := fun c b => hW4 m c b
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- At region 1's exit. -/
def hW5 (c : Dev nD) : Valuation τ sig (Elt F) :=
  Pipeline.withArrays spec1 c (hW4 m c) fun w => (dat1 (V4r m) c).arrAt w cfg1.N
theorem W5_arr (c : Dev nD) (w : Fin cfg1.W) :
    hW5 m c (Proc.devRef .tc (Pipeline.arrRef spec1 w)) = (dat1 (V4r m) c).arrAt w cfg1.N := by
  unfold hW5; exact Pipeline.withArrays_arr spec1 launch1.win.arr_inj c _ _ w
theorem W5_of_ne (c : Dev nD) (b : Ref sig .tc) (hb : ∀ w, Pipeline.arrRef spec1 w ≠ b) :
    hW5 m c (Proc.devRef .tc b) = hW4 m c (Proc.devRef .tc b) := by
  unfold hW5; exact Pipeline.withArrays_of_ne spec1 c _ _ b hb
abbrev V5r : (c : Dev nD) → (b : Ref sig .tc) → Buf (Elt F) ((c : Thread nD τ).loc b) := fun c b => hW5 m c b
theorem hF1 (c : Dev nD) (w : Fin cfg1.W) : (dat1 (V4r m) c).arrAt w cfg1.N = V5r m c (Pipeline.arrRef spec1 w) :=
  (W5_arr m c w).symm
theorem hrest1 (c : Dev nD) : ∀ b, b ∉ Finset.univ.image (Pipeline.arrRef spec1) → V5r m c b = V4r m c b :=
  fun b hb => W5_of_ne m c b fun w e => hb (Finset.mem_image.mpr ⟨w, Finset.mem_univ _, e⟩)

/-- Every pipeline's proof data, each at its region's entry contents. -/
def hpdats : (p : Fin 2) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V4r m) c

/-! ### The arguments end as launched -/
theorem W5_main_arg0 (c : Dev nD) : hW5 m c (Proc.devRef .tc main_arg0) = m ((c : Thread nD τ).loc main_arg0) :=
  ((W5_arr m c 0).trans (((hpdats m 1 c).arrAt_in 0 rfl _).trans (A_eq1 (V4r m) c 0))).trans <| ((W4_arr m c 0).trans (((hpdats m 0 c).arrAt_in 0 rfl _).trans (A_eq0 (V3r m) c 0))).trans <|
    (V3_of m c main_arg0 (by decide)).trans <| (V2_of m c main_arg0 (by decide)).trans <| (V1_of m c main_arg0 (by decide)).trans rfl
theorem W5_main_arg1 (c : Dev nD) : hW5 m c (Proc.devRef .tc main_arg1) = m ((c : Thread nD τ).loc main_arg1) :=
  (W5_of_ne m c main_arg1 (by decide)).trans <| (W4_of_ne m c main_arg1 (by decide)).trans <|
    (V3_of m c main_arg1 (by decide)).trans <| (V2_of m c main_arg1 (by decide)).trans <| (V1_of m c main_arg1 (by decide)).trans rfl
theorem W5_main_arg2 (c : Dev nD) : hW5 m c (Proc.devRef .tc main_arg2) = m ((c : Thread nD τ).loc main_arg2) :=
  ((W5_arr m c 2).trans (((hpdats m 1 c).arrAt_in 2 rfl _).trans (A_eq1 (V4r m) c 2))).trans <| ((W4_arr m c 2).trans (((hpdats m 0 c).arrAt_in 2 rfl _).trans (A_eq0 (V3r m) c 2))).trans <|
    (V3_of m c main_arg2 (by decide)).trans <| (V2_of m c main_arg2 (by decide)).trans <| (V1_of m c main_arg2 (by decide)).trans rfl
theorem W5_main_arg3 (c : Dev nD) : hW5 m c (Proc.devRef .tc main_arg3) = m ((c : Thread nD τ).loc main_arg3) :=
  (W5_of_ne m c main_arg3 (by decide)).trans <| (W4_of_ne m c main_arg3 (by decide)).trans <|
    (V3_of m c main_arg3 (by decide)).trans <| (V2_of m c main_arg3 (by decide)).trans <| (V1_of m c main_arg3 (by decide)).trans rfl
theorem W5_main_arg4 (c : Dev nD) : hW5 m c (Proc.devRef .tc main_arg4) = m ((c : Thread nD τ).loc main_arg4) :=
  (W5_of_ne m c main_arg4 (by decide)).trans <| ((W4_arr m c 4).trans (((hpdats m 0 c).arrAt_in 4 rfl _).trans (A_eq0 (V3r m) c 4))).trans <|
    (V3_of m c main_arg4 (by decide)).trans <| (V2_of m c main_arg4 (by decide)).trans <| (V1_of m c main_arg4 (by decide)).trans rfl
theorem W5_main_arg5 (c : Dev nD) : hW5 m c (Proc.devRef .tc main_arg5) = m ((c : Thread nD τ).loc main_arg5) :=
  (W5_of_ne m c main_arg5 (by decide)).trans <| (W4_of_ne m c main_arg5 (by decide)).trans <|
    (V3_of m c main_arg5 (by decide)).trans <| (V2_of m c main_arg5 (by decide)).trans <| (V1_of m c main_arg5 (by decide)).trans rfl
theorem W5_main_arg6 (c : Dev nD) : hW5 m c (Proc.devRef .tc main_arg6) = m ((c : Thread nD τ).loc main_arg6) :=
  (W5_of_ne m c main_arg6 (by decide)).trans <| (W4_of_ne m c main_arg6 (by decide)).trans <|
    (V3_of m c main_arg6 (by decide)).trans <| (V2_of m c main_arg6 (by decide)).trans <| (V1_of m c main_arg6 (by decide)).trans rfl
theorem W5_main_arg7 (c : Dev nD) : hW5 m c (Proc.devRef .tc main_arg7) = m ((c : Thread nD τ).loc main_arg7) :=
  (W5_of_ne m c main_arg7 (by decide)).trans <| (W4_of_ne m c main_arg7 (by decide)).trans <|
    (V3_of m c main_arg7 (by decide)).trans <| (V2_of m c main_arg7 (by decide)).trans <| (V1_of m c main_arg7 (by decide)).trans rfl
theorem W5_main_arg8 (c : Dev nD) : hW5 m c (Proc.devRef .tc main_arg8) = m ((c : Thread nD τ).loc main_arg8) :=
  (W5_of_ne m c main_arg8 (by decide)).trans <| (W4_of_ne m c main_arg8 (by decide)).trans <|
    (V3_of m c main_arg8 (by decide)).trans <| (V2_of m c main_arg8 (by decide)).trans <| (V1_of m c main_arg8 (by decide)).trans rfl
theorem W5_main_arg9 (c : Dev nD) : hW5 m c (Proc.devRef .tc main_arg9) = m ((c : Thread nD τ).loc main_arg9) :=
  (W5_of_ne m c main_arg9 (by decide)).trans <| (W4_of_ne m c main_arg9 (by decide)).trans <|
    (V3_of m c main_arg9 (by decide)).trans <| (V2_of m c main_arg9 (by decide)).trans <| (V1_of m c main_arg9 (by decide)).trans rfl
theorem W5_main_arg10 (c : Dev nD) : hW5 m c (Proc.devRef .tc main_arg10) = m ((c : Thread nD τ).loc main_arg10) :=
  (W5_of_ne m c main_arg10 (by decide)).trans <| (W4_of_ne m c main_arg10 (by decide)).trans <|
    (V3_of m c main_arg10 (by decide)).trans <| (V2_of m c main_arg10 (by decide)).trans <| (V1_of m c main_arg10 (by decide)).trans rfl
theorem W5_main_arg11 (c : Dev nD) : hW5 m c (Proc.devRef .tc main_arg11) = m ((c : Thread nD τ).loc main_arg11) :=
  ((W5_arr m c 7).trans (((hpdats m 1 c).arrAt_in 7 rfl _).trans (A_eq1 (V4r m) c 7))).trans <| (W4_of_ne m c main_arg11 (by decide)).trans <|
    (V3_of m c main_arg11 (by decide)).trans <| (V2_of m c main_arg11 (by decide)).trans <| (V1_of m c main_arg11 (by decide)).trans rfl
theorem W5_main_arg12 (c : Dev nD) : hW5 m c (Proc.devRef .tc main_arg12) = m ((c : Thread nD τ).loc main_arg12) :=
  (W5_of_ne m c main_arg12 (by decide)).trans <| (W4_of_ne m c main_arg12 (by decide)).trans <|
    (V3_of m c main_arg12 (by decide)).trans <| (V2_of m c main_arg12 (by decide)).trans <| (V1_of m c main_arg12 (by decide)).trans rfl

abbrev 𝒱₀' : Variants := Variants.none
abbrev L' : GSem nD τ sig → Finset Unit := fun _ => ∅
abbrev lv' : GSem nD τ sig → Unit → ℕ := fun _ _ => 0
/-- What rides beside the buffers through every segment: the generator register at some state and the core owing nothing. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTn (c : Dev nD) : sProp 𝕄 := iprop(StableHlo.held (c : Thread nD τ) (Pipeline.ucRefs τ sig) (hW5 m c) ∗ ∃ r, prngReg c r)

/-! ## The regions as segments -/

set_option backward.isDefEq.respectTransparency.types false in
/-- Region 0 over the thread state: entered from every unscoped buffer at the contents the segment before left,
    left with this region's arrays at what the pipeline's write-backs leave and every other buffer as entered; the
    generator register goes into the region's invariant and comes back; nothing owed; no semaphore of the kernel's own. -/
def hreg0 : Pipeline.RegionSeg (pcfgs (F := F)) adm (hpdats m) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L' lv' 0 fun _ _ => rfl
  pre c := iprop(StableHlo.held (c : Thread nD τ) (Pipeline.ucRefs τ sig) (V3 m c) ∗ hR c)
  post c := iprop(StableHlo.held (c : Thread nD τ) (Pipeline.ucRefs τ sig) (hW4 m c) ∗ hR c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3r m) c)
    unfold Pipeline.ΦA
    iintro ⟨Hp, -, Hr⟩
    isplitl [Hr]; · iexact Hr
    iexact Hp
  hout c := by
    rw [Pipeline.ownSems0_none]
    refine BIBase.Entails.trans (hout0 (V3r m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (V3r m c) (V4r m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents the segment before left,
    left with this region's arrays at what the pipeline's write-backs leave and every other buffer as entered; the
    generator register goes into the region's invariant and comes back; nothing owed; no semaphore of the kernel's own. -/
def hreg1 : Pipeline.RegionSeg (pcfgs (F := F)) adm (hpdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (V4r m) c).loose
  hwaits := Pipeline.hwaits_of_owed_zero _ _ _ _ L' lv' 1 fun _ _ => rfl
  pre c := iprop(StableHlo.held (c : Thread nD τ) (Pipeline.ucRefs τ sig) (hW4 m c) ∗ hR c)
  post c := iprop(hTn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4r m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (V4r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (V4r m c) (V5r m c) ((hpdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five segments in order. -/
abbrev hsegs : List (Pipeline.Seg (pcfgs (F := F)) adm (hpdats m) () defs₀ 𝒱₀' L' lv') :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (hreg0 m),
    .region (hreg1 m) ]

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = hW5 m c b) :=
  Pipeline.θ_run_regions_kit (pcfgs (F := F)) adm (hpdats m) () cellOf_inj emb₁ defs₀ 𝒱₀' L' lv' m ρ main (hsegs m)
    (fun c Q => by
      rewrite [main_chain c, Pipeline.Seg.run_eq_chain,
        show (hsegs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ hR c)) (Tₙ := hTn m)
    (hch := ⟨fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = hW5 m c b)
    (hfin := fun c s' => by
      iintro ⟨⟨Hh, -⟩, HSI⟩
      unfold StableHlo.held
      imodintro
      iapply (pointsTo_read_all (Pipeline.ucRefs τ sig) (fun b => (((c : Thread nD τ)).1, b)) (hW5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c),
    (h c _ (mem_uc main_arg12 (by decide))).trans (W5_main_arg12 m c)⟩) (run_all m ρ)

end Cert.KernelIdeal.Hand

end
-- ==== Proof.RefRun.lean ====
import proofs.«133947_j41910290874676_1_alg».proof.Defs
import proofs.«133947_j41910290874676_1_alg».proof.Proof.Gen.ReferenceIdeal.Run
import proofs.«133947_j41910290874676_1_alg».proof.Proof.Gen.ReferenceIdeal.Read

noncomputable section

namespace Cert.ReferenceIdeal.RefValue

open Idealize.ShloMosaic Idealize.SL.Sem

end Cert.ReferenceIdeal.RefValue

end
-- ==== Proof.Spec.lean ====
/-
  The mathematics of the slice attention, index by index over the extended reals — the ONE function both programs
  compute at the ideal instance.

  With xm = x·Wxᵀ + bx and fm = x·Wfxᵀ + bfx (rows n < 200000, lanes k < 256; head h owns lanes 32h … 32h+31),
  T_h = min(5, max(0.1, temperature_h)), and per head the slice logits lg h n g (g < 64):
    w h n g     = softmax over g of lg h n ·
    norm h g    = Σ_n w h n g
    tok h g c   = (Σ_n w h n g · fm n (32h+c)) / (norm h g + 1e-5)
    q, k, v     = tok·Wqᵀ, tok·Wkᵀ, tok·Wvᵀ
    attn h g ·  = softmax over k of (Σ_d q h g d · k h k d) · 32^(-1/2)
    os h g d    = Σ_k attn h g k · v h k d
    ox n h c    = Σ_g w h n g · os h g c
    out n j     = Σ_k ox n (k / 32) (k % 32) · Wout j k + bout j
  The kernel scales the slice weights and biases by 1/T_h before the product (lgK); the reference divides the
  product by T_h after it (lgR). The literals stay the words the programs print: the same word on both sides is never
  evaluated.
-/
import Idealize.ShloMosaic.PureOps.Ideal

noncomputable section

namespace Cert.Spec

open Idealize.ShloMosaic
open scoped BigOperators

/-- The literals, as the extended reals their words denote. -/
def ninf : EReal := Ideal.ofBits .f32 0xFF800000#32
def c01 : EReal := Ideal.ofBits .f32 0x3DCCCCCD#32
def c5 : EReal := Ideal.ofBits .f32 0x40A00000#32
def c1 : EReal := Ideal.ofBits .f32 0x3F800000#32
def eps : EReal := Ideal.ofBits .f32 0x3727C5AC#32
def scale : EReal := Ideal.ofBits .f32 0x3E3504F3#32

/-- Lane `d` of head `h`. -/
def lane (h : Fin 8) (d : Fin 32) : Fin 256 := ⟨32 * h.val + d.val, by have := h.isLt; have := d.isLt; omega⟩

/-- The maximum of a row as both programs take it: the fold of `max` from `-∞`, met once more with `-∞`. -/
def rowmax {n : ℕ} (f : Fin n → EReal) : EReal := max ninf ((Finset.univ : Finset (Fin n)).fold max ninf f)

/-- The softmax of a row. -/
def softmax {n : ℕ} (f : Fin n → EReal) (g : Fin n) : EReal :=
  Ideal.div (Ideal.exp (f g - rowmax f)) (∑ g' : Fin n, Ideal.exp (f g' - rowmax f))

section
variable (X : Fin 200000 → Fin 256 → EReal) (Wx Wfx Wout : Fin 256 → Fin 256 → EReal) (bx bfx bout : Fin 256 → EReal)
variable (Ws : Fin 64 → Fin 32 → EReal) (bs : Fin 64 → EReal) (Wq Wk Wv : Fin 32 → Fin 32 → EReal) (tmp : Fin 8 → EReal)

/-- A row projection x·Wᵀ + b. -/
def proj (W : Fin 256 → Fin 256 → EReal) (b : Fin 256 → EReal) (n : Fin 200000) (k : Fin 256) : EReal :=
  (∑ i : Fin 256, X n i * W k i) + b k

/-- The clipped temperature of head `h`. -/
def T (h : Fin 8) : EReal := min c5 (max c01 (tmp h))

/-- The slice logits as the kernel forms them: weights and bias scaled by 1/T_h first. -/
def lgK (h : Fin 8) (n : Fin 200000) (g : Fin 64) : EReal :=
  (∑ d : Fin 32, proj X Wx bx n (lane h d) * (Ideal.div c1 (T tmp h) * Ws g d)) + Ideal.div c1 (T tmp h) * bs g

/-- The slice logits as the reference forms them: the sum divided by T_h. -/
def lgR (h : Fin 8) (n : Fin 200000) (g : Fin 64) : EReal :=
  Ideal.div ((∑ d : Fin 32, proj X Wx bx n (lane h d) * Ws g d) + bs g) (T tmp h)

variable (lg : Fin 8 → Fin 200000 → Fin 64 → EReal)

/-- The slice weights of row `n` in head `h`. -/
def w (h : Fin 8) (n : Fin 200000) (g : Fin 64) : EReal := softmax (lg h n) g

/-- Their column sums. -/
def norm (h : Fin 8) (g : Fin 64) : EReal := ∑ n : Fin 200000, w lg h n g

/-- The pooled tokens before normalisation. -/
def tokraw (h : Fin 8) (g : Fin 64) (c : Fin 32) : EReal := ∑ n : Fin 200000, w lg h n g * proj X Wfx bfx n (lane h c)

/-- The pooled tokens. -/
def tok (h : Fin 8) (g : Fin 64) (c : Fin 32) : EReal := Ideal.div (tokraw X Wfx bfx lg h g c) (norm lg h g + eps)

/-- A 32x32 projection of the pooled tokens (q, k or v). -/
def qkv (W : Fin 32 → Fin 32 → EReal) (h : Fin 8) (g : Fin 64) (e : Fin 32) : EReal :=
  ∑ d : Fin 32, tok X Wfx bfx lg h g d * W e d

/-- The scaled slice-to-slice scores. -/
def dots (h : Fin 8) (g k : Fin 64) : EReal :=
  (∑ d : Fin 32, qkv X Wfx bfx lg Wq h g d * qkv X Wfx bfx lg Wk h k d) * scale

/-- The slice attention's result. -/
def os (h : Fin 8) (g : Fin 64) (d : Fin 32) : EReal :=
  ∑ k : Fin 64, softmax (dots X Wfx bfx Wq Wk lg h g) k * qkv X Wfx bfx lg Wv h k d

/-- The un-pooled rows, from ANY slice result `o`, -/
def oxOf (o : Fin 8 → Fin 64 → Fin 32 → EReal) (n : Fin 200000) (h : Fin 8) (c : Fin 32) : EReal :=
  ∑ g : Fin 64, w lg h n g * o h g c

/-- and the output projection over them. -/
def outOf (o : Fin 8 → Fin 64 → Fin 32 → EReal) (n : Fin 200000) (j : Fin 256) : EReal :=
  (∑ k : Fin 256, oxOf lg o n ⟨k.val / 32, by have := k.isLt; omega⟩ ⟨k.val % 32, Nat.mod_lt _ (by decide)⟩ * Wout j k) + bout j

/-- The whole function. -/
def out (n : Fin 200000) (j : Fin 256) : EReal :=
  outOf Wout bout lg (os X Wfx bfx Wq Wk Wv lg) n j

end

end Cert.Spec

end
-- ==== Proof.KIArgs.lean ====
/-
  The arrays the two regions read, as functions of coordinates, at any contents `V` of the TensorCore's buffers:
  the rows x, the transposed weight matrices (read back at swapped coordinates, so that they are the matrices of the
  specification), the biases, and the slice logits as the kernels form them from the per-head slice weights and biases.
-/
import proofs.«133947_j41910290874676_1_alg».proof.Proof.Spec
import proofs.«133947_j41910290874676_1_alg».proof.Proof.KIFrame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

section
variable (V : (c : Dev nD) → (b : Ref sig .tc) → Buf (Elt Ideal) ((c : Thread nD τ).loc b)) (c : Dev nD)

/-- The rows. -/
def aX (n : Fin 200000) (i : Fin 256) : EReal := (V c main_arg0 : S200000x256.Idx → EReal) (ix2 n i)
/-- Wx, read off its transpose. -/
def aWx (k i : Fin 256) : EReal := (V c main_v15 : S256x256.Idx → EReal) (ix2 i k)
def abx (k : Fin 256) : EReal := (V c main_arg2 : S256.Idx → EReal) (ix1 k)
/-- Wfx, read off its transpose. -/
def aWfx (k i : Fin 256) : EReal := (V c main_v17 : S256x256.Idx → EReal) (ix2 i k)
def abfx (k : Fin 256) : EReal := (V c main_arg4 : S256.Idx → EReal) (ix1 k)
/-- Wout, read off its transpose. -/
def aWout (j k : Fin 256) : EReal := (V c main_v19 : S256x256.Idx → EReal) (ix2 k j)
def about (j : Fin 256) : EReal := (V c main_arg11 : S256.Idx → EReal) (ix1 j)
/-- Wq, Wk, Wv, read off their transposes. -/
def aWq (e d : Fin 32) : EReal := (V c main_v21 : S32x32.Idx → EReal) (ix2 d e)
def aWk (e d : Fin 32) : EReal := (V c main_v23 : S32x32.Idx → EReal) (ix2 d e)
def aWv (e d : Fin 32) : EReal := (V c main_v25 : S32x32.Idx → EReal) (ix2 d e)
/-- The per-head scaled slice weights (transposed) and biases. -/
def aWsT (h : Fin 8) (d : Fin 32) (g : Fin 64) : EReal := (V c main_v13 : S8x32x64.Idx → EReal) (ix3 h d g)
def abs' (h : Fin 8) (g : Fin 64) : EReal := (V c main_v11 : S8x64.Idx → EReal) (ix2 h g)
/-- The slice logits as both regions form them. -/
def alg (h : Fin 8) (n : Fin 200000) (g : Fin 64) : EReal :=
  (∑ d : Fin 32, Spec.proj (aX V c) (aWx V c) (abx V c) n (Spec.lane h d) * aWsT V c h d g) + abs' V c h g
/-- The pooling region's result array. -/
def aOS (h : Fin 8) (g : Fin 64) (d : Fin 32) : EReal := (V c main_v26 : S8x64x32.Idx → EReal) (ix3 h g d)

end

end Cert.KernelIdeal.Hand

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.LibMidAxis.lean ====
/-
  A contraction spelt without a matrix product — `sum (x[:, :, None] * S[None, :, :], axis = 1)` — read at an index:
  the cast [a, b] → [a, b, 1], the broadcasts [a, b, 1] → [a, b, c] and [1, b, c] → [a, b, c], and the add-reduction
  over the middle axis of an [a, b, c] array (and over the last axis of an [a, b] array), at the exact values.
  Variable extents, any element type for the layout operations.
-/
import Idealize.ShloMosaic.Lib.Pipeline.Value
import Idealize.ShloMosaic.Lib.ValueIdx
import Idealize.ShloMosaic.PureOps.Ideal.Laws

noncomputable section

namespace Cert.Lib.MidAxis

open Idealize.ShloMosaic Idealize.ShloMosaic.ValueIdx
open scoped BigOperators

variable {a b c : Nat}

/-- An [a, b] array cast to [a, b, 1] reads, at (i, j, 0), the array at (i, j). -/
theorem castLast_apply {α : Type} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- An [a, b, 1] array broadcast to [a, b, c] reads, at (i, j, k), the array at (i, j, 0). -/
theorem bcastLast_apply {α : Type} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, b, c] array broadcast to [a, b, c] reads, at (i, j, k), the array at (0, j, k). -/
theorem bcastFirst_apply {α : Type} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The add-reduction of an [a, b, c] array over its middle axis reads, at (i, k), the sum over j of the array at
    (i, j, k). -/
theorem sumMid_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (k : Fin c) :
    multiReduction .add [(1 : Fin 3)] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src ?_
  funext ax
  apply Fin.ext
  rw [h.lift_val]
  match ax with
  | ⟨0, _⟩ => rfl
  | ⟨1, _⟩ => rfl
  | ⟨2, _⟩ => rfl

/-- The add-reduction of an [a, b] array over its last axis reads, at i, the sum over j of the array at (i, j). -/
theorem sumLast_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ j : Fin b, src (ix2 i j) := by
  refine (Ideal.multiReduction_add_single src acc h hφ hacc (ix1 i)).trans ?_
  refine Finset.sum_congr rfl fun j _ => congrArg src ?_
  funext ax
  apply Fin.ext
  rw [h.lift_val]
  match ax with
  | ⟨0, _⟩ => rfl
  | ⟨1, _⟩ => rfl

end Cert.Lib.MidAxis

end
-- ==== Proof.KIAccOps.lean ====
/-
  The pooling body's arithmetic for one head, read index by index over the extended reals.

  A tile is 2000 rows of x. With xm = x·Wx + bx and fm = x·Wfx + bfx on the tile (the weight matrices are stored
  transposed), head h (lanes 32h … 32h+31) forms the slice logits lg r g = Σ_d xm r (32h+d) · Ws d g + bs g, their
  row softmax w r g, and adds Σ_r w r g · fm r (32h+c) to its slab of the pooled-token accumulator and Σ_r w r g to
  its row of the column-sum accumulator. Every head is the same chain of operations with another lane offset, so
  the chain is written once over the offset and read at an index once.
-/
import proofs.«133947_j41910290874676_1_alg».proof.Proof.KIArgs
import proofs.«133947_j41910290874676_1_alg».proof.Proof.LibPlainDot
import proofs.«133947_j41910290874676_1_alg».proof.Proof.LibColBroadcast
import proofs.«133947_j41910290874676_1_alg».proof.Proof.LibMidAxis
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## The tile's mathematics -/

/-- A projected row of a tile: x·Wᵀ + b at row r, lane k (W is read at (k, i)). -/
def tproj (X : Fin 2000 → Fin 256 → EReal) (W : Fin 256 → Fin 256 → EReal) (b : Fin 256 → EReal) (r : Fin 2000) (k : Fin 256) : EReal :=
  (∑ i : Fin 256, X r i * W k i) + b k

/-- The slice logits of row r of a tile in head h. -/
def tlg (X : Fin 2000 → Fin 256 → EReal) (W : Fin 256 → Fin 256 → EReal) (b : Fin 256 → EReal)
    (Ws : Fin 32 → Fin 64 → EReal) (bs : Fin 64 → EReal) (h : Fin 8) (r : Fin 2000) (g : Fin 64) : EReal :=
  (∑ d : Fin 32, tproj X W b r (Spec.lane h d) * Ws d g) + bs g

/-! ## The two big products -/

/-- x·Wᵀ + b on a tile, at (r, k). -/
theorem pay38_apply (x0 : Vec Ideal S2000x256 .f32) (w : Vec Ideal S256x256 .bf16) (b : Vec Ideal S256 .f32) (r : Fin 2000) (k : Fin 256) :
    (k0_pay38 (F := Ideal) x0 w b : S2000x256.Idx → EReal) (ix2 r k)
      = tproj (fun r i => x0 (ix2 r i)) (fun k i => w (ix2 i k)) (fun k => b (ix1 k)) r k := by
  unfold k0_pay38 k0_pay37 tproj
  dsimp only
  refine congrArg₂ (· + ·) ?_ ?_
  · refine (Cert.Lib.PlainDot.matmul_zero_apply _ none _ _ r k).trans ?_
    refine Finset.sum_congr rfl fun i _ => ?_
    exact congrArg (fun z => (x0 (ix2 r i) : EReal) * z) (congrFun (shapeCast_self w _) (ix2 i k))
  · exact (broadcastTo_1b_ab_apply _ _ r k).trans (shapeCast_a_1a_apply b _ 0 k)

/-- The second projection is the same term. -/
theorem pay39_apply (x0 : Vec Ideal S2000x256 .f32) (w : Vec Ideal S256x256 .bf16) (b : Vec Ideal S256 .f32) (r : Fin 2000) (k : Fin 256) :
    (k0_pay39 (F := Ideal) x0 w b : S2000x256.Idx → EReal) (ix2 r k)
      = tproj (fun r i => x0 (ix2 r i)) (fun k i => w (ix2 i k)) (fun k => b (ix1 k)) r k :=
  pay38_apply x0 w b r k

/-! ## The product of the token update: the contraction is over the ROWS of both operands -/

theorem tdot_lhs0 (i : S64x32.Idx) (q : dot_S2000x64_S2000x32_S64x32_0_0_1_1_n_n.contr.Idx) :
    (dot_S2000x64_S2000x32_S64x32_0_0_1_1_n_n.lhsIdx i q 0).val = (q ⟨0, by decide⟩).val :=
  dot_S2000x64_S2000x32_S64x32_0_0_1_1_n_n.lhsIdx_val_of_single rfl i q
theorem tdot_lhs1 (i : S64x32.Idx) (q : dot_S2000x64_S2000x32_S64x32_0_0_1_1_n_n.contr.Idx) :
    (dot_S2000x64_S2000x32_S64x32_0_0_1_1_n_n.lhsIdx i q 1).val = (i 0).val := by
  unfold DotDims.lhsIdx
  rw [dif_neg (show ¬(1 : Fin S2000x64.rank) ∈ dot_S2000x64_S2000x32_S64x32_0_0_1_1_n_n.lhsBatch by decide), dif_pos (show (1 : Fin S2000x64.rank) ∈ dot_S2000x64_S2000x32_S64x32_0_0_1_1_n_n.lhsNonContracting by decide)]
  rfl
theorem tdot_rhs0 (i : S64x32.Idx) (q : dot_S2000x64_S2000x32_S64x32_0_0_1_1_n_n.contr.Idx) :
    (dot_S2000x64_S2000x32_S64x32_0_0_1_1_n_n.rhsIdx i q 0).val = (q ⟨0, by decide⟩).val :=
  dot_S2000x64_S2000x32_S64x32_0_0_1_1_n_n.rhsIdx_val_of_single rfl i q
theorem tdot_rhs1 (i : S64x32.Idx) (q : dot_S2000x64_S2000x32_S64x32_0_0_1_1_n_n.contr.Idx) :
    (dot_S2000x64_S2000x32_S64x32_0_0_1_1_n_n.rhsIdx i q 1).val = (i 1).val := by
  unfold DotDims.rhsIdx
  rw [dif_neg (show ¬(1 : Fin S2000x32.rank) ∈ dot_S2000x64_S2000x32_S64x32_0_0_1_1_n_n.rhsBatch by decide), dif_pos (show (1 : Fin S2000x32.rank) ∈ dot_S2000x64_S2000x32_S64x32_0_0_1_1_n_n.rhsNonContracting by decide)]
  rfl

/-- A [2000, 64]ᵀ · [2000, 32] product into the zero splat, at (g, c): the sum over the rows r of lhs (r, g) · rhs (r, c). -/
theorem tdot_apply {φ₁ φ₂ : FTy} (lhs : FVec Ideal S2000x64 φ₁) (rhs : FVec Ideal S2000x32 φ₂) (g : Fin 64) (c' : Fin 32) :
    (matmul dot_S2000x64_S2000x32_S64x32_0_0_1_1_n_n none lhs rhs (constant S64x32 .f32 0x00000000#32) : S64x32.Idx → EReal) (ix2 g c')
      = ∑ r : Fin 2000, (lhs (ix2 r g) : EReal) * rhs (ix2 r c') := by
  refine (Ideal.matmul_constant_zero_apply dot_S2000x64_S2000x32_S64x32_0_0_1_1_n_n none lhs rhs (ix2 g c')).trans ?_
  rw [← Equiv.sum_comp (contrEquiv1 dot_S2000x64_S2000x32_S64x32_0_0_1_1_n_n 2000 rfl rfl).symm]
  refine Finset.sum_congr rfl fun k _ => ?_
  have hk := contrEquiv1_symm_val dot_S2000x64_S2000x32_S64x32_0_0_1_1_n_n 2000 rfl rfl k
  have el : dot_S2000x64_S2000x32_S64x32_0_0_1_1_n_n.lhsIdx (ix2 g c') ((contrEquiv1 dot_S2000x64_S2000x32_S64x32_0_0_1_1_n_n 2000 rfl rfl).symm k) = ix2 k g :=
    funext fun ax => Fin.ext (by
      match ax with
      | ⟨0, _⟩ => exact (tdot_lhs0 _ _).trans hk
      | ⟨1, _⟩ => exact tdot_lhs1 _ _)
  have er : dot_S2000x64_S2000x32_S64x32_0_0_1_1_n_n.rhsIdx (ix2 g c') ((contrEquiv1 dot_S2000x64_S2000x32_S64x32_0_0_1_1_n_n 2000 rfl rfl).symm k) = ix2 k c' :=
    funext fun ax => Fin.ext (by
      match ax with
      | ⟨0, _⟩ => exact (tdot_rhs0 _ _).trans hk
      | ⟨1, _⟩ => exact tdot_rhs1 _ _)
  rw [el, er]

/-! ## One head's chain, over its lane offset -/

/-- Lanes off … off+31 of a projected tile. -/
def gSl (off : Nat) (hs : S2000x256.Slices ![0, off] S2000x32) (v : FVec Ideal S2000x256 .f32) : FVec Ideal S2000x32 .bf16 :=
  truncf .bf16 (extractStridedSlice S2000x32 ![0, off] v hs) bitsLt_bf16_f32

theorem gSl_apply (off : Nat) (hs : S2000x256.Slices ![0, off] S2000x32) (v : FVec Ideal S2000x256 .f32)
    (r : Fin 2000) (d : Fin 32) (k : Fin 256) (hk : k.val = off + d.val) :
    (gSl off hs v : S2000x32.Idx → EReal) (ix2 r d) = v (ix2 r k) :=
  slice2_axis1_apply off v hs r d k hk

/-- The slice logits of a head: its 32 lanes of xm times the head's [32, 64] slice weights, plus its bias row. -/
def gLg (q : FVec Ideal S2000x32 .bf16) (v23 : Vec Ideal S1x32x64 .bf16) (v26 : Vec Ideal S1x64 .f32) : FVec Ideal S2000x64 .f32 :=
  addf (matmul dot_S2000x32_S32x64_S2000x64_1_0_0_1_n_n none q (shapeCast S32x64 v23 shapeCasts_S1x32x64_S32x64 : FVec Ideal S32x64 .bf16) (constant S2000x64 .f32 0x00000000#32))
    (broadcastTo S2000x64 (shapeCast S1x64 (shapeCast S64 v26 shapeCasts_S1x64_S64 : FVec Ideal S64 .f32) shapeCasts_S64_S1x64 : FVec Ideal S1x64 .f32) broadcasts_S1x64_S2000x64)

theorem gLg_apply (q : FVec Ideal S2000x32 .bf16) (v23 : Vec Ideal S1x32x64 .bf16) (v26 : Vec Ideal S1x64 .f32) (r : Fin 2000) (g : Fin 64) :
    (gLg q v23 v26 : S2000x64.Idx → EReal) (ix2 r g)
      = (∑ d : Fin 32, (q (ix2 r d) : EReal) * v23 (ix3 (0 : Fin 1) d g)) + v26 (ix2 (0 : Fin 1) g) := by
  unfold gLg
  refine congrArg₂ (· + ·) ?_ ?_
  · refine (Cert.Lib.PlainDot.matmul_zero_apply _ none _ _ r g).trans ?_
    refine Finset.sum_congr rfl fun d _ => ?_
    exact congrArg (fun z => (q (ix2 r d) : EReal) * z) (shapeCast_1ab_ab_apply v23 _ d g)
  · exact (broadcastTo_1b_ab_apply _ _ r g).trans ((shapeCast_a_1a_apply _ _ 0 g).trans (shapeCast_1a_a_apply v26 _ g))

/-- The row maximum from -∞. -/
def gMx (lg : FVec Ideal S2000x64 .f32) : FVec Ideal S2000 .f32 :=
  multiReduction .maximumf [1] S2000 lg 0xFF800000#32 reduces_S2000x64_S2000 (.inl rfl) rfl

theorem gMx_apply (lg : FVec Ideal S2000x64 .f32) (r : Fin 2000) :
    (gMx lg : S2000.Idx → EReal) (ix1 r) = (Finset.univ : Finset (Fin 64)).fold max Spec.ninf (fun g => lg (ix2 r g)) := by
  unfold gMx
  refine (Ideal.multiReduction_maximumf_single lg _ reduces_S2000x64_S2000 _ _ (ix1 r)).trans ?_
  have e : (lg ∘ reduces_S2000x64_S2000.lift (ix1 r)) = fun g : Fin 64 => lg (ix2 r g) := by
    funext g
    refine congrArg lg ?_
    funext ax
    apply Fin.ext
    rw [Shape.Reduces.lift_val]
    match ax with
    | ⟨0, _⟩ => rfl
    | ⟨1, _⟩ => rfl
  rw [e]
  rfl

/-- The logits minus the row maximum met once more with a splat of -∞. -/
def gSub (lg : FVec Ideal S2000x64 .f32) (mx : FVec Ideal S2000 .f32) (cst : Ideal .f32) : FVec Ideal S2000x64 .f32 :=
  subf lg (broadcastTo S2000x64 (shapeCast S2000x1 (maximumf (broadcast S2000 cst) mx) shapeCasts_S2000_S2000x1) broadcasts_S2000x1_S2000x64)

theorem gSub_apply (lg : FVec Ideal S2000x64 .f32) (mx : FVec Ideal S2000 .f32) (cst : Ideal .f32) (r : Fin 2000) (g : Fin 64) :
    (gSub lg mx cst : S2000x64.Idx → EReal) (ix2 r g) = lg (ix2 r g) - max (cst : EReal) (mx (ix1 r)) := by
  unfold gSub
  refine congrArg (fun z => (lg (ix2 r g) : EReal) - z) ?_
  exact (Cert.Lib.Cols.bcastCol_apply _ _ r g).trans (Cert.Lib.Cols.col_apply _ _ r)

/-- The exponentials divided by their row sums. -/
def gDiv (e : FVec Ideal S2000x64 .f32) : FVec Ideal S2000x64 .f32 :=
  divf e (broadcastTo S2000x64 (shapeCast S2000x1 (multiReduction .add [1] S2000 e 0x00000000#32 reduces_S2000x64_S2000 (.inl rfl) rfl)
    shapeCasts_S2000_S2000x1) broadcasts_S2000x1_S2000x64)

theorem gDiv_apply (e : FVec Ideal S2000x64 .f32) (r : Fin 2000) (g : Fin 64) :
    (gDiv e : S2000x64.Idx → EReal) (ix2 r g) = Ideal.div (e (ix2 r g)) (∑ g' : Fin 64, e (ix2 r g')) := by
  unfold gDiv
  refine congrArg (fun z => Ideal.div (e (ix2 r g) : EReal) z) ?_
  exact (Cert.Lib.Cols.bcastCol_apply _ _ r g).trans ((Cert.Lib.Cols.col_apply _ _ r).trans
    (Cert.Lib.MidAxis.sumLast_apply e _ _ _ _ r))

/-- The token update: the head's slab plus wᵀ · fm over the tile's rows. -/
def gTok (w : FVec Ideal S2000x64 .f32) (q : FVec Ideal S2000x32 .bf16) (v44 : Vec Ideal S1x64x32 .f32) : FVec Ideal S1x64x32 .f32 :=
  shapeCast S1x64x32 (addf (shapeCast S64x32 v44 shapeCasts_S1x64x32_S64x32 : FVec Ideal S64x32 .f32)
    (matmul dot_S2000x64_S2000x32_S64x32_0_0_1_1_n_n none (truncf .bf16 w bitsLt_bf16_f32) q (constant S64x32 .f32 0x00000000#32)))
    shapeCasts_S64x32_S1x64x32

theorem gTok_apply (w : FVec Ideal S2000x64 .f32) (q : FVec Ideal S2000x32 .bf16) (v44 : Vec Ideal S1x64x32 .f32)
    (u : Fin 1) (g : Fin 64) (c' : Fin 32) :
    (gTok w q v44 : S1x64x32.Idx → EReal) (ix3 u g c')
      = v44 (ix3 u g c') + ∑ r : Fin 2000, (w (ix2 r g) : EReal) * q (ix2 r c') := by
  obtain rfl : u = 0 := Subsingleton.elim _ _
  unfold gTok
  refine (shapeCast_ab_1ab_apply _ _ 0 g c').trans ?_
  refine congrArg₂ (· + ·) ?_ ?_
  · exact shapeCast_1ab_ab_apply v44 _ g c'
  · exact tdot_apply _ q g c'

/-- The column-sum update: the head's row plus the sum of w over the tile's rows. -/
def gNorm (w : FVec Ideal S2000x64 .f32) (v50 : Vec Ideal S1x64 .f32) : FVec Ideal S1x64 .f32 :=
  shapeCast S1x64 (addf (shapeCast S64 v50 shapeCasts_S1x64_S64 : FVec Ideal S64 .f32)
    (multiReduction .add [0] S64 w 0x00000000#32 reduces_S2000x64_S64 (.inl rfl) rfl)) shapeCasts_S64_S1x64

theorem gNorm_apply (w : FVec Ideal S2000x64 .f32) (v50 : Vec Ideal S1x64 .f32) (u : Fin 1) (g : Fin 64) :
    (gNorm w v50 : S1x64.Idx → EReal) (ix2 u g) = v50 (ix2 u g) + ∑ r : Fin 2000, (w (ix2 r g) : EReal) := by
  obtain rfl : u = 0 := Subsingleton.elim _ _
  unfold gNorm
  refine (shapeCast_a_1a_apply _ _ 0 g).trans ?_
  refine congrArg₂ (· + ·) ?_ ?_
  · exact shapeCast_1a_a_apply v50 _ g
  · refine (Ideal.multiReduction_add_single w _ reduces_S2000x64_S64 _ _ (ix1 g)).trans ?_
    refine Finset.sum_congr rfl fun r _ => congrArg w ?_
    funext ax
    apply Fin.ext
    rw [Shape.Reduces.lift_val]
    match ax with
    | ⟨0, _⟩ => rfl
    | ⟨1, _⟩ => rfl

end Cert.KernelIdeal.Hand

end
-- ==== Proof.KIAccHead.lean ====
/-
  One head of the pooling body on one tile, as a function of its lane offset: the softmax weights of the tile's rows,
  and what the head adds to its slab of the pooled-token accumulator and to its row of the column-sum accumulator.
  With w r g the row softmax of the head's slice logits and fm the second projection, the slab at (g, c) grows by
  Σ_r w r g · fm r (32h + c) and the row at g by Σ_r w r g, the sums over the tile's 2000 rows.
-/
import proofs.«133947_j41910290874676_1_alg».proof.Proof.KIAccOps
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

section Head
variable (off : Nat) (hs : S2000x256.Slices ![0, off] S2000x32)
variable (x0 : Vec Ideal S2000x256 .f32) (x1 : Vec Ideal S256x256 .bf16) (x2 : Vec Ideal S256 .f32)
  (x3 : Vec Ideal S256x256 .bf16) (x4 : Vec Ideal S256 .f32) (v23 : Vec Ideal S1x32x64 .bf16) (v26 : Vec Ideal S1x64 .f32)

/-- The head's logits on the tile. -/
def headLg : FVec Ideal S2000x64 .f32 := gLg (gSl off hs (k0_pay38 x0 x1 x2)) v23 v26

/-- The head's softmax weights on the tile. -/
def headW : FVec Ideal S2000x64 .f32 :=
  gDiv (exp (gSub (headLg off hs x0 x1 x2 v23 v26) (gMx (headLg off hs x0 x1 x2 v23 v26)) (Scalar.ofBits .f32 0xFF800000#32)))

/-- What the head leaves in its slab of the pooled-token accumulator, found at v44. -/
def headTok (v44 : Vec Ideal S1x64x32 .f32) : FVec Ideal S1x64x32 .f32 :=
  gTok (headW off hs x0 x1 x2 v23 v26) (gSl off hs (k0_pay39 x0 x3 x4)) v44

/-- What the head leaves in its row of the column-sum accumulator, found at v50. -/
def headNorm (v50 : Vec Ideal S1x64 .f32) : FVec Ideal S1x64 .f32 := gNorm (headW off hs x0 x1 x2 v23 v26) v50

variable (h : Fin 8) (hoff : off = 32 * h.val)
variable (Ws : Fin 32 → Fin 64 → EReal) (hWs : ∀ d g, (v23 (ix3 (0 : Fin 1) d g) : EReal) = Ws d g)
  (bs : Fin 64 → EReal) (hbs : ∀ g, (v26 (ix2 (0 : Fin 1) g) : EReal) = bs g)
include hoff hWs hbs

theorem headLg_apply (r : Fin 2000) (g : Fin 64) :
    (headLg off hs x0 x1 x2 v23 v26 : S2000x64.Idx → EReal) (ix2 r g) = (tlg (fun r i => x0 (ix2 r i)) (fun k i => x1 (ix2 i k)) (fun k => x2 (ix1 k)) Ws bs h r) g := by
  unfold headLg tlg
  refine (gLg_apply _ v23 v26 r g).trans ?_
  refine congrArg₂ (· + ·) (Finset.sum_congr rfl fun d _ => ?_) (hbs g)
  refine congrArg₂ (· * ·) ?_ (hWs d g)
  exact (gSl_apply off hs _ r d (Spec.lane h d) (by show 32 * h.val + d.val = off + d.val; omega)).trans
    (pay38_apply x0 x1 x2 r _)

theorem headW_apply (r : Fin 2000) (g : Fin 64) :
    (headW off hs x0 x1 x2 v23 v26 : S2000x64.Idx → EReal) (ix2 r g) = Spec.softmax (tlg (fun r i => x0 (ix2 r i)) (fun k i => x1 (ix2 i k)) (fun k => x2 (ix1 k)) Ws bs h r) g := by
  have hlg := headLg_apply off hs x0 x1 x2 v23 v26 h hoff Ws hWs bs hbs r
  have hmx : max (Scalar.ofBits (F := Ideal) .f32 0xFF800000#32 : EReal) ((gMx (headLg off hs x0 x1 x2 v23 v26) : S2000.Idx → EReal) (ix1 r))
      = Spec.rowmax (tlg (fun r i => x0 (ix2 r i)) (fun k i => x1 (ix2 i k)) (fun k => x2 (ix1 k)) Ws bs h r) := by
    unfold Spec.rowmax
    refine congrArg (max Spec.ninf) ((gMx_apply _ r).trans ?_)
    exact congrArg (Finset.univ.fold max Spec.ninf) (funext hlg)
  have he : ∀ g', (exp (gSub (headLg off hs x0 x1 x2 v23 v26) (gMx (headLg off hs x0 x1 x2 v23 v26)) (Scalar.ofBits .f32 0xFF800000#32)) : S2000x64.Idx → EReal) (ix2 r g')
      = Ideal.exp ((tlg (fun r i => x0 (ix2 r i)) (fun k i => x1 (ix2 i k)) (fun k => x2 (ix1 k)) Ws bs h r) g' - Spec.rowmax (tlg (fun r i => x0 (ix2 r i)) (fun k i => x1 (ix2 i k)) (fun k => x2 (ix1 k)) Ws bs h r)) := by
    intro g'
    show Ideal.exp _ = _
    refine congrArg Ideal.exp ((gSub_apply _ _ _ r g').trans ?_)
    exact congrArg₂ (· - ·) (hlg g') hmx
  unfold headW Spec.softmax
  refine (gDiv_apply _ r g).trans ?_
  exact congrArg₂ Ideal.div (he g) (Finset.sum_congr rfl fun g' _ => he g')

theorem headTok_apply (v44 : Vec Ideal S1x64x32 .f32) (u : Fin 1) (g : Fin 64) (c' : Fin 32) :
    (headTok off hs x0 x1 x2 x3 x4 v23 v26 v44 : S1x64x32.Idx → EReal) (ix3 u g c')
      = v44 (ix3 u g c') + ∑ r : Fin 2000, Spec.softmax (tlg (fun r i => x0 (ix2 r i)) (fun k i => x1 (ix2 i k)) (fun k => x2 (ix1 k)) Ws bs h r) g
          * tproj (fun r i => x0 (ix2 r i)) (fun k i => x3 (ix2 i k)) (fun k => x4 (ix1 k)) r (Spec.lane h c') := by
  unfold headTok
  refine (gTok_apply _ _ v44 u g c').trans ?_
  refine congrArg (fun z => (v44 (ix3 u g c') : EReal) + z) (Finset.sum_congr rfl fun r _ => ?_)
  refine congrArg₂ (· * ·) (headW_apply off hs x0 x1 x2 v23 v26 h hoff Ws hWs bs hbs r g) ?_
  exact (gSl_apply off hs _ r c' (Spec.lane h c') (by show 32 * h.val + c'.val = off + c'.val; omega)).trans
    (pay39_apply x0 x3 x4 r _)

theorem headNorm_apply (v50 : Vec Ideal S1x64 .f32) (u : Fin 1) (g : Fin 64) :
    (headNorm off hs x0 x1 x2 v23 v26 v50 : S1x64.Idx → EReal) (ix2 u g)
      = v50 (ix2 u g) + ∑ r : Fin 2000, Spec.softmax (tlg (fun r i => x0 (ix2 r i)) (fun k i => x1 (ix2 i k)) (fun k => x2 (ix1 k)) Ws bs h r) g := by
  unfold headNorm
  refine (gNorm_apply _ v50 u g).trans ?_
  exact congrArg (fun z => (v50 (ix2 u g) : EReal) + z) (Finset.sum_congr rfl fun r _ => headW_apply off hs x0 x1 x2 v23 v26 h hoff Ws hWs bs hbs r g)

end Head

end Cert.KernelIdeal.Hand

end
-- ==== Proof.KIAccInst.lean ====
/-
  The eight heads of the pooling body are one chain of operations at eight lane offsets: each head's stored value,
  as the body spells it, is the common chain at offset 32h (the spellings differ only in where the body's text
  names an intermediate value; unfolding the names gives the same term).
-/
import proofs.«133947_j41910290874676_1_alg».proof.Proof.KIAccHead
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

theorem tok_h7 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay2 (k0_pay81 (k0_pay39 x0 x3 x4)) (k0_pay82 (k0_pay38 x0 x1 x2) v23 v26) (k0_pay83 (k0_pay38 x0 x1 x2) v23 v26) v44
      = headTok 224 slices_S2000x256_o0_224_S2000x32 x0 x1 x2 x3 x4 v23 v26 v44 := rfl
theorem tok_h6 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay79 (k0_pay75 (k0_pay39 x0 x3 x4)) (k0_pay76 (k0_pay38 x0 x1 x2) v23 v26) (k0_pay77 (k0_pay38 x0 x1 x2) v23 v26) (FloatOps.ofBits (F := Ideal) .f32 4286578688#32) v44
      = headTok 192 slices_S2000x256_o0_192_S2000x32 x0 x1 x2 x3 x4 v23 v26 v44 := rfl
theorem tok_h5 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay73 (k0_pay68 (k0_pay39 x0 x3 x4)) (k0_pay69 (k0_pay38 x0 x1 x2) v23 v26) (k0_pay70 (k0_pay38 x0 x1 x2) v23 v26) k0_pay71 v44
      = headTok 160 slices_S2000x256_o0_160_S2000x32 x0 x1 x2 x3 x4 v23 v26 v44 := rfl
theorem tok_h4 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay66 (k0_pay62 (k0_pay39 x0 x3 x4)) (k0_pay63 (k0_pay38 x0 x1 x2) v23 v26) (k0_pay64 (k0_pay38 x0 x1 x2) v23 v26) v44
      = headTok 128 slices_S2000x256_o0_128_S2000x32 x0 x1 x2 x3 x4 v23 v26 v44 := rfl
theorem tok_h3 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay60 (k0_pay56 (k0_pay39 x0 x3 x4)) (k0_pay57 (k0_pay38 x0 x1 x2) v23 v26) (k0_pay58 (k0_pay38 x0 x1 x2) v23 v26) v44
      = headTok 96 slices_S2000x256_o0_96_S2000x32 x0 x1 x2 x3 x4 v23 v26 v44 := rfl
theorem tok_h2 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay54 (k0_pay50 (k0_pay39 x0 x3 x4)) (k0_pay51 (k0_pay38 x0 x1 x2) v23 v26) (k0_pay52 (k0_pay38 x0 x1 x2) v23 v26) v44
      = headTok 64 slices_S2000x256_o0_64_S2000x32 x0 x1 x2 x3 x4 v23 v26 v44 := rfl
theorem tok_h1 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay48 (k0_pay45 (k0_pay39 x0 x3 x4)) (k0_pay46 (k0_pay38 x0 x1 x2) v23 v26) v44
      = headTok 32 slices_S2000x256_o0_32_S2000x32 x0 x1 x2 x3 x4 v23 v26 v44 := rfl
theorem tok_h0 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v44 : Vec Ideal S1x64x32 .f32) :
    k0_pay43 (k0_pay40 x0 x3 x4) (k0_pay41 x0 x1 x2 v23 v26) v44
      = headTok 0 slices_S2000x256_o0_0_S2000x32 x0 x1 x2 x3 x4 v23 v26 v44 := rfl
theorem norm_h7 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay3 (k0_pay82 (k0_pay38 x0 x1 x2) v23 v26) (k0_pay83 (k0_pay38 x0 x1 x2) v23 v26) v50
      = headNorm 224 slices_S2000x256_o0_224_S2000x32 x0 x1 x2 v23 v26 v50 := rfl
theorem norm_h6 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay80 (k0_pay76 (k0_pay38 x0 x1 x2) v23 v26) (k0_pay77 (k0_pay38 x0 x1 x2) v23 v26) (FloatOps.ofBits (F := Ideal) .f32 4286578688#32) v50
      = headNorm 192 slices_S2000x256_o0_192_S2000x32 x0 x1 x2 v23 v26 v50 := rfl
theorem norm_h5 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay74 (k0_pay69 (k0_pay38 x0 x1 x2) v23 v26) (k0_pay70 (k0_pay38 x0 x1 x2) v23 v26) k0_pay71 v50
      = headNorm 160 slices_S2000x256_o0_160_S2000x32 x0 x1 x2 v23 v26 v50 := rfl
theorem norm_h4 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay67 (k0_pay63 (k0_pay38 x0 x1 x2) v23 v26) (k0_pay64 (k0_pay38 x0 x1 x2) v23 v26) v50
      = headNorm 128 slices_S2000x256_o0_128_S2000x32 x0 x1 x2 v23 v26 v50 := rfl
theorem norm_h3 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay61 (k0_pay57 (k0_pay38 x0 x1 x2) v23 v26) (k0_pay58 (k0_pay38 x0 x1 x2) v23 v26) v50
      = headNorm 96 slices_S2000x256_o0_96_S2000x32 x0 x1 x2 v23 v26 v50 := rfl
theorem norm_h2 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay55 (k0_pay51 (k0_pay38 x0 x1 x2) v23 v26) (k0_pay52 (k0_pay38 x0 x1 x2) v23 v26) v50
      = headNorm 64 slices_S2000x256_o0_64_S2000x32 x0 x1 x2 v23 v26 v50 := rfl
theorem norm_h1 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay49 (k0_pay46 (k0_pay38 x0 x1 x2) v23 v26) v50
      = headNorm 32 slices_S2000x256_o0_32_S2000x32 x0 x1 x2 v23 v26 v50 := rfl
theorem norm_h0 (x0 : Vec Ideal S2000x256 .f32) (x1 : Vec Ideal S256x256 .bf16) (x2 : Vec Ideal S256 .f32) (x3 : Vec Ideal S256x256 .bf16) (x4 : Vec Ideal S256 .f32) (v23 : Vec Ideal S1x32x64 .bf16) (v26 : Vec Ideal S1x64 .f32) (v50 : Vec Ideal S1x64 .f32) :
    k0_pay44 (k0_pay41 x0 x1 x2 v23 v26) v50
      = headNorm 0 slices_S2000x256_o0_0_S2000x32 x0 x1 x2 v23 v26 v50 := rfl

end Cert.KernelIdeal.Hand

end
-- ==== Proof.KIAccPieces.lean ====
/-
  A head's stores, as blocks of ONE function of the accumulator's index. Head h stores into slab h of the pooled-token
  accumulator [8, 64, 32] and into row h of the column-sum accumulator [8, 64]; its loads of the head's slice weights
  and biases read slab h and row h of those arrays. So what a point leaves in the token accumulator is, at (h, g, c),
  what it found there plus Σ_r w_h r g · fm r (32h + c) over the tile's rows, and in the column-sum accumulator at
  (h, g) what it found plus Σ_r w_h r g — whichever head's store wrote the entry.
-/
import proofs.«133947_j41910290874676_1_alg».proof.Proof.KIAccInst
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

/-! ## Slabs -/

/-- Local index (·, a, b) of slab k of an [8, m, n] array is the array's index (k, a, b). -/
theorem slab3 {m n : ℕ} (hh : ℕ) (h : Fin 8) (hv : h.val = hh)
    (inb : ∀ a, (![hh, 0, 0] : Fin 3 → ℕ) a + (![1, m, n] : Fin 3 → ℕ) a ≤ (⟨3, ![8, m, n]⟩ : Shape).size a)
    (u : Fin 1) (a : Fin m) (b : Fin n) :
    (Rect.unit (s := ⟨3, ![8, m, n]⟩) ![hh, 0, 0] ![1, m, n] inb).emb (ix3 u a b) = ix3 h a b := by
  funext ax
  apply Fin.ext
  match ax with
  | ⟨0, _⟩ => show hh + 1 * u.val = h.val; omega
  | ⟨1, _⟩ => show 0 + 1 * a.val = a.val; omega
  | ⟨2, _⟩ => show 0 + 1 * b.val = b.val; omega

/-- Local index (·, a) of row k of an [8, m] array is the array's index (k, a). -/
theorem slab2 {m : ℕ} (hh : ℕ) (h : Fin 8) (hv : h.val = hh)
    (inb : ∀ a, (![hh, 0] : Fin 2 → ℕ) a + (![1, m] : Fin 2 → ℕ) a ≤ (⟨2, ![8, m]⟩ : Shape).size a)
    (u : Fin 1) (a : Fin m) :
    (Rect.unit (s := ⟨2, ![8, m]⟩) ![hh, 0] ![1, m] inb).emb (ix2 u a) = ix2 h a := by
  funext ax
  apply Fin.ext
  match ax with
  | ⟨0, _⟩ => show hh + 1 * u.val = h.val; omega
  | ⟨1, _⟩ => show 0 + 1 * a.val = a.val; omega

/-! ## The two functions -/

/-- What a point leaves in the pooled-token accumulator found at `xs0`, from the point's input blocks. -/
def Gtok (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (xs0 : S8x64x32.Idx → EReal) (y : S8x64x32.Idx) : EReal :=
  xs0 y + ∑ r : Fin 2000, Spec.softmax (tlg (fun r i => x0 (ix2 r i)) (fun k i => x1 (ix2 i k)) (fun k => x2 (ix1 k)) (fun d g => x5 (ix3 (y 0) d g)) (fun g => x6 (ix2 (y 0) g)) (y 0) r) (y 1)
    * tproj (fun r i => x0 (ix2 r i)) (fun k i => x3 (ix2 i k)) (fun k => x4 (ix1 k)) r (Spec.lane (y 0) (y 2))

/-- What a point leaves in the column-sum accumulator found at `xs1`. -/
def Gnorm (x0 : Vec Ideal S2000x256 .f32) (x1 : Vec Ideal S256x256 .bf16) (x2 : Vec Ideal S256 .f32) (x5 : Vec Ideal S8x32x64 .bf16) (x6 : Vec Ideal S8x64 .f32) (xs1 : S8x64.Idx → EReal) (y : S8x64.Idx) : EReal :=
  xs1 y + ∑ r : Fin 2000, Spec.softmax (tlg (fun r i => x0 (ix2 r i)) (fun k i => x1 (ix2 i k)) (fun k => x2 (ix1 k)) (fun d g => x5 (ix3 (y 0) d g)) (fun g => x6 (ix2 (y 0) g)) (y 0) r) (y 1)

/-- Head h's token store is the block of `Gtok` its rectangle names, when what it loaded of its slab is `xs0` there. -/
theorem tok_piece (hh : ℕ) (h : Fin 8) (hv : h.val = hh) (off : ℕ) (hoff : off = 32 * h.val)
    (hs : S2000x256.Slices ![0, off] S2000x32)
    (inbO : ∀ a, (![hh, 0, 0] : Fin 3 → ℕ) a + S1x64x32.size a ≤ S8x64x32.size a)
    (inb5 : ∀ a, (![hh, 0, 0] : Fin 3 → ℕ) a + S1x32x64.size a ≤ S8x32x64.size a)
    (inb6 : ∀ a, (![hh, 0] : Fin 2 → ℕ) a + S1x64.size a ≤ S8x64.size a)
    (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (xs0 : S8x64x32.Idx → EReal) (v44 : Vec Ideal S1x64x32 .f32)
    (hv44 : ∀ (u : Fin 1) (g : Fin 64) (c' : Fin 32), (v44 (ix3 u g c') : EReal) = xs0 (ix3 h g c'))
    (x : S1x64x32.Idx) :
    (headTok off hs x0 x1 x2 x3 x4 (View.ld x5 (Rect.unit (s := S8x32x64) ![hh, 0, 0] S1x32x64.size inb5))
        (View.ld x6 (Rect.unit (s := S8x64) ![hh, 0] S1x64.size inb6)) v44 : S1x64x32.Idx → EReal) x
      = Gtok x0 x1 x2 x3 x4 x5 x6 xs0 ((Rect.unit (s := S8x64x32) ![hh, 0, 0] S1x64x32.size inbO).emb x) := by
  obtain ⟨u, g, c', rfl⟩ : ∃ (u : Fin 1) (g : Fin 64) (c' : Fin 32), x = ix3 u g c' := ⟨x 0, x 1, x 2, eq_ix3 x⟩
  rw [slab3 hh h hv inbO u g c']
  refine (headTok_apply off hs x0 x1 x2 x3 x4 _ _ h hoff (fun d g => x5 (ix3 h d g))
    (fun d g => congrArg x5 (slab3 hh h hv inb5 0 d g)) (fun g => x6 (ix2 h g))
    (fun g => congrArg x6 (slab2 hh h hv inb6 0 g)) v44 u g c').trans ?_
  exact congrArg (· + _) (hv44 u g c')

/-- Head h's column-sum store is the block of `Gnorm` its rectangle names, when what it loaded of its row is `xs1` there. -/
theorem norm_piece (hh : ℕ) (h : Fin 8) (hv : h.val = hh) (off : ℕ) (hoff : off = 32 * h.val)
    (hs : S2000x256.Slices ![0, off] S2000x32)
    (inbO : ∀ a, (![hh, 0] : Fin 2 → ℕ) a + S1x64.size a ≤ S8x64.size a)
    (inb5 : ∀ a, (![hh, 0, 0] : Fin 3 → ℕ) a + S1x32x64.size a ≤ S8x32x64.size a)
    (inb6 : ∀ a, (![hh, 0] : Fin 2 → ℕ) a + S1x64.size a ≤ S8x64.size a)
    (x0 : Vec Ideal S2000x256 .f32) (x1 : Vec Ideal S256x256 .bf16) (x2 : Vec Ideal S256 .f32) (x5 : Vec Ideal S8x32x64 .bf16) (x6 : Vec Ideal S8x64 .f32) (xs1 : S8x64.Idx → EReal) (v50 : Vec Ideal S1x64 .f32)
    (hv50 : ∀ (u : Fin 1) (g : Fin 64), (v50 (ix2 u g) : EReal) = xs1 (ix2 h g))
    (x : S1x64.Idx) :
    (headNorm off hs x0 x1 x2 (View.ld x5 (Rect.unit (s := S8x32x64) ![hh, 0, 0] S1x32x64.size inb5))
        (View.ld x6 (Rect.unit (s := S8x64) ![hh, 0] S1x64.size inb6)) v50 : S1x64.Idx → EReal) x
      = Gnorm x0 x1 x2 x5 x6 xs1 ((Rect.unit (s := S8x64) ![hh, 0] S1x64.size inbO).emb x) := by
  obtain ⟨u, g, rfl⟩ : ∃ (u : Fin 1) (g : Fin 64), x = ix2 u g := ⟨x 0, x 1, eq_ix2 x⟩
  rw [slab2 hh h hv inbO u g]
  refine (headNorm_apply off hs x0 x1 x2 _ _ h hoff (fun d g => x5 (ix3 h d g))
    (fun d g => congrArg x5 (slab3 hh h hv inb5 0 d g)) (fun g => x6 (ix2 h g))
    (fun g => congrArg x6 (slab2 hh h hv inb6 0 g)) v50 u g).trans ?_
  exact congrArg (· + _) (hv50 u g)

/-! ## A list of stores whose first stores decide -/

/-- Where one of the last n stores covers an index, the earlier stores do not matter. -/
theorem canon_take {Val : EltTy → Type} [∀ e, Nonempty (Val e)] {S : Shape} {e : EltTy} :
    ∀ (n : ℕ) (L : List (View.Piece Val S e)) (y : S.Idx), (∃ p ∈ L.take n, y ∈ p.1.set) →
      View.canon L y = View.canon (L.take n) y
  | 0, L, y, h => by obtain ⟨p, hp, _⟩ := h; simp at hp
  | n + 1, [], y, h => by obtain ⟨p, hp, _⟩ := h; simp at hp
  | n + 1, p :: L, y, h => by
    rw [List.take_succ_cons]
    by_cases hm : y ∈ p.1.set
    · obtain ⟨x, rfl⟩ := p.1.exists_idx_of_mem hm
      obtain ⟨r, w⟩ := p
      exact (View.canon_cons_emb r w L x).trans (View.canon_cons_emb r w (L.take n) x).symm
    · rw [View.canon_cons_of_not_mem _ _ hm, View.canon_cons_of_not_mem _ _ hm]
      refine canon_take n L y ?_
      obtain ⟨q, hq, hyq⟩ := h
      rw [List.take_succ_cons] at hq
      rcases List.mem_cons.mp hq with rfl | hq'
      · exact absurd hyq hm
      · exact ⟨q, hq', hyq⟩

/-- Where none of the last stores covers an index, only the earlier stores matter. -/
theorem canon_skip {Val : EltTy → Type} [∀ e, Nonempty (Val e)] {S : Shape} {e : EltTy} (L₂ : List (View.Piece Val S e)) (y : S.Idx) :
    ∀ (L₁ : List (View.Piece Val S e)), (∀ p ∈ L₁, y ∉ p.1.set) → View.canon (L₁ ++ L₂) y = View.canon L₂ y
  | [], _ => rfl
  | p :: L₁, h => by
    rw [List.cons_append, View.canon_cons_of_not_mem _ _ (h p List.mem_cons_self)]
    exact canon_skip L₂ y L₁ fun q hq => h q (List.mem_cons_of_mem _ hq)

/-- A slab's index is not in another slab. -/
theorem slab3_not_mem (k hh : ℕ) (hne : k ≠ hh) (h : Fin 8) (hv : h.val = hh)
    (inb : ∀ a, (![k, 0, 0] : Fin 3 → ℕ) a + S1x64x32.size a ≤ S8x64x32.size a) (g : Fin 64) (c' : Fin 32) :
    ix3 h g c' ∉ (Rect.unit (s := S8x64x32) ![k, 0, 0] S1x64x32.size inb).set := by
  rw [Rect.mem_set_unit]
  intro hm
  have h0 := hm 0
  have e : ((ix3 h g c' : S8x64x32.Idx) 0).val = h.val := rfl
  have e1 : (![k, 0, 0] : Fin 3 → ℕ) 0 = k := rfl
  have e2 : S1x64x32.size 0 = 1 := rfl
  rw [e, e1, e2] at h0
  omega

theorem slab2_not_mem (k hh : ℕ) (hne : k ≠ hh) (h : Fin 8) (hv : h.val = hh)
    (inb : ∀ a, (![k, 0] : Fin 2 → ℕ) a + S1x64.size a ≤ S8x64.size a) (g : Fin 64) :
    ix2 h g ∉ (Rect.unit (s := S8x64) ![k, 0] S1x64.size inb).set := by
  rw [Rect.mem_set_unit]
  intro hm
  have h0 := hm 0
  have e : ((ix2 h g : S8x64.Idx) 0).val = h.val := rfl
  have e1 : (![k, 0] : Fin 2 → ℕ) 0 = k := rfl
  have e2 : S1x64.size 0 = 1 := rfl
  rw [e, e1, e2] at h0
  omega

end Cert.KernelIdeal.Hand

end
-- ==== Proof.KIAccCaseB.lean ====
/-
  A middle point of the pooling region: each accumulator after the point is what the point found plus the tile's sums,
  every entry written by exactly the store of its head.
-/
import proofs.«133947_j41910290874676_1_alg».proof.Proof.KIAccPieces
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-- Case B: the pooled-token accumulator after the point. -/
theorem sout_B_0_eq (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) (xs0 : Vec Ideal S8x64x32 .f32) (xs1 : Vec Ideal S8x64 .f32) :
    (sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64x32.Idx → EReal) = Gtok x0 x1 x2 x3 x4 x5 x6 xs0 := by
  funext y
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  refine View.canon_apply_of_pieces (Gtok x0 x1 x2 x3 x4 x5 x6 xs0) _ ?_ y (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, View.ld_unit_zero (S := S2000x256) hz2, View.ld_unit_zero (S := S256x256) hz2, View.ld_unit_zero (S := S256) hz1]
  intro p hp x
  simp only [List.mem_cons, List.not_mem_nil, or_false] at hp
  rcases hp with rfl | rfl | rfl | rfl | rfl | rfl | rfl | rfl
  · exact (congrFun (tok_h7 x0 x1 x2 x3 x4 _ _ _) x).trans (tok_piece 7 7 rfl 224 rfl slices_S2000x256_o0_224_S2000x32 inb_S8x64x32_S1x64x32_7_0_0 inb_S8x32x64_S1x32x64_7_0_0 inb_S8x64_S1x64_7_0 x0 x1 x2 x3 x4 x5 x6 xs0 _ (fun u g c' => congrArg xs0 (slab3 7 7 rfl inb_S8x64x32_S1x64x32_7_0_0 u g c')) x)
  · exact (congrFun (tok_h6 x0 x1 x2 x3 x4 _ _ _) x).trans (tok_piece 6 6 rfl 192 rfl slices_S2000x256_o0_192_S2000x32 inb_S8x64x32_S1x64x32_6_0_0 inb_S8x32x64_S1x32x64_6_0_0 inb_S8x64_S1x64_6_0 x0 x1 x2 x3 x4 x5 x6 xs0 _ (fun u g c' => congrArg xs0 (slab3 6 6 rfl inb_S8x64x32_S1x64x32_6_0_0 u g c')) x)
  · exact (congrFun (tok_h5 x0 x1 x2 x3 x4 _ _ _) x).trans (tok_piece 5 5 rfl 160 rfl slices_S2000x256_o0_160_S2000x32 inb_S8x64x32_S1x64x32_5_0_0 inb_S8x32x64_S1x32x64_5_0_0 inb_S8x64_S1x64_5_0 x0 x1 x2 x3 x4 x5 x6 xs0 _ (fun u g c' => congrArg xs0 (slab3 5 5 rfl inb_S8x64x32_S1x64x32_5_0_0 u g c')) x)
  · exact (congrFun (tok_h4 x0 x1 x2 x3 x4 _ _ _) x).trans (tok_piece 4 4 rfl 128 rfl slices_S2000x256_o0_128_S2000x32 inb_S8x64x32_S1x64x32_4_0_0 inb_S8x32x64_S1x32x64_4_0_0 inb_S8x64_S1x64_4_0 x0 x1 x2 x3 x4 x5 x6 xs0 _ (fun u g c' => congrArg xs0 (slab3 4 4 rfl inb_S8x64x32_S1x64x32_4_0_0 u g c')) x)
  · exact (congrFun (tok_h3 x0 x1 x2 x3 x4 _ _ _) x).trans (tok_piece 3 3 rfl 96 rfl slices_S2000x256_o0_96_S2000x32 inb_S8x64x32_S1x64x32_3_0_0 inb_S8x32x64_S1x32x64_3_0_0 inb_S8x64_S1x64_3_0 x0 x1 x2 x3 x4 x5 x6 xs0 _ (fun u g c' => congrArg xs0 (slab3 3 3 rfl inb_S8x64x32_S1x64x32_3_0_0 u g c')) x)
  · exact (congrFun (tok_h2 x0 x1 x2 x3 x4 _ _ _) x).trans (tok_piece 2 2 rfl 64 rfl slices_S2000x256_o0_64_S2000x32 inb_S8x64x32_S1x64x32_2_0_0 inb_S8x32x64_S1x32x64_2_0_0 inb_S8x64_S1x64_2_0 x0 x1 x2 x3 x4 x5 x6 xs0 _ (fun u g c' => congrArg xs0 (slab3 2 2 rfl inb_S8x64x32_S1x64x32_2_0_0 u g c')) x)
  · exact (congrFun (tok_h1 x0 x1 x2 x3 x4 _ _ _) x).trans (tok_piece 1 1 rfl 32 rfl slices_S2000x256_o0_32_S2000x32 inb_S8x64x32_S1x64x32_1_0_0 inb_S8x32x64_S1x32x64_1_0_0 inb_S8x64_S1x64_1_0 x0 x1 x2 x3 x4 x5 x6 xs0 _ (fun u g c' => congrArg xs0 (slab3 1 1 rfl inb_S8x64x32_S1x64x32_1_0_0 u g c')) x)
  · exact (congrFun (tok_h0 x0 x1 x2 x3 x4 _ _ _) x).trans (tok_piece 0 0 rfl 0 rfl slices_S2000x256_o0_0_S2000x32 inb_S8x64x32_S1x64x32_0_0_0 inb_S8x32x64_S1x32x64_0_0_0 inb_S8x64_S1x64_0_0 x0 x1 x2 x3 x4 x5 x6 xs0 _ (fun u g c' => congrArg xs0 (slab3 0 0 rfl inb_S8x64x32_S1x64x32_0_0_0 u g c')) x)

/-- Case B: the column-sum accumulator after the point. -/
theorem sout_B_1_eq (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : ¬cond0_1 i) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) (xs0 : Vec Ideal S8x64x32 .f32) (xs1 : Vec Ideal S8x64 .f32) :
    (sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64.Idx → EReal) = Gnorm x0 x1 x2 x5 x6 xs1 := by
  funext y
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  refine View.canon_apply_of_pieces (Gnorm x0 x1 x2 x5 x6 xs1) _ ?_ y (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, View.ld_unit_zero (S := S2000x256) hz2, View.ld_unit_zero (S := S256x256) hz2, View.ld_unit_zero (S := S256) hz1]
  intro p hp x
  simp only [List.mem_cons, List.not_mem_nil, or_false] at hp
  rcases hp with rfl | rfl | rfl | rfl | rfl | rfl | rfl | rfl
  · exact (congrFun (norm_h7 x0 x1 x2 x3 x4 _ _ _) x).trans (norm_piece 7 7 rfl 224 rfl slices_S2000x256_o0_224_S2000x32 inb_S8x64_S1x64_7_0 inb_S8x32x64_S1x32x64_7_0_0 inb_S8x64_S1x64_7_0 x0 x1 x2 x5 x6 xs1 _ (fun u g => congrArg xs1 (slab2 7 7 rfl inb_S8x64_S1x64_7_0 u g)) x)
  · exact (congrFun (norm_h6 x0 x1 x2 x3 x4 _ _ _) x).trans (norm_piece 6 6 rfl 192 rfl slices_S2000x256_o0_192_S2000x32 inb_S8x64_S1x64_6_0 inb_S8x32x64_S1x32x64_6_0_0 inb_S8x64_S1x64_6_0 x0 x1 x2 x5 x6 xs1 _ (fun u g => congrArg xs1 (slab2 6 6 rfl inb_S8x64_S1x64_6_0 u g)) x)
  · exact (congrFun (norm_h5 x0 x1 x2 x3 x4 _ _ _) x).trans (norm_piece 5 5 rfl 160 rfl slices_S2000x256_o0_160_S2000x32 inb_S8x64_S1x64_5_0 inb_S8x32x64_S1x32x64_5_0_0 inb_S8x64_S1x64_5_0 x0 x1 x2 x5 x6 xs1 _ (fun u g => congrArg xs1 (slab2 5 5 rfl inb_S8x64_S1x64_5_0 u g)) x)
  · exact (congrFun (norm_h4 x0 x1 x2 x3 x4 _ _ _) x).trans (norm_piece 4 4 rfl 128 rfl slices_S2000x256_o0_128_S2000x32 inb_S8x64_S1x64_4_0 inb_S8x32x64_S1x32x64_4_0_0 inb_S8x64_S1x64_4_0 x0 x1 x2 x5 x6 xs1 _ (fun u g => congrArg xs1 (slab2 4 4 rfl inb_S8x64_S1x64_4_0 u g)) x)
  · exact (congrFun (norm_h3 x0 x1 x2 x3 x4 _ _ _) x).trans (norm_piece 3 3 rfl 96 rfl slices_S2000x256_o0_96_S2000x32 inb_S8x64_S1x64_3_0 inb_S8x32x64_S1x32x64_3_0_0 inb_S8x64_S1x64_3_0 x0 x1 x2 x5 x6 xs1 _ (fun u g => congrArg xs1 (slab2 3 3 rfl inb_S8x64_S1x64_3_0 u g)) x)
  · exact (congrFun (norm_h2 x0 x1 x2 x3 x4 _ _ _) x).trans (norm_piece 2 2 rfl 64 rfl slices_S2000x256_o0_64_S2000x32 inb_S8x64_S1x64_2_0 inb_S8x32x64_S1x32x64_2_0_0 inb_S8x64_S1x64_2_0 x0 x1 x2 x5 x6 xs1 _ (fun u g => congrArg xs1 (slab2 2 2 rfl inb_S8x64_S1x64_2_0 u g)) x)
  · exact (congrFun (norm_h1 x0 x1 x2 x3 x4 _ _ _) x).trans (norm_piece 1 1 rfl 32 rfl slices_S2000x256_o0_32_S2000x32 inb_S8x64_S1x64_1_0 inb_S8x32x64_S1x32x64_1_0_0 inb_S8x64_S1x64_1_0 x0 x1 x2 x5 x6 xs1 _ (fun u g => congrArg xs1 (slab2 1 1 rfl inb_S8x64_S1x64_1_0 u g)) x)
  · exact (congrFun (norm_h0 x0 x1 x2 x3 x4 _ _ _) x).trans (norm_piece 0 0 rfl 0 rfl slices_S2000x256_o0_0_S2000x32 inb_S8x64_S1x64_0_0 inb_S8x32x64_S1x32x64_0_0_0 inb_S8x64_S1x64_0_0 x0 x1 x2 x5 x6 xs1 _ (fun u g => congrArg xs1 (slab2 0 0 rfl inb_S8x64_S1x64_0_0 u g)) x)

end Cert.KernelIdeal.Hand

end
-- ==== Proof.KIAccCaseC.lean ====
/-
  The last point of the pooling region adds to the accumulators exactly as a middle point does (its further stores go
  to the output window): each accumulator after the point is what the point found plus the tile's sums.
-/
import proofs.«133947_j41910290874676_1_alg».proof.Proof.KIAccCaseB
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

/-- Case C: the pooled-token accumulator after the point. -/
theorem sout_C_0_eq (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) (xs0 : Vec Ideal S8x64x32 .f32) (xs1 : Vec Ideal S8x64 .f32) :
    (sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64x32.Idx → EReal) = Gtok x0 x1 x2 x3 x4 x5 x6 xs0 := by
  funext y
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  refine View.canon_apply_of_pieces (Gtok x0 x1 x2 x3 x4 x5 x6 xs0) _ ?_ y (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 y)
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, View.ld_unit_zero (S := S2000x256) hz2, View.ld_unit_zero (S := S256x256) hz2, View.ld_unit_zero (S := S256) hz1]
  intro p hp x
  simp only [List.mem_cons, List.not_mem_nil, or_false] at hp
  rcases hp with rfl | rfl | rfl | rfl | rfl | rfl | rfl | rfl
  · exact (congrFun (tok_h7 x0 x1 x2 x3 x4 _ _ _) x).trans (tok_piece 7 7 rfl 224 rfl slices_S2000x256_o0_224_S2000x32 inb_S8x64x32_S1x64x32_7_0_0 inb_S8x32x64_S1x32x64_7_0_0 inb_S8x64_S1x64_7_0 x0 x1 x2 x3 x4 x5 x6 xs0 _ (fun u g c' => congrArg xs0 (slab3 7 7 rfl inb_S8x64x32_S1x64x32_7_0_0 u g c')) x)
  · exact (congrFun (tok_h6 x0 x1 x2 x3 x4 _ _ _) x).trans (tok_piece 6 6 rfl 192 rfl slices_S2000x256_o0_192_S2000x32 inb_S8x64x32_S1x64x32_6_0_0 inb_S8x32x64_S1x32x64_6_0_0 inb_S8x64_S1x64_6_0 x0 x1 x2 x3 x4 x5 x6 xs0 _ (fun u g c' => congrArg xs0 (slab3 6 6 rfl inb_S8x64x32_S1x64x32_6_0_0 u g c')) x)
  · exact (congrFun (tok_h5 x0 x1 x2 x3 x4 _ _ _) x).trans (tok_piece 5 5 rfl 160 rfl slices_S2000x256_o0_160_S2000x32 inb_S8x64x32_S1x64x32_5_0_0 inb_S8x32x64_S1x32x64_5_0_0 inb_S8x64_S1x64_5_0 x0 x1 x2 x3 x4 x5 x6 xs0 _ (fun u g c' => congrArg xs0 (slab3 5 5 rfl inb_S8x64x32_S1x64x32_5_0_0 u g c')) x)
  · exact (congrFun (tok_h4 x0 x1 x2 x3 x4 _ _ _) x).trans (tok_piece 4 4 rfl 128 rfl slices_S2000x256_o0_128_S2000x32 inb_S8x64x32_S1x64x32_4_0_0 inb_S8x32x64_S1x32x64_4_0_0 inb_S8x64_S1x64_4_0 x0 x1 x2 x3 x4 x5 x6 xs0 _ (fun u g c' => congrArg xs0 (slab3 4 4 rfl inb_S8x64x32_S1x64x32_4_0_0 u g c')) x)
  · exact (congrFun (tok_h3 x0 x1 x2 x3 x4 _ _ _) x).trans (tok_piece 3 3 rfl 96 rfl slices_S2000x256_o0_96_S2000x32 inb_S8x64x32_S1x64x32_3_0_0 inb_S8x32x64_S1x32x64_3_0_0 inb_S8x64_S1x64_3_0 x0 x1 x2 x3 x4 x5 x6 xs0 _ (fun u g c' => congrArg xs0 (slab3 3 3 rfl inb_S8x64x32_S1x64x32_3_0_0 u g c')) x)
  · exact (congrFun (tok_h2 x0 x1 x2 x3 x4 _ _ _) x).trans (tok_piece 2 2 rfl 64 rfl slices_S2000x256_o0_64_S2000x32 inb_S8x64x32_S1x64x32_2_0_0 inb_S8x32x64_S1x32x64_2_0_0 inb_S8x64_S1x64_2_0 x0 x1 x2 x3 x4 x5 x6 xs0 _ (fun u g c' => congrArg xs0 (slab3 2 2 rfl inb_S8x64x32_S1x64x32_2_0_0 u g c')) x)
  · exact (congrFun (tok_h1 x0 x1 x2 x3 x4 _ _ _) x).trans (tok_piece 1 1 rfl 32 rfl slices_S2000x256_o0_32_S2000x32 inb_S8x64x32_S1x64x32_1_0_0 inb_S8x32x64_S1x32x64_1_0_0 inb_S8x64_S1x64_1_0 x0 x1 x2 x3 x4 x5 x6 xs0 _ (fun u g c' => congrArg xs0 (slab3 1 1 rfl inb_S8x64x32_S1x64x32_1_0_0 u g c')) x)
  · exact (congrFun (tok_h0 x0 x1 x2 x3 x4 _ _ _) x).trans (tok_piece 0 0 rfl 0 rfl slices_S2000x256_o0_0_S2000x32 inb_S8x64x32_S1x64x32_0_0_0 inb_S8x32x64_S1x32x64_0_0_0 inb_S8x64_S1x64_0_0 x0 x1 x2 x3 x4 x5 x6 xs0 _ (fun u g c' => congrArg xs0 (slab3 0 0 rfl inb_S8x64x32_S1x64x32_0_0_0 u g c')) x)

/-- Case C: the column-sum accumulator after the point. -/
theorem sout_C_1_eq (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) (xs0 : Vec Ideal S8x64x32 .f32) (xs1 : Vec Ideal S8x64 .f32) :
    (sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64.Idx → EReal) = Gnorm x0 x1 x2 x5 x6 xs1 := by
  funext y
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  refine View.canon_apply_of_pieces (Gnorm x0 x1 x2 x5 x6 xs1) _ ?_ y (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 y)
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, View.ld_unit_zero (S := S2000x256) hz2, View.ld_unit_zero (S := S256x256) hz2, View.ld_unit_zero (S := S256) hz1]
  intro p hp x
  simp only [List.mem_cons, List.not_mem_nil, or_false] at hp
  rcases hp with rfl | rfl | rfl | rfl | rfl | rfl | rfl | rfl
  · exact (congrFun (norm_h7 x0 x1 x2 x3 x4 _ _ _) x).trans (norm_piece 7 7 rfl 224 rfl slices_S2000x256_o0_224_S2000x32 inb_S8x64_S1x64_7_0 inb_S8x32x64_S1x32x64_7_0_0 inb_S8x64_S1x64_7_0 x0 x1 x2 x5 x6 xs1 _ (fun u g => congrArg xs1 (slab2 7 7 rfl inb_S8x64_S1x64_7_0 u g)) x)
  · exact (congrFun (norm_h6 x0 x1 x2 x3 x4 _ _ _) x).trans (norm_piece 6 6 rfl 192 rfl slices_S2000x256_o0_192_S2000x32 inb_S8x64_S1x64_6_0 inb_S8x32x64_S1x32x64_6_0_0 inb_S8x64_S1x64_6_0 x0 x1 x2 x5 x6 xs1 _ (fun u g => congrArg xs1 (slab2 6 6 rfl inb_S8x64_S1x64_6_0 u g)) x)
  · exact (congrFun (norm_h5 x0 x1 x2 x3 x4 _ _ _) x).trans (norm_piece 5 5 rfl 160 rfl slices_S2000x256_o0_160_S2000x32 inb_S8x64_S1x64_5_0 inb_S8x32x64_S1x32x64_5_0_0 inb_S8x64_S1x64_5_0 x0 x1 x2 x5 x6 xs1 _ (fun u g => congrArg xs1 (slab2 5 5 rfl inb_S8x64_S1x64_5_0 u g)) x)
  · exact (congrFun (norm_h4 x0 x1 x2 x3 x4 _ _ _) x).trans (norm_piece 4 4 rfl 128 rfl slices_S2000x256_o0_128_S2000x32 inb_S8x64_S1x64_4_0 inb_S8x32x64_S1x32x64_4_0_0 inb_S8x64_S1x64_4_0 x0 x1 x2 x5 x6 xs1 _ (fun u g => congrArg xs1 (slab2 4 4 rfl inb_S8x64_S1x64_4_0 u g)) x)
  · exact (congrFun (norm_h3 x0 x1 x2 x3 x4 _ _ _) x).trans (norm_piece 3 3 rfl 96 rfl slices_S2000x256_o0_96_S2000x32 inb_S8x64_S1x64_3_0 inb_S8x32x64_S1x32x64_3_0_0 inb_S8x64_S1x64_3_0 x0 x1 x2 x5 x6 xs1 _ (fun u g => congrArg xs1 (slab2 3 3 rfl inb_S8x64_S1x64_3_0 u g)) x)
  · exact (congrFun (norm_h2 x0 x1 x2 x3 x4 _ _ _) x).trans (norm_piece 2 2 rfl 64 rfl slices_S2000x256_o0_64_S2000x32 inb_S8x64_S1x64_2_0 inb_S8x32x64_S1x32x64_2_0_0 inb_S8x64_S1x64_2_0 x0 x1 x2 x5 x6 xs1 _ (fun u g => congrArg xs1 (slab2 2 2 rfl inb_S8x64_S1x64_2_0 u g)) x)
  · exact (congrFun (norm_h1 x0 x1 x2 x3 x4 _ _ _) x).trans (norm_piece 1 1 rfl 32 rfl slices_S2000x256_o0_32_S2000x32 inb_S8x64_S1x64_1_0 inb_S8x32x64_S1x32x64_1_0_0 inb_S8x64_S1x64_1_0 x0 x1 x2 x5 x6 xs1 _ (fun u g => congrArg xs1 (slab2 1 1 rfl inb_S8x64_S1x64_1_0 u g)) x)
  · exact (congrFun (norm_h0 x0 x1 x2 x3 x4 _ _ _) x).trans (norm_piece 0 0 rfl 0 rfl slices_S2000x256_o0_0_S2000x32 inb_S8x64_S1x64_0_0 inb_S8x32x64_S1x32x64_0_0_0 inb_S8x64_S1x64_0_0 x0 x1 x2 x5 x6 xs1 _ (fun u g => congrArg xs1 (slab2 0 0 rfl inb_S8x64_S1x64_0_0 u g)) x)

end Cert.KernelIdeal.Hand

end
-- ==== Proof.KIAccCaseA.lean ====
/-
  The first point of the pooling region zeroes both accumulators and then adds to them: every head's load of its slab,
  made after the zero store and the earlier heads' stores, reads zero (the earlier stores went to other slabs), so each
  accumulator after the point holds the first tile's sums.
-/
import proofs.«133947_j41910290874676_1_alg».proof.Proof.KIAccCaseC
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

/-! ## The zero store shows through the earlier heads' slabs -/

/-- A store into slab k does not change what is read in another slab. -/
theorem canon_cons_slab3 (k : ℕ) (inb : ∀ a, (![k, 0, 0] : Fin 3 → ℕ) a + S1x64x32.size a ≤ S8x64x32.size a)
    (pay : S1x64x32.Idx → Elt Ideal .f32) (L : List (View.Piece (Elt Ideal) S8x64x32 .f32))
    (hh : ℕ) (hne : k ≠ hh) (h : Fin 8) (hv : h.val = hh) (g : Fin 64) (c' : Fin 32) :
    View.canon ((⟨Rect.unit (s := S8x64x32) ![k, 0, 0] S1x64x32.size inb, pay⟩ : View.Piece (Elt Ideal) S8x64x32 .f32) :: L) (ix3 h g c')
      = View.canon L (ix3 h g c') :=
  View.canon_cons_of_not_mem _ L (slab3_not_mem k hh hne h hv inb g c')

theorem canon_cons_slab2 (k : ℕ) (inb : ∀ a, (![k, 0] : Fin 2 → ℕ) a + S1x64.size a ≤ S8x64.size a)
    (pay : S1x64.Idx → Elt Ideal .f32) (L : List (View.Piece (Elt Ideal) S8x64 .f32))
    (hh : ℕ) (hne : k ≠ hh) (h : Fin 8) (hv : h.val = hh) (g : Fin 64) :
    View.canon ((⟨Rect.unit (s := S8x64) ![k, 0] S1x64.size inb, pay⟩ : View.Piece (Elt Ideal) S8x64 .f32) :: L) (ix2 h g)
      = View.canon L (ix2 h g) :=
  View.canon_cons_of_not_mem _ L (slab2_not_mem k hh hne h hv inb g)

theorem zT_1 (y : S8x64x32.Idx) : (View.canon (kernelRun0_A.sl.HS0_1 (F := Ideal)) : S8x64x32.Idx → EReal) y = 0 := by
  unfold kernelRun0_A.sl.HS0_1
  rw [View.canon_unit_zero hz3]
  exact Ideal.ofBits_zero_f32
theorem zN_1 (y : S8x64.Idx) : (View.canon (kernelRun0_A.sl.HS1_1 (F := Ideal)) : S8x64.Idx → EReal) y = 0 := by
  unfold kernelRun0_A.sl.HS1_1
  rw [View.canon_unit_zero hz2]
  exact Ideal.ofBits_zero_f32
theorem zT_2 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 1 ≤ h.val) (g : Fin 64) (c' : Fin 32) :
    (View.canon (kernelRun0_A.sl.HS0_2 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 0 ≠ h.val := by omega
  unfold kernelRun0_A.sl.HS0_2
  refine (canon_cons_slab3 0 inb_S8x64x32_S1x64x32_0_0_0 _ _ h.val hne h rfl g c').trans ?_
  exact zT_1 _
theorem zN_2 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 1 ≤ h.val) (g : Fin 64) :
    (View.canon (kernelRun0_A.sl.HS1_2 (F := Ideal) c arg1 harg1 arg2 harg2 arg3 harg3 arg6 harg6 arg7 harg7 arg13 x0 x1 x2 x5 x6) : S8x64.Idx → EReal) (ix2 h g) = 0 := by
  have hne : 0 ≠ h.val := by omega
  unfold kernelRun0_A.sl.HS1_2
  refine (canon_cons_slab2 0 inb_S8x64_S1x64_0_0 _ _ h.val hne h rfl g).trans ?_
  exact zN_1 _
theorem zT_3 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 2 ≤ h.val) (g : Fin 64) (c' : Fin 32) :
    (View.canon (kernelRun0_A.sl.HS0_3 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 1 ≠ h.val := by omega
  unfold kernelRun0_A.sl.HS0_3
  refine (canon_cons_slab3 1 inb_S8x64x32_S1x64x32_1_0_0 _ _ h.val hne h rfl g c').trans ?_
  exact zT_2 c arg1 harg1 arg2 harg2 arg3 harg3 arg4 harg4 arg5 harg5 arg6 harg6 arg7 harg7 arg12 x0 x1 x2 x3 x4 x5 x6 h (by omega) g c'
theorem zN_3 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 2 ≤ h.val) (g : Fin 64) :
    (View.canon (kernelRun0_A.sl.HS1_3 (F := Ideal) c arg1 harg1 arg2 harg2 arg3 harg3 arg6 harg6 arg7 harg7 arg13 x0 x1 x2 x5 x6) : S8x64.Idx → EReal) (ix2 h g) = 0 := by
  have hne : 1 ≠ h.val := by omega
  unfold kernelRun0_A.sl.HS1_3
  refine (canon_cons_slab2 1 inb_S8x64_S1x64_1_0 _ _ h.val hne h rfl g).trans ?_
  exact zN_2 c arg1 harg1 arg2 harg2 arg3 harg3 arg6 harg6 arg7 harg7 arg13 x0 x1 x2 x5 x6 h (by omega) g
theorem zT_4 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 3 ≤ h.val) (g : Fin 64) (c' : Fin 32) :
    (View.canon (kernelRun0_A.sl.HS0_4 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 2 ≠ h.val := by omega
  unfold kernelRun0_A.sl.HS0_4
  refine (canon_cons_slab3 2 inb_S8x64x32_S1x64x32_2_0_0 _ _ h.val hne h rfl g c').trans ?_
  exact zT_3 c arg1 harg1 arg2 harg2 arg3 harg3 arg4 harg4 arg5 harg5 arg6 harg6 arg7 harg7 arg12 x0 x1 x2 x3 x4 x5 x6 h (by omega) g c'
theorem zN_4 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 3 ≤ h.val) (g : Fin 64) :
    (View.canon (kernelRun0_A.sl.HS1_4 (F := Ideal) c arg1 harg1 arg2 harg2 arg3 harg3 arg6 harg6 arg7 harg7 arg13 x0 x1 x2 x5 x6) : S8x64.Idx → EReal) (ix2 h g) = 0 := by
  have hne : 2 ≠ h.val := by omega
  unfold kernelRun0_A.sl.HS1_4
  refine (canon_cons_slab2 2 inb_S8x64_S1x64_2_0 _ _ h.val hne h rfl g).trans ?_
  exact zN_3 c arg1 harg1 arg2 harg2 arg3 harg3 arg6 harg6 arg7 harg7 arg13 x0 x1 x2 x5 x6 h (by omega) g
theorem zT_5 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 4 ≤ h.val) (g : Fin 64) (c' : Fin 32) :
    (View.canon (kernelRun0_A.sl.HS0_5 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 3 ≠ h.val := by omega
  unfold kernelRun0_A.sl.HS0_5
  refine (canon_cons_slab3 3 inb_S8x64x32_S1x64x32_3_0_0 _ _ h.val hne h rfl g c').trans ?_
  exact zT_4 c arg1 harg1 arg2 harg2 arg3 harg3 arg4 harg4 arg5 harg5 arg6 harg6 arg7 harg7 arg12 x0 x1 x2 x3 x4 x5 x6 h (by omega) g c'
theorem zN_5 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 4 ≤ h.val) (g : Fin 64) :
    (View.canon (kernelRun0_A.sl.HS1_5 (F := Ideal) c arg1 harg1 arg2 harg2 arg3 harg3 arg6 harg6 arg7 harg7 arg13 x0 x1 x2 x5 x6) : S8x64.Idx → EReal) (ix2 h g) = 0 := by
  have hne : 3 ≠ h.val := by omega
  unfold kernelRun0_A.sl.HS1_5
  refine (canon_cons_slab2 3 inb_S8x64_S1x64_3_0 _ _ h.val hne h rfl g).trans ?_
  exact zN_4 c arg1 harg1 arg2 harg2 arg3 harg3 arg6 harg6 arg7 harg7 arg13 x0 x1 x2 x5 x6 h (by omega) g
theorem zT_6 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 5 ≤ h.val) (g : Fin 64) (c' : Fin 32) :
    (View.canon (kernelRun0_A.sl.HS0_6 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 4 ≠ h.val := by omega
  unfold kernelRun0_A.sl.HS0_6
  refine (canon_cons_slab3 4 inb_S8x64x32_S1x64x32_4_0_0 _ _ h.val hne h rfl g c').trans ?_
  exact zT_5 c arg1 harg1 arg2 harg2 arg3 harg3 arg4 harg4 arg5 harg5 arg6 harg6 arg7 harg7 arg12 x0 x1 x2 x3 x4 x5 x6 h (by omega) g c'
theorem zN_6 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 5 ≤ h.val) (g : Fin 64) :
    (View.canon (kernelRun0_A.sl.HS1_6 (F := Ideal) c arg1 harg1 arg2 harg2 arg3 harg3 arg6 harg6 arg7 harg7 arg13 x0 x1 x2 x5 x6) : S8x64.Idx → EReal) (ix2 h g) = 0 := by
  have hne : 4 ≠ h.val := by omega
  unfold kernelRun0_A.sl.HS1_6
  refine (canon_cons_slab2 4 inb_S8x64_S1x64_4_0 _ _ h.val hne h rfl g).trans ?_
  exact zN_5 c arg1 harg1 arg2 harg2 arg3 harg3 arg6 harg6 arg7 harg7 arg13 x0 x1 x2 x5 x6 h (by omega) g
theorem zT_7 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 6 ≤ h.val) (g : Fin 64) (c' : Fin 32) :
    (View.canon (kernelRun0_A.sl.HS0_7 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 5 ≠ h.val := by omega
  unfold kernelRun0_A.sl.HS0_7
  refine (canon_cons_slab3 5 inb_S8x64x32_S1x64x32_5_0_0 _ _ h.val hne h rfl g c').trans ?_
  exact zT_6 c arg1 harg1 arg2 harg2 arg3 harg3 arg4 harg4 arg5 harg5 arg6 harg6 arg7 harg7 arg12 x0 x1 x2 x3 x4 x5 x6 h (by omega) g c'
theorem zN_7 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 6 ≤ h.val) (g : Fin 64) :
    (View.canon (kernelRun0_A.sl.HS1_7 (F := Ideal) c arg1 harg1 arg2 harg2 arg3 harg3 arg6 harg6 arg7 harg7 arg13 x0 x1 x2 x5 x6) : S8x64.Idx → EReal) (ix2 h g) = 0 := by
  have hne : 5 ≠ h.val := by omega
  unfold kernelRun0_A.sl.HS1_7
  refine (canon_cons_slab2 5 inb_S8x64_S1x64_5_0 _ _ h.val hne h rfl g).trans ?_
  exact zN_6 c arg1 harg1 arg2 harg2 arg3 harg3 arg6 harg6 arg7 harg7 arg13 x0 x1 x2 x5 x6 h (by omega) g
theorem zT_8 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (h : Fin 8) (hh : 7 ≤ h.val) (g : Fin 64) (c' : Fin 32) :
    (View.canon (kernelRun0_A.sl.HS0_8 (F := Ideal) c arg1 harg1 arg2 harg2 arg3 harg3 arg4 harg4 arg5 harg5 arg6 harg6 arg7 harg7 arg12 x0 x1 x2 x3 x4 x5 x6) : S8x64x32.Idx → EReal) (ix3 h g c') = 0 := by
  have hne : 6 ≠ h.val := by omega
  unfold kernelRun0_A.sl.HS0_8
  refine (canon_cons_slab3 6 inb_S8x64x32_S1x64x32_6_0_0 _ _ h.val hne h rfl g c').trans ?_
  exact zT_7 c arg1 harg1 arg2 harg2 arg3 harg3 arg4 harg4 arg5 harg5 arg6 harg6 arg7 harg7 arg12 x0 x1 x2 x3 x4 x5 x6 h (by omega) g c'
theorem zN_8 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (h : Fin 8) (hh : 7 ≤ h.val) (g : Fin 64) :
    (View.canon (kernelRun0_A.sl.HS1_8 (F := Ideal) c arg1 harg1 arg2 harg2 arg3 harg3 arg6 harg6 arg7 harg7 arg13 x0 x1 x2 x5 x6) : S8x64.Idx → EReal) (ix2 h g) = 0 := by
  have hne : 6 ≠ h.val := by omega
  unfold kernelRun0_A.sl.HS1_8
  refine (canon_cons_slab2 6 inb_S8x64_S1x64_6_0 _ _ h.val hne h rfl g).trans ?_
  exact zN_7 c arg1 harg1 arg2 harg2 arg3 harg3 arg6 harg6 arg7 harg7 arg13 x0 x1 x2 x5 x6 h (by omega) g

/-! ## So every head finds zero in its slab -/
theorem readT_0 (c : Dev nD) (arg12 : Memref sig .tc .vmem S8x64x32 .f32) (u : Fin 1) (g : Fin 64) (c' : Fin 32) :
    (kernelRun0_A.sl.v44 (F := Ideal) c arg12 : S1x64x32.Idx → EReal) (ix3 u g c') = 0 := by
  unfold kernelRun0_A.sl.v44
  rw [View.readCov_eq_canon']
  exact (congrArg (View.canon (kernelRun0_A.sl.HS0_1 (F := Ideal))) (slab3 0 0 rfl inb_S8x64x32_S1x64x32_0_0_0 u g c')).trans (zT_1 _)
theorem readN_0 (c : Dev nD) (arg13 : Memref sig .tc .vmem S8x64 .f32) (u : Fin 1) (g : Fin 64) :
    (kernelRun0_A.sl.v50 (F := Ideal) c arg13 : S1x64.Idx → EReal) (ix2 u g) = 0 := by
  unfold kernelRun0_A.sl.v50
  rw [View.readCov_eq_canon']
  exact (congrArg (View.canon (kernelRun0_A.sl.HS1_1 (F := Ideal))) (slab2 0 0 rfl inb_S8x64_S1x64_0_0 u g)).trans (zN_1 _)
theorem readT_1 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v82 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v82
  rw [View.readCov_eq_canon']
  exact (congrArg (View.canon (kernelRun0_A.sl.HS0_2 (F := Ideal) c arg1 harg1 arg2 harg2 arg3 harg3 arg4 harg4 arg5 harg5 arg6 harg6 arg7 harg7 arg12 x0 x1 x2 x3 x4 x5 x6)) (slab3 1 1 rfl inb_S8x64x32_S1x64x32_1_0_0 u g c')).trans (zT_2 c arg1 harg1 arg2 harg2 arg3 harg3 arg4 harg4 arg5 harg5 arg6 harg6 arg7 harg7 arg12 x0 x1 x2 x3 x4 x5 x6 1 (by decide) g c')
theorem readN_1 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v88 (F := Ideal) c arg1 harg1 arg2 harg2 arg3 harg3 arg6 harg6 arg7 harg7 arg13 x0 x1 x2 x5 x6 : S1x64.Idx → EReal) (ix2 u g) = 0 := by
  unfold kernelRun0_A.sl.v88
  rw [View.readCov_eq_canon']
  exact (congrArg (View.canon (kernelRun0_A.sl.HS1_2 (F := Ideal) c arg1 harg1 arg2 harg2 arg3 harg3 arg6 harg6 arg7 harg7 arg13 x0 x1 x2 x5 x6)) (slab2 1 1 rfl inb_S8x64_S1x64_1_0 u g)).trans (zN_2 c arg1 harg1 arg2 harg2 arg3 harg3 arg6 harg6 arg7 harg7 arg13 x0 x1 x2 x5 x6 1 (by decide) g)
theorem readT_2 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v120 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v120
  rw [View.readCov_eq_canon']
  exact (congrArg (View.canon (kernelRun0_A.sl.HS0_3 (F := Ideal) c arg1 harg1 arg2 harg2 arg3 harg3 arg4 harg4 arg5 harg5 arg6 harg6 arg7 harg7 arg12 x0 x1 x2 x3 x4 x5 x6)) (slab3 2 2 rfl inb_S8x64x32_S1x64x32_2_0_0 u g c')).trans (zT_3 c arg1 harg1 arg2 harg2 arg3 harg3 arg4 harg4 arg5 harg5 arg6 harg6 arg7 harg7 arg12 x0 x1 x2 x3 x4 x5 x6 2 (by decide) g c')
theorem readN_2 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v126 (F := Ideal) c arg1 harg1 arg2 harg2 arg3 harg3 arg6 harg6 arg7 harg7 arg13 x0 x1 x2 x5 x6 : S1x64.Idx → EReal) (ix2 u g) = 0 := by
  unfold kernelRun0_A.sl.v126
  rw [View.readCov_eq_canon']
  exact (congrArg (View.canon (kernelRun0_A.sl.HS1_3 (F := Ideal) c arg1 harg1 arg2 harg2 arg3 harg3 arg6 harg6 arg7 harg7 arg13 x0 x1 x2 x5 x6)) (slab2 2 2 rfl inb_S8x64_S1x64_2_0 u g)).trans (zN_3 c arg1 harg1 arg2 harg2 arg3 harg3 arg6 harg6 arg7 harg7 arg13 x0 x1 x2 x5 x6 2 (by decide) g)
theorem readT_3 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v158 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v158
  rw [View.readCov_eq_canon']
  exact (congrArg (View.canon (kernelRun0_A.sl.HS0_4 (F := Ideal) c arg1 harg1 arg2 harg2 arg3 harg3 arg4 harg4 arg5 harg5 arg6 harg6 arg7 harg7 arg12 x0 x1 x2 x3 x4 x5 x6)) (slab3 3 3 rfl inb_S8x64x32_S1x64x32_3_0_0 u g c')).trans (zT_4 c arg1 harg1 arg2 harg2 arg3 harg3 arg4 harg4 arg5 harg5 arg6 harg6 arg7 harg7 arg12 x0 x1 x2 x3 x4 x5 x6 3 (by decide) g c')
theorem readN_3 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v164 (F := Ideal) c arg1 harg1 arg2 harg2 arg3 harg3 arg6 harg6 arg7 harg7 arg13 x0 x1 x2 x5 x6 : S1x64.Idx → EReal) (ix2 u g) = 0 := by
  unfold kernelRun0_A.sl.v164
  rw [View.readCov_eq_canon']
  exact (congrArg (View.canon (kernelRun0_A.sl.HS1_4 (F := Ideal) c arg1 harg1 arg2 harg2 arg3 harg3 arg6 harg6 arg7 harg7 arg13 x0 x1 x2 x5 x6)) (slab2 3 3 rfl inb_S8x64_S1x64_3_0 u g)).trans (zN_4 c arg1 harg1 arg2 harg2 arg3 harg3 arg6 harg6 arg7 harg7 arg13 x0 x1 x2 x5 x6 3 (by decide) g)
theorem readT_4 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v196 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v196
  rw [View.readCov_eq_canon']
  exact (congrArg (View.canon (kernelRun0_A.sl.HS0_5 (F := Ideal) c arg1 harg1 arg2 harg2 arg3 harg3 arg4 harg4 arg5 harg5 arg6 harg6 arg7 harg7 arg12 x0 x1 x2 x3 x4 x5 x6)) (slab3 4 4 rfl inb_S8x64x32_S1x64x32_4_0_0 u g c')).trans (zT_5 c arg1 harg1 arg2 harg2 arg3 harg3 arg4 harg4 arg5 harg5 arg6 harg6 arg7 harg7 arg12 x0 x1 x2 x3 x4 x5 x6 4 (by decide) g c')
theorem readN_4 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v202 (F := Ideal) c arg1 harg1 arg2 harg2 arg3 harg3 arg6 harg6 arg7 harg7 arg13 x0 x1 x2 x5 x6 : S1x64.Idx → EReal) (ix2 u g) = 0 := by
  unfold kernelRun0_A.sl.v202
  rw [View.readCov_eq_canon']
  exact (congrArg (View.canon (kernelRun0_A.sl.HS1_5 (F := Ideal) c arg1 harg1 arg2 harg2 arg3 harg3 arg6 harg6 arg7 harg7 arg13 x0 x1 x2 x5 x6)) (slab2 4 4 rfl inb_S8x64_S1x64_4_0 u g)).trans (zN_5 c arg1 harg1 arg2 harg2 arg3 harg3 arg6 harg6 arg7 harg7 arg13 x0 x1 x2 x5 x6 4 (by decide) g)
theorem readT_5 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v234 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v234
  rw [View.readCov_eq_canon']
  exact (congrArg (View.canon (kernelRun0_A.sl.HS0_6 (F := Ideal) c arg1 harg1 arg2 harg2 arg3 harg3 arg4 harg4 arg5 harg5 arg6 harg6 arg7 harg7 arg12 x0 x1 x2 x3 x4 x5 x6)) (slab3 5 5 rfl inb_S8x64x32_S1x64x32_5_0_0 u g c')).trans (zT_6 c arg1 harg1 arg2 harg2 arg3 harg3 arg4 harg4 arg5 harg5 arg6 harg6 arg7 harg7 arg12 x0 x1 x2 x3 x4 x5 x6 5 (by decide) g c')
theorem readN_5 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v240 (F := Ideal) c arg1 harg1 arg2 harg2 arg3 harg3 arg6 harg6 arg7 harg7 arg13 x0 x1 x2 x5 x6 : S1x64.Idx → EReal) (ix2 u g) = 0 := by
  unfold kernelRun0_A.sl.v240
  rw [View.readCov_eq_canon']
  exact (congrArg (View.canon (kernelRun0_A.sl.HS1_6 (F := Ideal) c arg1 harg1 arg2 harg2 arg3 harg3 arg6 harg6 arg7 harg7 arg13 x0 x1 x2 x5 x6)) (slab2 5 5 rfl inb_S8x64_S1x64_5_0 u g)).trans (zN_6 c arg1 harg1 arg2 harg2 arg3 harg3 arg6 harg6 arg7 harg7 arg13 x0 x1 x2 x5 x6 5 (by decide) g)
theorem readT_6 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v272 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v272
  rw [View.readCov_eq_canon']
  exact (congrArg (View.canon (kernelRun0_A.sl.HS0_7 (F := Ideal) c arg1 harg1 arg2 harg2 arg3 harg3 arg4 harg4 arg5 harg5 arg6 harg6 arg7 harg7 arg12 x0 x1 x2 x3 x4 x5 x6)) (slab3 6 6 rfl inb_S8x64x32_S1x64x32_6_0_0 u g c')).trans (zT_7 c arg1 harg1 arg2 harg2 arg3 harg3 arg4 harg4 arg5 harg5 arg6 harg6 arg7 harg7 arg12 x0 x1 x2 x3 x4 x5 x6 6 (by decide) g c')
theorem readN_6 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v278 (F := Ideal) c arg1 harg1 arg2 harg2 arg3 harg3 arg6 harg6 arg7 harg7 arg13 x0 x1 x2 x5 x6 : S1x64.Idx → EReal) (ix2 u g) = 0 := by
  unfold kernelRun0_A.sl.v278
  rw [View.readCov_eq_canon']
  exact (congrArg (View.canon (kernelRun0_A.sl.HS1_7 (F := Ideal) c arg1 harg1 arg2 harg2 arg3 harg3 arg6 harg6 arg7 harg7 arg13 x0 x1 x2 x5 x6)) (slab2 6 6 rfl inb_S8x64_S1x64_6_0 u g)).trans (zN_7 c arg1 harg1 arg2 harg2 arg3 harg3 arg6 harg6 arg7 harg7 arg13 x0 x1 x2 x5 x6 6 (by decide) g)
theorem readT_7 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg12 : Memref sig .tc .vmem S8x64x32 .f32) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (u : Fin 1) (g : Fin 64) (c' : Fin 32) :
    (kernelRun0_A.sl.v310 (F := Ideal) c arg1 harg1 arg2 harg2 arg3 harg3 arg4 harg4 arg5 harg5 arg6 harg6 arg7 harg7 arg12 x0 x1 x2 x3 x4 x5 x6 : S1x64x32.Idx → EReal) (ix3 u g c') = 0 := by
  unfold kernelRun0_A.sl.v310
  rw [View.readCov_eq_canon']
  exact (congrArg (View.canon (kernelRun0_A.sl.HS0_8 (F := Ideal) c arg1 harg1 arg2 harg2 arg3 harg3 arg4 harg4 arg5 harg5 arg6 harg6 arg7 harg7 arg12 x0 x1 x2 x3 x4 x5 x6)) (slab3 7 7 rfl inb_S8x64x32_S1x64x32_7_0_0 u g c')).trans (zT_8 c arg1 harg1 arg2 harg2 arg3 harg3 arg4 harg4 arg5 harg5 arg6 harg6 arg7 harg7 arg12 x0 x1 x2 x3 x4 x5 x6 7 (by decide) g c')
theorem readN_7 (c : Dev nD) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg6 : Memref sig .tc .vmem S8x32x64 .bf16) (harg6 : arg6.IsWhole) (arg7 : Memref sig .tc .vmem S8x64 .f32) (harg7 : arg7.IsWhole) (arg13 : Memref sig .tc .vmem S8x64 .f32) (x0 : Vec Ideal S2000x256 .f32) (x1 : Vec Ideal S256x256 .bf16) (x2 : Vec Ideal S256 .f32) (x5 : Vec Ideal S8x32x64 .bf16) (x6 : Vec Ideal S8x64 .f32) (u : Fin 1) (g : Fin 64) :
    (kernelRun0_A.sl.v316 (F := Ideal) c arg1 harg1 arg2 harg2 arg3 harg3 arg6 harg6 arg7 harg7 arg13 x0 x1 x2 x5 x6 : S1x64.Idx → EReal) (ix2 u g) = 0 := by
  unfold kernelRun0_A.sl.v316
  rw [View.readCov_eq_canon']
  exact (congrArg (View.canon (kernelRun0_A.sl.HS1_8 (F := Ideal) c arg1 harg1 arg2 harg2 arg3 harg3 arg6 harg6 arg7 harg7 arg13 x0 x1 x2 x5 x6)) (slab2 7 7 rfl inb_S8x64_S1x64_7_0 u g)).trans (zN_8 c arg1 harg1 arg2 harg2 arg3 harg3 arg6 harg6 arg7 harg7 arg13 x0 x1 x2 x5 x6 7 (by decide) g)

/-! ## The eight heads' rectangles cover the accumulators -/

theorem slab3_mem (hh : ℕ) (h : Fin 8) (hv : h.val = hh)
    (inb : ∀ a, (![hh, 0, 0] : Fin 3 → ℕ) a + S1x64x32.size a ≤ S8x64x32.size a) (g : Fin 64) (c' : Fin 32) :
    ix3 h g c' ∈ (Rect.unit (s := S8x64x32) ![hh, 0, 0] S1x64x32.size inb).set := by
  rw [← slab3 hh h hv inb 0 g c']
  exact LoadRect.idx_mem _ _

theorem slab2_mem (hh : ℕ) (h : Fin 8) (hv : h.val = hh)
    (inb : ∀ a, (![hh, 0] : Fin 2 → ℕ) a + S1x64.size a ≤ S8x64.size a) (g : Fin 64) :
    ix2 h g ∈ (Rect.unit (s := S8x64) ![hh, 0] S1x64.size inb).set := by
  rw [← slab2 hh h hv inb 0 g]
  exact LoadRect.idx_mem _ _

theorem cover8_tok (P7 P6 P5 P4 P3 P2 P1 P0 : S1x64x32.Idx → Elt Ideal .f32) (y : S8x64x32.Idx) :
    ∃ p ∈ ([⟨Rect.unit (s := S8x64x32) ![7, 0, 0] S1x64x32.size inb_S8x64x32_S1x64x32_7_0_0, P7⟩, ⟨Rect.unit (s := S8x64x32) ![6, 0, 0] S1x64x32.size inb_S8x64x32_S1x64x32_6_0_0, P6⟩, ⟨Rect.unit (s := S8x64x32) ![5, 0, 0] S1x64x32.size inb_S8x64x32_S1x64x32_5_0_0, P5⟩, ⟨Rect.unit (s := S8x64x32) ![4, 0, 0] S1x64x32.size inb_S8x64x32_S1x64x32_4_0_0, P4⟩, ⟨Rect.unit (s := S8x64x32) ![3, 0, 0] S1x64x32.size inb_S8x64x32_S1x64x32_3_0_0, P3⟩, ⟨Rect.unit (s := S8x64x32) ![2, 0, 0] S1x64x32.size inb_S8x64x32_S1x64x32_2_0_0, P2⟩, ⟨Rect.unit (s := S8x64x32) ![1, 0, 0] S1x64x32.size inb_S8x64x32_S1x64x32_1_0_0, P1⟩, ⟨Rect.unit (s := S8x64x32) ![0, 0, 0] S1x64x32.size inb_S8x64x32_S1x64x32_0_0_0, P0⟩] : List (View.Piece (Elt Ideal) S8x64x32 .f32)), y ∈ p.1.set := by
  obtain ⟨h, g, c', rfl⟩ : ∃ (h : Fin 8) (g : Fin 64) (c' : Fin 32), y = ix3 h g c' := ⟨y 0, y 1, y 2, eq_ix3 y⟩
  match h with
  | ⟨7, _⟩ => exact ⟨_, List.Mem.head _, slab3_mem 7 _ rfl inb_S8x64x32_S1x64x32_7_0_0 g c'⟩
  | ⟨6, _⟩ => exact ⟨_, List.Mem.tail _ (List.Mem.head _), slab3_mem 6 _ rfl inb_S8x64x32_S1x64x32_6_0_0 g c'⟩
  | ⟨5, _⟩ => exact ⟨_, List.Mem.tail _ (List.Mem.tail _ (List.Mem.head _)), slab3_mem 5 _ rfl inb_S8x64x32_S1x64x32_5_0_0 g c'⟩
  | ⟨4, _⟩ => exact ⟨_, List.Mem.tail _ (List.Mem.tail _ (List.Mem.tail _ (List.Mem.head _))), slab3_mem 4 _ rfl inb_S8x64x32_S1x64x32_4_0_0 g c'⟩
  | ⟨3, _⟩ => exact ⟨_, List.Mem.tail _ (List.Mem.tail _ (List.Mem.tail _ (List.Mem.tail _ (List.Mem.head _)))), slab3_mem 3 _ rfl inb_S8x64x32_S1x64x32_3_0_0 g c'⟩
  | ⟨2, _⟩ => exact ⟨_, List.Mem.tail _ (List.Mem.tail _ (List.Mem.tail _ (List.Mem.tail _ (List.Mem.tail _ (List.Mem.head _))))), slab3_mem 2 _ rfl inb_S8x64x32_S1x64x32_2_0_0 g c'⟩
  | ⟨1, _⟩ => exact ⟨_, List.Mem.tail _ (List.Mem.tail _ (List.Mem.tail _ (List.Mem.tail _ (List.Mem.tail _ (List.Mem.tail _ (List.Mem.head _)))))), slab3_mem 1 _ rfl inb_S8x64x32_S1x64x32_1_0_0 g c'⟩
  | ⟨0, _⟩ => exact ⟨_, List.Mem.tail _ (List.Mem.tail _ (List.Mem.tail _ (List.Mem.tail _ (List.Mem.tail _ (List.Mem.tail _ (List.Mem.tail _ (List.Mem.head _))))))), slab3_mem 0 _ rfl inb_S8x64x32_S1x64x32_0_0_0 g c'⟩
  | ⟨k + 8, hk⟩ => exact absurd hk (by omega)

theorem cover8_norm (P7 P6 P5 P4 P3 P2 P1 P0 : S1x64.Idx → Elt Ideal .f32) (y : S8x64.Idx) :
    ∃ p ∈ ([⟨Rect.unit (s := S8x64) ![7, 0] S1x64.size inb_S8x64_S1x64_7_0, P7⟩, ⟨Rect.unit (s := S8x64) ![6, 0] S1x64.size inb_S8x64_S1x64_6_0, P6⟩, ⟨Rect.unit (s := S8x64) ![5, 0] S1x64.size inb_S8x64_S1x64_5_0, P5⟩, ⟨Rect.unit (s := S8x64) ![4, 0] S1x64.size inb_S8x64_S1x64_4_0, P4⟩, ⟨Rect.unit (s := S8x64) ![3, 0] S1x64.size inb_S8x64_S1x64_3_0, P3⟩, ⟨Rect.unit (s := S8x64) ![2, 0] S1x64.size inb_S8x64_S1x64_2_0, P2⟩, ⟨Rect.unit (s := S8x64) ![1, 0] S1x64.size inb_S8x64_S1x64_1_0, P1⟩, ⟨Rect.unit (s := S8x64) ![0, 0] S1x64.size inb_S8x64_S1x64_0_0, P0⟩] : List (View.Piece (Elt Ideal) S8x64 .f32)), y ∈ p.1.set := by
  obtain ⟨h, g, rfl⟩ : ∃ (h : Fin 8) (g : Fin 64), y = ix2 h g := ⟨y 0, y 1, eq_ix2 y⟩
  match h with
  | ⟨7, _⟩ => exact ⟨_, List.Mem.head _, slab2_mem 7 _ rfl inb_S8x64_S1x64_7_0 g⟩
  | ⟨6, _⟩ => exact ⟨_, List.Mem.tail _ (List.Mem.head _), slab2_mem 6 _ rfl inb_S8x64_S1x64_6_0 g⟩
  | ⟨5, _⟩ => exact ⟨_, List.Mem.tail _ (List.Mem.tail _ (List.Mem.head _)), slab2_mem 5 _ rfl inb_S8x64_S1x64_5_0 g⟩
  | ⟨4, _⟩ => exact ⟨_, List.Mem.tail _ (List.Mem.tail _ (List.Mem.tail _ (List.Mem.head _))), slab2_mem 4 _ rfl inb_S8x64_S1x64_4_0 g⟩
  | ⟨3, _⟩ => exact ⟨_, List.Mem.tail _ (List.Mem.tail _ (List.Mem.tail _ (List.Mem.tail _ (List.Mem.head _)))), slab2_mem 3 _ rfl inb_S8x64_S1x64_3_0 g⟩
  | ⟨2, _⟩ => exact ⟨_, List.Mem.tail _ (List.Mem.tail _ (List.Mem.tail _ (List.Mem.tail _ (List.Mem.tail _ (List.Mem.head _))))), slab2_mem 2 _ rfl inb_S8x64_S1x64_2_0 g⟩
  | ⟨1, _⟩ => exact ⟨_, List.Mem.tail _ (List.Mem.tail _ (List.Mem.tail _ (List.Mem.tail _ (List.Mem.tail _ (List.Mem.tail _ (List.Mem.head _)))))), slab2_mem 1 _ rfl inb_S8x64_S1x64_1_0 g⟩
  | ⟨0, _⟩ => exact ⟨_, List.Mem.tail _ (List.Mem.tail _ (List.Mem.tail _ (List.Mem.tail _ (List.Mem.tail _ (List.Mem.tail _ (List.Mem.tail _ (List.Mem.head _))))))), slab2_mem 0 _ rfl inb_S8x64_S1x64_0_0 g⟩
  | ⟨k + 8, hk⟩ => exact absurd hk (by omega)

/-- Eight stores, one per slab, each the block of one function G, over any earlier store: the contents are G. -/
theorem canon9_tok (G : S8x64x32.Idx → EReal) (P7 P6 P5 P4 P3 P2 P1 P0 : S1x64x32.Idx → Elt Ideal .f32)
    (Z : View.Piece (Elt Ideal) S8x64x32 .f32)
    (h7 : ∀ x : S1x64x32.Idx, (P7 x : EReal) = G ((Rect.unit (s := S8x64x32) ![7, 0, 0] S1x64x32.size inb_S8x64x32_S1x64x32_7_0_0).emb x))
    (h6 : ∀ x : S1x64x32.Idx, (P6 x : EReal) = G ((Rect.unit (s := S8x64x32) ![6, 0, 0] S1x64x32.size inb_S8x64x32_S1x64x32_6_0_0).emb x))
    (h5 : ∀ x : S1x64x32.Idx, (P5 x : EReal) = G ((Rect.unit (s := S8x64x32) ![5, 0, 0] S1x64x32.size inb_S8x64x32_S1x64x32_5_0_0).emb x))
    (h4 : ∀ x : S1x64x32.Idx, (P4 x : EReal) = G ((Rect.unit (s := S8x64x32) ![4, 0, 0] S1x64x32.size inb_S8x64x32_S1x64x32_4_0_0).emb x))
    (h3 : ∀ x : S1x64x32.Idx, (P3 x : EReal) = G ((Rect.unit (s := S8x64x32) ![3, 0, 0] S1x64x32.size inb_S8x64x32_S1x64x32_3_0_0).emb x))
    (h2 : ∀ x : S1x64x32.Idx, (P2 x : EReal) = G ((Rect.unit (s := S8x64x32) ![2, 0, 0] S1x64x32.size inb_S8x64x32_S1x64x32_2_0_0).emb x))
    (h1 : ∀ x : S1x64x32.Idx, (P1 x : EReal) = G ((Rect.unit (s := S8x64x32) ![1, 0, 0] S1x64x32.size inb_S8x64x32_S1x64x32_1_0_0).emb x))
    (h0 : ∀ x : S1x64x32.Idx, (P0 x : EReal) = G ((Rect.unit (s := S8x64x32) ![0, 0, 0] S1x64x32.size inb_S8x64x32_S1x64x32_0_0_0).emb x))
    (y : S8x64x32.Idx) :
    (View.canon ([⟨Rect.unit (s := S8x64x32) ![7, 0, 0] S1x64x32.size inb_S8x64x32_S1x64x32_7_0_0, P7⟩, ⟨Rect.unit (s := S8x64x32) ![6, 0, 0] S1x64x32.size inb_S8x64x32_S1x64x32_6_0_0, P6⟩, ⟨Rect.unit (s := S8x64x32) ![5, 0, 0] S1x64x32.size inb_S8x64x32_S1x64x32_5_0_0, P5⟩, ⟨Rect.unit (s := S8x64x32) ![4, 0, 0] S1x64x32.size inb_S8x64x32_S1x64x32_4_0_0, P4⟩, ⟨Rect.unit (s := S8x64x32) ![3, 0, 0] S1x64x32.size inb_S8x64x32_S1x64x32_3_0_0, P3⟩, ⟨Rect.unit (s := S8x64x32) ![2, 0, 0] S1x64x32.size inb_S8x64x32_S1x64x32_2_0_0, P2⟩, ⟨Rect.unit (s := S8x64x32) ![1, 0, 0] S1x64x32.size inb_S8x64x32_S1x64x32_1_0_0, P1⟩, ⟨Rect.unit (s := S8x64x32) ![0, 0, 0] S1x64x32.size inb_S8x64x32_S1x64x32_0_0_0, P0⟩, Z] : List (View.Piece (Elt Ideal) S8x64x32 .f32)) : S8x64x32.Idx → EReal) y = G y := by
  rw [canon_take 8 _ y (cover8_tok P7 P6 P5 P4 P3 P2 P1 P0 y)]
  refine View.canon_apply_of_pieces G _ ?_ y (cover8_tok P7 P6 P5 P4 P3 P2 P1 P0 y)
  intro p hp x
  simp only [List.take_succ_cons, List.take_zero, List.mem_cons, List.not_mem_nil, or_false] at hp
  rcases hp with rfl | rfl | rfl | rfl | rfl | rfl | rfl | rfl
  · exact h7 x
  · exact h6 x
  · exact h5 x
  · exact h4 x
  · exact h3 x
  · exact h2 x
  · exact h1 x
  · exact h0 x

theorem canon9_norm (G : S8x64.Idx → EReal) (P7 P6 P5 P4 P3 P2 P1 P0 : S1x64.Idx → Elt Ideal .f32)
    (Z : View.Piece (Elt Ideal) S8x64 .f32)
    (h7 : ∀ x : S1x64.Idx, (P7 x : EReal) = G ((Rect.unit (s := S8x64) ![7, 0] S1x64.size inb_S8x64_S1x64_7_0).emb x))
    (h6 : ∀ x : S1x64.Idx, (P6 x : EReal) = G ((Rect.unit (s := S8x64) ![6, 0] S1x64.size inb_S8x64_S1x64_6_0).emb x))
    (h5 : ∀ x : S1x64.Idx, (P5 x : EReal) = G ((Rect.unit (s := S8x64) ![5, 0] S1x64.size inb_S8x64_S1x64_5_0).emb x))
    (h4 : ∀ x : S1x64.Idx, (P4 x : EReal) = G ((Rect.unit (s := S8x64) ![4, 0] S1x64.size inb_S8x64_S1x64_4_0).emb x))
    (h3 : ∀ x : S1x64.Idx, (P3 x : EReal) = G ((Rect.unit (s := S8x64) ![3, 0] S1x64.size inb_S8x64_S1x64_3_0).emb x))
    (h2 : ∀ x : S1x64.Idx, (P2 x : EReal) = G ((Rect.unit (s := S8x64) ![2, 0] S1x64.size inb_S8x64_S1x64_2_0).emb x))
    (h1 : ∀ x : S1x64.Idx, (P1 x : EReal) = G ((Rect.unit (s := S8x64) ![1, 0] S1x64.size inb_S8x64_S1x64_1_0).emb x))
    (h0 : ∀ x : S1x64.Idx, (P0 x : EReal) = G ((Rect.unit (s := S8x64) ![0, 0] S1x64.size inb_S8x64_S1x64_0_0).emb x))
    (y : S8x64.Idx) :
    (View.canon ([⟨Rect.unit (s := S8x64) ![7, 0] S1x64.size inb_S8x64_S1x64_7_0, P7⟩, ⟨Rect.unit (s := S8x64) ![6, 0] S1x64.size inb_S8x64_S1x64_6_0, P6⟩, ⟨Rect.unit (s := S8x64) ![5, 0] S1x64.size inb_S8x64_S1x64_5_0, P5⟩, ⟨Rect.unit (s := S8x64) ![4, 0] S1x64.size inb_S8x64_S1x64_4_0, P4⟩, ⟨Rect.unit (s := S8x64) ![3, 0] S1x64.size inb_S8x64_S1x64_3_0, P3⟩, ⟨Rect.unit (s := S8x64) ![2, 0] S1x64.size inb_S8x64_S1x64_2_0, P2⟩, ⟨Rect.unit (s := S8x64) ![1, 0] S1x64.size inb_S8x64_S1x64_1_0, P1⟩, ⟨Rect.unit (s := S8x64) ![0, 0] S1x64.size inb_S8x64_S1x64_0_0, P0⟩, Z] : List (View.Piece (Elt Ideal) S8x64 .f32)) : S8x64.Idx → EReal) y = G y := by
  rw [canon_take 8 _ y (cover8_norm P7 P6 P5 P4 P3 P2 P1 P0 y)]
  refine View.canon_apply_of_pieces G _ ?_ y (cover8_norm P7 P6 P5 P4 P3 P2 P1 P0 y)
  intro p hp x
  simp only [List.take_succ_cons, List.take_zero, List.mem_cons, List.not_mem_nil, or_false] at hp
  rcases hp with rfl | rfl | rfl | rfl | rfl | rfl | rfl | rfl
  · exact h7 x
  · exact h6 x
  · exact h5 x
  · exact h4 x
  · exact h3 x
  · exact h2 x
  · exact h1 x
  · exact h0 x

/-! ## The first point -/

/-- Case A: the pooled-token accumulator after the first point, from zero. -/
theorem sout_A_0_eq (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) :
    (sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 : S8x64x32.Idx → EReal) = Gtok x0 x1 x2 x3 x4 x5 x6 (fun _ => 0) := by
  funext y
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  unfold kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  simp only [kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.cst_136]
  simp only [View.readAt_eq_ld, harg1.read_unread, harg2.read_unread, harg3.read_unread, harg4.read_unread, harg5.read_unread, harg6.read_unread, harg7.read_unread, View.ld_unit_zero (S := S2000x256) hz2, View.ld_unit_zero (S := S256x256) hz2, View.ld_unit_zero (S := S256) hz1]
  refine canon9_tok (Gtok x0 x1 x2 x3 x4 x5 x6 (fun _ => 0)) _ _ _ _ _ _ _ _ _ ?_ ?_ ?_ ?_ ?_ ?_ ?_ ?_ y
  · intro x; exact (congrFun (tok_h7 x0 x1 x2 x3 x4 _ _ _) x).trans (tok_piece 7 7 rfl 224 rfl slices_S2000x256_o0_224_S2000x32 inb_S8x64x32_S1x64x32_7_0_0 inb_S8x32x64_S1x32x64_7_0_0 inb_S8x64_S1x64_7_0 x0 x1 x2 x3 x4 x5 x6 (fun _ => 0) _ (fun u g c' => readT_7 c arg1 harg1 arg2 harg2 arg3 harg3 arg4 harg4 arg5 harg5 arg6 harg6 arg7 harg7 arg12 x0 x1 x2 x3 x4 x5 x6 u g c') x)
  · intro x; exact (congrFun (tok_h6 x0 x1 x2 x3 x4 _ _ _) x).trans (tok_piece 6 6 rfl 192 rfl slices_S2000x256_o0_192_S2000x32 inb_S8x64x32_S1x64x32_6_0_0 inb_S8x32x64_S1x32x64_6_0_0 inb_S8x64_S1x64_6_0 x0 x1 x2 x3 x4 x5 x6 (fun _ => 0) _ (fun u g c' => readT_6 c arg1 harg1 arg2 harg2 arg3 harg3 arg4 harg4 arg5 harg5 arg6 harg6 arg7 harg7 arg12 x0 x1 x2 x3 x4 x5 x6 u g c') x)
  · intro x; exact (congrFun (tok_h5 x0 x1 x2 x3 x4 _ _ _) x).trans (tok_piece 5 5 rfl 160 rfl slices_S2000x256_o0_160_S2000x32 inb_S8x64x32_S1x64x32_5_0_0 inb_S8x32x64_S1x32x64_5_0_0 inb_S8x64_S1x64_5_0 x0 x1 x2 x3 x4 x5 x6 (fun _ => 0) _ (fun u g c' => readT_5 c arg1 harg1 arg2 harg2 arg3 harg3 arg4 harg4 arg5 harg5 arg6 harg6 arg7 harg7 arg12 x0 x1 x2 x3 x4 x5 x6 u g c') x)
  · intro x; exact (congrFun (tok_h4 x0 x1 x2 x3 x4 _ _ _) x).trans (tok_piece 4 4 rfl 128 rfl slices_S2000x256_o0_128_S2000x32 inb_S8x64x32_S1x64x32_4_0_0 inb_S8x32x64_S1x32x64_4_0_0 inb_S8x64_S1x64_4_0 x0 x1 x2 x3 x4 x5 x6 (fun _ => 0) _ (fun u g c' => readT_4 c arg1 harg1 arg2 harg2 arg3 harg3 arg4 harg4 arg5 harg5 arg6 harg6 arg7 harg7 arg12 x0 x1 x2 x3 x4 x5 x6 u g c') x)
  · intro x; exact (congrFun (tok_h3 x0 x1 x2 x3 x4 _ _ _) x).trans (tok_piece 3 3 rfl 96 rfl slices_S2000x256_o0_96_S2000x32 inb_S8x64x32_S1x64x32_3_0_0 inb_S8x32x64_S1x32x64_3_0_0 inb_S8x64_S1x64_3_0 x0 x1 x2 x3 x4 x5 x6 (fun _ => 0) _ (fun u g c' => readT_3 c arg1 harg1 arg2 harg2 arg3 harg3 arg4 harg4 arg5 harg5 arg6 harg6 arg7 harg7 arg12 x0 x1 x2 x3 x4 x5 x6 u g c') x)
  · intro x; exact (congrFun (tok_h2 x0 x1 x2 x3 x4 _ _ _) x).trans (tok_piece 2 2 rfl 64 rfl slices_S2000x256_o0_64_S2000x32 inb_S8x64x32_S1x64x32_2_0_0 inb_S8x32x64_S1x32x64_2_0_0 inb_S8x64_S1x64_2_0 x0 x1 x2 x3 x4 x5 x6 (fun _ => 0) _ (fun u g c' => readT_2 c arg1 harg1 arg2 harg2 arg3 harg3 arg4 harg4 arg5 harg5 arg6 harg6 arg7 harg7 arg12 x0 x1 x2 x3 x4 x5 x6 u g c') x)
  · intro x; exact (congrFun (tok_h1 x0 x1 x2 x3 x4 _ _ _) x).trans (tok_piece 1 1 rfl 32 rfl slices_S2000x256_o0_32_S2000x32 inb_S8x64x32_S1x64x32_1_0_0 inb_S8x32x64_S1x32x64_1_0_0 inb_S8x64_S1x64_1_0 x0 x1 x2 x3 x4 x5 x6 (fun _ => 0) _ (fun u g c' => readT_1 c arg1 harg1 arg2 harg2 arg3 harg3 arg4 harg4 arg5 harg5 arg6 harg6 arg7 harg7 arg12 x0 x1 x2 x3 x4 x5 x6 u g c') x)
  · intro x; exact (congrFun (tok_h0 x0 x1 x2 x3 x4 _ _ _) x).trans (tok_piece 0 0 rfl 0 rfl slices_S2000x256_o0_0_S2000x32 inb_S8x64x32_S1x64x32_0_0_0 inb_S8x32x64_S1x32x64_0_0_0 inb_S8x64_S1x64_0_0 x0 x1 x2 x3 x4 x5 x6 (fun _ => 0) _ (fun u g c' => readT_0 c arg12 u g c') x)

/-- Case A: the column-sum accumulator after the first point, from zero. -/
theorem sout_A_1_eq (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : cond0_0 i) (hc1 : ¬cond0_1 i) (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) :
    (sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 : S8x64.Idx → EReal) = Gnorm x0 x1 x2 x5 x6 (fun _ => 0) := by
  funext y
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  unfold kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  simp only [kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.cst_136]
  simp only [View.readAt_eq_ld, harg1.read_unread, harg2.read_unread, harg3.read_unread, harg4.read_unread, harg5.read_unread, harg6.read_unread, harg7.read_unread, View.ld_unit_zero (S := S2000x256) hz2, View.ld_unit_zero (S := S256x256) hz2, View.ld_unit_zero (S := S256) hz1]
  refine canon9_norm (Gnorm x0 x1 x2 x5 x6 (fun _ => 0)) _ _ _ _ _ _ _ _ _ ?_ ?_ ?_ ?_ ?_ ?_ ?_ ?_ y
  · intro x; exact (congrFun (norm_h7 x0 x1 x2 x3 x4 _ _ _) x).trans (norm_piece 7 7 rfl 224 rfl slices_S2000x256_o0_224_S2000x32 inb_S8x64_S1x64_7_0 inb_S8x32x64_S1x32x64_7_0_0 inb_S8x64_S1x64_7_0 x0 x1 x2 x5 x6 (fun _ => 0) _ (fun u g => readN_7 c arg1 harg1 arg2 harg2 arg3 harg3 arg6 harg6 arg7 harg7 arg13 x0 x1 x2 x5 x6 u g) x)
  · intro x; exact (congrFun (norm_h6 x0 x1 x2 x3 x4 _ _ _) x).trans (norm_piece 6 6 rfl 192 rfl slices_S2000x256_o0_192_S2000x32 inb_S8x64_S1x64_6_0 inb_S8x32x64_S1x32x64_6_0_0 inb_S8x64_S1x64_6_0 x0 x1 x2 x5 x6 (fun _ => 0) _ (fun u g => readN_6 c arg1 harg1 arg2 harg2 arg3 harg3 arg6 harg6 arg7 harg7 arg13 x0 x1 x2 x5 x6 u g) x)
  · intro x; exact (congrFun (norm_h5 x0 x1 x2 x3 x4 _ _ _) x).trans (norm_piece 5 5 rfl 160 rfl slices_S2000x256_o0_160_S2000x32 inb_S8x64_S1x64_5_0 inb_S8x32x64_S1x32x64_5_0_0 inb_S8x64_S1x64_5_0 x0 x1 x2 x5 x6 (fun _ => 0) _ (fun u g => readN_5 c arg1 harg1 arg2 harg2 arg3 harg3 arg6 harg6 arg7 harg7 arg13 x0 x1 x2 x5 x6 u g) x)
  · intro x; exact (congrFun (norm_h4 x0 x1 x2 x3 x4 _ _ _) x).trans (norm_piece 4 4 rfl 128 rfl slices_S2000x256_o0_128_S2000x32 inb_S8x64_S1x64_4_0 inb_S8x32x64_S1x32x64_4_0_0 inb_S8x64_S1x64_4_0 x0 x1 x2 x5 x6 (fun _ => 0) _ (fun u g => readN_4 c arg1 harg1 arg2 harg2 arg3 harg3 arg6 harg6 arg7 harg7 arg13 x0 x1 x2 x5 x6 u g) x)
  · intro x; exact (congrFun (norm_h3 x0 x1 x2 x3 x4 _ _ _) x).trans (norm_piece 3 3 rfl 96 rfl slices_S2000x256_o0_96_S2000x32 inb_S8x64_S1x64_3_0 inb_S8x32x64_S1x32x64_3_0_0 inb_S8x64_S1x64_3_0 x0 x1 x2 x5 x6 (fun _ => 0) _ (fun u g => readN_3 c arg1 harg1 arg2 harg2 arg3 harg3 arg6 harg6 arg7 harg7 arg13 x0 x1 x2 x5 x6 u g) x)
  · intro x; exact (congrFun (norm_h2 x0 x1 x2 x3 x4 _ _ _) x).trans (norm_piece 2 2 rfl 64 rfl slices_S2000x256_o0_64_S2000x32 inb_S8x64_S1x64_2_0 inb_S8x32x64_S1x32x64_2_0_0 inb_S8x64_S1x64_2_0 x0 x1 x2 x5 x6 (fun _ => 0) _ (fun u g => readN_2 c arg1 harg1 arg2 harg2 arg3 harg3 arg6 harg6 arg7 harg7 arg13 x0 x1 x2 x5 x6 u g) x)
  · intro x; exact (congrFun (norm_h1 x0 x1 x2 x3 x4 _ _ _) x).trans (norm_piece 1 1 rfl 32 rfl slices_S2000x256_o0_32_S2000x32 inb_S8x64_S1x64_1_0 inb_S8x32x64_S1x32x64_1_0_0 inb_S8x64_S1x64_1_0 x0 x1 x2 x5 x6 (fun _ => 0) _ (fun u g => readN_1 c arg1 harg1 arg2 harg2 arg3 harg3 arg6 harg6 arg7 harg7 arg13 x0 x1 x2 x5 x6 u g) x)
  · intro x; exact (congrFun (norm_h0 x0 x1 x2 x3 x4 _ _ _) x).trans (norm_piece 0 0 rfl 0 rfl slices_S2000x256_o0_0_S2000x32 inb_S8x64_S1x64_0_0 inb_S8x32x64_S1x32x64_0_0_0 inb_S8x64_S1x64_0_0 x0 x1 x2 x5 x6 (fun _ => 0) _ (fun u g => readN_0 c arg13 u g) x)

end Cert.KernelIdeal.Hand

end
-- ==== Proof.KIAccSum.lean ====
/-
  The bookkeeping of the pooled sums: the 200000 rows are 100 tiles of 2000 consecutive rows, so a sum over the tiles
  of the sums over each tile's rows is the sum over all rows; and a sum over the first points of the grid, written over
  a range of naturals, grows by one tile per point.
-/
import Idealize.ShloMosaic.PureOps.Ideal

noncomputable section

namespace Cert.KernelIdeal.Hand

open scoped BigOperators

/-- Row r of tile t among the 200000 rows. -/
def tileRow (t : Fin 100) (r : Fin 2000) : Fin 200000 :=
  ⟨2000 * t.val + r.val, by have := t.isLt; have := r.isLt; omega⟩

/-- The sum over the tiles of the sums over their rows is the sum over all rows. -/
theorem sum_tiles {M : Type*} [AddCommMonoid M] (F : Fin 200000 → M) :
    ∑ t : Fin 100, ∑ r : Fin 2000, F (tileRow t r) = ∑ n : Fin 200000, F n := by
  calc ∑ t : Fin 100, ∑ r : Fin 2000, F (tileRow t r)
      = ∑ p : Fin 100 × Fin 2000, F (tileRow p.1 p.2) := (Fintype.sum_prod_type (fun p : Fin 100 × Fin 2000 => F (tileRow p.1 p.2))).symm
    _ = ∑ p : Fin 100 × Fin 2000, F ((finProdFinEquiv : Fin 100 × Fin 2000 ≃ Fin 200000) p) := by
        refine Finset.sum_congr rfl fun p _ => congrArg F (Fin.ext ?_)
        show 2000 * p.1.val + p.2.val = p.2.val + 2000 * p.1.val
        omega
    _ = ∑ n : Fin 200000, F n := Equiv.sum_comp _ F

/-- The tiles up to a point, as a sum over a range of naturals (zero past the grid). -/
def upTo {M : Type*} [AddCommMonoid M] (G : Fin 100 → M) (n : ℕ) : M :=
  ∑ t ∈ Finset.range (n + 1), if h : t < 100 then G ⟨t, h⟩ else 0

theorem upTo_zero {M : Type*} [AddCommMonoid M] (G : Fin 100 → M) : upTo G 0 = G ⟨0, by decide⟩ := by
  unfold upTo
  rw [Finset.sum_range_one, dif_pos (by decide)]

theorem upTo_succ {M : Type*} [AddCommMonoid M] (G : Fin 100 → M) (n : ℕ) (h : n + 1 < 100) :
    upTo G (n + 1) = upTo G n + G ⟨n + 1, h⟩ := by
  unfold upTo
  rw [Finset.sum_range_succ _ (n + 1), dif_pos h]

theorem upTo_last {M : Type*} [AddCommMonoid M] (G : Fin 100 → M) : upTo G 99 = ∑ t : Fin 100, G t := by
  unfold upTo
  rw [← Fin.sum_univ_eq_sum_range (fun t => if h : t < 100 then G ⟨t, h⟩ else 0) 100]
  exact Finset.sum_congr rfl fun t _ => by rw [dif_pos t.isLt]

end Cert.KernelIdeal.Hand

end
-- ==== Proof.KIAccBlk.lean ====
/-
  The pooling region's input blocks at a grid point, index by index. Window 0's block at point t is the 2000 rows
  2000t … 2000t+1999 of x (its block index is (t, 0), a block's coordinate is index × size + the coordinate inside the
  block); the six parameter windows' blocks are their whole arrays (block index 0 on every axis), read back at the
  coordinates that make them the matrices, biases and per-head slice weights of the specification.
-/
import proofs.«133947_j41910290874676_1_alg».proof.Proof.KIArgs
import proofs.«133947_j41910290874676_1_alg».proof.Proof.KIAccSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The block indices of the seven windows at every point: the rows' window steps with the point, the others stay at 0. -/
theorem idx0_6 : ∀ t : Fin cfg0.N, win0_0.index t (0 : Fin 2) = t.val ∧ win0_0.index t (1 : Fin 2) = 0
    ∧ (∀ a : Fin 2, win0_1.index t a = 0) ∧ (∀ a : Fin 1, win0_2.index t a = 0) ∧ (∀ a : Fin 2, win0_3.index t a = 0)
    ∧ (∀ a : Fin 1, win0_4.index t a = 0) ∧ (∀ a : Fin 3, win0_5.index t a = 0) ∧ (∀ a : Fin 2, win0_6.index t a = 0) :=
  (by decide +kernel : ∀ t : Fin grid0.N, win0_0.index t (0 : Fin 2) = t.val ∧ win0_0.index t (1 : Fin 2) = 0
    ∧ (∀ a : Fin 2, win0_1.index t a = 0) ∧ (∀ a : Fin 1, win0_2.index t a = 0) ∧ (∀ a : Fin 2, win0_3.index t a = 0)
    ∧ (∀ a : Fin 1, win0_4.index t a = 0) ∧ (∀ a : Fin 3, win0_5.index t a = 0) ∧ (∀ a : Fin 2, win0_6.index t a = 0))

/-! A parameter window's block is its whole array. -/

theorem iblk0_1 (V : (c : Dev nD) → (b : Ref sig .tc) → Buf (Elt Ideal) ((c : Thread nD τ).loc b)) (c : Dev nD) (t : Fin cfg0.N) : iblk0 V c 1 t = V c main_v15 := by
  have hz' : (fun a => win0_1.index t a * main_v15.ty.shape.size a) = fun _ => 0 := funext fun a => by rw [(idx0_6 t).2.2.1 a, Nat.zero_mul]
  exact Memref.read_access_unit_zero (Elt Ideal) main_v15 hz' (fun a => by rw [congrFun hz' a]; simp) (V c main_v15)
theorem iblk0_2 (V : (c : Dev nD) → (b : Ref sig .tc) → Buf (Elt Ideal) ((c : Thread nD τ).loc b)) (c : Dev nD) (t : Fin cfg0.N) : iblk0 V c 2 t = V c main_arg2 := by
  have hz' : (fun a => win0_2.index t a * main_arg2.ty.shape.size a) = fun _ => 0 := funext fun a => by rw [(idx0_6 t).2.2.2.1 a, Nat.zero_mul]
  exact Memref.read_access_unit_zero (Elt Ideal) main_arg2 hz' (fun a => by rw [congrFun hz' a]; simp) (V c main_arg2)
theorem iblk0_3 (V : (c : Dev nD) → (b : Ref sig .tc) → Buf (Elt Ideal) ((c : Thread nD τ).loc b)) (c : Dev nD) (t : Fin cfg0.N) : iblk0 V c 3 t = V c main_v17 := by
  have hz' : (fun a => win0_3.index t a * main_v17.ty.shape.size a) = fun _ => 0 := funext fun a => by rw [(idx0_6 t).2.2.2.2.1 a, Nat.zero_mul]
  exact Memref.read_access_unit_zero (Elt Ideal) main_v17 hz' (fun a => by rw [congrFun hz' a]; simp) (V c main_v17)
theorem iblk0_4 (V : (c : Dev nD) → (b : Ref sig .tc) → Buf (Elt Ideal) ((c : Thread nD τ).loc b)) (c : Dev nD) (t : Fin cfg0.N) : iblk0 V c 4 t = V c main_arg4 := by
  have hz' : (fun a => win0_4.index t a * main_arg4.ty.shape.size a) = fun _ => 0 := funext fun a => by rw [(idx0_6 t).2.2.2.2.2.1 a, Nat.zero_mul]
  exact Memref.read_access_unit_zero (Elt Ideal) main_arg4 hz' (fun a => by rw [congrFun hz' a]; simp) (V c main_arg4)
theorem iblk0_5 (V : (c : Dev nD) → (b : Ref sig .tc) → Buf (Elt Ideal) ((c : Thread nD τ).loc b)) (c : Dev nD) (t : Fin cfg0.N) : iblk0 V c 5 t = V c main_v13 := by
  have hz' : (fun a => win0_5.index t a * main_v13.ty.shape.size a) = fun _ => 0 := funext fun a => by rw [(idx0_6 t).2.2.2.2.2.2.1 a, Nat.zero_mul]
  exact Memref.read_access_unit_zero (Elt Ideal) main_v13 hz' (fun a => by rw [congrFun hz' a]; simp) (V c main_v13)
theorem iblk0_6 (V : (c : Dev nD) → (b : Ref sig .tc) → Buf (Elt Ideal) ((c : Thread nD τ).loc b)) (c : Dev nD) (t : Fin cfg0.N) : iblk0 V c 6 t = V c main_v11 := by
  have hz' : (fun a => win0_6.index t a * main_v11.ty.shape.size a) = fun _ => 0 := funext fun a => by rw [(idx0_6 t).2.2.2.2.2.2.2 a, Nat.zero_mul]
  exact Memref.read_access_unit_zero (Elt Ideal) main_v11 hz' (fun a => by rw [congrFun hz' a]; simp) (V c main_v11)

/-- Window 0's block at point t, at (r, i): row 2000t + r of x. -/
theorem blk0_x (V : (c : Dev nD) → (b : Ref sig .tc) → Buf (Elt Ideal) ((c : Thread nD τ).loc b)) (c : Dev nD) (t : Fin cfg0.N) (r : Fin 2000) (i : Fin 256) :
    (iblk0 V c 0 t : S2000x256.Idx → EReal) (ix2 r i) = aX V c (tileRow ⟨t.val, lt_of_lt_of_eq t.isLt N_0⟩ r) i := by
  obtain ⟨e0, e1, -⟩ := idx0_6 t
  show V c main_arg0 (((cfg0.win 0).blk t).view.emb (ix2 r i)) = V c main_arg0 (ix2 (tileRow ⟨t.val, lt_of_lt_of_eq t.isLt N_0⟩ r) i)
  refine congrArg (V c main_arg0) ?_
  funext a
  apply Fin.ext
  match a with
  | ⟨0, _⟩ => show win0_0.index t (0 : Fin 2) * 2000 + 1 * r.val = 2000 * t.val + r.val; omega
  | ⟨1, _⟩ => show win0_0.index t (1 : Fin 2) * 256 + 1 * i.val = i.val; omega

/-- Window 1's block: Wxᵀ. -/
theorem blk0_wx (V : (c : Dev nD) → (b : Ref sig .tc) → Buf (Elt Ideal) ((c : Thread nD τ).loc b)) (c : Dev nD) (t : Fin cfg0.N) (i k : Fin 256) : (iblk0 V c 1 t : S256x256.Idx → EReal) (ix2 i k) = aWx V c k i := by
  rw [iblk0_1]; rfl
/-- Window 2's block: bx. -/
theorem blk0_bx (V : (c : Dev nD) → (b : Ref sig .tc) → Buf (Elt Ideal) ((c : Thread nD τ).loc b)) (c : Dev nD) (t : Fin cfg0.N) (k : Fin 256) : (iblk0 V c 2 t : S256.Idx → EReal) (ix1 k) = abx V c k := by
  rw [iblk0_2]; rfl
/-- Window 3's block: Wfxᵀ. -/
theorem blk0_wfx (V : (c : Dev nD) → (b : Ref sig .tc) → Buf (Elt Ideal) ((c : Thread nD τ).loc b)) (c : Dev nD) (t : Fin cfg0.N) (i k : Fin 256) : (iblk0 V c 3 t : S256x256.Idx → EReal) (ix2 i k) = aWfx V c k i := by
  rw [iblk0_3]; rfl
/-- Window 4's block: bfx. -/
theorem blk0_bfx (V : (c : Dev nD) → (b : Ref sig .tc) → Buf (Elt Ideal) ((c : Thread nD τ).loc b)) (c : Dev nD) (t : Fin cfg0.N) (k : Fin 256) : (iblk0 V c 4 t : S256.Idx → EReal) (ix1 k) = abfx V c k := by
  rw [iblk0_4]; rfl
/-- Window 5's block: the per-head scaled slice weights, transposed. -/
theorem blk0_ws (V : (c : Dev nD) → (b : Ref sig .tc) → Buf (Elt Ideal) ((c : Thread nD τ).loc b)) (c : Dev nD) (t : Fin cfg0.N) (h : Fin 8) (d : Fin 32) (g : Fin 64) : (iblk0 V c 5 t : S8x32x64.Idx → EReal) (ix3 h d g) = aWsT V c h d g := by
  rw [iblk0_5]; rfl
/-- Window 6's block: the per-head scaled slice biases. -/
theorem blk0_bs (V : (c : Dev nD) → (b : Ref sig .tc) → Buf (Elt Ideal) ((c : Thread nD τ).loc b)) (c : Dev nD) (t : Fin cfg0.N) (h : Fin 8) (g : Fin 64) : (iblk0 V c 6 t : S8x64.Idx → EReal) (ix2 h g) = abs' V c h g := by
  rw [iblk0_6]; rfl

end Cert.KernelIdeal.Hand

end
-- ==== Proof.KIAccPoint.lean ====
/-
  One grid point's contribution to the two accumulators. At point t the body adds, to entry (h, g, c) of the pooled-token
  accumulator, the sum over the tile's 2000 rows (rows 2000t … 2000t+1999 of x) of the slice weight w h n g times the
  projected row fm n (32h + c), and to entry (h, g) of the column-sum accumulator the sum of the slice weights: the
  tile's blocks are those rows of x and the whole parameter arrays, so the tile's logits and projections are the
  specification's at the tile's rows. The hundred tiles' sums add up to the sums over all 200000 rows.
-/
import proofs.«133947_j41910290874676_1_alg».proof.Proof.KIAccPieces
import proofs.«133947_j41910290874676_1_alg».proof.Proof.KIAccBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- Tile t's addend to the pooled tokens at (h, g, c'). -/
def tileTok (V : (c : Dev nD) → (b : Ref sig .tc) → Buf (Elt Ideal) ((c : Thread nD τ).loc b)) (c : Dev nD) (h : Fin 8) (g : Fin 64) (c' : Fin 32) (t : Fin 100) : EReal :=
  ∑ r : Fin 2000, Spec.w (alg V c) h (tileRow t r) g * Spec.proj (aX V c) (aWfx V c) (abfx V c) (tileRow t r) (Spec.lane h c')

/-- Tile t's addend to the column sums at (h, g). -/
def tileNorm (V : (c : Dev nD) → (b : Ref sig .tc) → Buf (Elt Ideal) ((c : Thread nD τ).loc b)) (c : Dev nD) (h : Fin 8) (g : Fin 64) (t : Fin 100) : EReal :=
  ∑ r : Fin 2000, Spec.w (alg V c) h (tileRow t r) g

/-- The accumulators' functions at an index written by coordinates. -/
theorem Gtok_ix3 (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (xs0 : S8x64x32.Idx → EReal) (h : Fin 8) (g : Fin 64) (c' : Fin 32) :
    Gtok x0 x1 x2 x3 x4 x5 x6 xs0 (ix3 h g c')
      = xs0 (ix3 h g c') + ∑ r : Fin 2000, Spec.softmax (tlg (fun r i => x0 (ix2 r i)) (fun k i => x1 (ix2 i k)) (fun k => x2 (ix1 k)) (fun d g => x5 (ix3 h d g)) (fun g => x6 (ix2 h g)) h r) g
          * tproj (fun r i => x0 (ix2 r i)) (fun k i => x3 (ix2 i k)) (fun k => x4 (ix1 k)) r (Spec.lane h c') := rfl

theorem Gnorm_ix2 (x0 : Vec Ideal S2000x256 .f32) (x1 : Vec Ideal S256x256 .bf16) (x2 : Vec Ideal S256 .f32) (x5 : Vec Ideal S8x32x64 .bf16) (x6 : Vec Ideal S8x64 .f32) (xs1 : S8x64.Idx → EReal) (h : Fin 8) (g : Fin 64) :
    Gnorm x0 x1 x2 x5 x6 xs1 (ix2 h g)
      = xs1 (ix2 h g) + ∑ r : Fin 2000, Spec.softmax (tlg (fun r i => x0 (ix2 r i)) (fun k i => x1 (ix2 i k)) (fun k => x2 (ix1 k)) (fun d g => x5 (ix3 h d g)) (fun g => x6 (ix2 h g)) h r) g := rfl

section Point
variable (V : (c : Dev nD) → (b : Ref sig .tc) → Buf (Elt Ideal) ((c : Thread nD τ).loc b)) (c : Dev nD) (t : Fin cfg0.N)

/-- The tile's first projection is the specification's x·Wxᵀ + bx at the tile's rows. -/
theorem tproj_x (r : Fin 2000) (k : Fin 256) :
    tproj (fun r i => (iblk0 V c 0 t : S2000x256.Idx → EReal) (ix2 r i)) (fun k i => (iblk0 V c 1 t : S256x256.Idx → EReal) (ix2 i k)) (fun k => (iblk0 V c 2 t : S256.Idx → EReal) (ix1 k)) r k
      = Spec.proj (aX V c) (aWx V c) (abx V c) (tileRow ⟨t.val, lt_of_lt_of_eq t.isLt N_0⟩ r) k := by
  unfold tproj Spec.proj
  exact congrArg₂ (· + ·) (Finset.sum_congr rfl fun i _ => congrArg₂ (· * ·) (blk0_x V c t r i) (blk0_wx V c t i k)) (blk0_bx V c t k)

/-- The tile's second projection is the specification's x·Wfxᵀ + bfx at the tile's rows. -/
theorem tproj_fx (r : Fin 2000) (k : Fin 256) :
    tproj (fun r i => (iblk0 V c 0 t : S2000x256.Idx → EReal) (ix2 r i)) (fun k i => (iblk0 V c 3 t : S256x256.Idx → EReal) (ix2 i k)) (fun k => (iblk0 V c 4 t : S256.Idx → EReal) (ix1 k)) r k
      = Spec.proj (aX V c) (aWfx V c) (abfx V c) (tileRow ⟨t.val, lt_of_lt_of_eq t.isLt N_0⟩ r) k := by
  unfold tproj Spec.proj
  exact congrArg₂ (· + ·) (Finset.sum_congr rfl fun i _ => congrArg₂ (· * ·) (blk0_x V c t r i) (blk0_wfx V c t i k)) (blk0_bfx V c t k)

/-- The tile's slice logits in head h are the arrays' slice logits at the tile's rows. -/
theorem tlg_blk (h : Fin 8) (r : Fin 2000) :
    tlg (fun r i => (iblk0 V c 0 t : S2000x256.Idx → EReal) (ix2 r i)) (fun k i => (iblk0 V c 1 t : S256x256.Idx → EReal) (ix2 i k)) (fun k => (iblk0 V c 2 t : S256.Idx → EReal) (ix1 k))
        (fun d g => (iblk0 V c 5 t : S8x32x64.Idx → EReal) (ix3 h d g)) (fun g => (iblk0 V c 6 t : S8x64.Idx → EReal) (ix2 h g)) h r
      = alg V c h (tileRow ⟨t.val, lt_of_lt_of_eq t.isLt N_0⟩ r) := by
  funext g
  unfold tlg alg
  exact congrArg₂ (· + ·) (Finset.sum_congr rfl fun d _ => congrArg₂ (· * ·) (tproj_x V c t r (Spec.lane h d)) (blk0_ws V c t h d g)) (blk0_bs V c t h g)

end Point

/-- What point t leaves in the pooled-token accumulator: what it found plus the tile's addend. -/
theorem Gtok_point (V : (c : Dev nD) → (b : Ref sig .tc) → Buf (Elt Ideal) ((c : Thread nD τ).loc b)) (c : Dev nD) (t : Fin cfg0.N) (xs0 : S8x64x32.Idx → EReal) (h : Fin 8) (g : Fin 64) (c' : Fin 32) :
    Gtok (iblk0 V c 0 t) (iblk0 V c 1 t) (iblk0 V c 2 t) (iblk0 V c 3 t) (iblk0 V c 4 t) (iblk0 V c 5 t) (iblk0 V c 6 t) xs0 (ix3 h g c')
      = xs0 (ix3 h g c') + tileTok V c h g c' ⟨t.val, lt_of_lt_of_eq t.isLt N_0⟩ := by
  refine (Gtok_ix3 (iblk0 V c 0 t) (iblk0 V c 1 t) (iblk0 V c 2 t) (iblk0 V c 3 t) (iblk0 V c 4 t) (iblk0 V c 5 t) (iblk0 V c 6 t) xs0 h g c').trans ?_
  refine congrArg (xs0 (ix3 h g c') + ·) ?_
  unfold tileTok Spec.w
  refine Finset.sum_congr rfl fun r _ => ?_
  exact congrArg₂ (· * ·) (congrArg (fun f => Spec.softmax f g) (tlg_blk V c t h r)) (tproj_fx V c t r (Spec.lane h c'))

/-- What point t leaves in the column-sum accumulator: what it found plus the tile's addend. -/
theorem Gnorm_point (V : (c : Dev nD) → (b : Ref sig .tc) → Buf (Elt Ideal) ((c : Thread nD τ).loc b)) (c : Dev nD) (t : Fin cfg0.N) (xs1 : S8x64.Idx → EReal) (h : Fin 8) (g : Fin 64) :
    Gnorm (iblk0 V c 0 t) (iblk0 V c 1 t) (iblk0 V c 2 t) (iblk0 V c 5 t) (iblk0 V c 6 t) xs1 (ix2 h g)
      = xs1 (ix2 h g) + tileNorm V c h g ⟨t.val, lt_of_lt_of_eq t.isLt N_0⟩ := by
  refine (Gnorm_ix2 (iblk0 V c 0 t) (iblk0 V c 1 t) (iblk0 V c 2 t) (iblk0 V c 5 t) (iblk0 V c 6 t) xs1 h g).trans ?_
  refine congrArg (xs1 (ix2 h g) + ·) ?_
  unfold tileNorm Spec.w
  refine Finset.sum_congr rfl fun r _ => ?_
  exact congrArg (fun f => Spec.softmax f g) (tlg_blk V c t h r)

/-- The hundred tiles' addends to the pooled tokens add up to the pooled sums over all rows. -/
theorem sum_tileTok (V : (c : Dev nD) → (b : Ref sig .tc) → Buf (Elt Ideal) ((c : Thread nD τ).loc b)) (c : Dev nD) (h : Fin 8) (g : Fin 64) (c' : Fin 32) :
    ∑ t : Fin 100, tileTok V c h g c' t = Spec.tokraw (aX V c) (aWfx V c) (abfx V c) (alg V c) h g c' := by
  unfold tileTok Spec.tokraw
  exact sum_tiles fun n => Spec.w (alg V c) h n g * Spec.proj (aX V c) (aWfx V c) (abfx V c) n (Spec.lane h c')

/-- The hundred tiles' addends to the column sums add up to the column sums over all rows. -/
theorem sum_tileNorm (V : (c : Dev nD) → (b : Ref sig .tc) → Buf (Elt Ideal) ((c : Thread nD τ).loc b)) (c : Dev nD) (h : Fin 8) (g : Fin 64) :
    ∑ t : Fin 100, tileNorm V c h g t = Spec.norm (alg V c) h g := by
  unfold tileNorm Spec.norm
  exact sum_tiles fun n => Spec.w (alg V c) h n g

end Cert.KernelIdeal.Hand

end
-- ==== Proof.KIAcc.lean ====
/-
  What the pooling region's two accumulators hold after the last grid point: the pooled sums over all 200000 rows.
  Point t adds, per head, the sums over its 2000 rows (rows 2000t … 2000t+1999) of w·fm and of w; the first point starts
  from zero. By induction on the point the accumulators hold the sums over the tiles up to the point; at the last point
  that is every tile, and the tiles' rows are all the rows.
-/
import proofs.«133947_j41910290874676_1_alg».proof.Proof.KIAccCaseA
import proofs.«133947_j41910290874676_1_alg».proof.Proof.KIAccPoint
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

section
variable (V : (c : Dev nD) → (b : Ref sig .tc) → Buf (Elt Ideal) ((c : Thread nD τ).loc b)) (c : Dev nD)

/-! ## Each accumulator after a point, from what the point found and the point's input blocks -/

theorem after_A_0 (t : Fin cfg0.N) (hz : t.val = 0) :
    ((outsAt0 V c t.val t.isLt).2.1 : S8x64x32.Idx → EReal) = Gtok (iblk0 V c 0 t) (iblk0 V c 1 t) (iblk0 V c 2 t) (iblk0 V c 3 t) (iblk0 V c 4 t) (iblk0 V c 5 t) (iblk0 V c 6 t) (fun _ => 0) := by
  have hc0 : cond0_0 (grid0.coords t) := (hcond0_0 t).mpr (by rw [hz])
  have hc1 : ¬cond0_1 (grid0.coords t) := fun hh => absurd ((hcond0_1 t).mp hh) (by rw [hz]; decide)
  exact (congrArg Prod.fst (outsAt0_A V c t hz hc0 hc1)).trans (sout_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t))

theorem after_A_1 (t : Fin cfg0.N) (hz : t.val = 0) :
    ((outsAt0 V c t.val t.isLt).2.2 : S8x64.Idx → EReal) = Gnorm (iblk0 V c 0 t) (iblk0 V c 1 t) (iblk0 V c 2 t) (iblk0 V c 5 t) (iblk0 V c 6 t) (fun _ => 0) := by
  have hc0 : cond0_0 (grid0.coords t) := (hcond0_0 t).mpr (by rw [hz])
  have hc1 : ¬cond0_1 (grid0.coords t) := fun hh => absurd ((hcond0_1 t).mp hh) (by rw [hz]; decide)
  exact (congrArg Prod.snd (outsAt0_A V c t hz hc0 hc1)).trans (sout_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t))

theorem after_B_0 (t : Fin cfg0.N) (hz : t.val ≠ 0) (h1 : ¬t.val % 100 = 99) :
    ((outsAt0 V c t.val t.isLt).2.1 : S8x64x32.Idx → EReal) = Gtok (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1 : S8x64x32.Idx → EReal) := by
  have hN : cfg0.N = 100 := N_0
  have hc0 : ¬cond0_0 (grid0.coords t) := fun hh => hz (by have := (hcond0_0 t).mp hh; have := t.isLt; omega)
  have hc1 : ¬cond0_1 (grid0.coords t) := fun hh => h1 ((hcond0_1 t).mp hh)
  exact (congrArg Prod.fst (outsAt0_B V c t hz h1 hc0 hc1)).trans (sout_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2)

theorem after_B_1 (t : Fin cfg0.N) (hz : t.val ≠ 0) (h1 : ¬t.val % 100 = 99) :
    ((outsAt0 V c t.val t.isLt).2.2 : S8x64.Idx → EReal) = Gnorm (iblk0 V c 0 t) (iblk0 V c 1 t) (iblk0 V c 2 t) (iblk0 V c 5 t) (iblk0 V c 6 t) ((outsAt0 V c (t.val - 1) (Nat.lt_of_le_of_lt (Nat.sub_le _ _) t.isLt)).2.2 : S8x64.Idx → EReal) := by
  have hN : cfg0.N = 100 := N_0
  have hc0 : ¬cond0_0 (grid0.coords t) := fun hh => hz (by have := (hcond0_0 t).mp hh; have := t.isLt; omega)
  have hc1 : ¬cond0_1 (grid0.coords t) := fun hh => h1 ((hcond0_1 t).mp hh)
  exact (congrArg Prod.snd (outsAt0_B V c t hz h1 hc0 hc1)).trans (sout_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2)

theorem after_C_0 (t : Fin cfg0.N) (hz : t.val ≠ 0) (h1 : t.val % 100 = 99) :
    ((outsAt0 V c t.val t.isLt).2.1 : S8x64x32.Idx → EReal) = Gtok (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1 : S8x64x32.Idx → EReal) := by
  have hN : cfg0.N = 100 := N_0
  have hc0 : ¬cond0_0 (grid0.coords t) := fun hh => hz (by have := (hcond0_0 t).mp hh; have := t.isLt; omega)
  have hc1 : cond0_1 (grid0.coords t) := (hcond0_1 t).mpr h1
  exact (congrArg (fun p => p.2.1) (outsAt0_C V c t hz h1 hc0 hc1)).trans (sout_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2)

theorem after_C_1 (t : Fin cfg0.N) (hz : t.val ≠ 0) (h1 : t.val % 100 = 99) :
    ((outsAt0 V c t.val t.isLt).2.2 : S8x64.Idx → EReal) = Gnorm (iblk0 V c 0 t) (iblk0 V c 1 t) (iblk0 V c 2 t) (iblk0 V c 5 t) (iblk0 V c 6 t) ((outsAt0 V c (t.val - 1) (Nat.lt_of_le_of_lt (Nat.sub_le _ _) t.isLt)).2.2 : S8x64.Idx → EReal) := by
  have hN : cfg0.N = 100 := N_0
  have hc0 : ¬cond0_0 (grid0.coords t) := fun hh => hz (by have := (hcond0_0 t).mp hh; have := t.isLt; omega)
  have hc1 : cond0_1 (grid0.coords t) := (hcond0_1 t).mpr h1
  exact (congrArg (fun p => p.2.2) (outsAt0_C V c t hz h1 hc0 hc1)).trans (sout_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2)

/-! ## The induction on the point -/

/-- The first point: from zero, the first tile's sums. -/
theorem step_first (t : Fin cfg0.N) (hz : t.val = 0) (h : Fin 8) (g : Fin 64) (c' : Fin 32) :
    ((outsAt0 V c t.val t.isLt).2.1 : S8x64x32.Idx → EReal) (ix3 h g c') = tileTok V c h g c' ⟨t.val, lt_of_lt_of_eq t.isLt N_0⟩
    ∧ ((outsAt0 V c t.val t.isLt).2.2 : S8x64.Idx → EReal) (ix2 h g) = tileNorm V c h g ⟨t.val, lt_of_lt_of_eq t.isLt N_0⟩ :=
  ⟨(congrFun (after_A_0 V c t hz) (ix3 h g c')).trans ((Gtok_point V c t (fun _ => 0) h g c').trans (zero_add _)),
    (congrFun (after_A_1 V c t hz) (ix2 h g)).trans ((Gnorm_point V c t (fun _ => 0) h g).trans (zero_add _))⟩

/-- A later point: what the point before left, plus the point's tile's sums. -/
theorem step_next (t : Fin cfg0.N) (hz : t.val ≠ 0) (h : Fin 8) (g : Fin 64) (c' : Fin 32) :
    ((outsAt0 V c t.val t.isLt).2.1 : S8x64x32.Idx → EReal) (ix3 h g c')
        = ((outsAt0 V c (t.val - 1) (Nat.lt_of_le_of_lt (Nat.sub_le _ _) t.isLt)).2.1 : S8x64x32.Idx → EReal) (ix3 h g c') + tileTok V c h g c' ⟨t.val, lt_of_lt_of_eq t.isLt N_0⟩
    ∧ ((outsAt0 V c t.val t.isLt).2.2 : S8x64.Idx → EReal) (ix2 h g)
        = ((outsAt0 V c (t.val - 1) (Nat.lt_of_le_of_lt (Nat.sub_le _ _) t.isLt)).2.2 : S8x64.Idx → EReal) (ix2 h g) + tileNorm V c h g ⟨t.val, lt_of_lt_of_eq t.isLt N_0⟩ := by
  by_cases h1 : t.val % 100 = 99
  · exact ⟨(congrFun (after_C_0 V c t hz h1) (ix3 h g c')).trans (Gtok_point V c t _ h g c'),
      (congrFun (after_C_1 V c t hz h1) (ix2 h g)).trans (Gnorm_point V c t _ h g)⟩
  · exact ⟨(congrFun (after_B_0 V c t hz h1) (ix3 h g c')).trans (Gtok_point V c t _ h g c'),
      (congrFun (after_B_1 V c t hz h1) (ix2 h g)).trans (Gnorm_point V c t _ h g)⟩

/-- After point n the accumulators hold the sums over the tiles 0 … n. -/
theorem acc_upTo : ∀ (n : ℕ) (hn : n < cfg0.N) (h : Fin 8) (g : Fin 64) (c' : Fin 32),
    ((outsAt0 V c n hn).2.1 : S8x64x32.Idx → EReal) (ix3 h g c') = upTo (tileTok V c h g c') n
    ∧ ((outsAt0 V c n hn).2.2 : S8x64.Idx → EReal) (ix2 h g) = upTo (tileNorm V c h g) n
  | 0, hn, h, g, c' => by
    have s := step_first V c ⟨0, hn⟩ rfl h g c'
    rw [upTo_zero, upTo_zero]
    exact s
  | n + 1, hn, h, g, c' => by
    have hN : cfg0.N = 100 := N_0
    have s := step_next V c ⟨n + 1, hn⟩ (Nat.succ_ne_zero n) h g c'
    have ih := acc_upTo n (Nat.lt_of_succ_lt hn) h g c'
    rw [upTo_succ _ n (by omega), upTo_succ _ n (by omega)]
    exact ⟨s.1.trans (congrArg (· + _) ih.1), s.2.trans (congrArg (· + _) ih.2)⟩

end

/-- The pooled-token accumulator after the last point. -/
theorem acc_final_at (V : (c : Dev nD) → (b : Ref sig .tc) → Buf (Elt Ideal) ((c : Thread nD τ).loc b)) (c : Dev nD)
    (t : Fin cfg0.N) (ht : t.val = 99) (h : Fin 8) (g : Fin 64) (c' : Fin 32) :
    ((outsAt0 V c t.val t.isLt).2.1 : S8x64x32.Idx → EReal) (ix3 h g c')
      = Spec.tokraw (aX V c) (aWfx V c) (abfx V c) (alg V c) h g c' := by
  refine (acc_upTo V c t.val t.isLt h g c').1.trans ?_
  rw [ht, upTo_last]
  exact sum_tileTok V c h g c'

/-- The column-sum accumulator after the last point. -/
theorem norm_final_at (V : (c : Dev nD) → (b : Ref sig .tc) → Buf (Elt Ideal) ((c : Thread nD τ).loc b)) (c : Dev nD)
    (t : Fin cfg0.N) (ht : t.val = 99) (h : Fin 8) (g : Fin 64) :
    ((outsAt0 V c t.val t.isLt).2.2 : S8x64.Idx → EReal) (ix2 h g) = Spec.norm (alg V c) h g := by
  refine (acc_upTo V c t.val t.isLt h g 0).2.trans ?_
  rw [ht, upTo_last]
  exact sum_tileNorm V c h g

end Cert.KernelIdeal.Hand

end
-- ==== Proof.SpecOf.lean ====
/-
  The slice attention from ANY pooled sums: the part of the specification the pooling region's last point computes
  from what its two accumulators hold.
-/
import proofs.«133947_j41910290874676_1_alg».proof.Proof.Spec

noncomputable section

namespace Cert.Spec

open Idealize.ShloMosaic
open scoped BigOperators

section
variable (tr : Fin 8 → Fin 64 → Fin 32 → EReal) (nm : Fin 8 → Fin 64 → EReal) (Wq Wk Wv : Fin 32 → Fin 32 → EReal)

/-- The normalised tokens from the raw pooled sums `tr` and the column sums `nm`. -/
def tokOf (h : Fin 8) (g : Fin 64) (c : Fin 32) : EReal := Ideal.div (tr h g c) (nm h g + eps)
/-- A 32x32 projection of them. -/
def qkvOf (W : Fin 32 → Fin 32 → EReal) (h : Fin 8) (g : Fin 64) (e : Fin 32) : EReal := ∑ d : Fin 32, tokOf tr nm h g d * W e d
/-- The scaled scores. -/
def dotsOf (h : Fin 8) (g k : Fin 64) : EReal := (∑ d : Fin 32, qkvOf tr nm Wq h g d * qkvOf tr nm Wk h k d) * scale
/-- The slice attention's result. -/
def osOf (h : Fin 8) (g : Fin 64) (d : Fin 32) : EReal :=
  ∑ k : Fin 64, softmax (dotsOf tr nm Wq Wk h g) k * qkvOf tr nm Wv h k d
end

/-- The specification's slice result is `osOf` of its own pooled sums. -/
theorem os_eq_osOf (X : Fin 200000 → Fin 256 → EReal) (Wfx : Fin 256 → Fin 256 → EReal) (bfx : Fin 256 → EReal)
    (Wq Wk Wv : Fin 32 → Fin 32 → EReal) (lg : Fin 8 → Fin 200000 → Fin 64 → EReal) :
    os X Wfx bfx Wq Wk Wv lg = osOf (tokraw X Wfx bfx lg) (norm lg) Wq Wk Wv := rfl

end Cert.Spec

end
-- ==== Proof.KIEpiFn.lean ====
/-
  The slice attention of one head as ONE function of what the body reads: the head's column sums (a 1x64 row), its
  pooled tokens (a 1x64x32 slab) and the three transposed 32x32 matrices. The stages are the body's own operations —
  normalise the tokens by (column sum + 1e-5); project by each matrix; the scaled scores q·kᵀ; the exponentials of the
  scores less their row maximum; the row-normalised exponentials times v — and the body's eight per-head computations,
  which the printed program cuts into named pieces at eight different places, are all this function.
-/
import proofs.«133947_j41910290874676_1_alg».proof.Proof.Gen.KernelIdeal.Skeleton

set_option maxRecDepth 16384

noncomputable section

namespace Cert.KernelIdeal.Hand

open Cert.KernelIdeal Cert.KernelIdeal.Gen
open Idealize.ShloMosaic Idealize.SL.Sem

variable {F : FTy → Type} [FloatOps F]

/-- The normalised tokens of a head: slab / (column sums + 1e-5), row by row. -/
def eTok (nm : Vec F S1x64 .f32) (tk : Vec F S1x64x32 .f32) : FVec F S64x32 .bf16 := k0_pay7 nm tk

/-- A 64x32 array times a (transposed) 32x32 matrix. -/
def eProj (t : FVec F S64x32 .bf16) (w : Vec F S32x32 .bf16) : FVec F S64x32 .f32 :=
  matmul dot_S64x32_S32x32_S64x32_1_0_0_1_n_n none t (shapeCast S32x32 w shapeCasts_S32x32_S32x32) (constant S64x32 .f32 0x00000000#32)

/-- The scaled scores q·kᵀ·32^(-1/2). -/
def eDots (q k : FVec F S64x32 .f32) : FVec F S64x64 .f32 :=
  mulf (matmul dot_S64x32_S32x64_S64x64_1_0_0_1_n_n none (truncf .bf16 q bitsLt_bf16_f32)
      (transpose S32x64 [1, 0] (truncf .bf16 k bitsLt_bf16_f32) transposes_S64x32_p1_0_S32x64) (constant S64x64 .f32 0x00000000#32))
    (broadcast S64x64 (Scalar.ofBits .f32 0x3E3504F3#32))

/-- The exponentials of the scores less their row maximum (the maximum met once more with -∞). -/
def eExp (D : FVec F S64x64 .f32) : FVec F S64x64 .f32 :=
  exp (subf D (broadcastTo S64x64 (shapeCast S64x1 (maximumf (broadcast S64 (Scalar.ofBits .f32 0xFF800000#32))
      (multiReduction .maximumf [1] S64 D 0xFF800000#32 reduces_S64x64_S64 (.inl rfl) rfl)) shapeCasts_S64_S64x1) broadcasts_S64x1_S64x64))

/-- The exponentials divided by their row sums, times v. -/
def eAttnV (E : FVec F S64x64 .f32) (v : FVec F S64x32 .f32) : FVec F S64x32 .f32 :=
  matmul dot_S64x64_S64x32_S64x32_1_0_0_1_n_n none
    (truncf .bf16 (divf E (broadcastTo S64x64 (shapeCast S64x1 (multiReduction .add [1] S64 E 0x00000000#32 reduces_S64x64_S64 (.inl rfl) rfl)
      shapeCasts_S64_S64x1) broadcasts_S64x1_S64x64)) bitsLt_bf16_f32)
    (truncf .bf16 v bitsLt_bf16_f32) (constant S64x32 .f32 0x00000000#32)

/-- One head's slice attention, as the slab the body stores. -/
def epi (nm : Vec F S1x64 .f32) (tk : Vec F S1x64x32 .f32) (wq wk wv : Vec F S32x32 .bf16) : FVec F S1x64x32 .f32 :=
  shapeCast S1x64x32 (eAttnV (eExp (eDots (eProj (eTok nm tk) wq) (eProj (eTok nm tk) wk))) (eProj (eTok nm tk) wv)) shapeCasts_S64x32_S1x64x32

variable (nm : Vec F S1x64 .f32) (tk : Vec F S1x64x32 .f32) (wq wk wv : Vec F S32x32 .bf16)

/-! The eight heads' computations, each as the printed program cuts it, are `epi`. -/

theorem epiHead0_eq : k0_pay6 (k0_pay5 nm tk wq wk wv) = epi nm tk wq wk wv := rfl
theorem epiHead1_eq : k0_pay11 (k0_pay8 nm tk wv) (k0_pay9 nm tk wq wk) (k0_pay10 nm tk wq wk) = epi nm tk wq wk wv := rfl
theorem epiHead2_eq : k0_pay17 (k0_pay13 nm tk wv) (k0_pay14 nm tk wq wk) (k0_pay15 nm tk wq wk) k0_pay16 = epi nm tk wq wk wv := rfl
theorem epiHead3_eq : k0_pay21 (k0_pay19 nm tk wv) (k0_pay20 nm tk wq wk) = epi nm tk wq wk wv := rfl
theorem epiHead4_eq : k0_pay26 (k0_pay22 nm tk) (k0_pay23 nm tk wq) (k0_pay24 nm tk wk) (k0_pay25 wv) = epi nm tk wq wk wv := rfl
theorem epiHead5_eq : k0_pay29 (k0_pay27 nm tk) (k0_pay28 nm tk wq) wk wv = epi nm tk wq wk wv := rfl
theorem epiHead6_eq : k0_pay31 (k0_pay30 nm tk) wq wk wv = epi nm tk wq wk wv := rfl
theorem epiHead7_eq : k0_pay4 (k0_pay34 (k0_pay32 tk) (k0_pay33 nm) (FloatOps.ofBits .f32 0x3727C5AC#32) wq wk wv) = epi nm tk wq wk wv := rfl

end Cert.KernelIdeal.Hand

end
-- ==== Proof.KIEpiVal.lean ====
/-
  One head's slice attention read at an index, at the exact values: the function `epi` of a head's column sums, pooled
  tokens and the three transposed matrices is, at (g, d), the specification's slice result of that head formed from the
  same sums. Stage by stage: the normalised tokens are slab / (column sum + 1e-5); a projection is the sum over the 32
  lanes of token times matrix entry; the scores are the sums of products of q and k rows times the scale; the
  exponentials are taken of the scores less the row maximum (the fold of max from -∞, met once more with -∞); the result
  is the sum over the 64 slices of the row-normalised exponentials times v. A change of float format is the identity at
  the exact values.
-/
import proofs.«133947_j41910290874676_1_alg».proof.Proof.KIEpiFn
import proofs.«133947_j41910290874676_1_alg».proof.Proof.SpecOf
import proofs.«133947_j41910290874676_1_alg».proof.Proof.LibColBroadcast
import proofs.«133947_j41910290874676_1_alg».proof.Proof.LibPlainDot
import proofs.«133947_j41910290874676_1_alg».proof.Proof.LibMidAxis
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Cert.Lib
open scoped BigOperators

/-- The maximum-reduction of an [a, b] array over its last axis reads, at i, the fold of max from the accumulator's
    value over j of the array at (i, j). -/
theorem maxLast_apply {a b : Nat} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (FloatOps.ofBits φ acc) (fun j => src (ix2 i j)) := by
  refine (Ideal.multiReduction_maximumf_single src acc h hφ hacc (ix1 i)).trans ?_
  have e : (src ∘ h.lift (ix1 i)) = fun j : Fin b => src (ix2 i j) := by
    funext j
    refine congrArg src ?_
    funext ax
    apply Fin.ext
    rw [h.lift_val]
    match ax with
    | ⟨0, _⟩ => rfl
    | ⟨1, _⟩ => rfl
  exact congrArg (fun f : Fin b → Ideal φ => (Finset.univ : Finset (Fin b)).fold max (FloatOps.ofBits φ acc) f) e

section Stages
variable (nm : FVec Ideal S1x64 .f32) (tk : FVec Ideal S1x64x32 .f32) (w wq wk wv : FVec Ideal S32x32 .bf16)

/-- The normalised tokens at (g, c). -/
theorem eTok_apply (g : Fin 64) (c : Fin 32) :
    (eTok (F := Ideal) nm tk : S64x32.Idx → EReal) (ix2 g c)
      = Ideal.div ((tk : S1x64x32.Idx → EReal) (ix3 (0 : Fin 1) g c)) ((nm : S1x64.Idx → EReal) (ix2 (0 : Fin 1) g) + Spec.eps) := by
  unfold eTok k0_pay7
  show Ideal.div (shapeCast S64x32 tk _ (ix2 g c)) (broadcastTo S64x32 _ _ (ix2 g c)) = _
  refine congrArg₂ Ideal.div (shapeCast_1ab_ab_apply tk _ g c) ?_
  refine (Cols.bcastCol_apply _ _ g c).trans ?_
  exact congrArg (· + Spec.eps) ((Cols.col_apply _ _ g).trans (shapeCast_1a_a_apply nm _ g))

/-- A projection at (g, e): over the 32 lanes, the array at (g, k) times the matrix at (k, e). -/
theorem eProj_apply (t : FVec Ideal S64x32 .bf16) (g : Fin 64) (e : Fin 32) :
    (eProj (F := Ideal) t w : S64x32.Idx → EReal) (ix2 g e)
      = ∑ k : Fin 32, (t : S64x32.Idx → EReal) (ix2 g k) * (w : S32x32.Idx → EReal) (ix2 k e) := by
  unfold eProj
  rw [shapeCast_self]
  exact PlainDot.matmul_zero_apply dot_S64x32_S32x32_S64x32_1_0_0_1_n_n.wf none t w g e

/-- The scaled scores at (g, j). -/
theorem eDots_apply (q k : FVec Ideal S64x32 .f32) (g j : Fin 64) :
    (eDots (F := Ideal) q k : S64x64.Idx → EReal) (ix2 g j)
      = (∑ e : Fin 32, (q : S64x32.Idx → EReal) (ix2 g e) * (k : S64x32.Idx → EReal) (ix2 j e)) * Spec.scale := by
  unfold eDots
  show (matmul (F := Ideal) dot_S64x32_S32x64_S64x64_1_0_0_1_n_n none _ _ _ : S64x64.Idx → EReal) (ix2 g j) * Spec.scale = _
  refine congrArg (· * Spec.scale) ?_
  refine (PlainDot.matmul_zero_apply dot_S64x32_S32x64_S64x64_1_0_0_1_n_n.wf none _ _ g j).trans ?_
  refine Finset.sum_congr rfl fun e _ => ?_
  exact congrArg ((q : S64x32.Idx → EReal) (ix2 g e) * ·) (transpose_ix2_apply _ _ e j)

/-- The exponentials at (g, j): of the score less its row's maximum. -/
theorem eExp_apply (D : FVec Ideal S64x64 .f32) (g j : Fin 64) :
    (eExp (F := Ideal) D : S64x64.Idx → EReal) (ix2 g j)
      = Ideal.exp ((D : S64x64.Idx → EReal) (ix2 g j) - Spec.rowmax fun j' : Fin 64 => (D : S64x64.Idx → EReal) (ix2 g j')) := by
  unfold eExp
  show Ideal.exp ((D : S64x64.Idx → EReal) (ix2 g j) - (broadcastTo (α := EReal) S64x64 _ _ : S64x64.Idx → EReal) (ix2 g j)) = _
  refine congrArg (fun m => Ideal.exp ((D : S64x64.Idx → EReal) (ix2 g j) - m)) ?_
  refine (Cols.bcastCol_apply _ _ g j).trans ((Cols.col_apply _ _ g).trans ?_)
  unfold Spec.rowmax
  refine congrArg (max Spec.ninf) ?_
  exact maxLast_apply D _ reduces_S64x64_S64 _ _ g

/-- The weighted values at (g, d): over the 64 slices, the exponential over its row sum, times v. -/
theorem eAttnV_apply (E : FVec Ideal S64x64 .f32) (v : FVec Ideal S64x32 .f32) (g : Fin 64) (d : Fin 32) :
    (eAttnV (F := Ideal) E v : S64x32.Idx → EReal) (ix2 g d)
      = ∑ j : Fin 64, Ideal.div ((E : S64x64.Idx → EReal) (ix2 g j)) (∑ j' : Fin 64, (E : S64x64.Idx → EReal) (ix2 g j'))
          * (v : S64x32.Idx → EReal) (ix2 j d) := by
  unfold eAttnV
  refine (PlainDot.matmul_zero_apply dot_S64x64_S64x32_S64x32_1_0_0_1_n_n.wf none _ _ g d).trans ?_
  refine Finset.sum_congr rfl fun j _ => ?_
  refine congrArg (· * (v : S64x32.Idx → EReal) (ix2 j d)) ?_
  show Ideal.div ((E : S64x64.Idx → EReal) (ix2 g j)) ((broadcastTo (α := EReal) S64x64 _ _ : S64x64.Idx → EReal) (ix2 g j)) = _
  refine congrArg (Ideal.div ((E : S64x64.Idx → EReal) (ix2 g j))) ?_
  refine (Cols.bcastCol_apply _ _ g j).trans ((Cols.col_apply _ _ g).trans ?_)
  exact MidAxis.sumLast_apply E _ reduces_S64x64_S64 _ _ g

end Stages

/-- One head of the specification's slice result, from that head's own pooled sums. -/
def headOS (tr : Fin 64 → Fin 32 → EReal) (nm : Fin 64 → EReal) (Wq Wk Wv : Fin 32 → Fin 32 → EReal) (g : Fin 64) (d : Fin 32) : EReal :=
  Spec.osOf (fun _ => tr) (fun _ => nm) Wq Wk Wv 0 g d

/-- The specification's slice result at head h uses the sums of head h only. -/
theorem osOf_head (tr : Fin 8 → Fin 64 → Fin 32 → EReal) (nm : Fin 8 → Fin 64 → EReal) (Wq Wk Wv : Fin 32 → Fin 32 → EReal)
    (h : Fin 8) (g : Fin 64) (d : Fin 32) : Spec.osOf tr nm Wq Wk Wv h g d = headOS (tr h) (nm h) Wq Wk Wv g d := rfl

/-- `epi` at (g, d) is the head's slice result from the sums it was given, with the matrices transposed back. -/
theorem epi_apply (nm : FVec Ideal S1x64 .f32) (tk : FVec Ideal S1x64x32 .f32) (wq wk wv : FVec Ideal S32x32 .bf16)
    (u : Fin 1) (g : Fin 64) (d : Fin 32) :
    (epi (F := Ideal) nm tk wq wk wv : S1x64x32.Idx → EReal) (ix3 u g d)
      = headOS (fun g c => (tk : S1x64x32.Idx → EReal) (ix3 (0 : Fin 1) g c)) (fun g => (nm : S1x64.Idx → EReal) (ix2 (0 : Fin 1) g))
          (fun e d => (wq : S32x32.Idx → EReal) (ix2 d e)) (fun e d => (wk : S32x32.Idx → EReal) (ix2 d e))
          (fun e d => (wv : S32x32.Idx → EReal) (ix2 d e)) g d := by
  have hP : ∀ (w : FVec Ideal S32x32 .bf16) (g : Fin 64) (e : Fin 32),
      (eProj (F := Ideal) (eTok nm tk) w : S64x32.Idx → EReal) (ix2 g e)
        = Spec.qkvOf (fun _ : Fin 8 => fun g c => (tk : S1x64x32.Idx → EReal) (ix3 (0 : Fin 1) g c))
            (fun _ : Fin 8 => fun g => (nm : S1x64.Idx → EReal) (ix2 (0 : Fin 1) g)) (fun e d => (w : S32x32.Idx → EReal) (ix2 d e)) 0 g e := by
    intro w g e
    rw [eProj_apply]
    unfold Spec.qkvOf Spec.tokOf
    exact Finset.sum_congr rfl fun k _ => congrArg (· * (w : S32x32.Idx → EReal) (ix2 k e)) (eTok_apply nm tk g k)
  have hD : ∀ g j : Fin 64,
      (eDots (F := Ideal) (eProj (eTok nm tk) wq) (eProj (eTok nm tk) wk) : S64x64.Idx → EReal) (ix2 g j)
        = Spec.dotsOf (fun _ : Fin 8 => fun g c => (tk : S1x64x32.Idx → EReal) (ix3 (0 : Fin 1) g c))
            (fun _ : Fin 8 => fun g => (nm : S1x64.Idx → EReal) (ix2 (0 : Fin 1) g))
            (fun e d => (wq : S32x32.Idx → EReal) (ix2 d e)) (fun e d => (wk : S32x32.Idx → EReal) (ix2 d e)) 0 g j := by
    intro g j
    rw [eDots_apply]
    unfold Spec.dotsOf
    exact congrArg (· * Spec.scale) (Finset.sum_congr rfl fun e _ => by rw [hP wq g e, hP wk j e])
  unfold epi
  refine (shapeCast_ab_1ab_apply _ _ u g d).trans ?_
  rw [eAttnV_apply]
  unfold headOS Spec.osOf Spec.softmax
  refine Finset.sum_congr rfl fun j _ => ?_
  rw [hP wv j d]
  simp only [eExp_apply, hD]

end Cert.KernelIdeal.Hand

end
-- ==== Proof.KIEpiPieces.lean ====
/-
  Reading a head's slab back. Slab k of an [8, 64, 32] array (and row k of an [8, 64] one) holds, at its local index
  (·, g, d), the array's entry (k, g, d); a load of that slab after a list of stores reads the stores' canonical contents
  there; a load of a whole 32x32 buffer reads its contents. So the head's slice attention of what the body loads back
  from the two accumulators is the specification's slice result, at head k, of the accumulators' canonical contents.
-/
import proofs.«133947_j41910290874676_1_alg».proof.Proof.KIEpiVal
import Idealize.ShloMosaic.Lib.Pipeline.FrameBody
import Idealize.ShloMosaic.Lib.Pipeline.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Idealize.SL Idealize.SL.Sem
open scoped BigOperators

/-- Local index (·, g, d) of slab k of an [8, 64, 32] array is the array's index (k, g, d). -/
theorem slab3_emb (k : ℕ) (hk : k < 8) (inb : ∀ a, (![k, 0, 0] : Fin 3 → ℕ) a + S1x64x32.size a ≤ S8x64x32.size a)
    (u : Fin 1) (g : Fin 64) (d : Fin 32) :
    (Rect.unit (s := S8x64x32) ![k, 0, 0] S1x64x32.size inb).emb (ix3 u g d) = ix3 (⟨k, hk⟩ : Fin 8) g d := by
  funext a
  apply Fin.ext
  match a with
  | ⟨0, _⟩ => show k + 1 * u.val = k; omega
  | ⟨1, _⟩ => show 0 + 1 * g.val = g.val; omega
  | ⟨2, _⟩ => show 0 + 1 * d.val = d.val; omega

/-- Local index (·, g) of row k of an [8, 64] array is the array's index (k, g). -/
theorem slab2_emb (k : ℕ) (hk : k < 8) (inb : ∀ a, (![k, 0] : Fin 2 → ℕ) a + S1x64.size a ≤ S8x64.size a)
    (u : Fin 1) (g : Fin 64) :
    (Rect.unit (s := S8x64) ![k, 0] S1x64.size inb).emb (ix2 u g) = ix2 (⟨k, hk⟩ : Fin 8) g := by
  funext a
  apply Fin.ext
  match a with
  | ⟨0, _⟩ => show k + 1 * u.val = k; omega
  | ⟨1, _⟩ => show 0 + 1 * g.val = g.val; omega

/-- A load of a whole 32x32 buffer reads its contents. -/
theorem load_mat (arg : Memref sig .tc .vmem S32x32 .bf16) (harg : arg.IsWhole) (x : Vec Ideal S32x32 .bf16) :
    View.readAt (Elt Ideal) arg.view (Rect.unit (s := S32x32) ![0, 0] S32x32.size inb_S32x32_S32x32_0_0).toLoadRect (harg.unread x) = x := by
  rw [View.readAt_eq_ld, harg.read_unread]
  exact View.ld_unit_zero (by funext a; match a with | ⟨0, _⟩ => rfl | ⟨1, _⟩ => rfl) _ x

/-- The slice attention of head k over what the body loads back from the two accumulators after the stores `L0`, `L1`:
    the specification's slice result, at head k, of the stores' canonical contents. -/
theorem head_value (v13 : View sig .tc .vmem S8x64 .f32) (v12 : View sig .tc .vmem S8x64x32 .f32)
    (L1 : List (View.Piece (Elt Ideal) S8x64 .f32)) (L0 : List (View.Piece (Elt Ideal) S8x64x32 .f32))
    (k : ℕ) (hk : k < 8) (inb2 : ∀ a, (![k, 0] : Fin 2 → ℕ) a + S1x64.size a ≤ S8x64.size a)
    (inb3 : ∀ a, (![k, 0, 0] : Fin 3 → ℕ) a + S1x64x32.size a ≤ S8x64x32.size a)
    (wq wk wv : Vec Ideal S32x32 .bf16) (u : Fin 1) (g : Fin 64) (d : Fin 32) :
    (epi (F := Ideal) (v13.readCov L1 (Rect.unit (s := S8x64) ![k, 0] S1x64.size inb2).toLoadRect)
        (v12.readCov L0 (Rect.unit (s := S8x64x32) ![k, 0, 0] S1x64x32.size inb3).toLoadRect) wq wk wv : S1x64x32.Idx → EReal) (ix3 u g d)
      = Spec.osOf (fun h g c => (View.canon L0 : S8x64x32.Idx → EReal) (ix3 h g c)) (fun h g => (View.canon L1 : S8x64.Idx → EReal) (ix2 h g))
          (fun e d => (wq : S32x32.Idx → EReal) (ix2 d e)) (fun e d => (wk : S32x32.Idx → EReal) (ix2 d e))
          (fun e d => (wv : S32x32.Idx → EReal) (ix2 d e)) ⟨k, hk⟩ g d := by
  refine (epi_apply _ _ wq wk wv u g d).trans ?_
  rw [osOf_head]
  have e0 : (fun (g : Fin 64) (c : Fin 32) =>
      (v12.readCov L0 (Rect.unit (s := S8x64x32) ![k, 0, 0] S1x64x32.size inb3).toLoadRect : S1x64x32.Idx → EReal) (ix3 (0 : Fin 1) g c))
        = fun g c => (View.canon L0 : S8x64x32.Idx → EReal) (ix3 (⟨k, hk⟩ : Fin 8) g c) := by
    funext g c
    rw [View.readCov_eq_canon' v12 L0 (Rect.unit (s := S8x64x32) ![k, 0, 0] S1x64x32.size inb3).toLoadRect]
    exact congrArg (View.canon L0) (slab3_emb k hk inb3 0 g c)
  have e1 : (fun (g : Fin 64) =>
      (v13.readCov L1 (Rect.unit (s := S8x64) ![k, 0] S1x64.size inb2).toLoadRect : S1x64.Idx → EReal) (ix2 (0 : Fin 1) g))
        = fun g => (View.canon L1 : S8x64.Idx → EReal) (ix2 (⟨k, hk⟩ : Fin 8) g) := by
    funext g
    rw [View.readCov_eq_canon' v13 L1 (Rect.unit (s := S8x64) ![k, 0] S1x64.size inb2).toLoadRect]
    exact congrArg (View.canon L1) (slab2_emb k hk inb2 0 g)
  rw [e0, e1]

/-- The specification's slice result of the canonical contents of two lists of stores, as ONE function of the output
    block's index (h, g, d). -/
def osG (L0 : List (View.Piece (Elt Ideal) S8x64x32 .f32)) (L1 : List (View.Piece (Elt Ideal) S8x64 .f32))
    (wq wk wv : Vec Ideal S32x32 .bf16) (y : S8x64x32.Idx) : EReal :=
  Spec.osOf (fun h g c => (View.canon L0 : S8x64x32.Idx → EReal) (ix3 h g c)) (fun h g => (View.canon L1 : S8x64.Idx → EReal) (ix2 h g))
    (fun e d => (wq : S32x32.Idx → EReal) (ix2 d e)) (fun e d => (wk : S32x32.Idx → EReal) (ix2 d e))
    (fun e d => (wv : S32x32.Idx → EReal) (ix2 d e)) (y 0) (y 1) (y 2)

theorem osG_ix3 (L0 : List (View.Piece (Elt Ideal) S8x64x32 .f32)) (L1 : List (View.Piece (Elt Ideal) S8x64 .f32))
    (wq wk wv : Vec Ideal S32x32 .bf16) (h : Fin 8) (g : Fin 64) (d : Fin 32) :
    osG L0 L1 wq wk wv (ix3 h g d)
      = Spec.osOf (fun h g c => (View.canon L0 : S8x64x32.Idx → EReal) (ix3 h g c)) (fun h g => (View.canon L1 : S8x64.Idx → EReal) (ix2 h g))
          (fun e d => (wq : S32x32.Idx → EReal) (ix2 d e)) (fun e d => (wk : S32x32.Idx → EReal) (ix2 d e))
          (fun e d => (wv : S32x32.Idx → EReal) (ix2 d e)) h g d := rfl

/-- The same at a slab's local index: the piece head k stores is the block of `osG` its rectangle names. -/
theorem head_piece (v13 : View sig .tc .vmem S8x64 .f32) (v12 : View sig .tc .vmem S8x64x32 .f32)
    (L1 : List (View.Piece (Elt Ideal) S8x64 .f32)) (L0 : List (View.Piece (Elt Ideal) S8x64x32 .f32))
    (k : ℕ) (hk : k < 8) (inb2 : ∀ a, (![k, 0] : Fin 2 → ℕ) a + S1x64.size a ≤ S8x64.size a)
    (inb3 : ∀ a, (![k, 0, 0] : Fin 3 → ℕ) a + S1x64x32.size a ≤ S8x64x32.size a)
    (wq wk wv : Vec Ideal S32x32 .bf16) (x : (Rect.unit (s := S8x64x32) ![k, 0, 0] S1x64x32.size inb3).shape.Idx) :
    (epi (F := Ideal) (v13.readCov L1 (Rect.unit (s := S8x64) ![k, 0] S1x64.size inb2).toLoadRect)
        (v12.readCov L0 (Rect.unit (s := S8x64x32) ![k, 0, 0] S1x64x32.size inb3).toLoadRect) wq wk wv : S1x64x32.Idx → EReal) x
      = osG L0 L1 wq wk wv ((Rect.unit (s := S8x64x32) ![k, 0, 0] S1x64x32.size inb3).emb x) := by
  obtain ⟨u, g, d, rfl⟩ : ∃ (u : Fin 1) (g : Fin 64) (d : Fin 32), x = ix3 u g d := ⟨x 0, x 1, x 2, eq_ix3 x⟩
  rw [slab3_emb k hk inb3 u g d]
  exact head_value v13 v12 L1 L0 k hk inb2 inb3 wq wk wv u g d

end Cert.KernelIdeal.Hand

end
-- ==== Proof.KIEpi.lean ====
/-
  The last grid point's epilogue: from what the two accumulators hold once the point's own sums are added, the slice
  attention per head — normalise the tokens, project to q, k, v, softmax the scaled scores, weight v — stored head by
  head into the output window's block.
-/
import proofs.«133947_j41910290874676_1_alg».proof.Proof.SpecOf
import proofs.«133947_j41910290874676_1_alg».proof.Proof.KIArgs
import proofs.«133947_j41910290874676_1_alg».proof.Proof.KIEpiPieces
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- In the last point's case, what the body leaves in the output window's block is, at (h, g, d), the slice attention
    `Spec.osOf` of what it leaves in the two accumulators (and of the three 32x32 matrices it read, transposed back). -/
theorem epilogue_value (c : Dev nD) (i : grid0.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S8x32x64 .bf16) (harg6 : arg6.IsWhole) (arg7 : Memref sig .tc .vmem S8x64 .f32) (harg7 : arg7.IsWhole) (arg8 : Memref sig .tc .vmem S32x32 .bf16) (harg8 : arg8.IsWhole) (arg9 : Memref sig .tc .vmem S32x32 .bf16) (harg9 : arg9.IsWhole) (arg10 : Memref sig .tc .vmem S32x32 .bf16) (harg10 : arg10.IsWhole) (arg11 : Memref sig .tc .vmem S8x64x32 .f32) (harg11 : arg11.IsWhole) (arg12 : Memref sig .tc .vmem S8x64x32 .f32) (harg12 : arg12.IsWhole) (arg13 : Memref sig .tc .vmem S8x64 .f32) (harg13 : arg13.IsWhole) (hc0 : ¬cond0_0 i) (hc1 : cond0_1 i)
    (x0 : Vec Ideal S2000x256 .f32) (x1 : Vec Ideal S256x256 .bf16) (x2 : Vec Ideal S256 .f32) (x3 : Vec Ideal S256x256 .bf16) (x4 : Vec Ideal S256 .f32) (x5 : Vec Ideal S8x32x64 .bf16) (x6 : Vec Ideal S8x64 .f32) (x7 : Vec Ideal S32x32 .bf16) (x8 : Vec Ideal S32x32 .bf16) (x9 : Vec Ideal S32x32 .bf16) (xs0 : Vec Ideal S8x64x32 .f32) (xs1 : Vec Ideal S8x64 .f32) (h : Fin 8) (g : Fin 64) (d : Fin 32) :
    (out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64x32.Idx → EReal) (ix3 h g d)
      = Spec.osOf (fun h g c' => (sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64x32.Idx → EReal) (ix3 h g c'))
          (fun h g => (sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 : S8x64.Idx → EReal) (ix2 h g))
          (fun e d => (x7 : S32x32.Idx → EReal) (ix2 d e)) (fun e d => (x8 : S32x32.Idx → EReal) (ix2 d e)) (fun e d => (x9 : S32x32.Idx → EReal) (ix2 d e)) h g d := by
  unfold out0_C_10 sout0_C_0 sout0_C_1
  simp only [View.read_writes_junk_eq_canon]
  refine View.canon_apply_of_pieces
    (osG (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1 (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1 x7 x8 x9)
    _ ?_ (ix3 h g d) (cover0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 (ix3 h g d))
  unfold kernelRun0_C
  dsimp only
  intro p hp
  simp only [List.mem_cons, List.not_mem_nil, or_false] at hp
  rcases hp with rfl | rfl | rfl | rfl | rfl | rfl | rfl | rfl
  · -- head 7
    intro x
    dsimp only
    unfold kernelRun0_C.sl.r_43 kernelRun0_C.sl.r_41 kernelRun0_C.sl.r_42 kernelRun0_C.sl.v620 kernelRun0_C.sl.v622 kernelRun0_C.sl.cst_344
    rw [load_mat arg8 harg8 x7, load_mat arg9 harg9 x8, load_mat arg10 harg10 x9]
    exact (congrFun (epiHead7_eq _ _ _ _ _) x).trans (head_piece _ _ _ _ 7 (by decide) _ _ x7 x8 x9 x)
  · -- head 6
    intro x
    dsimp only
    unfold kernelRun0_C.sl.r_40 kernelRun0_C.sl.v578 kernelRun0_C.sl.v580
    rw [load_mat arg8 harg8 x7, load_mat arg9 harg9 x8, load_mat arg10 harg10 x9]
    exact (congrFun (epiHead6_eq _ _ _ _ _) x).trans (head_piece _ _ _ _ 6 (by decide) _ _ x7 x8 x9 x)
  · -- head 5
    intro x
    dsimp only
    unfold kernelRun0_C.sl.r_37 kernelRun0_C.sl.r_38 kernelRun0_C.sl.r_39 kernelRun0_C.sl.v536 kernelRun0_C.sl.v538
    rw [load_mat arg8 harg8 x7, load_mat arg9 harg9 x8, load_mat arg10 harg10 x9]
    exact (congrFun (epiHead5_eq _ _ _ _ _) x).trans (head_piece _ _ _ _ 5 (by decide) _ _ x7 x8 x9 x)
  · -- head 4
    intro x
    dsimp only
    unfold kernelRun0_C.sl.r_33 kernelRun0_C.sl.r_34 kernelRun0_C.sl.r_35 kernelRun0_C.sl.r_36 kernelRun0_C.sl.v494 kernelRun0_C.sl.v496
    rw [load_mat arg8 harg8 x7, load_mat arg9 harg9 x8, load_mat arg10 harg10 x9]
    exact (congrFun (epiHead4_eq _ _ _ _ _) x).trans (head_piece _ _ _ _ 4 (by decide) _ _ x7 x8 x9 x)
  · -- head 3
    intro x
    dsimp only
    unfold kernelRun0_C.sl.r_31 kernelRun0_C.sl.r_32 kernelRun0_C.sl.v452 kernelRun0_C.sl.v454
    rw [load_mat arg8 harg8 x7, load_mat arg9 harg9 x8, load_mat arg10 harg10 x9]
    exact (congrFun (epiHead3_eq _ _ _ _ _) x).trans (head_piece _ _ _ _ 3 (by decide) _ _ x7 x8 x9 x)
  · -- head 2
    intro x
    dsimp only
    unfold kernelRun0_C.sl.r_28 kernelRun0_C.sl.r_29 kernelRun0_C.sl.r_30 kernelRun0_C.sl.v410 kernelRun0_C.sl.v412
    rw [load_mat arg8 harg8 x7, load_mat arg9 harg9 x8, load_mat arg10 harg10 x9]
    exact (congrFun (epiHead2_eq _ _ _ _ _) x).trans (head_piece _ _ _ _ 2 (by decide) _ _ x7 x8 x9 x)
  · -- head 1
    intro x
    dsimp only
    unfold kernelRun0_C.sl.r_25 kernelRun0_C.sl.r_26 kernelRun0_C.sl.r_27 kernelRun0_C.sl.v368 kernelRun0_C.sl.v370
    rw [load_mat arg8 harg8 x7, load_mat arg9 harg9 x8, load_mat arg10 harg10 x9]
    exact (congrFun (epiHead1_eq _ _ _ _ _) x).trans (head_piece _ _ _ _ 1 (by decide) _ _ x7 x8 x9 x)
  · -- head 0
    intro x
    dsimp only
    unfold kernelRun0_C.sl.r_24 kernelRun0_C.sl.v326 kernelRun0_C.sl.v328
    rw [load_mat arg8 harg8 x7, load_mat arg9 harg9 x8, load_mat arg10 harg10 x9]
    exact (congrFun (epiHead0_eq _ _ _ _ _) x).trans (head_piece _ _ _ _ 0 (by decide) _ _ x7 x8 x9 x)

end Cert.KernelIdeal.Hand

end
-- ==== Proof.KIOut0.lean ====
/-
  The pooling region's result array after the region: its one write-back, at the last grid point, writes the whole
  array (the window's block index never moves and its block is the array), so the array ends holding what the last
  point's body left in the output window's staging buffer.
-/
import proofs.«133947_j41910290874676_1_alg».proof.Proof.KIArgs
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The output window's block index is zero on every axis at every point, and its block is the whole [8, 64, 32] array. -/
theorem idx10 : ∀ t : Fin cfg0.N, ∀ a : Fin 3, win0_10.index t a = 0 :=
  (by decide +kernel : ∀ t : Fin grid0.N, ∀ a : Fin 3, win0_10.index t a = 0)
theorem xsize10 : ∀ t : Fin cfg0.N, win0_10.xsize (grid0.coords t) 0 = 8 ∧ win0_10.xsize (grid0.coords t) 1 = 64 ∧ win0_10.xsize (grid0.coords t) 2 = 32 :=
  (by decide +kernel : ∀ t : Fin grid0.N, win0_10.xsize (grid0.coords t) 0 = 8 ∧ win0_10.xsize (grid0.coords t) 1 = 64 ∧ win0_10.xsize (grid0.coords t) 2 = 32)

section
variable (V : (c : Dev nD) → (b : Ref sig .tc) → Buf (Elt Ideal) ((c : Thread nD τ).loc b))

/-- The one write-back, at the last point, writes what that point's body left. -/
theorem flushed10_eq (c : Dev nD) (t : Fin cfg0.N) (ht : t.val = 99) (t' : Fin cfg0.N) (hf : (cfg0.win 10).flush t' = true) :
    (dat0 V c).flushed 10 t' = ((cfg0.win 10).blk t').view.read (Elt Ideal) ((dat0 V c).after 10 t) := by
  have hN : cfg0.N = 100 := N_0
  have h3 : t'.val = 99 := by have := (flush0_10 t').mp hf; have := t'.isLt; omega
  obtain rfl : t' = t := Fin.ext (h3.trans ht.symm)
  show (cfg0.win 10).cut (grid0.coords t') ((dat0 V c).after 10 t') = _
  have hz' : (fun a => win0_10.index t' a * main_v26.ty.shape.size a) = fun _ => 0 := funext fun a => by rw [idx10 t' a, Nat.zero_mul]
  exact (Memref.read_access_unit_zero (Elt Ideal) main_v26 hz' (fun a => by rw [congrFun hz' a]; simp) ((dat0 V c).after 10 t')).symm

/-- So the result array ends holding it. -/
theorem final0 (c : Dev nD) (t : Fin cfg0.N) (ht : t.val = 99) : (dat0 V c).arrAt 10 cfg0.N = (dat0 V c).after 10 t :=
  (dat0 V c).arrAt_eq_of_cover 10 ((dat0 V c).after 10 t) (flushed10_eq V c t ht) fun i =>
    ⟨t, (flush0_10 t).mpr (by rw [ht]), by
      show i ∈ ((View.whole main_v26).slice (win0_10.rect t)).set
      rw [View.set_slice_whole, Rect.mem_set_unit]
      intro a
      have h0 : (i 0 : Nat) < 8 := (i 0).isLt
      have h1 : (i 1 : Nat) < 64 := (i 1).isLt
      have h2 : (i 2 : Nat) < 32 := (i 2).isLt
      obtain ⟨s0, s1, s2⟩ := xsize10 t
      match a with
      | ⟨0, _⟩ => show win0_10.index t 0 * win0_10.size 0 ≤ (i 0 : Nat) ∧ (i 0 : Nat) < win0_10.index t 0 * win0_10.size 0 + win0_10.xsize (grid0.coords t) 0
                  rw [idx10 t 0, s0]; omega
      | ⟨1, _⟩ => show win0_10.index t 1 * win0_10.size 1 ≤ (i 1 : Nat) ∧ (i 1 : Nat) < win0_10.index t 1 * win0_10.size 1 + win0_10.xsize (grid0.coords t) 1
                  rw [idx10 t 1, s1]; omega
      | ⟨2, _⟩ => show win0_10.index t 2 * win0_10.size 2 ≤ (i 2 : Nat) ∧ (i 2 : Nat) < win0_10.index t 2 * win0_10.size 2 + win0_10.xsize (grid0.coords t) 2
                  rw [idx10 t 2, s2]; omega⟩

end

end Cert.KernelIdeal.Hand

end
-- ==== Proof.KIValue0.lean ====
/-
  What the pooling region leaves in its result array: the slice attention's result, index by index — the last point's
  epilogue over what the accumulators hold there, and those are the pooled sums over all rows.
-/
import proofs.«133947_j41910290874676_1_alg».proof.Proof.KIAcc
import proofs.«133947_j41910290874676_1_alg».proof.Proof.KIEpi
import proofs.«133947_j41910290874676_1_alg».proof.Proof.KIOut0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- A parameter window's block is the whole array: the three 32x32 matrices as the last point finds them. -/
theorem idx789 : ∀ t : Fin cfg0.N, (∀ a : Fin 2, win0_7.index t a = 0) ∧ (∀ a : Fin 2, win0_8.index t a = 0) ∧ (∀ a : Fin 2, win0_9.index t a = 0) :=
  (by decide +kernel : ∀ t : Fin grid0.N, (∀ a : Fin 2, win0_7.index t a = 0) ∧ (∀ a : Fin 2, win0_8.index t a = 0) ∧ (∀ a : Fin 2, win0_9.index t a = 0))

section
variable (V : (c : Dev nD) → (b : Ref sig .tc) → Buf (Elt Ideal) ((c : Thread nD τ).loc b))

theorem iblk0_7 (c : Dev nD) (t : Fin cfg0.N) : iblk0 V c 7 t = V c main_v21 := by
  have hz' : (fun a => win0_7.index t a * main_v21.ty.shape.size a) = fun _ => 0 := funext fun a => by rw [(idx789 t).1 a, Nat.zero_mul]
  exact Memref.read_access_unit_zero (Elt Ideal) main_v21 hz' (fun a => by rw [congrFun hz' a]; simp) (V c main_v21)
theorem iblk0_8 (c : Dev nD) (t : Fin cfg0.N) : iblk0 V c 8 t = V c main_v23 := by
  have hz' : (fun a => win0_8.index t a * main_v23.ty.shape.size a) = fun _ => 0 := funext fun a => by rw [(idx789 t).2.1 a, Nat.zero_mul]
  exact Memref.read_access_unit_zero (Elt Ideal) main_v23 hz' (fun a => by rw [congrFun hz' a]; simp) (V c main_v23)
theorem iblk0_9 (c : Dev nD) (t : Fin cfg0.N) : iblk0 V c 9 t = V c main_v25 := by
  have hz' : (fun a => win0_9.index t a * main_v25.ty.shape.size a) = fun _ => 0 := funext fun a => by rw [(idx789 t).2.2 a, Nat.zero_mul]
  exact Memref.read_access_unit_zero (Elt Ideal) main_v25 hz' (fun a => by rw [congrFun hz' a]; simp) (V c main_v25)

theorem region0_value_at (c : Dev nD) (t : Fin cfg0.N) (ht : t.val = 99) (h : Fin 8) (g : Fin 64) (d : Fin 32) :
    ((dat0 V c).arrAt 10 cfg0.N : S8x64x32.Idx → EReal) (ix3 h g d)
      = Spec.os (aX V c) (aWfx V c) (abfx V c) (aWq V c) (aWk V c) (aWv V c) (alg V c) h g d := by
  have hN : t.val < 100 := lt_of_lt_of_eq t.isLt (show cfg0.N = 100 from N_0)
  have hc0 : ¬cond0_0 (grid0.coords t) := fun hh => by have := (hcond0_0 t).mp hh; omega
  have hc1 : cond0_1 (grid0.coords t) := (hcond0_1 t).mpr (by omega)
  have hC := outsAt0_C V c t (by omega) (by omega) hc0 hc1
  have t1 := fun h g c' => acc_final_at V c t ht h g c'
  have t2 := fun h g => norm_final_at V c t ht h g
  rw [hC] at t1 t2
  dsimp only at t1 t2
  rw [final0 V c t ht, after0_10, hC]
  dsimp only
  rw [epilogue_value, Spec.os_eq_osOf]
  rw [show (fun h g c' => _) = Spec.tokraw (aX V c) (aWfx V c) (abfx V c) (alg V c) from funext fun h => funext fun g => funext fun c' => t1 h g c',
    show (fun h g => _) = Spec.norm (alg V c) from funext fun h => funext fun g => t2 h g]
  rw [iblk0_7, iblk0_8, iblk0_9]
  rfl

/-- At any entry contents `V`, after the pooling region's hundred points its result array holds, at (h, g, d), the
    slice attention `Spec.os` of the arrays it read. -/
theorem region0_value (c : Dev nD) (h : Fin 8) (g : Fin 64) (d : Fin 32) :
    ((dat0 V c).arrAt 10 cfg0.N : S8x64x32.Idx → EReal) (ix3 h g d)
      = Spec.os (aX V c) (aWfx V c) (abfx V c) (aWq V c) (aWk V c) (aWv V c) (alg V c) h g d :=
  region0_value_at V c ⟨99, by rw [show cfg0.N = 100 from N_0]; decide⟩ rfl h g d

end

end Cert.KernelIdeal.Hand

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KIValue1A.lean ====
/-
  One head of the un-pooling kernel's tile, at the exact values: from a [2000,32] slab of the projected rows, a
  [1,32,64] slab of slice weights, a [1,64] row of slice biases and a [1,64,32] slab of the pooled result, the kernel
  forms the logits (slab · weights + bias), their row softmax, and the product of the softmax with the result slab.
  Read at (r, c) this is Σ_g softmax(logits r ·) g · o g c.
-/
import proofs.«133947_j41910290874676_1_alg».proof.Proof.KIArgs
import proofs.«133947_j41910290874676_1_alg».proof.Proof.LibPlainDot
import proofs.«133947_j41910290874676_1_alg».proof.Proof.LibRowBroadcasts
import proofs.«133947_j41910290874676_1_alg».proof.Proof.LibColBroadcast
import proofs.«133947_j41910290874676_1_alg».proof.Proof.LibMidAxis
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The stages of one head, as the kernel spells them -/

/-- The head's slab times its slice-weight slab, into a zero accumulator. -/
def hMat (xs : FVec Ideal S2000x32 .bf16) (w : Vec Ideal S1x32x64 .bf16) : FVec Ideal S2000x64 .f32 :=
  matmul dot_S2000x32_S32x64_S2000x64_1_0_0_1_n_n none xs (shapeCast S32x64 w shapeCasts_S1x32x64_S32x64 : FVec Ideal S32x64 .bf16)
    (constant S2000x64 .f32 0x00000000#32)

/-- The logits: the product plus the bias row broadcast down the rows. -/
def hLogits (M : FVec Ideal S2000x64 .f32) (b : Vec Ideal S1x64 .f32) : FVec Ideal S2000x64 .f32 :=
  addf M (broadcastTo S2000x64 (shapeCast S1x64 (shapeCast S64 b shapeCasts_S1x64_S64) shapeCasts_S64_S1x64)
    broadcasts_S1x64_S2000x64)

/-- exp(logits − row maximum), the maximum taken from -∞ and met once more with -∞. -/
def hExp (L : FVec Ideal S2000x64 .f32) : FVec Ideal S2000x64 .f32 :=
  exp (subf L (broadcastTo S2000x64 (shapeCast S2000x1 (maximumf (broadcast S2000 (Scalar.ofBits .f32 0xFF800000#32))
    (multiReduction .maximumf [1] S2000 L 0xFF800000#32 reduces_S2000x64_S2000 (.inl rfl) rfl)) shapeCasts_S2000_S2000x1)
    broadcasts_S2000x1_S2000x64))

/-- The row sums of the exponentials, broadcast across the row. -/
def hDen (E : FVec Ideal S2000x64 .f32) : FVec Ideal S2000x64 .f32 :=
  broadcastTo S2000x64 (shapeCast S2000x1 (multiReduction .add [1] S2000 E 0x00000000#32 reduces_S2000x64_S2000 (.inl rfl) rfl)
    shapeCasts_S2000_S2000x1) broadcasts_S2000x1_S2000x64

/-- The softmax weights times the pooled-result slab, into a zero accumulator. -/
def hOut (P : FVec Ideal S2000x64 .f32) (o : Vec Ideal S1x64x32 .f32) : FVec Ideal S2000x32 .f32 :=
  matmul dot_S2000x64_S64x32_S2000x32_1_0_0_1_n_n none (truncf .bf16 P bitsLt_bf16_f32)
    (truncf .bf16 (shapeCast S64x32 o shapeCasts_S1x64x32_S64x32 : FVec Ideal S64x32 .f32) bitsLt_bf16_f32) (constant S2000x32 .f32 0x00000000#32)

/-- One head, whole. -/
def headOf (xs : FVec Ideal S2000x32 .bf16) (w : Vec Ideal S1x32x64 .bf16) (b : Vec Ideal S1x64 .f32)
    (o : Vec Ideal S1x64x32 .f32) : FVec Ideal S2000x32 .f32 :=
  hOut (divf (hExp (hLogits (hMat xs w) b)) (hDen (hExp (hLogits (hMat xs w) b)))) o

/-! ## Each stage at an index -/

theorem hMat_at (xs : FVec Ideal S2000x32 .bf16) (w : Vec Ideal S1x32x64 .bf16) (r : Fin 2000) (g : Fin 64) :
    hMat xs w (ix2 r g) = ∑ d : Fin 32, xs (ix2 r d) * w (ix3 (0 : Fin 1) d g) := by
  unfold hMat
  refine (Cert.Lib.PlainDot.matmul_zero_apply dot_S2000x32_S32x64_S2000x64_1_0_0_1_n_n_wf none xs _ r g).trans ?_
  refine Finset.sum_congr rfl fun d _ => ?_
  rw [shapeCast_1ab_ab_apply]

theorem hLogits_at (M : FVec Ideal S2000x64 .f32) (b : Vec Ideal S1x64 .f32) (r : Fin 2000) (g : Fin 64) :
    hLogits M b (ix2 r g) = M (ix2 r g) + b (ix2 (0 : Fin 1) g) := by
  unfold hLogits
  rw [addf_apply, shapeCast_shapeCast, Cert.Lib.Rows.bcastRow_apply]

/-- The row maximum the kernel subtracts. -/
theorem hMax_at (L : FVec Ideal S2000x64 .f32) (r : Fin 2000) (g : Fin 64) :
    broadcastTo S2000x64 (shapeCast S2000x1 (maximumf (broadcast S2000 (Scalar.ofBits .f32 0xFF800000#32))
      (multiReduction .maximumf [1] S2000 L 0xFF800000#32 reduces_S2000x64_S2000 (.inl rfl) rfl)) shapeCasts_S2000_S2000x1)
      broadcasts_S2000x1_S2000x64 (ix2 r g) = Spec.rowmax (fun g' : Fin 64 => L (ix2 r g')) := by
  rw [Cert.Lib.Cols.bcastCol_apply, Cert.Lib.Cols.col_apply, maximumf_apply]
  refine (congrArg (max _) (Ideal.multiReduction_maximumf_single L 0xFF800000#32 reduces_S2000x64_S2000 (.inl rfl) rfl
    (ix1 r))).trans ?_
  unfold Spec.rowmax
  refine congrArg₂ max rfl (congrArg (fun f => (Finset.univ : Finset (Fin 64)).fold max Spec.ninf f) (funext fun k => ?_))
  refine congrArg L (funext fun ax => Fin.ext ?_)
  rw [reduces_S2000x64_S2000.lift_val]
  match ax with
  | ⟨0, _⟩ => rfl
  | ⟨1, _⟩ => rfl

theorem hExp_at (L : FVec Ideal S2000x64 .f32) (r : Fin 2000) (g : Fin 64) :
    hExp L (ix2 r g) = Ideal.exp (L (ix2 r g) - Spec.rowmax (fun g' : Fin 64 => L (ix2 r g'))) := by
  unfold hExp
  show FloatOps.exp (subf L _ (ix2 r g)) = _
  rw [Ideal.exp_def, subf_apply, hMax_at]

theorem hDen_at (E : FVec Ideal S2000x64 .f32) (r : Fin 2000) (g : Fin 64) :
    hDen E (ix2 r g) = ∑ g' : Fin 64, E (ix2 r g') := by
  unfold hDen
  rw [Cert.Lib.Cols.bcastCol_apply, Cert.Lib.Cols.col_apply]
  exact Cert.Lib.MidAxis.sumLast_apply E 0x00000000#32 reduces_S2000x64_S2000 (.inl rfl) rfl r

theorem hOut_at (P : FVec Ideal S2000x64 .f32) (o : Vec Ideal S1x64x32 .f32) (r : Fin 2000) (c : Fin 32) :
    hOut P o (ix2 r c) = ∑ g : Fin 64, P (ix2 r g) * o (ix3 (0 : Fin 1) g c) := by
  unfold hOut
  refine (Cert.Lib.PlainDot.matmul_zero_apply dot_S2000x64_S64x32_S2000x32_1_0_0_1_n_n_wf none _ _ r c).trans ?_
  refine Finset.sum_congr rfl fun g _ => ?_
  rw [truncf_apply, truncf_apply, shapeCast_1ab_ab_apply]

/-- One head at (r, c): Σ_g softmax(logits r ·) g · o g c, the logits Σ_d xs r d · w d g + b g. -/
theorem headOf_at (xs : FVec Ideal S2000x32 .bf16) (w : Vec Ideal S1x32x64 .bf16) (b : Vec Ideal S1x64 .f32)
    (o : Vec Ideal S1x64x32 .f32) (r : Fin 2000) (c : Fin 32) :
    headOf xs w b o (ix2 r c)
      = ∑ g : Fin 64, Spec.softmax (fun g' : Fin 64 => (∑ d : Fin 32, xs (ix2 r d) * w (ix3 (0 : Fin 1) d g')) + b (ix2 (0 : Fin 1) g')) g
          * o (ix3 (0 : Fin 1) g c) := by
  unfold headOf
  rw [hOut_at]
  refine Finset.sum_congr rfl fun g _ => ?_
  rw [divf_apply, hDen_at, hExp_at]
  simp only [hExp_at, hLogits_at, hMat_at]
  rfl

end Cert.KernelIdeal.Hand

end
-- ==== Proof.KIValue1B.lean ====
/-
  One tile of the un-pooling kernel at the exact values. The kernel projects the tile's 2000 rows (x·Wxᵀ + bx), runs
  the eight heads on the eight 32-lane slabs of the projection, lays the heads' results side by side along the lanes
  and applies the output projection (·Woutᵀ + bout). Read at (r, j) the tile is the output projection of the
  un-pooled row: Σ_k (Σ_g softmax(logits of head k/32, row r) g · o (k/32) g (k%32)) · Woutᵀ k j + bout j.
-/
import proofs.«133947_j41910290874676_1_alg».proof.Proof.KIValue1A

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The projection of the tile's rows -/

/-- x·Wxᵀ + bx at row `r` of the tile, lane `l`. -/
theorem xm_at (x0 : Vec Ideal S2000x256 .f32) (x1 : Vec Ideal S256x256 .bf16) (v5 : Vec Ideal S256 .f32) (r : Fin 2000)
    (l : Fin 256) :
    k1_pay2 x0 x1 v5 (ix2 r l) = (∑ i : Fin 256, x0 (ix2 r i) * x1 (ix2 i l)) + v5 (ix1 l) := by
  unfold k1_pay2
  rw [addf_apply, shapeCast_self, Cert.Lib.Rows.bcastRow_apply, shapeCast_a_1a_apply]
  refine congrArg (· + v5 (ix1 l)) ?_
  exact Cert.Lib.PlainDot.matmul_zero_apply (φ₁ := .bf16) (φ₂ := .bf16) dot_S2000x256_S256x256_S2000x256_1_0_0_1_n_n_wf none
    (truncf .bf16 x0 bitsLt_bf16_f32) x1 r l

/-- A 32-lane slab of the projection starting at lane `o`, at (r, d): the projection at lane o + d. -/
theorem slab_at (o : Nat) (xm : FVec Ideal S2000x256 .f32) (hS : S2000x256.Slices ![0, o] S2000x32) (r : Fin 2000)
    (d : Fin 32) (l : Fin 256) (hl : l.val = o + d.val) :
    extractStridedSlice S2000x32 ![0, o] xm hS (ix2 r d) = xm (ix2 r l) :=
  extractStridedSlice_apply _ xm hS (ix2 r d) (ix2 r l) fun a => by
    match a with
    | ⟨0, _⟩ => show r.val = 0 + r.val; omega
    | ⟨1, _⟩ => show l.val = o + d.val; exact hl

/-! ## The eight heads: each is the one function of its slab, however the kernel's text is cut -/

theorem head0_eq (x0 : Vec Ideal S2000x256 .f32) (x1 : Vec Ideal S256x256 .bf16) (v5 : Vec Ideal S256 .f32)
    (w : Vec Ideal S1x32x64 .bf16) (b : Vec Ideal S1x64 .f32) (o : Vec Ideal S1x64x32 .f32) :
    k1_pay3 x0 x1 v5 w b o = headOf (truncf .bf16 (extractStridedSlice S2000x32 ![0, 0] (k1_pay2 x0 x1 v5) slices_S2000x256_o0_0_S2000x32 : FVec Ideal S2000x32 .f32) bitsLt_bf16_f32) w b o := rfl

theorem head1_eq (x0 : Vec Ideal S2000x256 .f32) (x1 : Vec Ideal S256x256 .bf16) (v5 : Vec Ideal S256 .f32)
    (w : Vec Ideal S1x32x64 .bf16) (b : Vec Ideal S1x64 .f32) (o : Vec Ideal S1x64x32 .f32) :
    k1_pay5 (k1_pay4 x0 x1 v5) w b o = headOf (truncf .bf16 (extractStridedSlice S2000x32 ![0, 32] (k1_pay2 x0 x1 v5) slices_S2000x256_o0_32_S2000x32 : FVec Ideal S2000x32 .f32) bitsLt_bf16_f32) w b o := rfl

theorem head2_eq (xm : FVec Ideal S2000x256 .f32) (w : Vec Ideal S1x32x64 .bf16) (b : Vec Ideal S1x64 .f32)
    (o : Vec Ideal S1x64x32 .f32) :
    k1_pay7 (k1_pay6 xm w b) o = headOf (truncf .bf16 (extractStridedSlice S2000x32 ![0, 64] xm slices_S2000x256_o0_64_S2000x32 : FVec Ideal S2000x32 .f32) bitsLt_bf16_f32) w b o := rfl

theorem head3_eq (xm : FVec Ideal S2000x256 .f32) (w : Vec Ideal S1x32x64 .bf16) (b : Vec Ideal S1x64 .f32)
    (o : Vec Ideal S1x64x32 .f32) :
    k1_pay8 xm w b o = headOf (truncf .bf16 (extractStridedSlice S2000x32 ![0, 96] xm slices_S2000x256_o0_96_S2000x32 : FVec Ideal S2000x32 .f32) bitsLt_bf16_f32) w b o := rfl

theorem head4_eq (xm : FVec Ideal S2000x256 .f32) (w : Vec Ideal S1x32x64 .bf16) (b : Vec Ideal S1x64 .f32)
    (o : Vec Ideal S1x64x32 .f32) :
    k1_pay11 (k1_pay9 xm) (k1_pay10 w) (constant S2000x64 .f32 0x00000000#32) b o = headOf (truncf .bf16 (extractStridedSlice S2000x32 ![0, 128] xm slices_S2000x256_o0_128_S2000x32 : FVec Ideal S2000x32 .f32) bitsLt_bf16_f32) w b o := rfl

theorem head5_eq (xm : FVec Ideal S2000x256 .f32) (w : Vec Ideal S1x32x64 .bf16) (b : Vec Ideal S1x64 .f32)
    (o : Vec Ideal S1x64x32 .f32) :
    k1_pay14 (k1_pay12 xm w b) (k1_pay13 xm w b) o = headOf (truncf .bf16 (extractStridedSlice S2000x32 ![0, 160] xm slices_S2000x256_o0_160_S2000x32 : FVec Ideal S2000x32 .f32) bitsLt_bf16_f32) w b o := rfl

theorem head6_eq (xm : FVec Ideal S2000x256 .f32) (w : Vec Ideal S1x32x64 .bf16) (b : Vec Ideal S1x64 .f32)
    (o : Vec Ideal S1x64x32 .f32) :
    k1_pay15 xm w b o = headOf (truncf .bf16 (extractStridedSlice S2000x32 ![0, 192] xm slices_S2000x256_o0_192_S2000x32 : FVec Ideal S2000x32 .f32) bitsLt_bf16_f32) w b o := rfl

/-- The heads side by side along the lanes, times Woutᵀ, plus the bias row. -/
def finalOf (p0 p1 p2 p3 p4 p5 p6 p7 : FVec Ideal S2000x32 .f32) (v219 : Vec Ideal S256x256 .bf16) (v222 : Vec Ideal S256 .f32) :
    FVec Ideal S2000x256 .f32 :=
  addf (matmul dot_S2000x256_S256x256_S2000x256_1_0_0_1_n_n none
      (truncf .bf16 (concatenate S2000x256 1 [⟨S2000x32, p0⟩, ⟨S2000x32, p1⟩, ⟨S2000x32, p2⟩, ⟨S2000x32, p3⟩, ⟨S2000x32, p4⟩, ⟨S2000x32, p5⟩, ⟨S2000x32, p6⟩, ⟨S2000x32, p7⟩] concatenates_S2000x32_S2000x32_S2000x32_S2000x32_S2000x32_S2000x32_S2000x32_S2000x32_S2000x256_d1 : FVec Ideal S2000x256 .f32) bitsLt_bf16_f32)
      (shapeCast S256x256 v219 shapeCasts_S256x256_S256x256 : FVec Ideal S256x256 .bf16) (constant S2000x256 .f32 0x00000000#32))
    (broadcastTo S2000x256 (shapeCast S1x256 v222 shapeCasts_S256_S1x256) broadcasts_S1x256_S2000x256)

/-- The kernel's last payload holds the eighth head's tail and the output projection. -/
theorem last_eq (p0 p1 p2 p3 p4 p5 p6 : FVec Ideal S2000x32 .f32) (xm : FVec Ideal S2000x256 .f32)
    (w : Vec Ideal S1x32x64 .bf16) (b : Vec Ideal S1x64 .f32) (o : Vec Ideal S1x64x32 .f32) (v219 : Vec Ideal S256x256 .bf16)
    (v222 : Vec Ideal S256 .f32) :
    k1_pay1 p0 p1 p2 p3 p4 p5 p6 (k1_pay16 xm w) b o v219 v222
      = finalOf p0 p1 p2 p3 p4 p5 p6 (headOf (truncf .bf16 (extractStridedSlice S2000x32 ![0, 224] xm slices_S2000x256_o0_224_S2000x32 : FVec Ideal S2000x32 .f32) bitsLt_bf16_f32) w b o) v219 v222 := rfl

/-- The output projection at (r, j): lane k of the side-by-side heads is head k/32 at coordinate k%32. -/
theorem finalOf_at (p0 p1 p2 p3 p4 p5 p6 p7 : FVec Ideal S2000x32 .f32) (v219 : Vec Ideal S256x256 .bf16)
    (v222 : Vec Ideal S256 .f32) (r : Fin 2000) (j : Fin 256) :
    finalOf p0 p1 p2 p3 p4 p5 p6 p7 v219 v222 (ix2 r j)
      = (∑ k : Fin 256, (![p0, p1, p2, p3, p4, p5, p6, p7] ⟨k.val / 32, by have := k.isLt; omega⟩)
            (ix2 r (⟨k.val % 32, Nat.mod_lt _ (by decide)⟩ : Fin 32)) * v219 (ix2 k j)) + v222 (ix1 j) := by
  unfold finalOf
  rw [addf_apply, shapeCast_self, Cert.Lib.Rows.bcastRow_apply, shapeCast_a_1a_apply]
  refine congrArg (· + v222 (ix1 j)) ?_
  refine (Cert.Lib.PlainDot.matmul_zero_apply (φ₁ := .bf16) (φ₂ := .bf16) dot_S2000x256_S256x256_S2000x256_1_0_0_1_n_n_wf none _ v219 r j).trans ?_
  refine Finset.sum_congr rfl fun k _ => ?_
  rw [truncf_apply]
  refine congrArg (· * v219 (ix2 k j)) ?_
  exact concatenate_ofFn_apply (t := S2000x256) (s₁ := S2000x32) (1 : Fin 2) ![p0, p1, p2, p3, p4, p5, p6, p7]
    concatenates_S2000x32_S2000x32_S2000x32_S2000x32_S2000x32_S2000x32_S2000x32_S2000x32_S2000x256_d1 rfl 32 rfl (ix2 r k) ⟨k.val / 32, by have := k.isLt; omega⟩ rfl
    (ix2 r (⟨k.val % 32, Nat.mod_lt _ (by decide)⟩ : Fin 32)) rfl (fun b hb => by
      match b with
      | ⟨0, _⟩ => rfl
      | ⟨1, _⟩ => exact absurd rfl hb)

end Cert.KernelIdeal.Hand

end
-- ==== Proof.KIValue1C.lean ====
/-
  One tile of the un-pooling kernel against the specification. When the tile's eight input blocks are read off the
  arrays of the specification — the tile's row r is row n of x, the weight blocks are the transposed matrices, the
  slab h of the slice weights, biases and pooled result is head h — the tile at (r, j) is the output projection
  `Spec.outOf` at (n, j), with the slice logits Σ_d proj n (32h+d) · WsT h d g + bs h g. The same is then said of
  what the kernel's run leaves in its output block.
-/
import proofs.«133947_j41910290874676_1_alg».proof.Proof.KIValue1B

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## Loads of one head's slab -/

/-- Slab `h` of a three-axis array, loaded as a [1,B,C] block, at (0, d, g): the array at (h, d, g). -/
theorem ld3_at {Val : EltTy → Type} {e : EltTy} {A B C : Nat} (x : (⟨3, ![A, B, C]⟩ : Shape).Idx → Val e) (h : Nat) (hh : h < A)
    (inb : ∀ a, (![h, 0, 0] : Fin 3 → Nat) a + (![1, B, C] : Fin 3 → Nat) a ≤ (⟨3, ![A, B, C]⟩ : Shape).size a)
    (d : Fin B) (g : Fin C) :
    View.ld x (Rect.unit ![h, 0, 0] ![1, B, C] inb) (ix3 (0 : Fin 1) d g) = x (ix3 (⟨h, hh⟩ : Fin A) d g) := by
  show x _ = x _
  refine congrArg x (funext fun a => Fin.ext ?_)
  match a with
  | ⟨0, _⟩ => show h + 1 * 0 = h; omega
  | ⟨1, _⟩ => show 0 + 1 * d.val = d.val; omega
  | ⟨2, _⟩ => show 0 + 1 * g.val = g.val; omega

/-- Row `h` of a two-axis array, loaded as a [1,B] block, at (0, g): the array at (h, g). -/
theorem ld2_at {Val : EltTy → Type} {e : EltTy} {A B : Nat} (x : (⟨2, ![A, B]⟩ : Shape).Idx → Val e) (h : Nat) (hh : h < A)
    (inb : ∀ a, (![h, 0] : Fin 2 → Nat) a + (![1, B] : Fin 2 → Nat) a ≤ (⟨2, ![A, B]⟩ : Shape).size a) (g : Fin B) :
    View.ld x (Rect.unit ![h, 0] ![1, B] inb) (ix2 (0 : Fin 1) g) = x (ix2 (⟨h, hh⟩ : Fin A) g) := by
  show x _ = x _
  refine congrArg x (funext fun a => Fin.ext ?_)
  match a with
  | ⟨0, _⟩ => show h + 1 * 0 = h; omega
  | ⟨1, _⟩ => show 0 + 1 * g.val = g.val; omega

/-! ## The tile over blocks read off the specification's arrays -/

section Tile
variable (x0 : Vec Ideal S2000x256 .f32) (x1 : Vec Ideal S256x256 .bf16) (x2 : Vec Ideal S256 .f32)
    (x3 : Vec Ideal S8x32x64 .bf16) (x4 : Vec Ideal S8x64 .f32) (x5 : Vec Ideal S8x64x32 .f32) (x6 : Vec Ideal S256x256 .bf16)
    (x7 : Vec Ideal S256 .f32)
  (X : Fin 200000 → Fin 256 → EReal) (Wx : Fin 256 → Fin 256 → EReal) (bx : Fin 256 → EReal)
    (WsT : Fin 8 → Fin 32 → Fin 64 → EReal) (bs : Fin 8 → Fin 64 → EReal) (OS : Fin 8 → Fin 64 → Fin 32 → EReal)
    (Wout : Fin 256 → Fin 256 → EReal) (bout : Fin 256 → EReal)
  (n : Fin 200000) (r : Fin 2000)
  (h0 : ∀ i, x0 (ix2 r i) = X n i) (h1 : ∀ i l, x1 (ix2 i l) = Wx l i) (h2 : ∀ l, x2 (ix1 l) = bx l)
  (h3 : ∀ h d g, x3 (ix3 h d g) = WsT h d g) (h4 : ∀ h g, x4 (ix2 h g) = bs h g) (h5 : ∀ h g c, x5 (ix3 h g c) = OS h g c)
  (h6 : ∀ k j, x6 (ix2 k j) = Wout j k) (h7 : ∀ j, x7 (ix1 j) = bout j)

include h0 h1 h2 h3 h4 h5 in
/-- One head on its slab of the projected tile, whatever the slab's spelling: at (r, c) it is
    Σ_g softmax(lg h n ·) g · OS h g c with the logits of the specification. -/
theorem head_spec (o : Nat) (hS : S2000x256.Slices ![0, o] S2000x32) (w : Vec Ideal S1x32x64 .bf16) (b : Vec Ideal S1x64 .f32)
    (os : Vec Ideal S1x64x32 .f32) (h : Fin 8) (ho : o = 32 * h.val)
    (hw : ∀ d g, w (ix3 (0 : Fin 1) d g) = x3 (ix3 h d g)) (hb : ∀ g, b (ix2 (0 : Fin 1) g) = x4 (ix2 h g))
    (hos : ∀ g c, os (ix3 (0 : Fin 1) g c) = x5 (ix3 h g c)) (c : Fin 32) :
    headOf (truncf .bf16 (extractStridedSlice S2000x32 ![0, o] (k1_pay2 x0 x1 x2) hS : FVec Ideal S2000x32 .f32) bitsLt_bf16_f32) w b os (ix2 r c)
      = ∑ g : Fin 64, Spec.softmax (fun g' : Fin 64 => (∑ d : Fin 32, Spec.proj X Wx bx n (Spec.lane h d) * WsT h d g') + bs h g') g
          * OS h g c := by
  rw [headOf_at]
  have hs : ∀ d : Fin 32, (truncf .bf16 (extractStridedSlice S2000x32 ![0, o] (k1_pay2 x0 x1 x2) hS : FVec Ideal S2000x32 .f32) bitsLt_bf16_f32)
      (ix2 r d) = Spec.proj X Wx bx n (Spec.lane h d) := fun d => by
    show extractStridedSlice S2000x32 ![0, o] (k1_pay2 x0 x1 x2) hS (ix2 r d) = _
    rw [slab_at o (k1_pay2 x0 x1 x2) hS r d (Spec.lane h d) (by subst ho; rfl), xm_at]
    unfold Spec.proj
    simp only [h0, h1, h2]
  simp only [hs, hw, hb, hos, h3, h4, h5]

/-- The tile's term: the eight heads as the kernel's text cuts them, laid side by side and projected. -/
def tileOf : FVec Ideal S2000x256 .f32 :=
  k1_pay1
    (k1_pay3 x0 x1 x2 (View.ld x3 (Rect.unit (s := S8x32x64) ![0, 0, 0] S1x32x64.size inb_S8x32x64_S1x32x64_0_0_0)) (View.ld x4 (Rect.unit (s := S8x64) ![0, 0] S1x64.size inb_S8x64_S1x64_0_0)) (View.ld x5 (Rect.unit (s := S8x64x32) ![0, 0, 0] S1x64x32.size inb_S8x64x32_S1x64x32_0_0_0)))
    (k1_pay5 (k1_pay4 x0 x1 x2) (View.ld x3 (Rect.unit (s := S8x32x64) ![1, 0, 0] S1x32x64.size inb_S8x32x64_S1x32x64_1_0_0)) (View.ld x4 (Rect.unit (s := S8x64) ![1, 0] S1x64.size inb_S8x64_S1x64_1_0)) (View.ld x5 (Rect.unit (s := S8x64x32) ![1, 0, 0] S1x64x32.size inb_S8x64x32_S1x64x32_1_0_0)))
    (k1_pay7 (k1_pay6 (k1_pay2 x0 x1 x2) (View.ld x3 (Rect.unit (s := S8x32x64) ![2, 0, 0] S1x32x64.size inb_S8x32x64_S1x32x64_2_0_0)) (View.ld x4 (Rect.unit (s := S8x64) ![2, 0] S1x64.size inb_S8x64_S1x64_2_0))) (View.ld x5 (Rect.unit (s := S8x64x32) ![2, 0, 0] S1x64x32.size inb_S8x64x32_S1x64x32_2_0_0)))
    (k1_pay8 (k1_pay2 x0 x1 x2) (View.ld x3 (Rect.unit (s := S8x32x64) ![3, 0, 0] S1x32x64.size inb_S8x32x64_S1x32x64_3_0_0)) (View.ld x4 (Rect.unit (s := S8x64) ![3, 0] S1x64.size inb_S8x64_S1x64_3_0)) (View.ld x5 (Rect.unit (s := S8x64x32) ![3, 0, 0] S1x64x32.size inb_S8x64x32_S1x64x32_3_0_0)))
    (k1_pay11 (k1_pay9 (k1_pay2 x0 x1 x2)) (k1_pay10 (View.ld x3 (Rect.unit (s := S8x32x64) ![4, 0, 0] S1x32x64.size inb_S8x32x64_S1x32x64_4_0_0))) (constant S2000x64 .f32 0x00000000#32) (View.ld x4 (Rect.unit (s := S8x64) ![4, 0] S1x64.size inb_S8x64_S1x64_4_0)) (View.ld x5 (Rect.unit (s := S8x64x32) ![4, 0, 0] S1x64x32.size inb_S8x64x32_S1x64x32_4_0_0)))
    (k1_pay14 (k1_pay12 (k1_pay2 x0 x1 x2) (View.ld x3 (Rect.unit (s := S8x32x64) ![5, 0, 0] S1x32x64.size inb_S8x32x64_S1x32x64_5_0_0)) (View.ld x4 (Rect.unit (s := S8x64) ![5, 0] S1x64.size inb_S8x64_S1x64_5_0))) (k1_pay13 (k1_pay2 x0 x1 x2) (View.ld x3 (Rect.unit (s := S8x32x64) ![5, 0, 0] S1x32x64.size inb_S8x32x64_S1x32x64_5_0_0)) (View.ld x4 (Rect.unit (s := S8x64) ![5, 0] S1x64.size inb_S8x64_S1x64_5_0))) (View.ld x5 (Rect.unit (s := S8x64x32) ![5, 0, 0] S1x64x32.size inb_S8x64x32_S1x64x32_5_0_0)))
    (k1_pay15 (k1_pay2 x0 x1 x2) (View.ld x3 (Rect.unit (s := S8x32x64) ![6, 0, 0] S1x32x64.size inb_S8x32x64_S1x32x64_6_0_0)) (View.ld x4 (Rect.unit (s := S8x64) ![6, 0] S1x64.size inb_S8x64_S1x64_6_0)) (View.ld x5 (Rect.unit (s := S8x64x32) ![6, 0, 0] S1x64x32.size inb_S8x64x32_S1x64x32_6_0_0)))
    (k1_pay16 (k1_pay2 x0 x1 x2) (View.ld x3 (Rect.unit (s := S8x32x64) ![7, 0, 0] S1x32x64.size inb_S8x32x64_S1x32x64_7_0_0))) (View.ld x4 (Rect.unit (s := S8x64) ![7, 0] S1x64.size inb_S8x64_S1x64_7_0)) (View.ld x5 (Rect.unit (s := S8x64x32) ![7, 0, 0] S1x64x32.size inb_S8x64x32_S1x64x32_7_0_0)) x6 x7

include h0 h1 h2 h3 h4 h5 in
/-- Head `h` of the eight, at (r, c). -/
theorem heads_spec (h : Fin 8) (c : Fin 32) :
    (![headOf (truncf .bf16 (extractStridedSlice S2000x32 ![0, 0] (k1_pay2 x0 x1 x2) slices_S2000x256_o0_0_S2000x32 : FVec Ideal S2000x32 .f32) bitsLt_bf16_f32) (View.ld x3 (Rect.unit (s := S8x32x64) ![0, 0, 0] S1x32x64.size inb_S8x32x64_S1x32x64_0_0_0)) (View.ld x4 (Rect.unit (s := S8x64) ![0, 0] S1x64.size inb_S8x64_S1x64_0_0)) (View.ld x5 (Rect.unit (s := S8x64x32) ![0, 0, 0] S1x64x32.size inb_S8x64x32_S1x64x32_0_0_0)),
        headOf (truncf .bf16 (extractStridedSlice S2000x32 ![0, 32] (k1_pay2 x0 x1 x2) slices_S2000x256_o0_32_S2000x32 : FVec Ideal S2000x32 .f32) bitsLt_bf16_f32) (View.ld x3 (Rect.unit (s := S8x32x64) ![1, 0, 0] S1x32x64.size inb_S8x32x64_S1x32x64_1_0_0)) (View.ld x4 (Rect.unit (s := S8x64) ![1, 0] S1x64.size inb_S8x64_S1x64_1_0)) (View.ld x5 (Rect.unit (s := S8x64x32) ![1, 0, 0] S1x64x32.size inb_S8x64x32_S1x64x32_1_0_0)),
        headOf (truncf .bf16 (extractStridedSlice S2000x32 ![0, 64] (k1_pay2 x0 x1 x2) slices_S2000x256_o0_64_S2000x32 : FVec Ideal S2000x32 .f32) bitsLt_bf16_f32) (View.ld x3 (Rect.unit (s := S8x32x64) ![2, 0, 0] S1x32x64.size inb_S8x32x64_S1x32x64_2_0_0)) (View.ld x4 (Rect.unit (s := S8x64) ![2, 0] S1x64.size inb_S8x64_S1x64_2_0)) (View.ld x5 (Rect.unit (s := S8x64x32) ![2, 0, 0] S1x64x32.size inb_S8x64x32_S1x64x32_2_0_0)),
        headOf (truncf .bf16 (extractStridedSlice S2000x32 ![0, 96] (k1_pay2 x0 x1 x2) slices_S2000x256_o0_96_S2000x32 : FVec Ideal S2000x32 .f32) bitsLt_bf16_f32) (View.ld x3 (Rect.unit (s := S8x32x64) ![3, 0, 0] S1x32x64.size inb_S8x32x64_S1x32x64_3_0_0)) (View.ld x4 (Rect.unit (s := S8x64) ![3, 0] S1x64.size inb_S8x64_S1x64_3_0)) (View.ld x5 (Rect.unit (s := S8x64x32) ![3, 0, 0] S1x64x32.size inb_S8x64x32_S1x64x32_3_0_0)),
        headOf (truncf .bf16 (extractStridedSlice S2000x32 ![0, 128] (k1_pay2 x0 x1 x2) slices_S2000x256_o0_128_S2000x32 : FVec Ideal S2000x32 .f32) bitsLt_bf16_f32) (View.ld x3 (Rect.unit (s := S8x32x64) ![4, 0, 0] S1x32x64.size inb_S8x32x64_S1x32x64_4_0_0)) (View.ld x4 (Rect.unit (s := S8x64) ![4, 0] S1x64.size inb_S8x64_S1x64_4_0)) (View.ld x5 (Rect.unit (s := S8x64x32) ![4, 0, 0] S1x64x32.size inb_S8x64x32_S1x64x32_4_0_0)),
        headOf (truncf .bf16 (extractStridedSlice S2000x32 ![0, 160] (k1_pay2 x0 x1 x2) slices_S2000x256_o0_160_S2000x32 : FVec Ideal S2000x32 .f32) bitsLt_bf16_f32) (View.ld x3 (Rect.unit (s := S8x32x64) ![5, 0, 0] S1x32x64.size inb_S8x32x64_S1x32x64_5_0_0)) (View.ld x4 (Rect.unit (s := S8x64) ![5, 0] S1x64.size inb_S8x64_S1x64_5_0)) (View.ld x5 (Rect.unit (s := S8x64x32) ![5, 0, 0] S1x64x32.size inb_S8x64x32_S1x64x32_5_0_0)),
        headOf (truncf .bf16 (extractStridedSlice S2000x32 ![0, 192] (k1_pay2 x0 x1 x2) slices_S2000x256_o0_192_S2000x32 : FVec Ideal S2000x32 .f32) bitsLt_bf16_f32) (View.ld x3 (Rect.unit (s := S8x32x64) ![6, 0, 0] S1x32x64.size inb_S8x32x64_S1x32x64_6_0_0)) (View.ld x4 (Rect.unit (s := S8x64) ![6, 0] S1x64.size inb_S8x64_S1x64_6_0)) (View.ld x5 (Rect.unit (s := S8x64x32) ![6, 0, 0] S1x64x32.size inb_S8x64x32_S1x64x32_6_0_0)),
        headOf (truncf .bf16 (extractStridedSlice S2000x32 ![0, 224] (k1_pay2 x0 x1 x2) slices_S2000x256_o0_224_S2000x32 : FVec Ideal S2000x32 .f32) bitsLt_bf16_f32) (View.ld x3 (Rect.unit (s := S8x32x64) ![7, 0, 0] S1x32x64.size inb_S8x32x64_S1x32x64_7_0_0)) (View.ld x4 (Rect.unit (s := S8x64) ![7, 0] S1x64.size inb_S8x64_S1x64_7_0)) (View.ld x5 (Rect.unit (s := S8x64x32) ![7, 0, 0] S1x64x32.size inb_S8x64x32_S1x64x32_7_0_0))] h) (ix2 r c)
      = ∑ g : Fin 64, Spec.softmax (fun g' : Fin 64 => (∑ d : Fin 32, Spec.proj X Wx bx n (Spec.lane h d) * WsT h d g') + bs h g') g
          * OS h g c := by
  match h with
  | ⟨0, _⟩ =>
    exact head_spec x0 x1 x2 x3 x4 x5 X Wx bx WsT bs OS n r h0 h1 h2 h3 h4 h5 0 _ _ _ _ (⟨0, by decide⟩ : Fin 8) rfl
      (fun d g => ld3_at x3 0 (by decide) _ d g) (fun g => ld2_at x4 0 (by decide) _ g) (fun g c => ld3_at x5 0 (by decide) _ g c) c
  | ⟨1, _⟩ =>
    exact head_spec x0 x1 x2 x3 x4 x5 X Wx bx WsT bs OS n r h0 h1 h2 h3 h4 h5 32 _ _ _ _ (⟨1, by decide⟩ : Fin 8) rfl
      (fun d g => ld3_at x3 1 (by decide) _ d g) (fun g => ld2_at x4 1 (by decide) _ g) (fun g c => ld3_at x5 1 (by decide) _ g c) c
  | ⟨2, _⟩ =>
    exact head_spec x0 x1 x2 x3 x4 x5 X Wx bx WsT bs OS n r h0 h1 h2 h3 h4 h5 64 _ _ _ _ (⟨2, by decide⟩ : Fin 8) rfl
      (fun d g => ld3_at x3 2 (by decide) _ d g) (fun g => ld2_at x4 2 (by decide) _ g) (fun g c => ld3_at x5 2 (by decide) _ g c) c
  | ⟨3, _⟩ =>
    exact head_spec x0 x1 x2 x3 x4 x5 X Wx bx WsT bs OS n r h0 h1 h2 h3 h4 h5 96 _ _ _ _ (⟨3, by decide⟩ : Fin 8) rfl
      (fun d g => ld3_at x3 3 (by decide) _ d g) (fun g => ld2_at x4 3 (by decide) _ g) (fun g c => ld3_at x5 3 (by decide) _ g c) c
  | ⟨4, _⟩ =>
    exact head_spec x0 x1 x2 x3 x4 x5 X Wx bx WsT bs OS n r h0 h1 h2 h3 h4 h5 128 _ _ _ _ (⟨4, by decide⟩ : Fin 8) rfl
      (fun d g => ld3_at x3 4 (by decide) _ d g) (fun g => ld2_at x4 4 (by decide) _ g) (fun g c => ld3_at x5 4 (by decide) _ g c) c
  | ⟨5, _⟩ =>
    exact head_spec x0 x1 x2 x3 x4 x5 X Wx bx WsT bs OS n r h0 h1 h2 h3 h4 h5 160 _ _ _ _ (⟨5, by decide⟩ : Fin 8) rfl
      (fun d g => ld3_at x3 5 (by decide) _ d g) (fun g => ld2_at x4 5 (by decide) _ g) (fun g c => ld3_at x5 5 (by decide) _ g c) c
  | ⟨6, _⟩ =>
    exact head_spec x0 x1 x2 x3 x4 x5 X Wx bx WsT bs OS n r h0 h1 h2 h3 h4 h5 192 _ _ _ _ (⟨6, by decide⟩ : Fin 8) rfl
      (fun d g => ld3_at x3 6 (by decide) _ d g) (fun g => ld2_at x4 6 (by decide) _ g) (fun g c => ld3_at x5 6 (by decide) _ g c) c
  | ⟨7, _⟩ =>
    exact head_spec x0 x1 x2 x3 x4 x5 X Wx bx WsT bs OS n r h0 h1 h2 h3 h4 h5 224 _ _ _ _ (⟨7, by decide⟩ : Fin 8) rfl
      (fun d g => ld3_at x3 7 (by decide) _ d g) (fun g => ld2_at x4 7 (by decide) _ g) (fun g c => ld3_at x5 7 (by decide) _ g c) c

include h0 h1 h2 h3 h4 h5 h6 h7 in
/-- The tile at (r, j) is the specification's output projection at (n, j). -/
theorem tile_spec (j : Fin 256) :
    tileOf x0 x1 x2 x3 x4 x5 x6 x7 (ix2 r j)
      = Spec.outOf Wout bout (fun h n g => (∑ d : Fin 32, Spec.proj X Wx bx n (Spec.lane h d) * WsT h d g) + bs h g) OS n j := by
  unfold tileOf
  rw [head0_eq, head1_eq, head2_eq, head3_eq, head4_eq, head5_eq, head6_eq, last_eq, finalOf_at]
  unfold Spec.outOf Spec.oxOf Spec.w
  refine congrArg₂ (· + ·) (Finset.sum_congr rfl fun k _ => congrArg₂ (· * ·) ?_ (h6 k j)) (h7 j)
  exact heads_spec x0 x1 x2 x3 x4 x5 X Wx bx WsT bs OS n r h0 h1 h2 h3 h4 h5 _ _

end Tile

/-! ## What the kernel's run leaves in its output block -/

theorem zeros1 : (![0] : Fin 1 → Nat) = fun _ => 0 := funext fun a => by fin_cases a; rfl
theorem zeros2 : (![0, 0] : Fin 2 → Nat) = fun _ => 0 := funext fun a => by fin_cases a <;> rfl

/-- The run's one store covers the output block, and its payload is the tile's term over the loaded blocks. -/
theorem run_eq_tile (c : Dev nD) (i : grid1.Coords) (arg1 : Memref sig .tc .vmem S2000x256 .f32) (harg1 : arg1.IsWhole) (arg2 : Memref sig .tc .vmem S256x256 .bf16) (harg2 : arg2.IsWhole) (arg3 : Memref sig .tc .vmem S256 .f32) (harg3 : arg3.IsWhole) (arg4 : Memref sig .tc .vmem S8x32x64 .bf16) (harg4 : arg4.IsWhole) (arg5 : Memref sig .tc .vmem S8x64 .f32) (harg5 : arg5.IsWhole) (arg6 : Memref sig .tc .vmem S8x64x32 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S2000x256 .f32) (harg9 : arg9.IsWhole)
    (x0 : Vec Ideal S2000x256 .f32) (x1 : Vec Ideal S256x256 .bf16) (x2 : Vec Ideal S256 .f32)
    (x3 : Vec Ideal S8x32x64 .bf16) (x4 : Vec Ideal S8x64 .f32) (x5 : Vec Ideal S8x64x32 .f32) (x6 : Vec Ideal S256x256 .bf16)
    (x7 : Vec Ideal S256 .f32) (r : Fin 2000) (j : Fin 256) :
    (VO1_8.read (Elt Ideal) (VO1_8.writes (Elt Ideal) VO1_8.junk (kernelRun1 (F := Ideal) c i arg1 harg1 arg2 harg2 arg3 harg3 arg4 harg4 arg5 harg5 arg6 harg6 arg7 harg7 arg8 harg8 arg9 harg9 x0 x1 x2 x3 x4 x5 x6 x7).1) : S2000x256.Idx → EReal) (ix2 r j)
      = tileOf x0 x1 x2 x3 x4 x5 x6 x7 (ix2 r j) := by
  rw [View.read_writes_eq_canon _ _ _ (cover1_8 c i arg1 harg1 arg2 harg2 arg3 harg3 arg4 harg4 arg5 harg5 arg6 harg6 arg7 harg7 arg8 harg8 arg9 harg9 x0 x1 x2 x3 x4 x5 x6 x7)]
  unfold kernelRun1
  dsimp only
  sl_unfold_words
  rw [View.canon_unit_zero zeros2]
  simp only [View.readAt_eq_ld, harg1.read_unread, harg2.read_unread, harg3.read_unread, harg4.read_unread, harg5.read_unread,
    harg6.read_unread, harg7.read_unread, harg8.read_unread, View.ld_unit_zero (S := S2000x256) zeros2,
    View.ld_unit_zero (S := S256x256) zeros2, View.ld_unit_zero (S := S256) zeros1]
  rfl

end Cert.KernelIdeal.Hand

end
-- ==== Proof.KIValue1.lean ====
/-
  What the un-pooling region leaves in its result array: the output projection of the un-pooled rows, index by index.
-/
import proofs.«133947_j41910290874676_1_alg».proof.Proof.KIArgs
import proofs.«133947_j41910290874676_1_alg».proof.Proof.KIValue1C
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

section Region1Value
variable (V : (c : Dev nD) → (b : Ref sig .tc) → Buf (Elt Ideal) ((c : Thread nD τ).loc b)) (c : Dev nD)

/-- What the result array ends holding: the specification's output projection, index by index. -/
def G1 : S200000x256.Idx → EReal := fun i => Spec.outOf (aWout V c) (about V c) (alg V c) (aOS V c) (i 0) (i 1)

/-- The windows' block indices at point `t`: the row windows (the rows read and the rows written) are at block t,
    every parameter window stays at block zero. Decided over the hundred points. -/
theorem idx_facts1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 3) = 0
    ∧ win1_3.index t (1 : Fin 3) = 0
    ∧ win1_3.index t (2 : Fin 3) = 0
    ∧ win1_4.index t (0 : Fin 2) = 0
    ∧ win1_4.index t (1 : Fin 2) = 0
    ∧ win1_5.index t (0 : Fin 3) = 0
    ∧ win1_5.index t (1 : Fin 3) = 0
    ∧ win1_5.index t (2 : Fin 3) = 0
    ∧ win1_6.index t (0 : Fin 2) = 0
    ∧ win1_6.index t (1 : Fin 2) = 0
    ∧ win1_7.index t (0 : Fin 1) = 0
    ∧ win1_8.index t (0 : Fin 2) = t.val
    ∧ win1_8.index t (1 : Fin 2) = 0 :=
  (by decide +kernel : ∀ t : Fin grid1.N, _)

/-- What point `t` writes back is block `t` of `G1`: rows 2000t … 2000t+1999. -/
theorem flushed8_eq (t : Fin cfg1.N) :
    (dat1 V c).flushed 8 t = ((cfg1.win 8).blk t).view.read (Elt Ideal) (G1 V c) := by
  show (cfg1.win 8).cut (grid1.coords t) ((dat1 V c).after 8 t) = _
  rw [after1_8]
  obtain ⟨e00, e01, e10, e11, e20, e30, e31, e32, e40, e41, e50, e51, e52, e60, e61, e70, e80, e81⟩ := idx_facts1 t
  funext y
  obtain ⟨r, j, rfl⟩ : ∃ (r : Fin 2000) (j : Fin 256), y = ix2 r j := ⟨y 0, y 1, eq_ix2 y⟩
  have ht : t.val < 100 := Nat.lt_of_lt_of_eq t.isLt (N_1 : cfg1.N = 100)
  have hn : 2000 * t.val + r.val < 200000 := by have := r.isLt; omega
  show out1_8 V c t (ix2 r j) = G1 V c (((cfg1.win 8).blk t).view.emb (ix2 r j))
  unfold out1_8
  refine (run_eq_tile c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
    (iblk1 V c 0 t) (iblk1 V c 1 t) (iblk1 V c 2 t) (iblk1 V c 3 t) (iblk1 V c 4 t) (iblk1 V c 5 t) (iblk1 V c 6 t) (iblk1 V c 7 t) r j).trans ?_
  refine (tile_spec (iblk1 V c 0 t) (iblk1 V c 1 t) (iblk1 V c 2 t) (iblk1 V c 3 t) (iblk1 V c 4 t) (iblk1 V c 5 t) (iblk1 V c 6 t) (iblk1 V c 7 t)
    (aX V c) (aWx V c) (abx V c) (aWsT V c) (abs' V c) (aOS V c) (aWout V c) (about V c) ⟨2000 * t.val + r.val, hn⟩ r
    ?_ ?_ ?_ ?_ ?_ ?_ ?_ ?_ j).trans ?_
  · intro i
    show (V c main_arg0 : S200000x256.Idx → EReal) (((cfg1.win 0).blk t).view.emb (ix2 r i))
      = (V c main_arg0 : S200000x256.Idx → EReal) (ix2 ⟨2000 * t.val + r.val, hn⟩ i)
    refine congrArg (V c main_arg0 : S200000x256.Idx → EReal) (funext fun a => Fin.ext ?_)
    match a with
    | ⟨0, _⟩ => show win1_0.index t (0 : Fin 2) * 2000 + 1 * r.val = 2000 * t.val + r.val; omega
    | ⟨1, _⟩ => show win1_0.index t (1 : Fin 2) * 256 + 1 * i.val = i.val; omega
  · intro i l
    show (V c main_v15 : S256x256.Idx → EReal) (((cfg1.win 1).blk t).view.emb (ix2 i l)) = (V c main_v15 : S256x256.Idx → EReal) (ix2 i l)
    refine congrArg (V c main_v15 : S256x256.Idx → EReal) (funext fun a => Fin.ext ?_)
    match a with
    | ⟨0, _⟩ => show win1_1.index t (0 : Fin 2) * 256 + 1 * i.val = i.val; omega
    | ⟨1, _⟩ => show win1_1.index t (1 : Fin 2) * 256 + 1 * l.val = l.val; omega
  · intro l
    show (V c main_arg2 : S256.Idx → EReal) (((cfg1.win 2).blk t).view.emb (ix1 l)) = (V c main_arg2 : S256.Idx → EReal) (ix1 l)
    refine congrArg (V c main_arg2 : S256.Idx → EReal) (funext fun a => Fin.ext ?_)
    match a with
    | ⟨0, _⟩ => show win1_2.index t (0 : Fin 1) * 256 + 1 * l.val = l.val; omega
  · intro h d g
    show (V c main_v13 : S8x32x64.Idx → EReal) (((cfg1.win 3).blk t).view.emb (ix3 h d g)) = (V c main_v13 : S8x32x64.Idx → EReal) (ix3 h d g)
    refine congrArg (V c main_v13 : S8x32x64.Idx → EReal) (funext fun a => Fin.ext ?_)
    match a with
    | ⟨0, _⟩ => show win1_3.index t (0 : Fin 3) * 8 + 1 * h.val = h.val; omega
    | ⟨1, _⟩ => show win1_3.index t (1 : Fin 3) * 32 + 1 * d.val = d.val; omega
    | ⟨2, _⟩ => show win1_3.index t (2 : Fin 3) * 64 + 1 * g.val = g.val; omega
  · intro h g
    show (V c main_v11 : S8x64.Idx → EReal) (((cfg1.win 4).blk t).view.emb (ix2 h g)) = (V c main_v11 : S8x64.Idx → EReal) (ix2 h g)
    refine congrArg (V c main_v11 : S8x64.Idx → EReal) (funext fun a => Fin.ext ?_)
    match a with
    | ⟨0, _⟩ => show win1_4.index t (0 : Fin 2) * 8 + 1 * h.val = h.val; omega
    | ⟨1, _⟩ => show win1_4.index t (1 : Fin 2) * 64 + 1 * g.val = g.val; omega
  · intro h g d
    show (V c main_v26 : S8x64x32.Idx → EReal) (((cfg1.win 5).blk t).view.emb (ix3 h g d)) = (V c main_v26 : S8x64x32.Idx → EReal) (ix3 h g d)
    refine congrArg (V c main_v26 : S8x64x32.Idx → EReal) (funext fun a => Fin.ext ?_)
    match a with
    | ⟨0, _⟩ => show win1_5.index t (0 : Fin 3) * 8 + 1 * h.val = h.val; omega
    | ⟨1, _⟩ => show win1_5.index t (1 : Fin 3) * 64 + 1 * g.val = g.val; omega
    | ⟨2, _⟩ => show win1_5.index t (2 : Fin 3) * 32 + 1 * d.val = d.val; omega
  · intro k j'
    show (V c main_v19 : S256x256.Idx → EReal) (((cfg1.win 6).blk t).view.emb (ix2 k j')) = (V c main_v19 : S256x256.Idx → EReal) (ix2 k j')
    refine congrArg (V c main_v19 : S256x256.Idx → EReal) (funext fun a => Fin.ext ?_)
    match a with
    | ⟨0, _⟩ => show win1_6.index t (0 : Fin 2) * 256 + 1 * k.val = k.val; omega
    | ⟨1, _⟩ => show win1_6.index t (1 : Fin 2) * 256 + 1 * j'.val = j'.val; omega
  · intro j'
    show (V c main_arg11 : S256.Idx → EReal) (((cfg1.win 7).blk t).view.emb (ix1 j')) = (V c main_arg11 : S256.Idx → EReal) (ix1 j')
    refine congrArg (V c main_arg11 : S256.Idx → EReal) (funext fun a => Fin.ext ?_)
    match a with
    | ⟨0, _⟩ => show win1_7.index t (0 : Fin 1) * 256 + 1 * j'.val = j'.val; omega
  · show Spec.outOf (aWout V c) (about V c) (alg V c) (aOS V c) _ _ = Spec.outOf (aWout V c) (about V c) (alg V c) (aOS V c) _ _
    refine congrArg₂ (Spec.outOf (aWout V c) (about V c) (alg V c) (aOS V c)) (Fin.ext ?_) (Fin.ext ?_)
    · show 2000 * t.val + r.val = win1_8.index t (0 : Fin 2) * 2000 + 1 * r.val; omega
    · show j.val = win1_8.index t (1 : Fin 2) * 256 + 1 * j.val; omega

/-- An index of the result array is in point `t`'s block iff each coordinate is in the block's range on its axis. -/
theorem mem_blk8 (t : Fin cfg1.N) (i : S200000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v27).slice (win1_8.rect t)).set ↔ _
  rw [View.set_slice_whole, Rect.mem_set_unit]
  exact Iff.rfl

/-- The hundred blocks of 2000 rows cover the result array: row n is in block n / 2000. -/
theorem cover8 (i : S200000x256.Idx) :
    ∃ t : Fin cfg1.N, (cfg1.win 8).flush t = true ∧ i ∈ ((cfg1.win 8).blk t).view.set := by
  have hi0 : (i 0).val < 200000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega : (i 0).val / 2000 < 100) (N_1 : cfg1.N = 100).symm⟩, rfl⟩
  obtain ⟨e00, e01, e10, e11, e20, e30, e31, e32, e40, e41, e50, e51, e52, e60, e61, e70, e80, e81⟩ := idx_facts1 t
  refine ⟨t, flush1_8 t, ?_⟩
  rw [mem_blk8]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 256 ≤ (i 1).val ∧ (i 1).val < win1_8.index t (1 : Fin 2) * 256 + 256
    omega

/-- So after the hundred points the result array is `G1`. -/
theorem final8 : ((dat1 V c).arrAt 8 cfg1.N : S200000x256.Idx → EReal) = G1 V c :=
  (dat1 V c).arrAt_eq_of_cover 8 (G1 V c) (fun t _ => flushed8_eq V c t) cover8

end Region1Value

/-- At any entry contents `V`, after the un-pooling region's hundred points its result array holds, at (n, j),
    `Spec.outOf` of the arrays it read, the slice result being the pooling region's array as found. -/
theorem region1_value (V : (c : Dev nD) → (b : Ref sig .tc) → Buf (Elt Ideal) ((c : Thread nD τ).loc b)) (c : Dev nD)
    (n : Fin 200000) (j : Fin 256) :
    ((dat1 V c).arrAt 8 cfg1.N : S200000x256.Idx → EReal) (ix2 n j)
      = Spec.outOf (aWout V c) (about V c) (alg V c) (aOS V c) n j := by
  rw [final8]
  rfl

end Cert.KernelIdeal.Hand

end
-- ==== Proof.KIHost.lean ====
/-
  The arrays the two regions read, traced back to the thirteen arguments. The host stretches before the pooling region
  transpose the weight matrices (the conversions to bf16 are the identity on the extended reals), clip the temperature,
  take its reciprocal, and scale the slice weights and biases by it per head; the un-pooling region is entered from the
  same buffers with the pooling region's result array written.
-/
import proofs.«133947_j41910290874676_1_alg».proof.Proof.KIArgs
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

section
variable (m : (ℓ : Loc nD τ sig) → Buf (Elt Ideal) ℓ) (c : Dev nD)

/-- The thirteen arguments as functions of coordinates. -/
def mX (n : Fin 200000) (i : Fin 256) : EReal := (m ((c : Thread nD τ).loc main_arg0) : S200000x256.Idx → EReal) (ix2 n i)
def mWx (k i : Fin 256) : EReal := (m ((c : Thread nD τ).loc main_arg1) : S256x256.Idx → EReal) (ix2 k i)
def mbx (k : Fin 256) : EReal := (m ((c : Thread nD τ).loc main_arg2) : S256.Idx → EReal) (ix1 k)
def mWfx (k i : Fin 256) : EReal := (m ((c : Thread nD τ).loc main_arg3) : S256x256.Idx → EReal) (ix2 k i)
def mbfx (k : Fin 256) : EReal := (m ((c : Thread nD τ).loc main_arg4) : S256.Idx → EReal) (ix1 k)
def mWs (g : Fin 64) (d : Fin 32) : EReal := (m ((c : Thread nD τ).loc main_arg5) : S64x32.Idx → EReal) (ix2 g d)
def mbs (g : Fin 64) : EReal := (m ((c : Thread nD τ).loc main_arg6) : S64.Idx → EReal) (ix1 g)
def mWq (e d : Fin 32) : EReal := (m ((c : Thread nD τ).loc main_arg7) : S32x32.Idx → EReal) (ix2 e d)
def mWk (e d : Fin 32) : EReal := (m ((c : Thread nD τ).loc main_arg8) : S32x32.Idx → EReal) (ix2 e d)
def mWv (e d : Fin 32) : EReal := (m ((c : Thread nD τ).loc main_arg9) : S32x32.Idx → EReal) (ix2 e d)
def mWout (j k : Fin 256) : EReal := (m ((c : Thread nD τ).loc main_arg10) : S256x256.Idx → EReal) (ix2 j k)
def mbout (j : Fin 256) : EReal := (m ((c : Thread nD τ).loc main_arg11) : S256.Idx → EReal) (ix1 j)
def mtmp (h : Fin 8) : EReal := (m ((c : Thread nD τ).loc main_arg12) : S8x1x1.Idx → EReal) (ix3 h (0 : Fin 1) (0 : Fin 1))

/-! ## The buffers when the pooling region is entered

An argument no host operation writes holds what it held at launch; a transposed weight matrix is the conversion (the
identity on the extended reals) of the transpose of its argument. -/

theorem V3_arg0 : V3 m c (Proc.devRef .tc main_arg0) = m ((c : Thread nD τ).loc main_arg0) :=
  (V3_of m c main_arg0 (by decide)).trans <| (V2_of m c main_arg0 (by decide)).trans <| (V1_of m c main_arg0 (by decide)).trans rfl
theorem V3_arg2 : V3 m c (Proc.devRef .tc main_arg2) = m ((c : Thread nD τ).loc main_arg2) :=
  (V3_of m c main_arg2 (by decide)).trans <| (V2_of m c main_arg2 (by decide)).trans <| (V1_of m c main_arg2 (by decide)).trans rfl
theorem V3_arg4 : V3 m c (Proc.devRef .tc main_arg4) = m ((c : Thread nD τ).loc main_arg4) :=
  (V3_of m c main_arg4 (by decide)).trans <| (V2_of m c main_arg4 (by decide)).trans <| (V1_of m c main_arg4 (by decide)).trans rfl
theorem V3_arg11 : V3 m c (Proc.devRef .tc main_arg11) = m ((c : Thread nD τ).loc main_arg11) :=
  (V3_of m c main_arg11 (by decide)).trans <| (V2_of m c main_arg11 (by decide)).trans <| (V1_of m c main_arg11 (by decide)).trans rfl
theorem V2_arg1 : V2 m c (Proc.devRef .tc main_arg1) = m ((c : Thread nD τ).loc main_arg1) :=
  (V2_of m c main_arg1 (by decide)).trans <| (V1_of m c main_arg1 (by decide)).trans rfl
theorem V2_arg3 : V2 m c (Proc.devRef .tc main_arg3) = m ((c : Thread nD τ).loc main_arg3) :=
  (V2_of m c main_arg3 (by decide)).trans <| (V1_of m c main_arg3 (by decide)).trans rfl
theorem V2_arg5 : V2 m c (Proc.devRef .tc main_arg5) = m ((c : Thread nD τ).loc main_arg5) :=
  (V2_of m c main_arg5 (by decide)).trans <| (V1_of m c main_arg5 (by decide)).trans rfl
theorem V2_arg6 : V2 m c (Proc.devRef .tc main_arg6) = m ((c : Thread nD τ).loc main_arg6) :=
  (V2_of m c main_arg6 (by decide)).trans <| (V1_of m c main_arg6 (by decide)).trans rfl
theorem V2_arg7 : V2 m c (Proc.devRef .tc main_arg7) = m ((c : Thread nD τ).loc main_arg7) :=
  (V2_of m c main_arg7 (by decide)).trans <| (V1_of m c main_arg7 (by decide)).trans rfl
theorem V2_arg8 : V2 m c (Proc.devRef .tc main_arg8) = m ((c : Thread nD τ).loc main_arg8) :=
  (V2_of m c main_arg8 (by decide)).trans <| (V1_of m c main_arg8 (by decide)).trans rfl
theorem V2_arg9 : V2 m c (Proc.devRef .tc main_arg9) = m ((c : Thread nD τ).loc main_arg9) :=
  (V2_of m c main_arg9 (by decide)).trans <| (V1_of m c main_arg9 (by decide)).trans rfl
theorem V2_arg10 : V2 m c (Proc.devRef .tc main_arg10) = m ((c : Thread nD τ).loc main_arg10) :=
  (V2_of m c main_arg10 (by decide)).trans <| (V1_of m c main_arg10 (by decide)).trans rfl

theorem V3_v15 : @Eq (S256x256.Idx → EReal) (V3 m c (Proc.devRef .tc main_v15))
    (truncf (F := Ideal) .bf16 (transpose S256x256 [1, 0] (V2 m c (Proc.devRef .tc main_arg1) : S256x256.Idx → EReal) transposes_S256x256_S256x256_1_0) bitsLt_bf16_f32) := rfl
theorem V3_v17 : @Eq (S256x256.Idx → EReal) (V3 m c (Proc.devRef .tc main_v17))
    (truncf (F := Ideal) .bf16 (transpose S256x256 [1, 0] (V2 m c (Proc.devRef .tc main_arg3) : S256x256.Idx → EReal) transposes_S256x256_S256x256_1_0) bitsLt_bf16_f32) := rfl
theorem V3_v19 : @Eq (S256x256.Idx → EReal) (V3 m c (Proc.devRef .tc main_v19))
    (truncf (F := Ideal) .bf16 (transpose S256x256 [1, 0] (V2 m c (Proc.devRef .tc main_arg10) : S256x256.Idx → EReal) transposes_S256x256_S256x256_1_0) bitsLt_bf16_f32) := rfl
theorem V3_v21 : @Eq (S32x32.Idx → EReal) (V3 m c (Proc.devRef .tc main_v21))
    (truncf (F := Ideal) .bf16 (transpose S32x32 [1, 0] (V2 m c (Proc.devRef .tc main_arg7) : S32x32.Idx → EReal) transposes_S32x32_S32x32_1_0) bitsLt_bf16_f32) := rfl
theorem V3_v23 : @Eq (S32x32.Idx → EReal) (V3 m c (Proc.devRef .tc main_v23))
    (truncf (F := Ideal) .bf16 (transpose S32x32 [1, 0] (V2 m c (Proc.devRef .tc main_arg8) : S32x32.Idx → EReal) transposes_S32x32_S32x32_1_0) bitsLt_bf16_f32) := rfl
theorem V3_v25 : @Eq (S32x32.Idx → EReal) (V3 m c (Proc.devRef .tc main_v25))
    (truncf (F := Ideal) .bf16 (transpose S32x32 [1, 0] (V2 m c (Proc.devRef .tc main_arg9) : S32x32.Idx → EReal) transposes_S32x32_S32x32_1_0) bitsLt_bf16_f32) := rfl

/-- A converted transpose of a square matrix, read at (i, k), is the matrix at (k, i). -/
theorem truncf_transpose_apply {n : Nat} (x : (⟨2, ![n, n]⟩ : Shape).Idx → EReal)
    (ht : (⟨2, ![n, n]⟩ : Shape).Transposes [1, 0] ⟨2, ![n, n]⟩) (hb : FTy.bits .bf16 < FTy.bits .f32) (k i : Fin n) :
    truncf (F := Ideal) (φ := .f32) .bf16 (transpose (⟨2, ![n, n]⟩ : Shape) [1, 0] x ht) hb (ix2 i k) = x (ix2 k i) := by
  rw [truncf_apply, transpose_apply _ _ _ (ix2 i k) (ix2 k i) (fun b => match b with | ⟨0, _⟩ => rfl | ⟨1, _⟩ => rfl)]

/-! ## When the pooling region is entered -/
theorem aX_V3 : aX (V3r m) c = mX m c := by
  funext n i; exact congrFun (V3_arg0 m c) (ix2 n i)
theorem aWx_V3 : aWx (V3r m) c = mWx m c := by
  funext k i
  show (V3 m c (Proc.devRef .tc main_v15) : S256x256.Idx → EReal) (ix2 i k) = _
  rw [V3_v15, truncf_transpose_apply, V2_arg1]; rfl
theorem abx_V3 : abx (V3r m) c = mbx m c := by
  funext k; exact congrFun (V3_arg2 m c) (ix1 k)
theorem aWfx_V3 : aWfx (V3r m) c = mWfx m c := by
  funext k i
  show (V3 m c (Proc.devRef .tc main_v17) : S256x256.Idx → EReal) (ix2 i k) = _
  rw [V3_v17, truncf_transpose_apply, V2_arg3]; rfl
theorem abfx_V3 : abfx (V3r m) c = mbfx m c := by
  funext k; exact congrFun (V3_arg4 m c) (ix1 k)
theorem aWq_V3 : aWq (V3r m) c = mWq m c := by
  funext e d
  show (V3 m c (Proc.devRef .tc main_v21) : S32x32.Idx → EReal) (ix2 d e) = _
  rw [V3_v21, truncf_transpose_apply, V2_arg7]; rfl
theorem aWk_V3 : aWk (V3r m) c = mWk m c := by
  funext e d
  show (V3 m c (Proc.devRef .tc main_v23) : S32x32.Idx → EReal) (ix2 d e) = _
  rw [V3_v23, truncf_transpose_apply, V2_arg8]; rfl
theorem aWv_V3 : aWv (V3r m) c = mWv m c := by
  funext e d
  show (V3 m c (Proc.devRef .tc main_v25) : S32x32.Idx → EReal) (ix2 d e) = _
  rw [V3_v25, truncf_transpose_apply, V2_arg9]; rfl

/-! ## The clipped temperature, its reciprocal, and the scaled slice weights and biases -/

/-- The clipped temperature as the second host stretch leaves it: min(5, max(0.1f, temperature)), the literals broadcast. -/
theorem V2_v0 : @Eq (S8x1x1.Idx → EReal) (V2 m c (Proc.devRef .tc main_v0))
    (minimumf (F := Ideal) (φ := .f32)
      (broadcastInDim S8x1x1 ![] bcast_S_S8x1x1 (constant (F := Ideal) S_ .f32 0x40A00000#32))
      (maximumf (F := Ideal) (φ := .f32)
        (broadcastInDim S8x1x1 ![] bcast_S_S8x1x1 (constant (F := Ideal) S_ .f32 0x3DCCCCCD#32))
        (m ((c : Thread nD τ).loc main_arg12) : S8x1x1.Idx → EReal))) := rfl

/-- At head h it is the specification's clipped temperature. -/
theorem V2_v0_apply (h : Fin 8) :
    (V2 m c (Proc.devRef .tc main_v0) : S8x1x1.Idx → EReal) (ix3 h (0 : Fin 1) (0 : Fin 1)) = Spec.T (mtmp m c) h := by
  rw [V2_v0]; rfl

/-- The per-head scaled, transposed slice weights as the third host stretch leaves them. -/
theorem V3_v13 : @Eq (S8x32x64.Idx → EReal) (V3 m c (Proc.devRef .tc main_v13))
    (truncf (F := Ideal) .bf16
      (transpose S8x32x64 [0, 2, 1]
        (mulf (F := Ideal) (φ := .f32)
          (broadcastInDim S8x64x32 ![0, 1, 2] bcast_S8x1x1_S8x64x32_0_1_2
            (Host.divf (F := Ideal) (φ := .f32)
              (broadcastInDim S8x1x1 ![] bcast_S_S8x1x1 (constant (F := Ideal) S_ .f32 0x3F800000#32))
              (V2 m c (Proc.devRef .tc main_v0) : S8x1x1.Idx → EReal)))
          (broadcastInDim S8x64x32 ![0, 1, 2] bcast_S1x64x32_S8x64x32_0_1_2
            (broadcastInDim S1x64x32 ![1, 2] bcast_S64x32_S1x64x32_1_2
              (V2 m c (Proc.devRef .tc main_arg5) : S64x32.Idx → EReal))))
        transposes_S8x64x32_S8x32x64_0_2_1) bitsLt_bf16_f32) := rfl

/-- The per-head scaled slice biases as the third host stretch leaves them. -/
theorem V3_v11 : @Eq (S8x64.Idx → EReal) (V3 m c (Proc.devRef .tc main_v11))
    (mulf (F := Ideal) (φ := .f32)
      (broadcastInDim S8x64 ![0, 1] bcast_S8x1_S8x64_0_1
        (shapeCast S8x1
          (Host.divf (F := Ideal) (φ := .f32)
            (broadcastInDim S8x1x1 ![] bcast_S_S8x1x1 (constant (F := Ideal) S_ .f32 0x3F800000#32))
            (V2 m c (Proc.devRef .tc main_v0) : S8x1x1.Idx → EReal))
          shapeCasts_S8x1x1_S8x1))
      (broadcastInDim S8x64 ![0, 1] bcast_S1x64_S8x64_0_1
        (broadcastInDim S1x64 ![1] bcast_S64_S1x64_1 (V2 m c (Proc.devRef .tc main_arg6) : S64.Idx → EReal)))) := rfl

/-- The reciprocal 1 / T_h the host forms, at head h. -/
theorem inv_apply (h : Fin 8) :
    Host.divf (F := Ideal) (φ := .f32)
        (broadcastInDim S8x1x1 ![] bcast_S_S8x1x1 (constant (F := Ideal) S_ .f32 0x3F800000#32))
        (V2 m c (Proc.devRef .tc main_v0) : S8x1x1.Idx → EReal) (ix3 h (0 : Fin 1) (0 : Fin 1))
      = Ideal.div Spec.c1 (Spec.T (mtmp m c) h) := by
  show Ideal.div _ ((V2 m c (Proc.devRef .tc main_v0) : S8x1x1.Idx → EReal) (ix3 h (0 : Fin 1) (0 : Fin 1))) = _
  rw [V2_v0_apply]; rfl

theorem aWsT_V3 (h : Fin 8) (d : Fin 32) (g : Fin 64) :
    aWsT (V3r m) c h d g = Ideal.div Spec.c1 (Spec.T (mtmp m c) h) * mWs m c g d := by
  show (V3 m c (Proc.devRef .tc main_v13) : S8x32x64.Idx → EReal) (ix3 h d g) = _
  rw [V3_v13, truncf_apply,
    transpose_apply _ _ _ (ix3 h d g) (ix3 h g d) (fun b => match b with | ⟨0, _⟩ => rfl | ⟨1, _⟩ => rfl | ⟨2, _⟩ => rfl),
    mulf_apply,
    broadcastInDim_apply _ bcast_S8x1x1_S8x64x32_0_1_2 _ (ix3 h g d) (ix3 h (0 : Fin 1) (0 : Fin 1))
      (fun a => match a with | ⟨0, _⟩ => rfl | ⟨1, _⟩ => rfl | ⟨2, _⟩ => rfl),
    broadcastInDim_apply _ bcast_S1x64x32_S8x64x32_0_1_2 _ (ix3 h g d) (ix3 (0 : Fin 1) g d)
      (fun a => match a with | ⟨0, _⟩ => rfl | ⟨1, _⟩ => rfl | ⟨2, _⟩ => rfl),
    broadcastInDim_apply _ bcast_S64x32_S1x64x32_1_2 _ (ix3 (0 : Fin 1) g d) (ix2 g d)
      (fun a => match a with | ⟨0, _⟩ => rfl | ⟨1, _⟩ => rfl),
    inv_apply, V2_arg5]
  rfl

theorem abs_V3 (h : Fin 8) (g : Fin 64) :
    abs' (V3r m) c h g = Ideal.div Spec.c1 (Spec.T (mtmp m c) h) * mbs m c g := by
  show (V3 m c (Proc.devRef .tc main_v11) : S8x64.Idx → EReal) (ix2 h g) = _
  rw [V3_v11, mulf_apply,
    broadcastInDim_apply _ bcast_S8x1_S8x64_0_1 _ (ix2 h g) (ix2 h (0 : Fin 1))
      (fun a => match a with | ⟨0, _⟩ => rfl | ⟨1, _⟩ => rfl),
    shapeCast_apply _ shapeCasts_S8x1x1_S8x1 (ix2 h (0 : Fin 1)) (ix3 h (0 : Fin 1) (0 : Fin 1))
      (by rw [Shape.rowMajor_val_three, Shape.rowMajor_val_two]; show (h.val * 1 + 0) * 1 + 0 = h.val * 1 + 0; omega),
    broadcastInDim_apply _ bcast_S1x64_S8x64_0_1 _ (ix2 h g) (ix2 (0 : Fin 1) g)
      (fun a => match a with | ⟨0, _⟩ => rfl | ⟨1, _⟩ => rfl),
    broadcastInDim_apply _ bcast_S64_S1x64_1 _ (ix2 (0 : Fin 1) g) (ix1 g)
      (fun a => match a with | ⟨0, _⟩ => rfl),
    inv_apply, V2_arg6]
  rfl

/-- The slice logits the regions form are the kernel-form logits of the specification. -/
theorem alg_V3 : alg (V3r m) c = Spec.lgK (mX m c) (mWx m c) (mbx m c) (mWs m c) (mbs m c) (mtmp m c) := by
  funext h n g
  unfold alg Spec.lgK
  rw [aX_V3, aWx_V3, abx_V3, abs_V3]
  simp only [aWsT_V3]

/-! ## When the un-pooling region is entered

The pooling region leaves its input windows' arrays as it found them and writes only its result array; a buffer that is
no window of it is untouched. -/

theorem W4_arg0 : hW4 m c (Proc.devRef .tc main_arg0) = V3 m c (Proc.devRef .tc main_arg0) :=
  (W4_arr m c 0).trans (((hpdats m 0 c).arrAt_in 0 rfl _).trans (A_eq0 (V3r m) c 0))
theorem W4_v15 : hW4 m c (Proc.devRef .tc main_v15) = V3 m c (Proc.devRef .tc main_v15) :=
  (W4_arr m c 1).trans (((hpdats m 0 c).arrAt_in 1 rfl _).trans (A_eq0 (V3r m) c 1))
theorem W4_arg2 : hW4 m c (Proc.devRef .tc main_arg2) = V3 m c (Proc.devRef .tc main_arg2) :=
  (W4_arr m c 2).trans (((hpdats m 0 c).arrAt_in 2 rfl _).trans (A_eq0 (V3r m) c 2))
theorem W4_v13 : hW4 m c (Proc.devRef .tc main_v13) = V3 m c (Proc.devRef .tc main_v13) :=
  (W4_arr m c 5).trans (((hpdats m 0 c).arrAt_in 5 rfl _).trans (A_eq0 (V3r m) c 5))
theorem W4_v11 : hW4 m c (Proc.devRef .tc main_v11) = V3 m c (Proc.devRef .tc main_v11) :=
  (W4_arr m c 6).trans (((hpdats m 0 c).arrAt_in 6 rfl _).trans (A_eq0 (V3r m) c 6))
theorem W4_v19 : hW4 m c (Proc.devRef .tc main_v19) = V3 m c (Proc.devRef .tc main_v19) :=
  W4_of_ne m c main_v19 (by decide)
theorem W4_arg11 : hW4 m c (Proc.devRef .tc main_arg11) = V3 m c (Proc.devRef .tc main_arg11) :=
  W4_of_ne m c main_arg11 (by decide)

/-- The slice logits depend on the buffers only through the five arrays they read. -/
theorem alg_congr (V V' : (c : Dev nD) → (b : Ref sig .tc) → Buf (Elt Ideal) ((c : Thread nD τ).loc b))
    (h0 : V c main_arg0 = V' c main_arg0) (h15 : V c main_v15 = V' c main_v15) (h2 : V c main_arg2 = V' c main_arg2)
    (h13 : V c main_v13 = V' c main_v13) (h11 : V c main_v11 = V' c main_v11) : alg V c = alg V' c := by
  have hX : aX V c = aX V' c := by funext n i; unfold aX; rw [h0]
  have hW : aWx V c = aWx V' c := by funext k i; unfold aWx; rw [h15]
  have hb : abx V c = abx V' c := by funext k; unfold abx; rw [h2]
  have hs : aWsT V c = aWsT V' c := by funext h d g; unfold aWsT; rw [h13]
  have hbs : abs' V c = abs' V' c := by funext h g; unfold abs'; rw [h11]
  funext h n g
  unfold alg
  rw [hX, hW, hb, hs, hbs]

theorem aWout_V4 : aWout (V4r m) c = mWout m c := by
  funext j k
  show (hW4 m c (Proc.devRef .tc main_v19) : S256x256.Idx → EReal) (ix2 k j) = _
  rw [W4_v19, V3_v19, truncf_transpose_apply, V2_arg10]; rfl
theorem about_V4 : about (V4r m) c = mbout m c := by
  funext j; exact congrFun ((W4_arg11 m c).trans (V3_arg11 m c)) (ix1 j)
theorem alg_V4 : alg (V4r m) c = Spec.lgK (mX m c) (mWx m c) (mbx m c) (mWs m c) (mbs m c) (mtmp m c) :=
  (alg_congr c (V4r m) (V3r m) (W4_arg0 m c) (W4_v15 m c) (W4_arg2 m c) (W4_v13 m c) (W4_v11 m c)).trans (alg_V3 m c)
/-- The slice result it reads is what the pooling region left. -/
theorem aOS_V4 : aOS (V4r m) c = fun h g d => ((dat0 (V3r m) c).arrAt 10 cfg0.N : S8x64x32.Idx → EReal) (ix3 h g d) := by
  funext h g d; exact congrFun (W4_arr m c 10) (ix3 h g d)

end

end Cert.KernelIdeal.Hand

end
-- ==== Proof.RefValueA.lean ====
/-
  The reference's first stages read index by index: the two row projections split into heads, the clipped
  temperature, the slice logits, and the slice weights (a softmax over the 64 slices of every row and head).
-/
import proofs.«133947_j41910290874676_1_alg».proof.Proof.Spec
import proofs.«133947_j41910290874676_1_alg».proof.Proof.Gen.ReferenceIdeal.Read
import Idealize.ShloMosaic.Lib.ValueIdx

noncomputable section

namespace Cert.ReferenceIdeal.RefValue

open Cert.ReferenceIdeal Cert.ReferenceIdeal.Gen Idealize.ShloMosaic Idealize.ShloMosaic.ValueIdx
open scoped BigOperators

/-- An f32 array of the given shape at the ideal values. -/
abbrev Arr (s : Shape) : Type := (⟨s, .f32⟩ : BufTy).Contents (Elt Ideal)

/-- A matrix argument as a function of its two coordinates. -/
abbrev m2 {a b : Nat} (x : Arr ⟨2, ![a, b]⟩) : Fin a → Fin b → EReal := fun i j => x (ix2 i j)
/-- A vector argument as a function of its coordinate. -/
abbrev m1 {a : Nat} (x : Arr ⟨1, ![a]⟩) : Fin a → EReal := fun i => x (ix1 i)
/-- The temperature argument [8,1,1] as a function of the head. -/
abbrev tmpOf (x : Arr S8x1x1) : Fin 8 → EReal := fun h => x (ix3 h 0 0)

/-- Two indices of rank 1, 2 or 3 are equal when their coordinates are, axis by axis. -/
macro "idx_rfl1" : tactic => `(tactic| exact funext fun a => Fin.ext (by match a with | ⟨0, _⟩ => rfl))
macro "idx_rfl2" : tactic => `(tactic| exact funext fun a => Fin.ext (by match a with | ⟨0, _⟩ => rfl | ⟨1, _⟩ => rfl))
macro "idx_rfl3" : tactic => `(tactic| exact funext fun a => Fin.ext (by match a with | ⟨0, _⟩ => rfl | ⟨1, _⟩ => rfl | ⟨2, _⟩ => rfl))

variable (x0 : Arr S200000x256) (x1 : Arr S256x256) (x2 : Arr S256) (x3 : Arr S256x256) (x4 : Arr S256)
  (x5 : Arr S64x32) (x6 : Arr S64) (x7 x8 x9 : Arr S32x32) (x10 : Arr S256x256) (x11 : Arr S256) (x12 : Arr S8x1x1)

/-! ## The row projections -/

/-- x·Wxᵀ + bx at row `n`, lane `l`. -/
theorem xproj_at (n : Fin 200000) (l : Fin 256) :
    Read.val_main_v11 (F := Ideal) x0 x1 x2 (ix2 n l) = Spec.proj (m2 x0) (m2 x1) (m1 x2) n l := by
  rw [Read.val_main_v11_apply, Read.val_main_v8_apply, Read.val_main_v10_apply, Read.val_main_v9_apply]
  simp only [Read.val_main_v7_apply, Ideal.addf_def]
  unfold Spec.proj
  refine congrArg₂ (· + ·) (Finset.sum_congr rfl fun k _ => ?_) ?_
  · refine congrArg₂ (· * ·) (congrArg x0 ?_) (congrArg x1 ?_)
    · idx_rfl2
    · idx_rfl2
  · refine congrArg x2 ?_
    idx_rfl1

/-- x·Wfxᵀ + bfx at row `n`, lane `l`. -/
theorem fxproj_at (n : Fin 200000) (l : Fin 256) :
    Read.val_main_v4 (F := Ideal) x0 x3 x4 (ix2 n l) = Spec.proj (m2 x0) (m2 x3) (m1 x4) n l := by
  rw [Read.val_main_v4_apply, Read.val_main_v1_apply, Read.val_main_v3_apply, Read.val_main_v2_apply]
  simp only [Read.val_main_v0_apply, Ideal.addf_def]
  unfold Spec.proj
  refine congrArg₂ (· + ·) (Finset.sum_congr rfl fun k _ => ?_) ?_
  · refine congrArg₂ (· * ·) (congrArg x0 ?_) (congrArg x3 ?_)
    · idx_rfl2
    · idx_rfl2
  · refine congrArg x4 ?_
    idx_rfl1

/-- Row `n`, head `h`, coordinate `d` of the [200000,8,32] view is row `n`, lane 32h+d of the [200000,256] array:
    (8n + h)·32 + d = 256n + (32h + d) with 32h + d < 256. -/
theorem split_idx (n : Fin 200000) (h : Fin 8) (d : Fin 32) :
    Read.idx_main_v12 (ix3 n h d) = ix2 n (Spec.lane h d) :=
  funext fun a => Fin.ext (by
    have := h.isLt; have := d.isLt
    match a with
    | ⟨0, _⟩ => show ((n.val * 8 + h.val) * 32 + d.val) / 256 = n.val; omega
    | ⟨1, _⟩ => show ((n.val * 8 + h.val) * 32 + d.val) % 256 = 32 * h.val + d.val; omega)

/-- x_mid at (h, n, d): the projection x·Wxᵀ + bx at row `n`, lane `d` of head `h`. -/
theorem xmid_at (h : Fin 8) (n : Fin 200000) (d : Fin 32) :
    Read.val_main_v13 (F := Ideal) x0 x1 x2 (ix3 h n d) = Spec.proj (m2 x0) (m2 x1) (m1 x2) n (Spec.lane h d) := by
  rw [Read.val_main_v13_apply, show Read.idx_main_v13 (ix3 h n d) = ix3 n h d by idx_rfl3,
    Read.val_main_v12_apply, split_idx, xproj_at]

/-- fx_mid at (h, n, d): the projection x·Wfxᵀ + bfx at row `n`, lane `d` of head `h`. -/
theorem fxmid_at (h : Fin 8) (n : Fin 200000) (d : Fin 32) :
    Read.val_main_v6 (F := Ideal) x0 x3 x4 (ix3 h n d) = Spec.proj (m2 x0) (m2 x3) (m1 x4) n (Spec.lane h d) := by
  rw [Read.val_main_v6_apply, show Read.idx_main_v6 (ix3 h n d) = ix3 n h d by idx_rfl3,
    Read.val_main_v5_apply, show Read.idx_main_v5 (ix3 n h d) = ix2 n (Spec.lane h d) from split_idx n h d, fxproj_at]

/-! ## The temperature and the slice logits -/

/-- The clipped temperature, at any index of the [8,1,1] array: min(5, max(0.1, t)). -/
theorem temp_at (i : S8x1x1.Idx) :
    Read.val_main_v14 (F := Ideal) x12 i = min Spec.c5 (max Spec.c01 (x12 i)) := by
  rw [Read.val_main_v14_apply, Read.val_main_call0_v4_apply, Read.val_main_call0_v3_apply, Read.val_main_cst_0_apply,
    Read.val_main_call0_v2_apply, Read.val_main_call0_v1_apply, Read.val_main_call0_v0_apply, Read.val_main_cst_apply]
  rfl

/-- The reference's slice logits as a function of head, row and slice. -/
abbrev LG : Fin 8 → Fin 200000 → Fin 64 → EReal :=
  Spec.lgR (m2 x0) (m2 x1) (m1 x2) (m2 x5) (m1 x6) (tmpOf x12)

/-- slice_logits at (h, n, g): (Σ_d x_mid h n d · Wslice g d + bslice g) / T_h. -/
theorem logits_at (h : Fin 8) (n : Fin 200000) (g : Fin 64) :
    Read.val_main_v20 (F := Ideal) x0 x1 x2 x5 x6 x12 (ix3 h n g) = LG x0 x1 x2 x5 x6 x12 h n g := by
  rw [Read.val_main_v20_apply, Read.val_main_v18_apply, Read.val_main_v15_apply, Read.val_main_v17_apply,
    Read.val_main_v16_apply, Read.val_main_v19_apply, temp_at]
  simp only [Ideal.hostDivf_def, Ideal.addf_def]
  unfold LG Spec.lgR Spec.T
  refine congrArg₂ Ideal.div (congrArg₂ (· + ·) (Finset.sum_congr rfl fun k _ => ?_) (congrArg x6 ?_))
    (congrArg (fun t => min Spec.c5 (max Spec.c01 (x12 t))) ?_)
  · rw [show Read.lidx_main_v15 (ix3 h n g) k = ix3 h n k by idx_rfl3, xmid_at]
    exact congrArg (_ * ·) (congrArg x5 (by idx_rfl2))
  · idx_rfl1
  · idx_rfl3

/-! ## The slice weights: a softmax over the 64 slices -/

/-- A max-reduce of an [8,200000,64] array over its last axis from -∞, at (h, n): the fold of max over the 64 entries. -/
theorem rowmax64 (y : FVec Ideal S8x200000x64 .f32) (h : Fin 8) (n : Fin 200000) :
    Host.reduce FloatOps.maximumf y (Read.val_main_cst_1 (F := Ideal)) reducesTo_S8x200000x64_S8x200000_d2 h_S_ (ix2 h n)
      = (Finset.univ : Finset (Fin 64)).fold max Spec.ninf (fun g => y (ix3 h n g)) := by
  rw [Host.reduce_eq_fold_single FloatOps.maximumf y _ reducesTo_S8x200000x64_S8x200000_d2 (by decide) h_S_]
  exact congrArg (fun f => (Finset.univ : Finset (Fin 64)).fold max Spec.ninf f)
    (funext fun g => congrArg y (by idx_rfl3))

/-- The maximum the reference subtracts in row (h, n): the row maximum of the logits. -/
theorem wmax_at (h : Fin 8) (n : Fin 200000) :
    Read.val_main_v23 (F := Ideal) x0 x1 x2 x5 x6 x12 (ix2 h n) = Spec.rowmax (LG x0 x1 x2 x5 x6 x12 h n) := by
  rw [Read.val_main_v23_apply, Read.val_main_v22_apply, Read.val_main_cst_2_apply]
  unfold Read.val_main_v21
  rw [rowmax64]
  simp only [logits_at]
  rfl

/-- The exponentials exp(lg − max) of row (h, n). -/
theorem wexp_at (h : Fin 8) (n : Fin 200000) (g : Fin 64) :
    Read.val_main_v27 (F := Ideal) x0 x1 x2 x5 x6 x12 (ix3 h n g)
      = Ideal.exp (LG x0 x1 x2 x5 x6 x12 h n g - Spec.rowmax (LG x0 x1 x2 x5 x6 x12 h n)) := by
  rw [Read.val_main_v27_apply, Read.val_main_v26_apply, Read.val_main_v25_apply, Read.val_main_v24_apply,
    show Read.idx_main_v24 (Read.idx_main_v25 (ix3 h n g)) = ix2 h n by idx_rfl2, wmax_at, logits_at]
  rfl

/-- slice_weights at (h, n, g): the softmax of row (h, n) of the logits at slice g. The sum's initial value is the
    zero word. -/
theorem weights_at (h : Fin 8) (n : Fin 200000) (g : Fin 64) :
    Read.val_main_v31 (F := Ideal) x0 x1 x2 x5 x6 x12 (ix3 h n g) = Spec.w (LG x0 x1 x2 x5 x6 x12) h n g := by
  rw [Read.val_main_v31_apply, Read.val_main_v30_apply, Read.val_main_v29_apply,
    show Read.idx_main_v29 (Read.idx_main_v30 (ix3 h n g)) = ix2 h n by idx_rfl2, Read.val_main_v28_apply,
    Read.val_main_cst_3_apply, wexp_at]
  simp only [show ∀ k, Read.idx_main_v28 (ix2 h n) k = ix3 h n k from fun k => by idx_rfl3, wexp_at, Ideal.ofBits_def,
    Ideal.ofBits_zero_f32, zero_add, Ideal.hostDivf_def]
  rfl

end Cert.ReferenceIdeal.RefValue

end
-- ==== Proof.RefValueB.lean ====
/-
  The reference's middle stages read index by index: the column sums of the slice weights, the pooled tokens, their
  three 32x32 projections, the scaled scores, and the slice attention's result.
-/
import proofs.«133947_j41910290874676_1_alg».proof.Proof.RefValueA

noncomputable section

namespace Cert.ReferenceIdeal.RefValue

open Cert.ReferenceIdeal Cert.ReferenceIdeal.Gen Idealize.ShloMosaic Idealize.ShloMosaic.ValueIdx
open scoped BigOperators

variable (x0 : Arr S200000x256) (x1 : Arr S256x256) (x2 : Arr S256) (x3 : Arr S256x256) (x4 : Arr S256)
  (x5 : Arr S64x32) (x6 : Arr S64) (x7 x8 x9 : Arr S32x32) (x10 : Arr S256x256) (x11 : Arr S256) (x12 : Arr S8x1x1)

/-! ## The pooled tokens -/

/-- slice_norm at (h, g): the sum over the rows of the slice weights; the sum's initial value is the zero word. -/
theorem norm_at (h : Fin 8) (g : Fin 64) :
    Read.val_main_v32 (F := Ideal) x0 x1 x2 x5 x6 x12 (ix2 h g) = Spec.norm (LG x0 x1 x2 x5 x6 x12) h g := by
  rw [Read.val_main_v32_apply, Read.val_main_cst_4_apply]
  simp only [show ∀ k, Read.idx_main_v32 (ix2 h g) k = ix3 h k g from fun k => by idx_rfl3, weights_at, Ideal.ofBits_def,
    Ideal.ofBits_zero_f32, zero_add]
  rfl

/-- slice_token at (h, g, c): (Σ_n w h n g · fx_mid h n c) / (norm h g + 1e-5). -/
theorem tok_at (h : Fin 8) (g : Fin 64) (c : Fin 32) :
    Read.val_main_v38 (F := Ideal) x0 x1 x2 x3 x4 x5 x6 x12 (ix3 h g c)
      = Spec.tok (m2 x0) (m2 x3) (m1 x4) (LG x0 x1 x2 x5 x6 x12) h g c := by
  rw [Read.val_main_v38_apply, Read.val_main_v33_apply, Read.val_main_v37_apply, Read.val_main_v36_apply,
    Read.val_main_v34_apply, Read.val_main_v35_apply, Read.val_main_cst_5_apply,
    show Read.idx_main_v34 (Read.idx_main_v37 (ix3 h g c)) = ix2 h g by idx_rfl2, norm_at]
  simp only [show ∀ k, Read.lidx_main_v33 (ix3 h g c) k = ix3 h k g from fun k => by idx_rfl3,
    show ∀ k, Read.ridx_main_v33 (ix3 h g c) k = ix3 h k c from fun k => by idx_rfl3, weights_at, fxmid_at,
    Ideal.hostDivf_def, Ideal.addf_def, Ideal.ofBits_def]
  rfl

/-! ## q, k, v -/

/-- The pooled tokens as a function of head, slice and coordinate. -/
abbrev TOK : Fin 8 → Fin 64 → Fin 32 → EReal := Spec.tok (m2 x0) (m2 x3) (m1 x4) (LG x0 x1 x2 x5 x6 x12)

/-- q at (h, g, e) = Σ_d tok h g d · Wq e d. -/
theorem q_at (h : Fin 8) (g : Fin 64) (e : Fin 32) :
    Read.val_main_v39 (F := Ideal) x0 x1 x2 x3 x4 x5 x6 x7 x12 (ix3 h g e)
      = Spec.qkv (m2 x0) (m2 x3) (m1 x4) (LG x0 x1 x2 x5 x6 x12) (m2 x7) h g e := by
  rw [Read.val_main_v39_apply]
  unfold Spec.qkv
  refine Finset.sum_congr rfl fun k _ => ?_
  rw [show Read.lidx_main_v39 (ix3 h g e) k = ix3 h g k by idx_rfl3, tok_at,
    show Read.ridx_main_v39 (ix3 h g e) k = ix2 e k by idx_rfl2]

/-- k at (h, g, e) = Σ_d tok h g d · Wk e d. -/
theorem k_at (h : Fin 8) (g : Fin 64) (e : Fin 32) :
    Read.val_main_v40 (F := Ideal) x0 x1 x2 x3 x4 x5 x6 x8 x12 (ix3 h g e)
      = Spec.qkv (m2 x0) (m2 x3) (m1 x4) (LG x0 x1 x2 x5 x6 x12) (m2 x8) h g e := by
  rw [Read.val_main_v40_apply]
  unfold Spec.qkv
  refine Finset.sum_congr rfl fun k _ => ?_
  rw [show Read.lidx_main_v40 (ix3 h g e) k = ix3 h g k by idx_rfl3, tok_at,
    show Read.ridx_main_v40 (ix3 h g e) k = ix2 e k by idx_rfl2]

/-- v at (h, g, e) = Σ_d tok h g d · Wv e d. -/
theorem v_at (h : Fin 8) (g : Fin 64) (e : Fin 32) :
    Read.val_main_v41 (F := Ideal) x0 x1 x2 x3 x4 x5 x6 x9 x12 (ix3 h g e)
      = Spec.qkv (m2 x0) (m2 x3) (m1 x4) (LG x0 x1 x2 x5 x6 x12) (m2 x9) h g e := by
  rw [Read.val_main_v41_apply]
  unfold Spec.qkv
  refine Finset.sum_congr rfl fun k _ => ?_
  rw [show Read.lidx_main_v41 (ix3 h g e) k = ix3 h g k by idx_rfl3, tok_at,
    show Read.ridx_main_v41 (ix3 h g e) k = ix2 e k by idx_rfl2]

/-! ## The slice attention -/

/-- The scaled scores as a function of head and the two slices. -/
abbrev DOTS : Fin 8 → Fin 64 → Fin 64 → EReal :=
  Spec.dots (m2 x0) (m2 x3) (m1 x4) (m2 x7) (m2 x8) (LG x0 x1 x2 x5 x6 x12)

/-- dots at (h, g, k) = (Σ_d q h g d · k h k d) · 32^(-1/2). -/
theorem dots_at (h : Fin 8) (g k : Fin 64) :
    Read.val_main_v44 (F := Ideal) x0 x1 x2 x3 x4 x5 x6 x7 x8 x12 (ix3 h g k) = DOTS x0 x1 x2 x3 x4 x5 x6 x7 x8 x12 h g k := by
  rw [Read.val_main_v44_apply, Read.val_main_v42_apply, Read.val_main_v43_apply, Read.val_main_cst_6_apply]
  simp only [show ∀ d, Read.lidx_main_v42 (ix3 h g k) d = ix3 h g d from fun d => by idx_rfl3,
    show ∀ d, Read.ridx_main_v42 (ix3 h g k) d = ix3 h k d from fun d => by idx_rfl3, q_at, k_at, Ideal.mulf_def,
    Ideal.ofBits_def]
  rfl

/-- A max-reduce of an [8,64,64] array over its last axis from -∞, at (h, g): the fold of max over the 64 entries. -/
theorem rowmax64s (y : FVec Ideal S8x64x64 .f32) (h : Fin 8) (g : Fin 64) :
    Host.reduce FloatOps.maximumf y (Read.val_main_cst_7 (F := Ideal)) reducesTo_S8x64x64_S8x64_d2 h_S_ (ix2 h g)
      = (Finset.univ : Finset (Fin 64)).fold max Spec.ninf (fun k => y (ix3 h g k)) := by
  rw [Host.reduce_eq_fold_single FloatOps.maximumf y _ reducesTo_S8x64x64_S8x64_d2 (by decide) h_S_]
  exact congrArg (fun f => (Finset.univ : Finset (Fin 64)).fold max Spec.ninf f)
    (funext fun k => congrArg y (by idx_rfl3))

/-- The maximum the reference subtracts in row (h, g) of the scores. -/
theorem amax_at (h : Fin 8) (g : Fin 64) :
    Read.val_main_v47 (F := Ideal) x0 x1 x2 x3 x4 x5 x6 x7 x8 x12 (ix2 h g)
      = Spec.rowmax (DOTS x0 x1 x2 x3 x4 x5 x6 x7 x8 x12 h g) := by
  rw [Read.val_main_v47_apply, Read.val_main_v46_apply, Read.val_main_cst_8_apply]
  unfold Read.val_main_v45
  rw [rowmax64s]
  simp only [dots_at]
  rfl

/-- The exponentials exp(dots − max) of row (h, g). -/
theorem aexp_at (h : Fin 8) (g k : Fin 64) :
    Read.val_main_v51 (F := Ideal) x0 x1 x2 x3 x4 x5 x6 x7 x8 x12 (ix3 h g k)
      = Ideal.exp (DOTS x0 x1 x2 x3 x4 x5 x6 x7 x8 x12 h g k - Spec.rowmax (DOTS x0 x1 x2 x3 x4 x5 x6 x7 x8 x12 h g)) := by
  rw [Read.val_main_v51_apply, Read.val_main_v50_apply, Read.val_main_v49_apply, Read.val_main_v48_apply,
    show Read.idx_main_v48 (Read.idx_main_v49 (ix3 h g k)) = ix2 h g by idx_rfl2, amax_at, dots_at]
  simp only [Ideal.hostUnary_exp_def, Ideal.subf_def]

/-- attn at (h, g, k): the softmax of row (h, g) of the scores at k. -/
theorem attn_at (h : Fin 8) (g k : Fin 64) :
    Read.val_main_v55 (F := Ideal) x0 x1 x2 x3 x4 x5 x6 x7 x8 x12 (ix3 h g k)
      = Spec.softmax (DOTS x0 x1 x2 x3 x4 x5 x6 x7 x8 x12 h g) k := by
  rw [Read.val_main_v55_apply, Read.val_main_v54_apply, Read.val_main_v53_apply,
    show Read.idx_main_v53 (Read.idx_main_v54 (ix3 h g k)) = ix2 h g by idx_rfl2, Read.val_main_v52_apply,
    Read.val_main_cst_9_apply, aexp_at]
  simp only [show ∀ k', Read.idx_main_v52 (ix2 h g) k' = ix3 h g k' from fun k' => by idx_rfl3, aexp_at, Ideal.ofBits_def,
    Ideal.ofBits_zero_f32, zero_add, Ideal.hostDivf_def]
  rfl

/-- out_slice at (h, g, d) = Σ_k attn h g k · v h k d. -/
theorem os_at (h : Fin 8) (g : Fin 64) (d : Fin 32) :
    Read.val_main_v56 (F := Ideal) x0 x1 x2 x3 x4 x5 x6 x7 x8 x9 x12 (ix3 h g d)
      = Spec.os (m2 x0) (m2 x3) (m1 x4) (m2 x7) (m2 x8) (m2 x9) (LG x0 x1 x2 x5 x6 x12) h g d := by
  rw [Read.val_main_v56_apply]
  unfold Spec.os
  refine Finset.sum_congr rfl fun k _ => ?_
  rw [show Read.lidx_main_v56 (ix3 h g d) k = ix3 h g k by idx_rfl3,
    show Read.ridx_main_v56 (ix3 h g d) k = ix3 h k d by idx_rfl3, attn_at, v_at]

end Cert.ReferenceIdeal.RefValue

end
-- ==== Proof.RefValue.lean ====
/-
  The reference's result, index by index, is the slice-attention function of its thirteen arguments with the
  reference's form of the slice logits.
-/
import proofs.«133947_j41910290874676_1_alg».proof.Proof.Spec
import proofs.«133947_j41910290874676_1_alg».proof.Proof.Gen.ReferenceIdeal.Read
import Idealize.ShloMosaic.Lib.ValueIdx
import proofs.«133947_j41910290874676_1_alg».proof.Proof.RefValueB

noncomputable section

namespace Cert.ReferenceIdeal.RefValue

open Cert.ReferenceIdeal Cert.ReferenceIdeal.Gen Idealize.ShloMosaic Idealize.ShloMosaic.ValueIdx
open scoped BigOperators

section Last

variable (x0 : Arr S200000x256) (x1 : Arr S256x256) (x2 : Arr S256) (x3 : Arr S256x256) (x4 : Arr S256)
  (x5 : Arr S64x32) (x6 : Arr S64) (x7 x8 x9 : Arr S32x32) (x10 : Arr S256x256) (x11 : Arr S256) (x12 : Arr S8x1x1)

/-- out_x before the transpose, at (h, n, c) = Σ_g w h n g · out_slice h g c. -/
theorem ox_at (h : Fin 8) (n : Fin 200000) (c : Fin 32) :
    Read.val_main_v57 (F := Ideal) x0 x1 x2 x3 x4 x5 x6 x7 x8 x9 x12 (ix3 h n c)
      = Spec.oxOf (LG x0 x1 x2 x5 x6 x12)
          (Spec.os (m2 x0) (m2 x3) (m1 x4) (m2 x7) (m2 x8) (m2 x9) (LG x0 x1 x2 x5 x6 x12)) n h c := by
  rw [Read.val_main_v57_apply]
  unfold Spec.oxOf
  refine Finset.sum_congr rfl fun g _ => ?_
  rw [show Read.lidx_main_v57 (ix3 h n c) g = ix3 h n g by idx_rfl3,
    show Read.ridx_main_v57 (ix3 h n c) g = ix3 h g c by idx_rfl3, weights_at, os_at]

/-- The transpose back: (n, h, c) of the [200000,8,32] array is (h, n, c) of the [8,200000,32] one. -/
theorem swap_idx (n : Fin 200000) (h : Fin 8) (c : Fin 32) : Read.idx_main_v58 (ix3 n h c) = ix3 h n c := by
  idx_rfl3

/-- Row `n`, lane `k` of the [200000,256] array is row `n`, head k/32, coordinate k%32 of the [200000,8,32] view:
    256n + k = (8n + k/32)·32 + k%32. -/
theorem merge_idx (n : Fin 200000) (k : Fin 256) :
    Read.idx_main_v59 (ix2 n k)
      = ix3 n (⟨k.val / 32, by have := k.isLt; omega⟩ : Fin 8) (⟨k.val % 32, Nat.mod_lt _ (by decide)⟩ : Fin 32) :=
  funext fun a => Fin.ext (by
    have := k.isLt
    match a with
    | ⟨0, _⟩ => show (n.val * 256 + k.val) / 256 = n.val; omega
    | ⟨1, _⟩ => show (n.val * 256 + k.val) / 32 % 8 = k.val / 32; omega
    | ⟨2, _⟩ => show (n.val * 256 + k.val) % 32 = k.val % 32; omega)

end Last

theorem ref_value (x0 : (⟨S200000x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S64x32, .f32⟩ : BufTy).Contents (Elt Ideal))
    (x6 : (⟨S64, .f32⟩ : BufTy).Contents (Elt Ideal)) (x7 : (⟨S32x32, .f32⟩ : BufTy).Contents (Elt Ideal))
    (x8 : (⟨S32x32, .f32⟩ : BufTy).Contents (Elt Ideal)) (x9 : (⟨S32x32, .f32⟩ : BufTy).Contents (Elt Ideal))
    (x10 : (⟨S256x256, .f32⟩ : BufTy).Contents (Elt Ideal)) (x11 : (⟨S256, .f32⟩ : BufTy).Contents (Elt Ideal))
    (x12 : (⟨S8x1x1, .f32⟩ : BufTy).Contents (Elt Ideal)) (n : Fin 200000) (j : Fin 256) :
    Read.val_main_v64 (F := Ideal) x0 x1 x2 x3 x4 x5 x6 x7 x8 x9 x10 x11 x12 (ix2 n j)
      = Spec.out (fun n i => x0 (ix2 n i)) (fun k i => x3 (ix2 k i)) (fun k i => x10 (ix2 k i)) (fun k => x4 (ix1 k)) (fun k => x11 (ix1 k))
          (fun e d => x7 (ix2 e d)) (fun e d => x8 (ix2 e d)) (fun e d => x9 (ix2 e d))
          (Spec.lgR (fun n i => x0 (ix2 n i)) (fun k i => x1 (ix2 k i)) (fun k => x2 (ix1 k)) (fun g d => x5 (ix2 g d)) (fun g => x6 (ix1 g))
            (fun h => x12 (ix3 h 0 0))) n j := by
  rw [Read.val_main_v64_apply, Read.val_main_v61_apply, Read.val_main_v63_apply, Read.val_main_v62_apply]
  simp only [Read.val_main_v60_apply, Ideal.addf_def]
  unfold Spec.out Spec.outOf
  refine congrArg₂ (· + ·) (Finset.sum_congr rfl fun k _ => ?_) (congrArg x11 (by idx_rfl1))
  rw [show Read.lidx_main_v61 (ix2 n j) k = ix2 n k by idx_rfl2, Read.val_main_v59_apply, merge_idx,
    Read.val_main_v58_apply, swap_idx, ox_at,
    show Read.idx_main_v60 (Read.ridx_main_v61 (ix2 n j) k) = ix2 j k by idx_rfl2]

end Cert.ReferenceIdeal.RefValue

end
-- ==== Proof.Bridge.lean ====
/-
  The one law that joins the two forms of the slice logits, and the finiteness it needs.
  On finite inputs every projection x·Wxᵀ + bx is a real number, the clipped temperature T lies between the two real
  literals 0.1f and 5 whatever the temperature is, so 1/T is a positive real, and
      Σ_d a_d · ((1/T) · W_gd) + (1/T) · b_g  =  (Σ_d a_d · W_gd + b_g) / T
  is distributivity on the reals. On the extended reals it fails at infinities, which is why the precondition is used.
-/
import proofs.«133947_j41910290874676_1_alg».proof.Proof.Spec
import proofs.«133947_j41910290874676_1_alg».proof.Pre_finite_inputs
import proofs.«133947_j41910290874676_1_alg».proof.Proof.Gen.Pre_finite_inputs
import Idealize.ShloMosaic.Lib.ValueIdx
import Idealize.ShloMosaic.Lib.ReduceAll

noncomputable section

namespace Cert.Bridge

open Idealize.ShloMosaic Idealize.ShloMosaic.ValueIdx
open scoped BigOperators

/-- A finite sum of real numbers, read in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The three literals are real numbers: 1, 13421773 · 2⁻²⁷ (the single-precision word nearest 0.1) and 5. -/
theorem c1_eq : Spec.c1 = ((1 : ℝ) : EReal) := by
  unfold Spec.c1; simp [Ideal.ofBits, Ideal.ieee, -EReal.coe_mul]; norm_num

theorem c01_eq : Spec.c01 = ((13421773 * (2 : ℝ) ^ (-27 : ℤ) : ℝ) : EReal) := by
  unfold Spec.c01; simp [Ideal.ofBits, Ideal.ieee, -EReal.coe_mul]

theorem c5_eq : Spec.c5 = ((5 : ℝ) : EReal) := by
  unfold Spec.c5; simp [Ideal.ofBits, Ideal.ieee, -EReal.coe_mul]; norm_num

/-- The clipped temperature min(5, max(0.1f, ·)) lies between the two real literals, so it is a positive real
    whatever the temperature is, an infinity included. -/
theorem T_real (tmp : Fin 8 → EReal) (h : Fin 8) : ∃ t : ℝ, 0 < t ∧ Spec.T tmp h = (t : EReal) := by
  have h01 : (0 : EReal) < Spec.c01 := by
    rw [c01_eq]; exact_mod_cast (by positivity : (0 : ℝ) < 13421773 * (2 : ℝ) ^ (-27 : ℤ))
  have hle : Spec.c01 ≤ Spec.c5 := by
    rw [c01_eq, c5_eq, EReal.coe_le_coe_iff]; norm_num
  have hlo : Spec.c01 ≤ Spec.T tmp h := le_min hle (le_max_left _ _)
  have hhi : Spec.T tmp h ≤ Spec.c5 := min_le_left _ _
  have hbot : Spec.T tmp h ≠ ⊥ := fun e => by
    rw [e, c01_eq] at hlo; exact absurd hlo (not_le.mpr (EReal.bot_lt_coe _))
  have htop : Spec.T tmp h ≠ ⊤ := fun e => by
    rw [e, c5_eq] at hhi; exact absurd hhi (not_le.mpr (EReal.coe_lt_top _))
  refine ⟨(Spec.T tmp h).toReal, ?_, (EReal.coe_toReal htop hbot).symm⟩
  have : (0 : EReal) < ((Spec.T tmp h).toReal : EReal) := by
    rw [EReal.coe_toReal htop hbot]; exact lt_of_lt_of_le h01 hlo
  exact_mod_cast this

/-- On finite x, Wx, bx, Wslice, bslice the kernel's slice logits are the reference's. -/
theorem lgK_eq_lgR (X : Fin 200000 → Fin 256 → EReal) (Wx : Fin 256 → Fin 256 → EReal) (bx : Fin 256 → EReal)
    (Ws : Fin 64 → Fin 32 → EReal) (bs : Fin 64 → EReal) (tmp : Fin 8 → EReal)
    (hX : ∀ n i, ∃ r : ℝ, X n i = (r : EReal)) (hWx : ∀ k i, ∃ r : ℝ, Wx k i = (r : EReal)) (hbx : ∀ k, ∃ r : ℝ, bx k = (r : EReal))
    (hWs : ∀ g d, ∃ r : ℝ, Ws g d = (r : EReal)) (hbs : ∀ g, ∃ r : ℝ, bs g = (r : EReal)) :
    Spec.lgK X Wx bx Ws bs tmp = Spec.lgR X Wx bx Ws bs tmp := by
  funext h n g
  choose x hx using hX
  choose wx hwx using hWx
  choose b hb using hbx
  choose ws hws using hWs
  choose β hβ using hbs
  obtain ⟨t, ht, hT⟩ := T_real tmp h
  -- every projection is a real number
  have hproj : ∀ k, Spec.proj X Wx bx n k = (((∑ i : Fin 256, x n i * wx k i) + b k : ℝ) : EReal) := by
    intro k
    unfold Spec.proj
    simp only [hx, hwx, hb, ← EReal.coe_mul]
    rw [coe_sum, ← EReal.coe_add]
  unfold Spec.lgK Spec.lgR
  -- division by the positive real T is the product with the real 1/T, and the literal 1 is the real 1
  rw [hT, Ideal.div_coe ht.ne', Ideal.div_coe ht.ne', c1_eq]
  -- both sides are now coercions of real expressions
  simp only [hproj, hws, hβ, ← EReal.coe_mul]
  rw [coe_sum, coe_sum, ← EReal.coe_add, ← EReal.coe_add, ← EReal.coe_mul, EReal.coe_eq_coe_iff]
  -- distributivity on the reals
  rw [add_mul, Finset.sum_mul]
  congr 1
  · exact Finset.sum_congr rfl fun d _ => by ring
  · ring

/-- The rank-0 shape has one index. -/
instance : Subsingleton Cert.Pre_finite_inputs.S_.Idx := ⟨fun a b => funext fun d => d.elim0⟩

/-- An extended real whose absolute value max(x, -x) is below +∞ (the word 0x7F800000) is a real number:
    at either infinity the absolute value is +∞ itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: all(|x| < +∞) = true says every entry of x is a real number. A conjunction
    over all axes that is true is true of every element; at index i the compared values are max (x i) (-(x i))
    and the broadcast literal, by unfolding. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, x i = (r : EReal) :=
  real_of_abs_lt (x i) (Host.reduce_andi_all _ _ hr hu ix0 e i)

/-- The conjunction of two one-bit arrays, at an index. -/
theorem andi_apply {s : Shape} {w : Nat} (a b : IVec s w) (i : s.Idx) : andi a b i = IntOp.andi (a i) (b i) := rfl

/-- The precondition, decoded for the five arrays the law reads: every entry is a real number. -/
theorem finite_of_pre (a0 : FVec Ideal Cert.Pre_finite_inputs.S200000x256 .f32) (a1 : FVec Ideal Cert.Pre_finite_inputs.S256x256 .f32)
    (a2 : FVec Ideal Cert.Pre_finite_inputs.S256 .f32) (a3 : FVec Ideal Cert.Pre_finite_inputs.S256x256 .f32)
    (a4 : FVec Ideal Cert.Pre_finite_inputs.S256 .f32) (a5 : FVec Ideal Cert.Pre_finite_inputs.S64x32 .f32)
    (a6 : FVec Ideal Cert.Pre_finite_inputs.S64 .f32) (a7 a8 a9 : FVec Ideal Cert.Pre_finite_inputs.S32x32 .f32)
    (a10 : FVec Ideal Cert.Pre_finite_inputs.S256x256 .f32) (a11 : FVec Ideal Cert.Pre_finite_inputs.S256 .f32)
    (a12 : FVec Ideal Cert.Pre_finite_inputs.S8x1x1 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a5 i = (r : EReal)) ∧ (∀ i, ∃ r : ℝ, a6 i = (r : EReal)) := by
  -- the precondition at its one index, its thirteen conjuncts unfolded and split
  have e := congrFun h ix0
  unfold Cert.Pre_finite_inputs.fn Cert.Pre_finite_inputs.fn_part1 Cert.Pre_finite_inputs.fn_part2
    Cert.Pre_finite_inputs.fn_part3 at e
  dsimp only at e
  simp only [andi_apply, IntOp.andi_eq_one] at e
  obtain ⟨⟨⟨⟨⟨⟨⟨⟨⟨⟨⟨⟨e0, e1⟩, e2⟩, -⟩, -⟩, e5⟩, e6⟩, -⟩, -⟩, -⟩, -⟩, -⟩, -⟩ := e
  exact ⟨all_real a0 _ _ _ e0, all_real a1 _ _ _ e1, all_real a2 _ _ _ e2, all_real a5 _ _ _ e5, all_real a6 _ _ _ e6⟩

end Cert.Bridge

end
-- ==== Proof.Algebraic.lean ====
/-
  The value claim: at the ideal instance, from memories agreeing on the thirteen arguments and with every input finite,
  the idealized kernel and the idealized reference both run and end with the same result array.

  The kernel's result array is the un-pooling region's, read index by index as the specification's output projection
  over the slice attention the pooling region left, with the slice logits in the kernel's form (weights and biases
  scaled by the reciprocal clipped temperature before the product); the reference's is the same function with the
  logits divided by the clipped temperature after the product; on finite inputs the two forms agree.
-/
import proofs.«133947_j41910290874676_1_alg».proof.Defs
import proofs.«133947_j41910290874676_1_alg».proof.Proof.KIValue0
import proofs.«133947_j41910290874676_1_alg».proof.Proof.KIValue1
import proofs.«133947_j41910290874676_1_alg».proof.Proof.KIHost
import proofs.«133947_j41910290874676_1_alg».proof.Proof.RefValue
import proofs.«133947_j41910290874676_1_alg».proof.Proof.Bridge
import proofs.«133947_j41910290874676_1_alg».proof.Proof.Gen.KernelIdeal
import proofs.«133947_j41910290874676_1_alg».proof.Proof.Gen.ReferenceIdeal
import proofs.«133947_j41910290874676_1_alg».proof.Proof.Gen.Pre_finite_inputs
import proofs.«133947_j41910290874676_1_alg».proof.Proof.Gen.ReferenceIdeal.Run
import proofs.«133947_j41910290874676_1_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-- THE KERNEL'S RESULT, index by index: the specification with the kernel's form of the slice logits. -/
theorem kernel_value (m : (ℓ : Loc nD τ sig) → Buf (Elt Ideal) ℓ) (c : Dev nD) (n : Fin 200000) (j : Fin 256) :
    (hW5 m c (Proc.devRef .tc main_v27) : S200000x256.Idx → EReal) (ix2 n j)
      = Spec.out (mX m c) (mWfx m c) (mWout m c) (mbfx m c) (mbout m c) (mWq m c) (mWk m c) (mWv m c)
          (Spec.lgK (mX m c) (mWx m c) (mbx m c) (mWs m c) (mbs m c) (mtmp m c)) n j := by
  have e1 : (hW5 m c (Proc.devRef .tc main_v27) : S200000x256.Idx → EReal) (ix2 n j)
      = ((dat1 (V4r m) c).arrAt 8 cfg1.N : S200000x256.Idx → EReal) (ix2 n j) := congrFun (W5_arr m c 8) (ix2 n j)
  rw [e1, region1_value (V4r m) c n j, aWout_V4, about_V4, alg_V4, aOS_V4]
  have e2 : (fun h g d => ((dat0 (V3r m) c).arrAt 10 cfg0.N : S8x64x32.Idx → EReal) (ix3 h g d))
      = Spec.os (mX m c) (mWfx m c) (mbfx m c) (mWq m c) (mWk m c) (mWv m c)
          (Spec.lgK (mX m c) (mWx m c) (mbx m c) (mWs m c) (mbs m c) (mtmp m c)) := by
    funext h g d
    rw [region0_value (V3r m) c h g d, aX_V3, aWfx_V3, abfx_V3, aWq_V3, aWk_V3, aWv_V3, alg_V3]
  rw [e2]
  rfl

end Cert.KernelIdeal.Hand

namespace Cert.Proof

open Idealize.ShloMosaic Idealize.ShloMosaic.TcCoe Idealize.ShloMosaic.ValueIdx Idealize.SL.Sem
open Cert.KernelIdeal.Hand

/-- At `Ideal`, from memories agreeing on the arguments and finite inputs, both programs run and end with equal results. -/
theorem algebraic : Cert.algebraic_KernelIdeal_ReferenceIdeal := by
  intro m ρ m' ρ' hpre hagree
  refine ⟨fun c => Cert.KernelIdeal.Hand.hW5 m c (Proc.devRef .tc Cert.KernelIdeal.main_v27), ?_, ?_⟩
  · exact (θ_run Cert.KernelIdeal.defs _ _).mono (fun r h c =>
      ⟨h c _ (mem_uc Cert.KernelIdeal.main_v27 (by decide)),
       (h c _ (mem_uc Cert.KernelIdeal.main_arg0 (by decide))).trans (W5_main_arg0 m c),
       (h c _ (mem_uc Cert.KernelIdeal.main_arg1 (by decide))).trans (W5_main_arg1 m c),
       (h c _ (mem_uc Cert.KernelIdeal.main_arg2 (by decide))).trans (W5_main_arg2 m c),
       (h c _ (mem_uc Cert.KernelIdeal.main_arg3 (by decide))).trans (W5_main_arg3 m c),
       (h c _ (mem_uc Cert.KernelIdeal.main_arg4 (by decide))).trans (W5_main_arg4 m c),
       (h c _ (mem_uc Cert.KernelIdeal.main_arg5 (by decide))).trans (W5_main_arg5 m c),
       (h c _ (mem_uc Cert.KernelIdeal.main_arg6 (by decide))).trans (W5_main_arg6 m c),
       (h c _ (mem_uc Cert.KernelIdeal.main_arg7 (by decide))).trans (W5_main_arg7 m c),
       (h c _ (mem_uc Cert.KernelIdeal.main_arg8 (by decide))).trans (W5_main_arg8 m c),
       (h c _ (mem_uc Cert.KernelIdeal.main_arg9 (by decide))).trans (W5_main_arg9 m c),
       (h c _ (mem_uc Cert.KernelIdeal.main_arg10 (by decide))).trans (W5_main_arg10 m c),
       (h c _ (mem_uc Cert.KernelIdeal.main_arg11 (by decide))).trans (W5_main_arg11 m c),
       (h c _ (mem_uc Cert.KernelIdeal.main_arg12 (by decide))).trans (W5_main_arg12 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    obtain ⟨f0, f1, f2, f5, f6⟩ := Cert.Bridge.finite_of_pre _ _ _ _ _ _ _ _ _ _ _ _ _ (hpre c)
    rw [Cert.ReferenceIdeal.Read.val_main_v64_eq, a0, a1, a2, a3, a4, a5, a6, a7, a8, a9, a10, a11, a12]
    funext i
    obtain ⟨n, j, rfl⟩ : ∃ (n : Fin 200000) (j : Fin 256), i = ix2 n j := ⟨i 0, i 1, eq_ix2 i⟩
    refine (Cert.ReferenceIdeal.RefValue.ref_value _ _ _ _ _ _ _ _ _ _ _ _ _ n j).trans ?_
    rw [← Cert.Bridge.lgK_eq_lgR _ _ _ _ _ _ (fun n i => f0 (ix2 n i)) (fun k i => f1 (ix2 k i)) (fun k => f2 (ix1 k)) (fun g d => f5 (ix2 g d)) (fun g => f6 (ix1 g))]
    exact (kernel_value m c n j).symm

end Cert.Proof

end
-- ==== Proof.lean ====
/-
  The certificate of the slice-attention kernel pair against its jnp reference.

  The kernel is two pallas_calls over 100 tiles of 2000 rows: a pooling pass that accumulates, per head, the
  softmax-weighted sums of the projected rows and the softmax column sums in two scratch buffers carried across the
  grid, and at the last tile runs the 64x64 slice attention; and an un-pooling pass that recomputes the softmax weights
  per tile, spreads the attention result back over the rows and applies the output projection.

  The three frames (each program terminates, faults nowhere, leaves its thirteen argument arrays as launched): the two
  kernel programs' are the run of @main as five segments (three host stretches, two regions), each region's body run
  once per case of its two grid conditions; the reference's frame is its run. The idealized kernel is the kernel's own
  text read at the ideal instance (the ideal pass rewrote nothing). The value claim is proved in Proof/Algebraic.lean:
  both programs compute the one function of Proof/Spec.lean, the kernel with the slice weights and biases scaled by the
  reciprocal clipped temperature before the product, the reference dividing after it — equal on finite inputs.
-/
import proofs.«133947_j41910290874676_1_alg».proof.Defs
import proofs.«133947_j41910290874676_1_alg».proof.Proof.Gen.Kernel
import proofs.«133947_j41910290874676_1_alg».proof.Proof.Gen.KernelIdeal
import proofs.«133947_j41910290874676_1_alg».proof.Proof.Gen.ReferenceIdeal
import proofs.«133947_j41910290874676_1_alg».proof.Proof.Gen.Pre_finite_inputs
import proofs.«133947_j41910290874676_1_alg».proof.Proof.KBFrame
import proofs.«133947_j41910290874676_1_alg».proof.Proof.KIFrame
import proofs.«133947_j41910290874676_1_alg».proof.Proof.RefRun
import proofs.«133947_j41910290874676_1_alg».proof.Proof.Algebraic
import Idealize.ShloMosaic.Adequacy
import Idealize.ShloMosaic.Init

noncomputable section

namespace Cert.Proof

open Idealize.ShloMosaic Idealize.SL.Sem

/-- The kernel as printed runs and leaves its arguments unchanged. -/
theorem frame_p : Cert.frame_Kernel :=
  fun m ρ _ => Cert.Kernel.Hand.frame (F := Bits) m ρ

/-- So does its idealization. -/
theorem frame_pi : Cert.frame_KernelIdeal :=
  fun m ρ _ => Cert.KernelIdeal.Hand.frame (F := Ideal) m ρ

/-- The reference's frame is its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
